-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part6 {F : FTy → Type} [FloatOps F] (main_arg18 : FVec F S1000 .f32) (main_v101 : IVec S_ 1) : IVec S_ 1 :=
  let main_cst_40 : FVec F S_ .f32 := constant S_ .f32 0x00000000#32
  let main_v102 : FVec F S1000 .f32 := broadcastInDim S1000 ![] bcast_S_S1000 main_cst_40
  let main_v103 : IVec S1000 1 := cmpf .oge main_arg18 main_v102
  let main_c_41 : IVec S_ 1 := constantI S_ 1 1#1
  let main_v104 : IVec S_ 1 := (fun x v => Host.reduce IntOp.andi x v reducesTo_S1000_S_d0 h_S_) main_v103 main_c_41
  let main_v105 : IVec S_ 1 := andi main_v101 main_v104
  main_v105

def fn_part5 {F : FTy → Type} [FloatOps F] (main_arg6 : FVec F S4096 .f32) (main_arg12 : FVec F S4096 .f32) (main_arg18 : FVec F S1000 .f32) (main_v83 : IVec S_ 1) (main_v84 : FVec F S1000 .f32) (main_cst_32 : FVec F S_ .f32) : IVec S_ 1 :=
  let main_v85 : FVec F S1000 .f32 := broadcastInDim S1000 ![] bcast_S_S1000 main_cst_32
  let main_v86 : IVec S1000 1 := cmpf .olt main_v84 main_v85
  let main_c_33 : IVec S_ 1 := constantI S_ 1 1#1
  let main_v87 : IVec S_ 1 := (fun x v => Host.reduce IntOp.andi x v reducesTo_S1000_S_d0 h_S_) main_v86 main_c_33
  let main_v88 : IVec S_ 1 := andi main_v83 main_v87
  let main_v89 : FVec F S1000 .f32 := Host.absf main_arg18
  let main_cst_34 : FVec F S_ .f32 := constant S_ .f32 0x7F800000#32
  let main_v90 : FVec F S1000 .f32 := broadcastInDim S1000 ![] bcast_S_S1000 main_cst_34
  let main_v91 : IVec S1000 1 := cmpf .olt main_v89 main_v90
  let main_c_35 : IVec S_ 1 := constantI S_ 1 1#1
  let main_v92 : IVec S_ 1 := (fun x v => Host.reduce IntOp.andi x v reducesTo_S1000_S_d0 h_S_) main_v91 main_c_35
  let main_v93 : IVec S_ 1 := andi main_v88 main_v92
  let main_cst_36 : FVec F S_ .f32 := constant S_ .f32 0x00000000#32
  let main_v94 : FVec F S4096 .f32 := broadcastInDim S4096 ![] bcast_S_S4096 main_cst_36
  let main_v95 : IVec S4096 1 := cmpf .oge main_arg6 main_v94
  let main_c_37 : IVec S_ 1 := constantI S_ 1 1#1
  let main_v96 : IVec S_ 1 := (fun x v => Host.reduce IntOp.andi x v reducesTo_S4096_S_d0 h_S_) main_v95 main_c_37
  let main_v97 : IVec S_ 1 := andi main_v93 main_v96
  let main_cst_38 : FVec F S_ .f32 := constant S_ .f32 0x00000000#32
  let main_v98 : FVec F S4096 .f32 := broadcastInDim S4096 ![] bcast_S_S4096 main_cst_38
  let main_v99 : IVec S4096 1 := cmpf .oge main_arg12 main_v98
  let main_c_39 : IVec S_ 1 := constantI S_ 1 1#1
  let main_v100 : IVec S_ 1 := (fun x v => Host.reduce IntOp.andi x v reducesTo_S4096_S_d0 h_S_) main_v99 main_c_39
  let main_v101 : IVec S_ 1 := andi main_v97 main_v100
  fn_part6 (F := F) main_arg18 main_v101

def fn_part4 {F : FTy → Type} [FloatOps F] (main_arg6 : FVec F S4096 .f32) (main_arg12 : FVec F S4096 .f32) (main_arg14 : FVec F S1000 .f32) (main_arg15 : FVec F S1000 .f32) (main_arg16 : FVec F S1000 .f32) (main_arg17 : FVec F S1000 .f32) (main_arg18 : FVec F S1000 .f32) (main_v63 : IVec S_ 1) (main_v67 : IVec S_ 1) : IVec S_ 1 :=
  let main_v68 : IVec S_ 1 := andi main_v63 main_v67
  let main_v69 : FVec F S1000 .f32 := Host.absf main_arg14
  let main_cst_26 : FVec F S_ .f32 := constant S_ .f32 0x7F800000#32
  let main_v70 : FVec F S1000 .f32 := broadcastInDim S1000 ![] bcast_S_S1000 main_cst_26
  let main_v71 : IVec S1000 1 := cmpf .olt main_v69 main_v70
  let main_c_27 : IVec S_ 1 := constantI S_ 1 1#1
  let main_v72 : IVec S_ 1 := (fun x v => Host.reduce IntOp.andi x v reducesTo_S1000_S_d0 h_S_) main_v71 main_c_27
  let main_v73 : IVec S_ 1 := andi main_v68 main_v72
  let main_v74 : FVec F S1000 .f32 := Host.absf main_arg15
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  let main_v79 : FVec F S1000 .f32 := Host.absf main_arg16
  let main_cst_30 : FVec F S_ .f32 := constant S_ .f32 0x7F800000#32
  let main_v80 : FVec F S1000 .f32 := broadcastInDim S1000 ![] bcast_S_S1000 main_cst_30
  let main_v81 : IVec S1000 1 := cmpf .olt main_v79 main_v80
  let main_c_31 : IVec S_ 1 := constantI S_ 1 1#1
  let main_v82 : IVec S_ 1 := (fun x v => Host.reduce IntOp.andi x v reducesTo_S1000_S_d0 h_S_) main_v81 main_c_31
  let main_v83 : IVec S_ 1 := andi main_v78 main_v82
  let main_v84 : FVec F S1000 .f32 := Host.absf main_arg17
  let main_cst_32 : FVec F S_ .f32 := constant S_ .f32 0x7F800000#32
  fn_part5 (F := F) main_arg6 main_arg12 main_arg18 main_v83 main_v84 main_cst_32

def fn_part3 {F : FTy → Type} [FloatOps F] (main_arg6 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S1000x4096 .f32 := Host.absf main_arg13
  let main_cst_24 : FVec F S_ .f32 := constant S_ .f32 0x7F800000#32
  let main_v65 : FVec F S1000x4096 .f32 := broadcastInDim S1000x4096 ![] bcast_S_S1000x4096 main_cst_24
  let main_v66 : IVec S1000x4096 1 := cmpf .olt main_v64 main_v65
  let main_c_25 : IVec S_ 1 := constantI S_ 1 1#1
  let main_v67 : IVec S_ 1 := (fun x v => Host.reduce IntOp.andi x v reducesTo_S1000x4096_S_d0_1 h_S_) main_v66 main_c_25
  fn_part4 (F := F) main_arg6 main_arg12 main_arg14 main_arg15 main_arg16 main_arg17 main_arg18 main_v63 main_v67

def fn_part2 {F : FTy → Type} [FloatOps F] (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg6 main_arg11 main_arg12 main_arg13 main_arg14 main_arg15 main_arg16 main_arg17 main_arg18 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_v33

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩
abbrev S1024x4096 : Shape := ⟨2, ![1024, 4096]⟩
abbrev S1024 : Shape := ⟨1, ![1024]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩
abbrev S8192x1000 : Shape := ⟨2, ![8192, 1000]⟩

abbrev nBuf : Space → Nat
  | .hbm => 83
  | .vmem => 46
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1000x4096, .f32⟩
  | .hbm, ⟨14, _⟩ => ⟨S1000, .f32⟩
  | .hbm, ⟨15, _⟩ => ⟨S1000, .f32⟩
  | .hbm, ⟨16, _⟩ => ⟨S1000, .f32⟩
  | .hbm, ⟨17, _⟩ => ⟨S1000, .f32⟩
  | .hbm, ⟨18, _⟩ => ⟨S1000, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .bf16⟩
  | .hbm, ⟨37, _⟩ => ⟨S_, .i32⟩
  | .hbm, ⟨38, _⟩ => ⟨S_, .f32⟩
  | .hbm, ⟨39, _⟩ => ⟨S1024x4096, .f32⟩
  | .hbm, ⟨40, _⟩ => ⟨S_, .i32⟩
  | .hbm, ⟨41, _⟩ => ⟨S_, .f32⟩
  | .hbm, ⟨42, _⟩ => ⟨S1024, .f32⟩
  | .hbm, ⟨43, _⟩ => ⟨S_, .i32⟩
  | .hbm, ⟨44, _⟩ => ⟨S_, .f32⟩
  | .hbm, ⟨45, _⟩ => ⟨S1024, .f32⟩
  | .hbm, ⟨46, _⟩ => ⟨S_, .i32⟩
  | .hbm, ⟨47, _⟩ => ⟨S_, .f32⟩
  | .hbm, ⟨48, _⟩ => ⟨S1024, .f32⟩
  | .hbm, ⟨49, _⟩ => ⟨S_, .i32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S_, .f32⟩
  | .hbm, ⟨54, _⟩ => ⟨S1024, .f32⟩
  | .hbm, ⟨55, _⟩ => ⟨S_, .f32⟩
  | .hbm, ⟨56, _⟩ => ⟨S1024x4096, .f32⟩
  | .hbm, ⟨57, _⟩ => ⟨S1024x4096, .i1⟩
  | .hbm, ⟨58, _⟩ => ⟨S_, .f32⟩
  | .hbm, ⟨59, _⟩ => ⟨S_, .f32⟩
  | .hbm, ⟨60, _⟩ => ⟨S1024x4096, .f32⟩
  | .hbm, ⟨61, _⟩ => ⟨S1024x4096, .f32⟩
  | .hbm, ⟨62, _⟩ => ⟨S1024x4096, .f32⟩
  | .hbm, ⟨63, _⟩ => ⟨S1024x4096, .bf16⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S8192x4096, .bf16⟩
  | .hbm, ⟨70, _⟩ => ⟨S1x4096, .f32⟩
  | .hbm, ⟨71, _⟩ => ⟨S1x4096, .f32⟩
  | .hbm, ⟨72, _⟩ => ⟨S1x4096, .f32⟩
  | .hbm, ⟨73, _⟩ => ⟨S1x4096, .f32⟩
  | .hbm, ⟨74, _⟩ => ⟨S1x4096, .f32⟩
  | .hbm, ⟨75, _⟩ => ⟨S8192x4096, .bf16⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S8192x1024, .f32⟩
  | .hbm, ⟨82, _⟩ => ⟨S8192x1000, .f32⟩
  | .local _ .vmem, ⟨0, _⟩ => ⟨S1024x256, .f32⟩
  | .local _ .vmem, ⟨1, _⟩ => ⟨S1024x256, .f32⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .f32⟩
  | .local _ .vmem, ⟨17, _⟩ => ⟨S1024x256, .bf16⟩
  | .local _ .vmem, ⟨18, _⟩ => ⟨S1024x256, .bf16⟩
  | .local _ .vmem, ⟨19, _⟩ => ⟨S2048x256, .bf16⟩
  | .local _ .vmem, ⟨20, _⟩ => ⟨S2048x256, .bf16⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1024x2048, .bf16⟩
  | .local _ .vmem, ⟨32, _⟩ => ⟨S1024x2048, .bf16⟩
  | .local _ .vmem, ⟨33, _⟩ => ⟨S1024x2048, .f32⟩
  | .local _ .vmem, ⟨34, _⟩ => ⟨S1024x512, .bf16⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1024x1024, .f32⟩
  | .local _ .vmem, ⟨44, _⟩ => ⟨S1024x1024, .f32⟩
  | .local _ .vmem, ⟨45, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v2 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_call2_v0 : Ref sig .tc := ⟨.hbm, 38, rfl⟩
abbrev main_v8 : Ref sig .tc := ⟨.hbm, 39, rfl⟩
abbrev main_c_5 : Ref sig .tc := ⟨.hbm, 40, rfl⟩
abbrev main_call3_v0 : Ref sig .tc := ⟨.hbm, 41, rfl⟩
abbrev main_v9 : Ref sig .tc := ⟨.hbm, 42, rfl⟩
abbrev main_c_6 : Ref sig .tc := ⟨.hbm, 43, rfl⟩
abbrev main_call4_v0 : Ref sig .tc := ⟨.hbm, 44, rfl⟩
abbrev main_v10 : Ref sig .tc := ⟨.hbm, 45, rfl⟩
abbrev main_c_7 : Ref sig .tc := ⟨.hbm, 46, rfl⟩
abbrev main_call5_v0 : Ref sig .tc := ⟨.hbm, 47, rfl⟩
abbrev main_v11 : Ref sig .tc := ⟨.hbm, 48, rfl⟩
abbrev main_c_8 : Ref sig .tc := ⟨.hbm, 49, rfl⟩
abbrev main_call6_v0 : Ref sig .tc := ⟨.hbm, 50, rfl⟩
abbrev main_v12 : Ref sig .tc := ⟨.hbm, 51, rfl⟩
abbrev main_cst_9 : Ref sig .tc := ⟨.hbm, 52, rfl⟩
abbrev main_call7_v0 : Ref sig .tc := ⟨.hbm, 53, rfl⟩
abbrev main_v13 : Ref sig .tc := ⟨.hbm, 54, rfl⟩
abbrev main_cst_10 : Ref sig .tc := ⟨.hbm, 55, rfl⟩
abbrev main_v14 : Ref sig .tc := ⟨.hbm, 56, rfl⟩
abbrev main_v15 : Ref sig .tc := ⟨.hbm, 57, rfl⟩
abbrev main_cst_11 : Ref sig .tc := ⟨.hbm, 58, rfl⟩
abbrev main_cst_12 : Ref sig .tc := ⟨.hbm, 59, rfl⟩
abbrev main_call8_v0 : Ref sig .tc := ⟨.hbm, 60, rfl⟩
abbrev main_call8_v1 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg7_1 : Ref sig .tc := ⟨.vmem, 44, rfl⟩
abbrev cc2_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem7_1 : DmaSem sig := 42

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 1, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, true, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, true, false]

abbrev stage2_7 : Fin 2 → Memref sig .tc .vmem S1024x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  pads_S1000x4096_S1024x4096_0240_000 : S1000x4096.Pads (![0, 0] : Fin 2 → Nat) ![24, 0] ![0, 0] S1024x4096
  h_S_ : 0 < S_.numel
  pads_S1000_S1024_0240 : S1000.Pads (![0] : Fin 1 → Nat) ![24] ![0] S1024
  bcast_S_S1024x4096 : S_.BroadcastsInDim S1024x4096 (![] : Fin 0 → Fin S1024x4096.rank)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  shapeCasts_S1024x256_S1024x256 : S1024x256.ShapeCasts S1024x256
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x1024_S8192x1000_0_0 : S8192x1024.Slices ![0, 0] S8192x1000
  dot_S1024x256_S2048x256_S1024x2048_1_1_0_0_n_n_wf : DotDims.WF S1024x256 S2048x256 S1024x2048 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .bf16 = 32 ∨ (Rect.block (s := S4096x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x4096.size a
  hwx0_6 : ∀ i : grid0.Coords, EltTy.bits .f32 = 32 ∨ (Rect.block (s := S1x4096) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S8192x4096.size a
  hwx0_7 : ∀ i : grid0.Coords, EltTy.bits .bf16 = 32 ∨ (Rect.block (s := S8192x4096) S1024x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .bf16 = 32 ∨ (Rect.block (s := S8192x4096) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x4096.size a
  hwx1_3 : ∀ i : grid1.Coords, EltTy.bits .f32 = 32 ∨ (Rect.block (s := S1x4096) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x4096.size a
  hwx1_4 : ∀ i : grid1.Coords, EltTy.bits .f32 = 32 ∨ (Rect.block (s := S1x4096) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x4096.size a
  hwx1_5 : ∀ i : grid1.Coords, EltTy.bits .f32 = 32 ∨ (Rect.block (s := S1x4096) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x4096.size a
  hwx1_6 : ∀ i : grid1.Coords, EltTy.bits .f32 = 32 ∨ (Rect.block (s := S1x4096) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x2048.size a ≤ S8192x4096.size a
  hwx1_7 : ∀ i : grid1.Coords, EltTy.bits .bf16 = 32 ∨ (Rect.block (s := S8192x4096) S1024x2048.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x4096.size a
  hwx2_1 : ∀ i : grid2.Coords, EltTy.bits .bf16 = 32 ∨ (Rect.block (s := S1024x4096) S1024x512.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S8192x1024.size a
  hwx2_7 : ∀ i : grid2.Coords, EltTy.bits .f32 = 32 ∨ (Rect.block (s := S8192x1024) S1024x1024.size (cc2_transform_7 i) (hinb2_7 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v23) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1024x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v29) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x1024.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x1024.size cc2_transform_4 reads2_4 false false 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x1024.size cc2_transform_5 reads2_5 false false 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x1024.size cc2_transform_6 reads2_6 false false 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S1024x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩
abbrev S1x4096 : Shape := ⟨2, ![1, 4096]⟩
abbrev S4096x1000 : Shape := ⟨2, ![4096, 1000]⟩
abbrev S8192x1000 : Shape := ⟨2, ![8192, 1000]⟩
abbrev S1x1000 : Shape := ⟨2, ![1, 1000]⟩

abbrev nBuf : Space → Nat
  | .hbm => 155
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S1000x4096, .f32⟩
  | 14 => ⟨S1000, .f32⟩
  | 15 => ⟨S1000, .f32⟩
  | 16 => ⟨S1000, .f32⟩
  | 17 => ⟨S1000, .f32⟩
  | 18 => ⟨S1000, .f32⟩
  | 19 => ⟨S_, .f32⟩
  | 20 => ⟨S8192x4096, .f32⟩
  | 21 => ⟨S8192x4096, .f32⟩
  | 22 => ⟨S8192x4096, .f32⟩
  | 23 => ⟨S_, .f32⟩
  | 24 => ⟨S8192x4096, .f32⟩
  | 25 => ⟨S8192x4096, .f32⟩
  | 26 => ⟨S_, .f32⟩
  | 27 => ⟨S8192x4096, .f32⟩
  | 28 => ⟨S8192x4096, .i1⟩
  | 29 => ⟨S_, .f32⟩
  | 30 => ⟨S_, .f32⟩
  | 31 => ⟨S8192x4096, .f32⟩
  | 32 => ⟨S8192x4096, .f32⟩
  | 33 => ⟨S8192x4096, .f32⟩
  | 34 => ⟨S8192x4096, .f32⟩
  | 35 => ⟨S_, .f32⟩
  | 36 => ⟨S4096x4096, .f32⟩
  | 37 => ⟨S4096x4096, .i1⟩
  | 38 => ⟨S_, .f32⟩
  | 39 => ⟨S_, .f32⟩
  | 40 => ⟨S4096x4096, .f32⟩
  | 41 => ⟨S4096x4096, .f32⟩
  | 42 => ⟨S4096x4096, .f32⟩
  | 43 => ⟨S4096x4096, .f32⟩
  | 44 => ⟨S4096x4096, .f32⟩
  | 45 => ⟨S8192x4096, .f32⟩
  | 46 => ⟨S1x4096, .f32⟩
  | 47 => ⟨S8192x4096, .f32⟩
  | 48 => ⟨S8192x4096, .f32⟩
  | 49 => ⟨S1x4096, .f32⟩
  | 50 => ⟨S8192x4096, .f32⟩
  | 51 => ⟨S8192x4096, .f32⟩
  | 52 => ⟨S_, .f32⟩
  | 53 => ⟨S4096, .f32⟩
  | 54 => ⟨S4096, .f32⟩
  | 55 => ⟨S4096, .f32⟩
  | 56 => ⟨S4096, .f32⟩
  | 57 => ⟨S1x4096, .f32⟩
  | 58 => ⟨S8192x4096, .f32⟩
  | 59 => ⟨S8192x4096, .f32⟩
  | 60 => ⟨S1x4096, .f32⟩
  | 61 => ⟨S8192x4096, .f32⟩
  | 62 => ⟨S8192x4096, .f32⟩
  | 63 => ⟨S_, .f32⟩
  | 64 => ⟨S8192x4096, .f32⟩
  | 65 => ⟨S8192x4096, .i1⟩
  | 66 => ⟨S_, .f32⟩
  | 67 => ⟨S_, .f32⟩
  | 68 => ⟨S8192x4096, .f32⟩
  | 69 => ⟨S8192x4096, .f32⟩
  | 70 => ⟨S8192x4096, .f32⟩
  | 71 => ⟨S8192x4096, .f32⟩
  | 72 => ⟨S_, .f32⟩
  | 73 => ⟨S8192x4096, .f32⟩
  | 74 => ⟨S8192x4096, .i1⟩
  | 75 => ⟨S_, .f32⟩
  | 76 => ⟨S_, .f32⟩
  | 77 => ⟨S8192x4096, .f32⟩
  | 78 => ⟨S8192x4096, .f32⟩
  | 79 => ⟨S8192x4096, .f32⟩
  | 80 => ⟨S8192x4096, .f32⟩
  | 81 => ⟨S_, .f32⟩
  | 82 => ⟨S4096x4096, .f32⟩
  | 83 => ⟨S4096x4096, .i1⟩
  | 84 => ⟨S_, .f32⟩
  | 85 => ⟨S_, .f32⟩
  | 86 => ⟨S4096x4096, .f32⟩
  | 87 => ⟨S4096x4096, .f32⟩
  | 88 => ⟨S4096x4096, .f32⟩
  | 89 => ⟨S4096x4096, .f32⟩
  | 90 => ⟨S4096x4096, .f32⟩
  | 91 => ⟨S8192x4096, .f32⟩
  | 92 => ⟨S1x4096, .f32⟩
  | 93 => ⟨S8192x4096, .f32⟩
  | 94 => ⟨S8192x4096, .f32⟩
  | 95 => ⟨S1x4096, .f32⟩
  | 96 => ⟨S8192x4096, .f32⟩
  | 97 => ⟨S8192x4096, .f32⟩
  | 98 => ⟨S_, .f32⟩
  | 99 => ⟨S4096, .f32⟩
  | 100 => ⟨S4096, .f32⟩
  | 101 => ⟨S4096, .f32⟩
  | 102 => ⟨S4096, .f32⟩
  | 103 => ⟨S1x4096, .f32⟩
  | 104 => ⟨S8192x4096, .f32⟩
  | 105 => ⟨S8192x4096, .f32⟩
  | 106 => ⟨S1x4096, .f32⟩
  | 107 => ⟨S8192x4096, .f32⟩
  | 108 => ⟨S8192x4096, .f32⟩
  | 109 => ⟨S_, .f32⟩
  | 110 => ⟨S8192x4096, .f32⟩
  | 111 => ⟨S8192x4096, .i1⟩
  | 112 => ⟨S_, .f32⟩
  | 113 => ⟨S_, .f32⟩
  | 114 => ⟨S8192x4096, .f32⟩
  | 115 => ⟨S8192x4096, .f32⟩
  | 116 => ⟨S8192x4096, .f32⟩
  | 117 => ⟨S8192x4096, .f32⟩
  | 118 => ⟨S_, .f32⟩
  | 119 => ⟨S8192x4096, .f32⟩
  | 120 => ⟨S8192x4096, .i1⟩
  | 121 => ⟨S_, .f32⟩
  | 122 => ⟨S_, .f32⟩
  | 123 => ⟨S8192x4096, .f32⟩
  | 124 => ⟨S8192x4096, .f32⟩
  | 125 => ⟨S8192x4096, .f32⟩
  | 126 => ⟨S8192x4096, .f32⟩
  | 127 => ⟨S_, .f32⟩
  | _ => ⟨S8192x4096, .f32⟩

abbrev hbmTy0_1 (i : Nat) : BufTy := match i % 128 with
  | 0 => ⟨S1000x4096, .f32⟩
  | 1 => ⟨S1000x4096, .i1⟩
  | 2 => ⟨S_, .f32⟩
  | 3 => ⟨S_, .f32⟩
  | 4 => ⟨S1000x4096, .f32⟩
  | 5 => ⟨S1000x4096, .f32⟩
  | 6 => ⟨S1000x4096, .f32⟩
  | 7 => ⟨S1000x4096, .f32⟩
  | 8 => ⟨S4096x1000, .f32⟩
  | 9 => ⟨S8192x1000, .f32⟩
  | 10 => ⟨S1x1000, .f32⟩
  | 11 => ⟨S8192x1000, .f32⟩
  | 12 => ⟨S8192x1000, .f32⟩
  | 13 => ⟨S1x1000, .f32⟩
  | 14 => ⟨S8192x1000, .f32⟩
  | 15 => ⟨S8192x1000, .f32⟩
  | 16 => ⟨S_, .f32⟩
  | 17 => ⟨S1000, .f32⟩
  | 18 => ⟨S1000, .f32⟩
  | 19 => ⟨S1000, .f32⟩
  | 20 => ⟨S1000, .f32⟩
  | 21 => ⟨S1x1000, .f32⟩
  | 22 => ⟨S8192x1000, .f32⟩
  | 23 => ⟨S8192x1000, .f32⟩
  | 24 => ⟨S1x1000, .f32⟩
  | 25 => ⟨S8192x1000, .f32⟩
  | 26 => ⟨S8192x1000, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_cst_4 : Ref sig .tc := ⟨.hbm, 35, rfl⟩
abbrev main_v9 : Ref sig .tc := ⟨.hbm, 36, rfl⟩
abbrev main_v10 : Ref sig .tc := ⟨.hbm, 37, rfl⟩
abbrev main_cst_5 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_7 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v33 : Ref sig .tc := ⟨.hbm, 70, rfl⟩
abbrev main_v34 : Ref sig .tc := ⟨.hbm, 71, rfl⟩
abbrev main_cst_11 : Ref sig .tc := ⟨.hbm, 72, rfl⟩
abbrev main_v35 : Ref sig .tc := ⟨.hbm, 73, rfl⟩
abbrev main_v36 : Ref sig .tc := ⟨.hbm, 74, rfl⟩
abbrev main_cst_12 : Ref sig .tc := ⟨.hbm, 75, rfl⟩
abbrev main_cst_13 : Ref sig .tc := ⟨.hbm, 76, rfl⟩
abbrev main_call4_v0 : Ref sig .tc := ⟨.hbm, 77, rfl⟩
abbrev main_call4_v1 : Ref sig .tc := ⟨.hbm, 78, rfl⟩
abbrev main_v37 : Ref sig .tc := ⟨.hbm, 79, rfl⟩
abbrev main_v38 : Ref sig .tc := ⟨.hbm, 80, rfl⟩
abbrev main_cst_14 : Ref sig .tc := ⟨.hbm, 81, rfl⟩
abbrev main_v39 : Ref sig .tc := ⟨.hbm, 82, rfl⟩
abbrev main_v40 : Ref sig .tc := ⟨.hbm, 83, rfl⟩
abbrev main_cst_15 : Ref sig .tc := ⟨.hbm, 84, rfl⟩
abbrev main_cst_16 : Ref sig .tc := ⟨.hbm, 85, rfl⟩
abbrev main_call5_v0 : Ref sig .tc := ⟨.hbm, 86, rfl⟩
abbrev main_call5_v1 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_17 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_18 : Ref sig .tc := ⟨.hbm, 109, rfl⟩
abbrev main_v61 : Ref sig .tc := ⟨.hbm, 110, rfl⟩
abbrev main_v62 : Ref sig .tc := ⟨.hbm, 111, rfl⟩
abbrev main_cst_19 : Ref sig .tc := ⟨.hbm, 112, rfl⟩
abbrev main_cst_20 : Ref sig .tc := ⟨.hbm, 113, rfl⟩
abbrev main_call6_v0 : Ref sig .tc := ⟨.hbm, 114, rfl⟩
abbrev main_call6_v1 : Ref sig .tc := ⟨.hbm, 115, rfl⟩
abbrev main_v63 : Ref sig .tc := ⟨.hbm, 116, rfl⟩
abbrev main_v64 : Ref sig .tc := ⟨.hbm, 117, rfl⟩
abbrev main_cst_21 : Ref sig .tc := ⟨.hbm, 118, rfl⟩
abbrev main_v65 : Ref sig .tc := ⟨.hbm, 119, rfl⟩
abbrev main_v66 : Ref sig .tc := ⟨.hbm, 120, rfl⟩
abbrev main_cst_22 : Ref sig .tc := ⟨.hbm, 121, rfl⟩
abbrev main_cst_23 : Ref sig .tc := ⟨.hbm, 122, rfl⟩
abbrev main_call7_v0 : Ref sig .tc := ⟨.hbm, 123, rfl⟩
abbrev main_call7_v1 : Ref sig .tc := ⟨.hbm, 124, rfl⟩
abbrev main_v67 : Ref sig .tc := ⟨.hbm, 125, rfl⟩
abbrev main_v68 : Ref sig .tc := ⟨.hbm, 126, rfl⟩
abbrev main_cst_24 : Ref sig .tc := ⟨.hbm, 127, rfl⟩
abbrev main_v69 : Ref sig .tc := ⟨.hbm, 128, rfl⟩
abbrev main_v70 : Ref sig .tc := ⟨.hbm, 129, rfl⟩
abbrev main_cst_25 : Ref sig .tc := ⟨.hbm, 130, rfl⟩
abbrev main_cst_26 : Ref sig .tc := ⟨.hbm, 131, rfl⟩
abbrev main_call8_v0 : Ref sig .tc := ⟨.hbm, 132, rfl⟩
abbrev main_call8_v1 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_27 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096 : S_.BroadcastsInDim S4096 (![] : Fin 0 → Fin S4096.rank)
  bcast_S_S1000x4096 : S_.BroadcastsInDim S1000x4096 (![] : Fin 0 → Fin S1000x4096.rank)
  transposes_S1000x4096_S4096x1000_1_0 : S1000x4096.Transposes [1, 0] S4096x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S1000 : S_.BroadcastsInDim S1000 (![] : Fin 0 → Fin S1000.rank)
  dot_S8192x4096_S4096x4096_S8192x4096_1_0_0_1_n_n_wf : DotDims.WF S8192x4096 S4096x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.KShared.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Whole-buffer stores and loads

Every load and store of these kernels goes through the whole-shape rectangle at zero offsets. -/

theorem hz2 : (![0, 0] : Fin 2 → Nat) = fun _ => 0 := by
  funext a; fin_cases a <;> rfl

/-- A buffer overwritten whole under a condition reads the payload where the condition holds, what it held otherwise. -/
theorem read_reset {sig : RefSig} {κ : Kind} {sp : Space} {S : Shape} {e : EltTy} {Val : EltTy → Type} [∀ e, Nonempty (Val e)]
    (v : View sig κ sp S e) (f : v.ty.Contents Val) (p : Prop) [Decidable p] {off : Fin S.rank → Nat}
    (hz : off = fun _ => 0) (inb : ∀ a, off a + S.size a ≤ S.size a) (z : S.Idx → Val e) :
    v.read Val (if hc : p then v.writes Val f [⟨Rect.unit off S.size inb, z⟩] else f) = if p then z else v.read Val f := by
  by_cases h : p
  · rw [dif_pos h, if_pos h, View.read_writes_eq_canon _ _ _ (fun y => ⟨_, List.mem_singleton_self _, View.mem_set_unit_zero hz inb y⟩),
      View.canon_unit_zero hz]
  · rw [dif_neg h, if_neg h]

/-- ONE store through the whole-shape rectangle, over anything, reads its payload. -/
theorem read_whole_store {sig : RefSig} {κ : Kind} {sp : Space} {S : Shape} {e : EltTy} {Val : EltTy → Type} [∀ e, Nonempty (Val e)]
    (v : View sig κ sp S e) (f : v.ty.Contents Val) {off : Fin S.rank → Nat}
    (hz : off = fun _ => 0) (inb : ∀ a, off a + S.size a ≤ S.size a) (z : S.Idx → Val e) :
    v.read Val (v.writes Val f [⟨Rect.unit off S.size inb, z⟩]) = z := by
  rw [View.read_writes_eq_canon _ _ _ (fun y => ⟨_, List.mem_singleton_self _, View.mem_set_unit_zero hz inb y⟩), View.canon_unit_zero hz]

/-- Equal contents, the same ownership. -/
theorem owns_congr {c : Thread nD τ} {sp : Space} {sh : Shape} {e : EltTy} {m : Memref sig c.2.kind sp sh e} {q : PosShare TreeShare}
    {X X' : sh.Idx → Elt F e} (h : X = X') : (owns c m q X : sProp 𝕄) ⊢ owns c m q X' := by
  subst h; exact .rfl

end Cert.Kernel.Hand

end
-- ==== Proof.KData0.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.KShared
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One layer's kernel, one grid point: what the body leaves

The grid is (row block, column block, contraction block). At a point the body
* refills the accumulator with zeros when the contraction index is 0,
* adds to it the product of the point's activation block and weight block,
* and, when the contraction index is the last, writes the output block from the finished accumulator: plus the bias,
  minus the running mean, times gain over root variance, plus the offset (for a hidden layer, the sign of that). -/

/-- Whether the point is the first along the contracted axis (the kernel's own test, spelt as it computes it). -/
def first0 (i : grid0.Coords) : BitVec 1 :=
  Scalar.cmpi .ne (Scalar.extui (Scalar.cmpi .eq (BitVec.ofNat 32 (i 2).val) (0#32 : BitVec 32)) : BitVec 32) (0#32 : BitVec 32)

/-- What the accumulation starts from at a point: zeros at the first contraction block, else what the point before left. -/
def seed0 (i : grid0.Coords) (s : Vec F S1024x2048 .f32) : Vec F S1024x2048 .f32 :=
  if first0 i = 1#1 then k0_pay1 else s

/-- The accumulator after the point: the seed plus the product of the two blocks. -/
def acc0 (i : grid0.Coords) (x : Vec F S1024x256 .f32) (w : Vec F S2048x256 .bf16) (s : Vec F S1024x2048 .f32) :
    Vec F S1024x2048 .f32 :=
  k0_pay2 x w (seed0 i s)

/-- The output block after the point: written from the finished accumulator at the last contraction block, else untouched. -/
def out0 (i : grid0.Coords) (x : Vec F S1024x256 .f32) (w : Vec F S2048x256 .bf16) (s : Vec F S1024x2048 .f32)
    (b g be mu var : Vec F S1x2048 .f32) (y : Vec F S1024x2048 .bf16) : Vec F S1024x2048 .bf16 :=
  if k0_cond2 i = 1#1 then k0_pay3 (acc0 i x w s) b g var mu be else y

set_option maxHeartbeats 4000000 in
/-- The body at any point, on whole staging memrefs whose contents read `x w b g be mu var y` and a scratch reading `s`:
    it runs to its continuation with the inputs as they were, the output block at `out0` and the scratch at `acc0`. -/
theorem sound_kernel0 (c : Dev nD) (E : Set ℕ) (i : grid0.Coords)
    (arg3 : Memref sig .tc .vmem S1024x256 .f32) (harg3 : arg3.IsWhole) (arg4 : Memref sig .tc .vmem S2048x256 .bf16) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1024x2048 .bf16) (harg10 : arg10.IsWhole)
    (arg11 : Memref sig .tc .vmem S1024x2048 .f32) (harg11 : arg11.IsWhole)
    (x : Vec F S1024x256 .f32) (w : Vec F S2048x256 .bf16) (b g be mu var : Vec F S1x2048 .f32)
    (y : Vec F S1024x2048 .bf16) (s : Vec F S1024x2048 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare g
        ∗ owns (c : Thread nD τ) arg7 fullShare be ∗ owns (c : Thread nD τ) arg8 fullShare mu
        ∗ owns (c : Thread nD τ) arg9 fullShare var ∗ owns (c : Thread nD τ) arg10 fullShare y
        ∗ owns (c : Thread nD τ) arg11 fullShare s
        ∗ (iprop(owns (c : Thread nD τ) arg3 fullShare x ∗ owns (c : Thread nD τ) arg4 fullShare w
            ∗ owns (c : Thread nD τ) arg5 fullShare b ∗ owns (c : Thread nD τ) arg6 fullShare g
            ∗ owns (c : Thread nD τ) arg7 fullShare be ∗ owns (c : Thread nD τ) arg8 fullShare mu
            ∗ owns (c : Thread nD τ) arg9 fullShare var
            ∗ owns (c : Thread nD τ) arg10 fullShare (out0 i x w s b g be mu var y)
            ∗ owns (c : Thread nD τ) arg11 fullShare (acc0 i x w s)) -∗ K ⟨⟩))
      ⊢ wp frame (wpE (defs₀ (F := F)) Variants.none c none) E
          (cc0__mlp_layer_kernel i arg3 harg3 arg4 harg4 arg5 harg5 arg6 harg6 arg7 harg7 arg8 harg8 arg9 harg9 arg10 harg10 arg11 harg11) K := by
  simp only [cc0__mlp_layer_kernel_eq_skeleton]; unfold cc0__mlp_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7)
    ipureintro
    sl_unfold_words
    rw [read_reset _ _ _ hz2]
    simp only [View.readCov_unit_zero (S := S1024x2048) _ hz2, View.readAt_eq_ld, View.ld_unit_zero (S := S1024x256) hz2,
      View.ld_unit_zero (S := S2048x256) hz2, View.ld_unit_zero (S := S1x2048) hz2, View.ld_unit_zero (S := S1024x2048) hz2,
      read_reset (S := S1024x2048) _ _ _ hz2]
    rfl
  · iexists _; isplitr; swap; (· iexact H8)
    ipureintro
    sl_unfold_words
    rw [read_whole_store _ _ hz2]
    simp only [View.readAt_eq_ld, View.ld_unit_zero (S := S1024x256) hz2, View.ld_unit_zero (S := S2048x256) hz2,
      View.ld_unit_zero (S := S1024x2048) hz2, read_reset (S := S1024x2048) _ _ _ hz2]
    rfl

/-! # The region's proof data: what every buffer holds, point by point -/

/-- The first contraction block, in closed form over the grid's points. -/
theorem hfirst0 : ∀ t : Fin cfg0.N, first0 (grid0.coords t) = 1#1 ↔ t.val % 16 = 0 :=
  (by decide +kernel : ∀ t : Fin grid0.N, first0 (grid0.coords t) = 1#1 ↔ t.val % 16 = 0)
/-- The last contraction block, in closed form over the grid's points. -/
theorem hlast0 : ∀ t : Fin cfg0.N, k0_cond2 (grid0.coords t) = 1#1 ↔ t.val % 16 = 15 :=
  (by decide +kernel : ∀ t : Fin grid0.N, k0_cond2 (grid0.coords t) = 1#1 ↔ t.val % 16 = 15)

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The accumulator after point `n`: the running sum of block products since the last first contraction block. -/
def accAt0 (c : Dev nD) : (n : ℕ) → n < cfg0.N → Vec F S1024x2048 .f32
  | 0, h => acc0 (grid0.coords ⟨0, h⟩) (iblk0 V c 0 ⟨0, h⟩) (iblk0 V c 1 ⟨0, h⟩) k0_pay1
  | n + 1, h => acc0 (grid0.coords ⟨n + 1, h⟩) (iblk0 V c 0 ⟨n + 1, h⟩) (iblk0 V c 1 ⟨n + 1, h⟩) (accAt0 c n (Nat.lt_of_succ_lt h))

/-- At every point the body leaves the accumulator at `accAt0`, given that it found what the point before left
    (at the grid's first point, whatever it found: the contraction index is 0 there and the accumulator is refilled). -/
theorem acc_step0 (c : Dev nD) (t : Fin cfg0.N) (s : Vec F S1024x2048 .f32)
    (hs : ∀ h : t.val ≠ 0, s = accAt0 V c (t.val - 1) (Nat.lt_of_le_of_lt (Nat.sub_le _ _) t.isLt)) :
    acc0 (grid0.coords t) (iblk0 V c 0 t) (iblk0 V c 1 t) s = accAt0 V c t.val t.isLt := by
  obtain ⟨n, hn⟩ := t
  cases n with
  | zero =>
    have h0 : first0 (grid0.coords ⟨0, hn⟩) = 1#1 := (hfirst0 ⟨0, hn⟩).mpr (Nat.zero_mod _)
    show acc0 _ _ _ s = acc0 _ _ _ k0_pay1
    unfold acc0 seed0; rw [if_pos h0, if_pos h0]
  | succ n => rw [hs (Nat.succ_ne_zero n)]; rfl

/-- The output block the last contraction block's point writes: the epilogue of the finished accumulator. -/
def outAt0 (c : Dev nD) (t : Fin cfg0.N) : Vec F S1024x2048 .bf16 :=
  k0_pay3 (accAt0 V c t.val t.isLt) (iblk0 V c 2 t) (iblk0 V c 3 t) (iblk0 V c 6 t) (iblk0 V c 5 t) (iblk0 V c 4 t)

/-- The rest of the core's scoped buffers, unopened. -/
abbrev rest0 (c : Dev nD) : sProp 𝕄 :=
  Pipeline.scopedRestBut (Ix := Unit) (Name := ℕ) (U := UR sig nD τ) (Lvl := ℕ) (Val := Elt F) spec0 c [cc0_scratch0]

/-- The region's invariant before position `n`: the accumulator scratch at what the point before left (at anything
    before the first point), beside the other scoped buffers. -/
def PhiS0 (c : Dev nD) : (n : ℕ) → n ≤ cfg0.N → sProp 𝕄
  | 0, _ => iprop((∃ s, owns (c : Thread nD τ) (Memref.whole cc0_scratch0) fullShare s) ∗ rest0 c)
  | n + 1, hn => iprop(owns (c : Thread nD τ) (Memref.whole cc0_scratch0) fullShare (accAt0 V c n hn) ∗ rest0 c)

/-- Either way the scratch holds something, and after the first point what the point before left. -/
theorem PhiS0_elim (c : Dev nD) (t : Fin cfg0.N) :
    PhiS0 V c t.val (Nat.le_of_lt t.isLt) ⊢ (iprop(∃ s : Vec F S1024x2048 .f32,
      ⌜∀ h : t.val ≠ 0, s = accAt0 V c (t.val - 1) (Nat.lt_of_le_of_lt (Nat.sub_le _ _) t.isLt)⌝
        ∗ owns (c : Thread nD τ) (Memref.whole cc0_scratch0) fullShare s ∗ rest0 c) : sProp 𝕄) := by
  obtain ⟨n, hn⟩ := t
  cases n with
  | zero =>
    show iprop((∃ s, owns (c : Thread nD τ) (Memref.whole cc0_scratch0) fullShare s) ∗ rest0 c) ⊢ _
    iintro ⟨⟨%s, HS⟩, Hr⟩
    iexists s; isplitr; · ipureintro; intro h; exact absurd rfl h
    isplitl [HS]; · iexact HS
    iexact Hr
  | succ n =>
    show iprop(owns (c : Thread nD τ) (Memref.whole cc0_scratch0) fullShare (accAt0 V c n _) ∗ rest0 c) ⊢ _
    iintro ⟨HS, Hr⟩
    iexists _; isplitr; · ipureintro; intro _; rfl
    isplitl [HS]; · iexact HS
    iexact Hr

/-- The proof data of the region on core `c`: the arrays as the region finds them; after the body at point `t` each
    input's buffer at its block and the output's at the epilogue of the accumulator; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Region

end Cert.Kernel.Hand

end
-- ==== Proof.KBody0.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.KData0
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # The body obligation, at a generic point -/

/-- What the body is called with at point `t`: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

theorem live0_0 (c : Dev nD) (t : Fin cfg0.N) :
    (dat0 V c).leavesExact 0 t = owns (c : Thread nD τ) (st0_0 t) fullShare (iblk0 V c 0 t) := by
  rw [← after0_0 V c t]
theorem live0_1 (c : Dev nD) (t : Fin cfg0.N) :
    (dat0 V c).leavesExact 1 t = owns (c : Thread nD τ) (st0_1 t) fullShare (iblk0 V c 1 t) := by
  rw [← after0_1 V c t]
theorem live0_2 (c : Dev nD) (t : Fin cfg0.N) :
    (dat0 V c).leavesExact 2 t = owns (c : Thread nD τ) (st0_2 t) fullShare (iblk0 V c 2 t) := by
  rw [← after0_2 V c t]
theorem live0_3 (c : Dev nD) (t : Fin cfg0.N) :
    (dat0 V c).leavesExact 3 t = owns (c : Thread nD τ) (st0_3 t) fullShare (iblk0 V c 3 t) := by
  rw [← after0_3 V c t]
theorem live0_4 (c : Dev nD) (t : Fin cfg0.N) :
    (dat0 V c).leavesExact 4 t = owns (c : Thread nD τ) (st0_4 t) fullShare (iblk0 V c 4 t) := by
  rw [← after0_4 V c t]
theorem live0_5 (c : Dev nD) (t : Fin cfg0.N) :
    (dat0 V c).leavesExact 5 t = owns (c : Thread nD τ) (st0_5 t) fullShare (iblk0 V c 5 t) := by
  rw [← after0_5 V c t]
theorem live0_6 (c : Dev nD) (t : Fin cfg0.N) :
    (dat0 V c).leavesExact 6 t = owns (c : Thread nD τ) (st0_6 t) fullShare (iblk0 V c 6 t) := by
  rw [← after0_6 V c t]

set_option maxHeartbeats 4000000 in
/-- The body at any point. Every input's buffer holds its block; the scratch holds what the point before left (anything
    at the grid's first point, where it is refilled); the kernel's triple applies; the scratch is taken back at this
    point's running sum; the output's buffer is handed back written where the contraction ends and untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.succ = iprop(owns (c : Thread nD τ) (Memref.whole cc0_scratch0) fullShare (accAt0 V c t.val t.isLt) ∗ rest0 c) from rfl,
    show (dat0 V c).Φ t.castSucc = PhiS0 V c t.val (Nat.le_of_lt t.isLt) from rfl,
    live0_0, live0_1, live0_2, live0_3, live0_4, live0_5, live0_6]
  refine (sep_mono (PhiS0_elim V c t) .rfl).trans ?_
  by_cases hl : t.val % 16 = 15
  · have hc : k0_cond2 (grid0.coords t) = 1#1 := (hlast0 t).mpr hl
    have hi : cfg0.idle 7 (cfg0.grid.coords t) = false := by
      show (!(k0_cond2 (grid0.coords t) == 1#1)) = false
      rw [hc]; rfl
    rw [show (dat0 V c).leavesExact 7 t = owns (c : Thread nD τ) (st0_7 t) fullShare (outAt0 V c t) from by
      unfold Dat.leavesExact; rw [hi, after0_7]]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step0 V c t s hs
    have e2 : out0 (grid0.coords t) (iblk0 V c 0 t) (iblk0 V c 1 t) s (iblk0 V c 2 t) (iblk0 V c 3 t) (iblk0 V c 4 t)
        (iblk0 V c 5 t) (iblk0 V c 6 t) ((dat0 V c).before 7 t d7) = outAt0 V c t := by
      unfold out0 outAt0; rw [if_pos hc, e1]
    iapply (sound_kernel0 c Set.univ (grid0.coords t) _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      ((dat0 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owns_congr e2); iexact H7
  · have hc : ¬ k0_cond2 (grid0.coords t) = 1#1 := fun h => hl ((hlast0 t).mp h)
    have hi : cfg0.idle 7 (cfg0.grid.coords t) = true := by
      show (!(k0_cond2 (grid0.coords t) == 1#1)) = true
      rw [Bool.not_eq_true', beq_eq_false_iff_ne]; exact hc
    have hf : (cfg0.win 7).flush t = false := Bool.eq_false_iff.mpr (fun h => hl ((flush0_7 t).mp h))
    rw [Dat.leavesExact_idle (dat0 V c) 7 t hi hf]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step0 V c t s hs
    have e2 : out0 (grid0.coords t) (iblk0 V c 0 t) (iblk0 V c 1 t) s (iblk0 V c 2 t) (iblk0 V c 3 t) (iblk0 V c 4 t)
        (iblk0 V c 5 t) (iblk0 V c 6 t) ((dat0 V c).before 7 t d7) = (dat0 V c).before 7 t d7 := by
      unfold out0; rw [if_neg hc]
    iapply (sound_kernel0 c Set.univ (grid0.coords t) _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      ((dat0 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iapply (owns_congr e2); iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KData1.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.KShared
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One layer's kernel, one grid point: what the body leaves

The grid is (row block, column block, contraction block). At a point the body
* refills the accumulator with zeros when the contraction index is 0,
* adds to it the product of the point's activation block and weight block,
* and, when the contraction index is the last, writes the output block from the finished accumulator: plus the bias,
  minus the running mean, times gain over root variance, plus the offset (for a hidden layer, the sign of that). -/

/-- Whether the point is the first along the contracted axis (the kernel's own test, spelt as it computes it). -/
def first1 (i : grid1.Coords) : BitVec 1 :=
  Scalar.cmpi .ne (Scalar.extui (Scalar.cmpi .eq (BitVec.ofNat 32 (i 2).val) (0#32 : BitVec 32)) : BitVec 32) (0#32 : BitVec 32)

/-- What the accumulation starts from at a point: zeros at the first contraction block, else what the point before left. -/
def seed1 (i : grid1.Coords) (s : Vec F S1024x2048 .f32) : Vec F S1024x2048 .f32 :=
  if first1 i = 1#1 then k1_pay1 else s

/-- The accumulator after the point: the seed plus the product of the two blocks. -/
def acc1 (i : grid1.Coords) (x : Vec F S1024x256 .bf16) (w : Vec F S2048x256 .bf16) (s : Vec F S1024x2048 .f32) :
    Vec F S1024x2048 .f32 :=
  k1_pay2 x w (seed1 i s)

/-- The output block after the point: written from the finished accumulator at the last contraction block, else untouched. -/
def out1 (i : grid1.Coords) (x : Vec F S1024x256 .bf16) (w : Vec F S2048x256 .bf16) (s : Vec F S1024x2048 .f32)
    (b g be mu var : Vec F S1x2048 .f32) (y : Vec F S1024x2048 .bf16) : Vec F S1024x2048 .bf16 :=
  if k1_cond2 i = 1#1 then k1_pay3 (acc1 i x w s) b g var mu be else y

set_option maxHeartbeats 4000000 in
/-- The body at any point, on whole staging memrefs whose contents read `x w b g be mu var y` and a scratch reading `s`:
    it runs to its continuation with the inputs as they were, the output block at `out1` and the scratch at `acc1`. -/
theorem sound_kernel1 (c : Dev nD) (E : Set ℕ) (i : grid1.Coords)
    (arg3 : Memref sig .tc .vmem S1024x256 .bf16) (harg3 : arg3.IsWhole) (arg4 : Memref sig .tc .vmem S2048x256 .bf16) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1024x2048 .bf16) (harg10 : arg10.IsWhole)
    (arg11 : Memref sig .tc .vmem S1024x2048 .f32) (harg11 : arg11.IsWhole)
    (x : Vec F S1024x256 .bf16) (w : Vec F S2048x256 .bf16) (b g be mu var : Vec F S1x2048 .f32)
    (y : Vec F S1024x2048 .bf16) (s : Vec F S1024x2048 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare g
        ∗ owns (c : Thread nD τ) arg7 fullShare be ∗ owns (c : Thread nD τ) arg8 fullShare mu
        ∗ owns (c : Thread nD τ) arg9 fullShare var ∗ owns (c : Thread nD τ) arg10 fullShare y
        ∗ owns (c : Thread nD τ) arg11 fullShare s
        ∗ (iprop(owns (c : Thread nD τ) arg3 fullShare x ∗ owns (c : Thread nD τ) arg4 fullShare w
            ∗ owns (c : Thread nD τ) arg5 fullShare b ∗ owns (c : Thread nD τ) arg6 fullShare g
            ∗ owns (c : Thread nD τ) arg7 fullShare be ∗ owns (c : Thread nD τ) arg8 fullShare mu
            ∗ owns (c : Thread nD τ) arg9 fullShare var
            ∗ owns (c : Thread nD τ) arg10 fullShare (out1 i x w s b g be mu var y)
            ∗ owns (c : Thread nD τ) arg11 fullShare (acc1 i x w s)) -∗ K ⟨⟩))
      ⊢ wp frame (wpE (defs₀ (F := F)) Variants.none c none) E
          (cc1__mlp_layer_kernel i arg3 harg3 arg4 harg4 arg5 harg5 arg6 harg6 arg7 harg7 arg8 harg8 arg9 harg9 arg10 harg10 arg11 harg11) K := by
  simp only [cc1__mlp_layer_kernel_eq_skeleton]; unfold cc1__mlp_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7)
    ipureintro
    sl_unfold_words
    rw [read_reset _ _ _ hz2]
    simp only [View.readCov_unit_zero (S := S1024x2048) _ hz2, View.readAt_eq_ld, View.ld_unit_zero (S := S1024x256) hz2,
      View.ld_unit_zero (S := S2048x256) hz2, View.ld_unit_zero (S := S1x2048) hz2, View.ld_unit_zero (S := S1024x2048) hz2,
      read_reset (S := S1024x2048) _ _ _ hz2]
    rfl
  · iexists _; isplitr; swap; (· iexact H8)
    ipureintro
    sl_unfold_words
    rw [read_whole_store _ _ hz2]
    simp only [View.readAt_eq_ld, View.ld_unit_zero (S := S1024x256) hz2, View.ld_unit_zero (S := S2048x256) hz2,
      View.ld_unit_zero (S := S1024x2048) hz2, read_reset (S := S1024x2048) _ _ _ hz2]
    rfl

/-! # The region's proof data: what every buffer holds, point by point -/

/-- The first contraction block, in closed form over the grid's points. -/
theorem hfirst1 : ∀ t : Fin cfg1.N, first1 (grid1.coords t) = 1#1 ↔ t.val % 16 = 0 :=
  (by decide +kernel : ∀ t : Fin grid1.N, first1 (grid1.coords t) = 1#1 ↔ t.val % 16 = 0)
/-- The last contraction block, in closed form over the grid's points. -/
theorem hlast1 : ∀ t : Fin cfg1.N, k1_cond2 (grid1.coords t) = 1#1 ↔ t.val % 16 = 15 :=
  (by decide +kernel : ∀ t : Fin grid1.N, k1_cond2 (grid1.coords t) = 1#1 ↔ t.val % 16 = 15)

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The accumulator after point `n`: the running sum of block products since the last first contraction block. -/
def accAt1 (c : Dev nD) : (n : ℕ) → n < cfg1.N → Vec F S1024x2048 .f32
  | 0, h => acc1 (grid1.coords ⟨0, h⟩) (iblk1 V c 0 ⟨0, h⟩) (iblk1 V c 1 ⟨0, h⟩) k1_pay1
  | n + 1, h => acc1 (grid1.coords ⟨n + 1, h⟩) (iblk1 V c 0 ⟨n + 1, h⟩) (iblk1 V c 1 ⟨n + 1, h⟩) (accAt1 c n (Nat.lt_of_succ_lt h))

/-- At every point the body leaves the accumulator at `accAt1`, given that it found what the point before left
    (at the grid's first point, whatever it found: the contraction index is 0 there and the accumulator is refilled). -/
theorem acc_step1 (c : Dev nD) (t : Fin cfg1.N) (s : Vec F S1024x2048 .f32)
    (hs : ∀ h : t.val ≠ 0, s = accAt1 V c (t.val - 1) (Nat.lt_of_le_of_lt (Nat.sub_le _ _) t.isLt)) :
    acc1 (grid1.coords t) (iblk1 V c 0 t) (iblk1 V c 1 t) s = accAt1 V c t.val t.isLt := by
  obtain ⟨n, hn⟩ := t
  cases n with
  | zero =>
    have h0 : first1 (grid1.coords ⟨0, hn⟩) = 1#1 := (hfirst1 ⟨0, hn⟩).mpr (Nat.zero_mod _)
    show acc1 _ _ _ s = acc1 _ _ _ k1_pay1
    unfold acc1 seed1; rw [if_pos h0, if_pos h0]
  | succ n => rw [hs (Nat.succ_ne_zero n)]; rfl

/-- The output block the last contraction block's point writes: the epilogue of the finished accumulator. -/
def outAt1 (c : Dev nD) (t : Fin cfg1.N) : Vec F S1024x2048 .bf16 :=
  k1_pay3 (accAt1 V c t.val t.isLt) (iblk1 V c 2 t) (iblk1 V c 3 t) (iblk1 V c 6 t) (iblk1 V c 5 t) (iblk1 V c 4 t)

/-- The rest of the core's scoped buffers, unopened. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: the accumulator scratch at what the point before left (at anything
    before the first point), beside the other scoped buffers. -/
def PhiS1 (c : Dev nD) : (n : ℕ) → n ≤ cfg1.N → sProp 𝕄
  | 0, _ => iprop((∃ s, owns (c : Thread nD τ) (Memref.whole cc1_scratch0) fullShare s) ∗ rest1 c)
  | n + 1, hn => iprop(owns (c : Thread nD τ) (Memref.whole cc1_scratch0) fullShare (accAt1 V c n hn) ∗ rest1 c)

/-- Either way the scratch holds something, and after the first point what the point before left. -/
theorem PhiS1_elim (c : Dev nD) (t : Fin cfg1.N) :
    PhiS1 V c t.val (Nat.le_of_lt t.isLt) ⊢ (iprop(∃ s : Vec F S1024x2048 .f32,
      ⌜∀ h : t.val ≠ 0, s = accAt1 V c (t.val - 1) (Nat.lt_of_le_of_lt (Nat.sub_le _ _) t.isLt)⌝
        ∗ owns (c : Thread nD τ) (Memref.whole cc1_scratch0) fullShare s ∗ rest1 c) : sProp 𝕄) := by
  obtain ⟨n, hn⟩ := t
  cases n with
  | zero =>
    show iprop((∃ s, owns (c : Thread nD τ) (Memref.whole cc1_scratch0) fullShare s) ∗ rest1 c) ⊢ _
    iintro ⟨⟨%s, HS⟩, Hr⟩
    iexists s; isplitr; · ipureintro; intro h; exact absurd rfl h
    isplitl [HS]; · iexact HS
    iexact Hr
  | succ n =>
    show iprop(owns (c : Thread nD τ) (Memref.whole cc1_scratch0) fullShare (accAt1 V c n _) ∗ rest1 c) ⊢ _
    iintro ⟨HS, Hr⟩
    iexists _; isplitr; · ipureintro; intro _; rfl
    isplitl [HS]; · iexact HS
    iexact Hr

/-- The proof data of the region on core `c`: the arrays as the region finds them; after the body at point `t` each
    input's buffer at its block and the output's at the epilogue of the accumulator; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region

end Cert.Kernel.Hand

end
-- ==== Proof.KBody1.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.KData1
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # The body obligation, at a generic point -/

/-- What the body is called with at point `t`: the invariant, the core's dues, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem live1_0 (c : Dev nD) (t : Fin cfg1.N) :
    (dat1 V c).leavesExact 0 t = owns (c : Thread nD τ) (st1_0 t) fullShare (iblk1 V c 0 t) := by
  rw [← after1_0 V c t]
theorem live1_1 (c : Dev nD) (t : Fin cfg1.N) :
    (dat1 V c).leavesExact 1 t = owns (c : Thread nD τ) (st1_1 t) fullShare (iblk1 V c 1 t) := by
  rw [← after1_1 V c t]
theorem live1_2 (c : Dev nD) (t : Fin cfg1.N) :
    (dat1 V c).leavesExact 2 t = owns (c : Thread nD τ) (st1_2 t) fullShare (iblk1 V c 2 t) := by
  rw [← after1_2 V c t]
theorem live1_3 (c : Dev nD) (t : Fin cfg1.N) :
    (dat1 V c).leavesExact 3 t = owns (c : Thread nD τ) (st1_3 t) fullShare (iblk1 V c 3 t) := by
  rw [← after1_3 V c t]
theorem live1_4 (c : Dev nD) (t : Fin cfg1.N) :
    (dat1 V c).leavesExact 4 t = owns (c : Thread nD τ) (st1_4 t) fullShare (iblk1 V c 4 t) := by
  rw [← after1_4 V c t]
theorem live1_5 (c : Dev nD) (t : Fin cfg1.N) :
    (dat1 V c).leavesExact 5 t = owns (c : Thread nD τ) (st1_5 t) fullShare (iblk1 V c 5 t) := by
  rw [← after1_5 V c t]
theorem live1_6 (c : Dev nD) (t : Fin cfg1.N) :
    (dat1 V c).leavesExact 6 t = owns (c : Thread nD τ) (st1_6 t) fullShare (iblk1 V c 6 t) := by
  rw [← after1_6 V c t]

set_option maxHeartbeats 4000000 in
/-- The body at any point. Every input's buffer holds its block; the scratch holds what the point before left (anything
    at the grid's first point, where it is refilled); the kernel's triple applies; the scratch is taken back at this
    point's running sum; the output's buffer is handed back written where the contraction ends and untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = iprop(owns (c : Thread nD τ) (Memref.whole cc1_scratch0) fullShare (accAt1 V c t.val t.isLt) ∗ rest1 c) from rfl,
    show (dat1 V c).Φ t.castSucc = PhiS1 V c t.val (Nat.le_of_lt t.isLt) from rfl,
    live1_0, live1_1, live1_2, live1_3, live1_4, live1_5, live1_6]
  refine (sep_mono (PhiS1_elim V c t) .rfl).trans ?_
  by_cases hl : t.val % 16 = 15
  · have hc : k1_cond2 (grid1.coords t) = 1#1 := (hlast1 t).mpr hl
    have hi : cfg1.idle 7 (cfg1.grid.coords t) = false := by
      show (!(k1_cond2 (grid1.coords t) == 1#1)) = false
      rw [hc]; rfl
    rw [show (dat1 V c).leavesExact 7 t = owns (c : Thread nD τ) (st1_7 t) fullShare (outAt1 V c t) from by
      unfold Dat.leavesExact; rw [hi, after1_7]]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step1 V c t s hs
    have e2 : out1 (grid1.coords t) (iblk1 V c 0 t) (iblk1 V c 1 t) s (iblk1 V c 2 t) (iblk1 V c 3 t) (iblk1 V c 4 t)
        (iblk1 V c 5 t) (iblk1 V c 6 t) ((dat1 V c).before 7 t d7) = outAt1 V c t := by
      unfold out1 outAt1; rw [if_pos hc, e1]
    iapply (sound_kernel1 c Set.univ (grid1.coords t) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owns_congr e2); iexact H7
  · have hc : ¬ k1_cond2 (grid1.coords t) = 1#1 := fun h => hl ((hlast1 t).mp h)
    have hi : cfg1.idle 7 (cfg1.grid.coords t) = true := by
      show (!(k1_cond2 (grid1.coords t) == 1#1)) = true
      rw [Bool.not_eq_true', beq_eq_false_iff_ne]; exact hc
    have hf : (cfg1.win 7).flush t = false := Bool.eq_false_iff.mpr (fun h => hl ((flush1_7 t).mp h))
    rw [Dat.leavesExact_idle (dat1 V c) 7 t hi hf]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step1 V c t s hs
    have e2 : out1 (grid1.coords t) (iblk1 V c 0 t) (iblk1 V c 1 t) s (iblk1 V c 2 t) (iblk1 V c 3 t) (iblk1 V c 4 t)
        (iblk1 V c 5 t) (iblk1 V c 6 t) ((dat1 V c).before 7 t d7) = (dat1 V c).before 7 t d7 := by
      unfold out1; rw [if_neg hc]
    iapply (sound_kernel1 c Set.univ (grid1.coords t) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iapply (owns_congr e2); iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KData2.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.KShared
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One layer's kernel, one grid point: what the body leaves

The grid is (row block, column block, contraction block). At a point the body
* refills the accumulator with zeros when the contraction index is 0,
* adds to it the product of the point's activation block and weight block,
* and, when the contraction index is the last, writes the output block from the finished accumulator: plus the bias,
  minus the running mean, times gain over root variance, plus the offset (for a hidden layer, the sign of that). -/

/-- Whether the point is the first along the contracted axis (the kernel's own test, spelt as it computes it). -/
def first2 (i : grid2.Coords) : BitVec 1 :=
  Scalar.cmpi .ne (Scalar.extui (Scalar.cmpi .eq (BitVec.ofNat 32 (i 2).val) (0#32 : BitVec 32)) : BitVec 32) (0#32 : BitVec 32)

/-- What the accumulation starts from at a point: zeros at the first contraction block, else what the point before left. -/
def seed2 (i : grid2.Coords) (s : Vec F S1024x1024 .f32) : Vec F S1024x1024 .f32 :=
  if first2 i = 1#1 then k2_pay1 else s

/-- The accumulator after the point: the seed plus the product of the two blocks. -/
def acc2 (i : grid2.Coords) (x : Vec F S1024x512 .bf16) (w : Vec F S1024x512 .bf16) (s : Vec F S1024x1024 .f32) :
    Vec F S1024x1024 .f32 :=
  k2_pay2 x w (seed2 i s)

/-- The output block after the point: written from the finished accumulator at the last contraction block, else untouched. -/
def out2 (i : grid2.Coords) (x : Vec F S1024x512 .bf16) (w : Vec F S1024x512 .bf16) (s : Vec F S1024x1024 .f32)
    (b g be mu var : Vec F S1x1024 .f32) (y : Vec F S1024x1024 .f32) : Vec F S1024x1024 .f32 :=
  if k2_cond2 i = 1#1 then k2_pay3 (acc2 i x w s) b g var mu be else y

set_option maxHeartbeats 4000000 in
/-- The body at any point, on whole staging memrefs whose contents read `x w b g be mu var y` and a scratch reading `s`:
    it runs to its continuation with the inputs as they were, the output block at `out2` and the scratch at `acc2`. -/
theorem sound_kernel2 (c : Dev nD) (E : Set ℕ) (i : grid2.Coords)
    (arg3 : Memref sig .tc .vmem S1024x512 .bf16) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .f32) (harg10 : arg10.IsWhole)
    (arg11 : Memref sig .tc .vmem S1024x1024 .f32) (harg11 : arg11.IsWhole)
    (x : Vec F S1024x512 .bf16) (w : Vec F S1024x512 .bf16) (b g be mu var : Vec F S1x1024 .f32)
    (y : Vec F S1024x1024 .f32) (s : Vec F S1024x1024 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare g
        ∗ owns (c : Thread nD τ) arg7 fullShare be ∗ owns (c : Thread nD τ) arg8 fullShare mu
        ∗ owns (c : Thread nD τ) arg9 fullShare var ∗ owns (c : Thread nD τ) arg10 fullShare y
        ∗ owns (c : Thread nD τ) arg11 fullShare s
        ∗ (iprop(owns (c : Thread nD τ) arg3 fullShare x ∗ owns (c : Thread nD τ) arg4 fullShare w
            ∗ owns (c : Thread nD τ) arg5 fullShare b ∗ owns (c : Thread nD τ) arg6 fullShare g
            ∗ owns (c : Thread nD τ) arg7 fullShare be ∗ owns (c : Thread nD τ) arg8 fullShare mu
            ∗ owns (c : Thread nD τ) arg9 fullShare var
            ∗ owns (c : Thread nD τ) arg10 fullShare (out2 i x w s b g be mu var y)
            ∗ owns (c : Thread nD τ) arg11 fullShare (acc2 i x w s)) -∗ K ⟨⟩))
      ⊢ wp frame (wpE (defs₀ (F := F)) Variants.none c none) E
          (cc2__mlp_layer_kernel i arg3 harg3 arg4 harg4 arg5 harg5 arg6 harg6 arg7 harg7 arg8 harg8 arg9 harg9 arg10 harg10 arg11 harg11) K := by
  simp only [cc2__mlp_layer_kernel_eq_skeleton]; unfold cc2__mlp_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7)
    ipureintro
    sl_unfold_words
    rw [read_reset _ _ _ hz2]
    simp only [View.readCov_unit_zero (S := S1024x1024) _ hz2, View.readAt_eq_ld, View.ld_unit_zero (S := S1024x512) hz2,
      View.ld_unit_zero (S := S1024x512) hz2, View.ld_unit_zero (S := S1x1024) hz2, View.ld_unit_zero (S := S1024x1024) hz2,
      read_reset (S := S1024x1024) _ _ _ hz2]
    rfl
  · iexists _; isplitr; swap; (· iexact H8)
    ipureintro
    sl_unfold_words
    rw [read_whole_store _ _ hz2]
    simp only [View.readAt_eq_ld, View.ld_unit_zero (S := S1024x512) hz2, View.ld_unit_zero (S := S1024x512) hz2,
      View.ld_unit_zero (S := S1024x1024) hz2, read_reset (S := S1024x1024) _ _ _ hz2]
    rfl

/-! # The region's proof data: what every buffer holds, point by point -/

/-- The first contraction block, in closed form over the grid's points. -/
theorem hfirst2 : ∀ t : Fin cfg2.N, first2 (grid2.coords t) = 1#1 ↔ t.val % 8 = 0 :=
  (by decide +kernel : ∀ t : Fin grid2.N, first2 (grid2.coords t) = 1#1 ↔ t.val % 8 = 0)
/-- The last contraction block, in closed form over the grid's points. -/
theorem hlast2 : ∀ t : Fin cfg2.N, k2_cond2 (grid2.coords t) = 1#1 ↔ t.val % 8 = 7 :=
  (by decide +kernel : ∀ t : Fin grid2.N, k2_cond2 (grid2.coords t) = 1#1 ↔ t.val % 8 = 7)

section Region
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The accumulator after point `n`: the running sum of block products since the last first contraction block. -/
def accAt2 (c : Dev nD) : (n : ℕ) → n < cfg2.N → Vec F S1024x1024 .f32
  | 0, h => acc2 (grid2.coords ⟨0, h⟩) (iblk2 V c 0 ⟨0, h⟩) (iblk2 V c 1 ⟨0, h⟩) k2_pay1
  | n + 1, h => acc2 (grid2.coords ⟨n + 1, h⟩) (iblk2 V c 0 ⟨n + 1, h⟩) (iblk2 V c 1 ⟨n + 1, h⟩) (accAt2 c n (Nat.lt_of_succ_lt h))

/-- At every point the body leaves the accumulator at `accAt2`, given that it found what the point before left
    (at the grid's first point, whatever it found: the contraction index is 0 there and the accumulator is refilled). -/
theorem acc_step2 (c : Dev nD) (t : Fin cfg2.N) (s : Vec F S1024x1024 .f32)
    (hs : ∀ h : t.val ≠ 0, s = accAt2 V c (t.val - 1) (Nat.lt_of_le_of_lt (Nat.sub_le _ _) t.isLt)) :
    acc2 (grid2.coords t) (iblk2 V c 0 t) (iblk2 V c 1 t) s = accAt2 V c t.val t.isLt := by
  obtain ⟨n, hn⟩ := t
  cases n with
  | zero =>
    have h0 : first2 (grid2.coords ⟨0, hn⟩) = 1#1 := (hfirst2 ⟨0, hn⟩).mpr (Nat.zero_mod _)
    show acc2 _ _ _ s = acc2 _ _ _ k2_pay1
    unfold acc2 seed2; rw [if_pos h0, if_pos h0]
  | succ n => rw [hs (Nat.succ_ne_zero n)]; rfl

/-- The output block the last contraction block's point writes: the epilogue of the finished accumulator. -/
def outAt2 (c : Dev nD) (t : Fin cfg2.N) : Vec F S1024x1024 .f32 :=
  k2_pay3 (accAt2 V c t.val t.isLt) (iblk2 V c 2 t) (iblk2 V c 3 t) (iblk2 V c 6 t) (iblk2 V c 5 t) (iblk2 V c 4 t)

/-- The rest of the core's scoped buffers, unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant before position `n`: the accumulator scratch at what the point before left (at anything
    before the first point), beside the other scoped buffers. -/
def PhiS2 (c : Dev nD) : (n : ℕ) → n ≤ cfg2.N → sProp 𝕄
  | 0, _ => iprop((∃ s, owns (c : Thread nD τ) (Memref.whole cc2_scratch0) fullShare s) ∗ rest2 c)
  | n + 1, hn => iprop(owns (c : Thread nD τ) (Memref.whole cc2_scratch0) fullShare (accAt2 V c n hn) ∗ rest2 c)

/-- Either way the scratch holds something, and after the first point what the point before left. -/
theorem PhiS2_elim (c : Dev nD) (t : Fin cfg2.N) :
    PhiS2 V c t.val (Nat.le_of_lt t.isLt) ⊢ (iprop(∃ s : Vec F S1024x1024 .f32,
      ⌜∀ h : t.val ≠ 0, s = accAt2 V c (t.val - 1) (Nat.lt_of_le_of_lt (Nat.sub_le _ _) t.isLt)⌝
        ∗ owns (c : Thread nD τ) (Memref.whole cc2_scratch0) fullShare s ∗ rest2 c) : sProp 𝕄) := by
  obtain ⟨n, hn⟩ := t
  cases n with
  | zero =>
    show iprop((∃ s, owns (c : Thread nD τ) (Memref.whole cc2_scratch0) fullShare s) ∗ rest2 c) ⊢ _
    iintro ⟨⟨%s, HS⟩, Hr⟩
    iexists s; isplitr; · ipureintro; intro h; exact absurd rfl h
    isplitl [HS]; · iexact HS
    iexact Hr
  | succ n =>
    show iprop(owns (c : Thread nD τ) (Memref.whole cc2_scratch0) fullShare (accAt2 V c n _) ∗ rest2 c) ⊢ _
    iintro ⟨HS, Hr⟩
    iexists _; isplitr; · ipureintro; intro _; rfl
    isplitl [HS]; · iexact HS
    iexact Hr

/-- The proof data of the region on core `c`: the arrays as the region finds them; after the body at point `t` each
    input's buffer at its block and the output's at the epilogue of the accumulator; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Region

end Cert.Kernel.Hand

end
-- ==== Proof.KBody2.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.KData2
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # The body obligation, at a generic point -/

/-- What the body is called with at point `t`: the invariant, the core's dues, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem live2_0 (c : Dev nD) (t : Fin cfg2.N) :
    (dat2 V c).leavesExact 0 t = owns (c : Thread nD τ) (st2_0 t) fullShare (iblk2 V c 0 t) := by
  rw [← after2_0 V c t]
theorem live2_1 (c : Dev nD) (t : Fin cfg2.N) :
    (dat2 V c).leavesExact 1 t = owns (c : Thread nD τ) (st2_1 t) fullShare (iblk2 V c 1 t) := by
  rw [← after2_1 V c t]
theorem live2_2 (c : Dev nD) (t : Fin cfg2.N) :
    (dat2 V c).leavesExact 2 t = owns (c : Thread nD τ) (st2_2 t) fullShare (iblk2 V c 2 t) := by
  rw [← after2_2 V c t]
theorem live2_3 (c : Dev nD) (t : Fin cfg2.N) :
    (dat2 V c).leavesExact 3 t = owns (c : Thread nD τ) (st2_3 t) fullShare (iblk2 V c 3 t) := by
  rw [← after2_3 V c t]
theorem live2_4 (c : Dev nD) (t : Fin cfg2.N) :
    (dat2 V c).leavesExact 4 t = owns (c : Thread nD τ) (st2_4 t) fullShare (iblk2 V c 4 t) := by
  rw [← after2_4 V c t]
theorem live2_5 (c : Dev nD) (t : Fin cfg2.N) :
    (dat2 V c).leavesExact 5 t = owns (c : Thread nD τ) (st2_5 t) fullShare (iblk2 V c 5 t) := by
  rw [← after2_5 V c t]
theorem live2_6 (c : Dev nD) (t : Fin cfg2.N) :
    (dat2 V c).leavesExact 6 t = owns (c : Thread nD τ) (st2_6 t) fullShare (iblk2 V c 6 t) := by
  rw [← after2_6 V c t]

set_option maxHeartbeats 4000000 in
/-- The body at any point. Every input's buffer holds its block; the scratch holds what the point before left (anything
    at the grid's first point, where it is refilled); the kernel's triple applies; the scratch is taken back at this
    point's running sum; the output's buffer is handed back written where the contraction ends and untouched elsewhere. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = iprop(owns (c : Thread nD τ) (Memref.whole cc2_scratch0) fullShare (accAt2 V c t.val t.isLt) ∗ rest2 c) from rfl,
    show (dat2 V c).Φ t.castSucc = PhiS2 V c t.val (Nat.le_of_lt t.isLt) from rfl,
    live2_0, live2_1, live2_2, live2_3, live2_4, live2_5, live2_6]
  refine (sep_mono (PhiS2_elim V c t) .rfl).trans ?_
  by_cases hl : t.val % 8 = 7
  · have hc : k2_cond2 (grid2.coords t) = 1#1 := (hlast2 t).mpr hl
    have hi : cfg2.idle 7 (cfg2.grid.coords t) = false := by
      show (!(k2_cond2 (grid2.coords t) == 1#1)) = false
      rw [hc]; rfl
    rw [show (dat2 V c).leavesExact 7 t = owns (c : Thread nD τ) (st2_7 t) fullShare (outAt2 V c t) from by
      unfold Dat.leavesExact; rw [hi, after2_7]]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step2 V c t s hs
    have e2 : out2 (grid2.coords t) (iblk2 V c 0 t) (iblk2 V c 1 t) s (iblk2 V c 2 t) (iblk2 V c 3 t) (iblk2 V c 4 t)
        (iblk2 V c 5 t) (iblk2 V c 6 t) ((dat2 V c).before 7 t d7) = outAt2 V c t := by
      unfold out2 outAt2; rw [if_pos hc, e1]
    iapply (sound_kernel2 c Set.univ (grid2.coords t) _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t)
      ((dat2 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owns_congr e2); iexact H7
  · have hc : ¬ k2_cond2 (grid2.coords t) = 1#1 := fun h => hl ((hlast2 t).mp h)
    have hi : cfg2.idle 7 (cfg2.grid.coords t) = true := by
      show (!(k2_cond2 (grid2.coords t) == 1#1)) = true
      rw [Bool.not_eq_true', beq_eq_false_iff_ne]; exact hc
    have hf : (cfg2.win 7).flush t = false := Bool.eq_false_iff.mpr (fun h => hl ((flush2_7 t).mp h))
    rw [Dat.leavesExact_idle (dat2 V c) 7 t hi hf]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step2 V c t s hs
    have e2 : out2 (grid2.coords t) (iblk2 V c 0 t) (iblk2 V c 1 t) s (iblk2 V c 2 t) (iblk2 V c 3 t) (iblk2 V c 4 t)
        (iblk2 V c 5 t) (iblk2 V c 6 t) ((dat2 V c).before 7 t d7) = (dat2 V c).before 7 t d7 := by
      unfold out2; rw [if_neg hc]
    iapply (sound_kernel2 c Set.univ (grid2.coords t) _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t)
      ((dat2 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iapply (owns_congr e2); iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KFrame.lean ====
import proofs.«128298_j33311766347902_2_alg».proof.Proof.Gen.Kernel.Launch
import proofs.«128298_j33311766347902_2_alg».proof.Proof.Gen.Kernel.Skeleton
import proofs.«128298_j33311766347902_2_alg».proof.Proof.Gen.Kernel.Points
import proofs.«128298_j33311766347902_2_alg».proof.Proof.Gen.Kernel.Regions
import proofs.«128298_j33311766347902_2_alg».proof.Proof.KBody0
import proofs.«128298_j33311766347902_2_alg».proof.Proof.KBody1
import proofs.«128298_j33311766347902_2_alg».proof.Proof.KBody2
import Idealize.ShloMosaic.Lib.Pipeline.RegionsLoop
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

/-! # The three layers as regions of one run

Between two items of the program every unscoped buffer of a core is held whole at a known valuation: the launch
contents, then each host stretch applied, then — after a layer's region — that layer's output array at what the
region's pipeline wrote back. -/

variable (m : (ℓ : Loc nD τ sig) → Buf (Elt F) ℓ)

/-- The contents layer 1's region is entered from. -/
abbrev U19 (c : Dev nD) (b : Ref sig .tc) : Buf (Elt F) ((c : Thread nD τ).loc b) := V19 m c b
/-- What layer 1's region leaves in its output array. -/
def o20 (c : Dev nD) : Buf (Elt F) ((c : Thread nD τ).loc main_v23) := (dat0 (U19 m) c).arrAt 7 cfg0.N
/-- After layer 1's region, then the host stretch before layer 2's. -/
abbrev W20 (c : Dev nD) : Valuation τ sig (Elt F) := Function.update (V19 m c) main_v23 (o20 m c)
abbrev W21 (c : Dev nD) : Valuation τ sig (Elt F) := StableHlo.after hostOps1 (W20 m c)
abbrev U21 (c : Dev nD) (b : Ref sig .tc) : Buf (Elt F) ((c : Thread nD τ).loc b) := W21 m c b
/-- What layer 2's region leaves in its output array. -/
def o22 (c : Dev nD) : Buf (Elt F) ((c : Thread nD τ).loc main_v29) := (dat1 (U21 m) c).arrAt 7 cfg1.N
abbrev W22 (c : Dev nD) : Valuation τ sig (Elt F) := Function.update (W21 m c) main_v29 (o22 m c)
abbrev W23 (c : Dev nD) : Valuation τ sig (Elt F) := StableHlo.after hostOps2 (W22 m c)
abbrev U23 (c : Dev nD) (b : Ref sig .tc) : Buf (Elt F) ((c : Thread nD τ).loc b) := W23 m c b
/-- What layer 3's region leaves in its output array. -/
def o24 (c : Dev nD) : Buf (Elt F) ((c : Thread nD τ).loc main_v35) := (dat2 (U23 m) c).arrAt 7 cfg2.N

/-- What the three regions leave, as the one family the valuations between items are written over. -/
def outs : Outs (F := F) := fun _ r c =>
  if h : r = main_v23 then h ▸ o20 m c
  else if h : r = main_v29 then h ▸ o22 m c
  else if h : r = main_v35 then h ▸ o24 m c
  else V0 m c r

theorem outs_20 (c : Dev nD) : outs m 20 main_v23 c = o20 m c := by unfold outs; rw [dif_pos rfl]
theorem outs_22 (c : Dev nD) : outs m 22 main_v29 c = o22 m c := by
  unfold outs; rw [dif_neg (by decide), dif_pos rfl]
theorem outs_24 (c : Dev nD) : outs m 24 main_v35 c = o24 m c := by
  unfold outs; rw [dif_neg (by decide), dif_neg (by decide), dif_pos rfl]

theorem V20_eq (c : Dev nD) : V20 m (outs m) c = W20 m c := by
  show Function.update (V19 m c) main_v23 (outs m 20 main_v23 c) = _; rw [outs_20]
theorem V21_eq (c : Dev nD) : V21 m (outs m) c = W21 m c := by
  show StableHlo.after hostOps1 (V20 m (outs m) c) = _; rw [V20_eq]
theorem V22_eq (c : Dev nD) : V22 m (outs m) c = W22 m c := by
  show Function.update (V21 m (outs m) c) main_v29 (outs m 22 main_v29 c) = _; rw [outs_22, V21_eq]
theorem V23_eq (c : Dev nD) : V23 m (outs m) c = W23 m c := by
  show StableHlo.after hostOps2 (V22 m (outs m) c) = _; rw [V22_eq]
theorem V24_eq (c : Dev nD) : V24 m (outs m) c = Function.update (W23 m c) main_v35 (o24 m c) := by
  show Function.update (V23 m (outs m) c) main_v35 (outs m 24 main_v35 c) = _; rw [outs_24, V23_eq]

/-- Every region's proof data, each at its region's entry contents. -/
def pdats : (p : Fin 3) → (c : Dev nD) → Dat τ (Elt F) Unit ℕ (UR sig nD τ) ℕ (cfgs p) c
  | ⟨0, _⟩ => fun c => dat0 (U19 m) c
  | ⟨1, _⟩ => fun c => dat1 (U21 m) c
  | ⟨2, _⟩ => fun c => dat2 (U23 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- A whole buffer owned at known contents is held at some contents, -/
theorem owns_whole_some (c : Dev nD) (b : Ref sig .tc) (s : b.ty.Contents (Elt F)) :
    (owns (c : Thread nD τ) (Memref.whole b) fullShare s : sProp 𝕄)
      ⊢ iprop(∃ f : Buf (Elt F) ((c : Thread nD τ).loc b), ((c : Thread nD τ).loc b) ↦{fullShare} f) := by
  rw [owns_whole_eq]; iintro ⟨%f, -, H⟩; iexists f; iexact H
/-- and held at some contents it is owned at them. -/
theorem some_owns_whole (c : Dev nD) (b : Ref sig .tc) (f : Buf (Elt F) ((c : Thread nD τ).loc b)) :
    ((((c : Thread nD τ).loc b) ↦{fullShare} f) : sProp 𝕄) ⊢ owns (c : Thread nD τ) (Memref.whole b) fullShare f := by
  rw [owns_whole_eq]; iintro H; iexists f; isplitr; · ipureintro; rfl
  iexact H

/-- After the last point the scratch holds something. -/
theorem PhiS0_weaken (V) (c : Dev nD) (n : ℕ) (h : n ≤ cfg0.N) :
    PhiS0 (F := F) V c n h ⊢ iprop((∃ s, owns (c : Thread nD τ) (Memref.whole cc0_scratch0) fullShare s) ∗ rest0 c) := by
  cases n with
  | zero => exact .rfl
  | succ n =>
    show iprop(owns (c : Thread nD τ) (Memref.whole cc0_scratch0) fullShare (accAt0 V c n _) ∗ rest0 c) ⊢ _
    iintro ⟨Hs, Hr⟩; isplitl [Hs]; · iexists _; iexact Hs
    iexact Hr
theorem PhiS1_weaken (V) (c : Dev nD) (n : ℕ) (h : n ≤ cfg1.N) :
    PhiS1 (F := F) V c n h ⊢ iprop((∃ s, owns (c : Thread nD τ) (Memref.whole cc1_scratch0) fullShare s) ∗ rest1 c) := by
  cases n with
  | zero => exact .rfl
  | succ n =>
    show iprop(owns (c : Thread nD τ) (Memref.whole cc1_scratch0) fullShare (accAt1 V c n _) ∗ rest1 c) ⊢ _
    iintro ⟨Hs, Hr⟩; isplitl [Hs]; · iexists _; iexact Hs
    iexact Hr
theorem PhiS2_weaken (V) (c : Dev nD) (n : ℕ) (h : n ≤ cfg2.N) :
    PhiS2 (F := F) V c n h ⊢ iprop((∃ s, owns (c : Thread nD τ) (Memref.whole cc2_scratch0) fullShare s) ∗ rest2 c) := by
  cases n with
  | zero => exact .rfl
  | succ n =>
    show iprop(owns (c : Thread nD τ) (Memref.whole cc2_scratch0) fullShare (accAt2 V c n _) ∗ rest2 c) ⊢ _
    iintro ⟨Hs, Hr⟩; isplitl [Hs]; · iexists _; iexact Hs
    iexact Hr

/-! ## At a region's exit: its arrays at what the pipeline leaves, every other buffer as entered -/

set_option maxHeartbeats 4000000 in
theorem hF0 (c : Dev nD) (w : Fin cfg0.W) : (pdats m 0 c).arrAt w cfg0.N = V20 m (outs m) c (Pipeline.arrRef spec0 w) := by
  rw [V20_eq]
  have hin : ∀ w' : Fin cfg0.W, (cfg0.win w').isOut = false → (Pipeline.arrRef spec0 w' : Ref sig .tc) ≠ main_v23 →
      (pdats m 0 c).arrAt w' cfg0.N = Function.update (V19 m c) main_v23 (o20 m c) (Pipeline.arrRef spec0 w') := by
    intro w' hw hne
    rw [Function.update_of_ne (fun h => hne (Proc.devRef_injective _ h))]
    exact ((pdats m 0 c).arrAt_in w' hw cfg0.N).trans (A_eq0 (U19 m) c w')
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (pdats m 0 c).arrAt 7 cfg0.N = Function.update (V19 m c) (main_v23 : DevRef τ sig) (o20 m c) (main_v23 : DevRef τ sig)
    rw [Function.update_self]
    unfold o20
    rfl
theorem hrest0 (c : Dev nD) : ∀ b, b ∉ Finset.univ.image (Pipeline.arrRef spec0) → V20 m (outs m) c b = U19 m c b := by
  intro b hb
  rw [V20_eq]
  exact Function.update_of_ne (fun h => hb (Finset.mem_image.mpr ⟨7, Finset.mem_univ _, (Proc.devRef_injective _ h).symm⟩)) _ _
set_option maxHeartbeats 4000000 in
theorem hF1 (c : Dev nD) (w : Fin cfg1.W) : (pdats m 1 c).arrAt w cfg1.N = V22 m (outs m) c (Pipeline.arrRef spec1 w) := by
  rw [V22_eq]
  have hin : ∀ w' : Fin cfg1.W, (cfg1.win w').isOut = false → (Pipeline.arrRef spec1 w' : Ref sig .tc) ≠ main_v29 →
      (pdats m 1 c).arrAt w' cfg1.N = Function.update (W21 m c) main_v29 (o22 m c) (Pipeline.arrRef spec1 w') := by
    intro w' hw hne
    rw [Function.update_of_ne (fun h => hne (Proc.devRef_injective _ h))]
    exact ((pdats m 1 c).arrAt_in w' hw cfg1.N).trans (A_eq1 (U21 m) c w')
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (pdats m 1 c).arrAt 7 cfg1.N = Function.update (W21 m c) (main_v29 : DevRef τ sig) (o22 m c) (main_v29 : DevRef τ sig)
    rw [Function.update_self]
    unfold o22
    rfl
theorem hrest1 (c : Dev nD) : ∀ b, b ∉ Finset.univ.image (Pipeline.arrRef spec1) → V22 m (outs m) c b = U21 m c b := by
  intro b hb
  rw [V22_eq]
  exact Function.update_of_ne (fun h => hb (Finset.mem_image.mpr ⟨7, Finset.mem_univ _, (Proc.devRef_injective _ h).symm⟩)) _ _
set_option maxHeartbeats 4000000 in
theorem hF2 (c : Dev nD) (w : Fin cfg2.W) : (pdats m 2 c).arrAt w cfg2.N = V24 m (outs m) c (Pipeline.arrRef spec2 w) := by
  rw [V24_eq]
  have hin : ∀ w' : Fin cfg2.W, (cfg2.win w').isOut = false → (Pipeline.arrRef spec2 w' : Ref sig .tc) ≠ main_v35 →
      (pdats m 2 c).arrAt w' cfg2.N = Function.update (W23 m c) main_v35 (o24 m c) (Pipeline.arrRef spec2 w') := by
    intro w' hw hne
    rw [Function.update_of_ne (fun h => hne (Proc.devRef_injective _ h))]
    exact ((pdats m 2 c).arrAt_in w' hw cfg2.N).trans (A_eq2 (U23 m) c w')
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (pdats m 2 c).arrAt 7 cfg2.N = Function.update (W23 m c) (main_v35 : DevRef τ sig) (o24 m c) (main_v35 : DevRef τ sig)
    rw [Function.update_self]
    unfold o24
    rfl
theorem hrest2 (c : Dev nD) : ∀ b, b ∉ Finset.univ.image (Pipeline.arrRef spec2) → V24 m (outs m) c b = U23 m c b := by
  intro b hb
  rw [V24_eq]
  exact Function.update_of_ne (fun h => hb (Finset.mem_image.mpr ⟨7, Finset.mem_univ _, (Proc.devRef_injective _ h).symm⟩)) _ _

set_option backward.isDefEq.respectTransparency.types false in
/-- Layer 1's region over the thread state: entered from every unscoped buffer at the contents before it, left with the
    layer's output array at what the pipeline wrote back and every other buffer as entered. Its arrays are split out of
    the unscoped buffers and put back at the exit contents; the accumulator scratch comes out of the scoped rest into
    the invariant and goes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U19 m) c).loose
  hwaits := Pipeline.hwaits_of_owed_zero _ _ _ _ L lv 0 fun _ _ => rfl
  pre c := iprop(StableHlo.held (c : Thread nD τ) (Pipeline.ucRefs τ sig) (V19 m c) ∗ R c)
  post c := iprop(StableHlo.held (c : Thread nD τ) (Pipeline.ucRefs τ sig) (V20 m (outs m) c) ∗ R c)
  X c := iprop(emp)
  Y c := iprop(emp)
  Z c := iprop(Pipeline.unscopedRest (Ix := Unit) (Name := ℕ) (U := UR sig nD τ) (Lvl := ℕ) spec0 c (U19 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = iprop((∃ s, owns (c : Thread nD τ) (Memref.whole cc0_scratch0) fullShare s) ∗ rest0 c) from rfl,
      show (Pipeline.scopedRest (Pipeline.pin (pcfgs (F := F)) adm 0).spec c : sProp 𝕄) = _ from
        scopedRest0_split (Ix := Unit) (Val := Elt F) (Name := ℕ) (U := UR sig nD τ) (Lvl := ℕ) c]
    iintro ⟨-, -, ⟨%f, Hs⟩, Hr⟩
    isplitl [Hs]
    · iexists f; iapply (some_owns_whole c cc0_scratch0 f); iexact Hs
    iexact Hr
  hout c := by
    rw [Pipeline.ownSems0_none, show (Pipeline.scopedRest (Pipeline.pin (pcfgs (F := F)) adm 0).spec c : sProp 𝕄) = _ from
        scopedRest0_split (Ix := Unit) (Val := Elt F) (Name := ℕ) (U := UR sig nD τ) (Lvl := ℕ) c]
    refine (show (pdats m 0 c).Φ (Fin.last (Pipeline.pin (pcfgs (F := F)) adm 0).N) ⊢ _ from
      PhiS0_weaken (F := F) (U19 m) c (Fin.last cfg0.N).val (Nat.le_of_lt_succ (Fin.last cfg0.N).isLt)).trans ?_
    iintro ⟨⟨%s, Hs⟩, Hr⟩
    isplitr; · iempintro
    isplitr; · iempintro
    isplitl [Hs]
    · iapply (owns_whole_some c cc0_scratch0 s); iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U19 m c) (fun b => V20 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Layer 2's region over the thread state: entered from every unscoped buffer at the contents before it, left with the
    layer's output array at what the pipeline wrote back and every other buffer as entered. Its arrays are split out of
    the unscoped buffers and put back at the exit contents; the accumulator scratch comes out of the scoped rest into
    the invariant and goes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U21 m) c).loose
  hwaits := Pipeline.hwaits_of_owed_zero _ _ _ _ L lv 1 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(emp)
  Y c := iprop(emp)
  Z c := iprop(Pipeline.unscopedRest (Ix := Unit) (Name := ℕ) (U := UR sig nD τ) (Lvl := ℕ) spec1 c (U21 m c) ∗ ∃ r, prngReg c r)
  hentry c := by
    rw [Pipeline.ownSems0_none, V21_eq]
    have hsplit := Pipeline.arrays_of_unscopedBufs (p := 1) (pcfgs (F := F)) adm (pdats m) launch1.win launch1.arr_whole c
      ((pdats m 1 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = iprop((∃ s, owns (c : Thread nD τ) (Memref.whole cc1_scratch0) fullShare s) ∗ rest1 c) from rfl,
      show (Pipeline.scopedRest (Pipeline.pin (pcfgs (F := F)) adm 1).spec c : sProp 𝕄) = _ from
        scopedRest1_split (Ix := Unit) (Val := Elt F) (Name := ℕ) (U := UR sig nD τ) (Lvl := ℕ) c]
    iintro ⟨-, -, ⟨%f, Hs⟩, Hr⟩
    isplitl [Hs]
    · iexists f; iapply (some_owns_whole c cc1_scratch0 f); iexact Hs
    iexact Hr
  hout c := by
    rw [Pipeline.ownSems0_none, show (Pipeline.scopedRest (Pipeline.pin (pcfgs (F := F)) adm 1).spec c : sProp 𝕄) = _ from
        scopedRest1_split (Ix := Unit) (Val := Elt F) (Name := ℕ) (U := UR sig nD τ) (Lvl := ℕ) c]
    refine (show (pdats m 1 c).Φ (Fin.last (Pipeline.pin (pcfgs (F := F)) adm 1).N) ⊢ _ from
      PhiS1_weaken (F := F) (U21 m) c (Fin.last cfg1.N).val (Nat.le_of_lt_succ (Fin.last cfg1.N).isLt)).trans ?_
    iintro ⟨⟨%s, Hs⟩, Hr⟩
    isplitr; · iempintro
    isplitr; · iempintro
    isplitl [Hs]
    · iapply (owns_whole_some c cc1_scratch0 s); iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U21 m c) (fun b => V22 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Layer 3's region over the thread state: entered from every unscoped buffer at the contents before it, left with the
    layer's output array at what the pipeline wrote back and every other buffer as entered. Its arrays are split out of
    the unscoped buffers and put back at the exit contents; the accumulator scratch comes out of the scoped rest into
    the invariant and goes back; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U23 m) c).loose
  hwaits := Pipeline.hwaits_of_owed_zero _ _ _ _ L lv 2 fun _ _ => rfl
  pre c := iprop(StableHlo.held (c : Thread nD τ) (Pipeline.ucRefs τ sig) (V23 m (outs m) c) ∗ R c)
  post c := iprop(StableHlo.held (c : Thread nD τ) (Pipeline.ucRefs τ sig) (V24 m (outs m) c) ∗ R c)
  X c := iprop(emp)
  Y c := iprop(emp)
  Z c := iprop(Pipeline.unscopedRest (Ix := Unit) (Name := ℕ) (U := UR sig nD τ) (Lvl := ℕ) spec2 c (U23 m c) ∗ ∃ r, prngReg c r)
  hentry c := by
    rw [Pipeline.ownSems0_none, V23_eq]
    have hsplit := Pipeline.arrays_of_unscopedBufs (p := 2) (pcfgs (F := F)) adm (pdats m) launch2.win launch2.arr_whole c
      ((pdats m 2 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = iprop((∃ s, owns (c : Thread nD τ) (Memref.whole cc2_scratch0) fullShare s) ∗ rest2 c) from rfl,
      show (Pipeline.scopedRest (Pipeline.pin (pcfgs (F := F)) adm 2).spec c : sProp 𝕄) = _ from
        scopedRest2_split (Ix := Unit) (Val := Elt F) (Name := ℕ) (U := UR sig nD τ) (Lvl := ℕ) c]
    iintro ⟨-, -, ⟨%f, Hs⟩, Hr⟩
    isplitl [Hs]
    · iexists f; iapply (some_owns_whole c cc2_scratch0 f); iexact Hs
    iexact Hr
  hout c := by
    rw [Pipeline.ownSems0_none, show (Pipeline.scopedRest (Pipeline.pin (pcfgs (F := F)) adm 2).spec c : sProp 𝕄) = _ from
        scopedRest2_split (Ix := Unit) (Val := Elt F) (Name := ℕ) (U := UR sig nD τ) (Lvl := ℕ) c]
    refine (show (pdats m 2 c).Φ (Fin.last (Pipeline.pin (pcfgs (F := F)) adm 2).N) ⊢ _ from
      PhiS2_weaken (F := F) (U23 m) c (Fin.last cfg2.N).val (Nat.le_of_lt_succ (Fin.last cfg2.N).isLt)).trans ?_
    iintro ⟨⟨%s, Hs⟩, Hr⟩
    isplitr; · iempintro
    isplitr; · iempintro
    isplitl [Hs]
    · iapply (owns_whole_some c cc2_scratch0 s); iexact Hs
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U23 m c) (fun b => V24 m (outs m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

variable (ρ : Dev nD → PrngReg)

/-- At the launch every core's generator register and its dues (nothing) ride beside the buffers. -/
theorem launch_rest (c : Dev nD) :
    (iprop(unscopedSems0 c ∗ owes (c : Thread nD τ) ((0 : Dev nD → CellTallies nD τ sig Unit) c) ∅ ∗ Pipeline.launchCred (0 : Dev nD → CellTallies nD τ sig Unit) c
        ∗ prngReg c (ρ c) ∗ emp) : sProp 𝕄) ⊢ R c := by
  iintro ⟨-, HO, -, Hp, -⟩
  isplitl [Hp]; · iexists _; iexact Hp
  iexists ∅; iexact HO

set_option backward.isDefEq.respectTransparency.types false in
set_option maxHeartbeats 4000000 in
/-- THE FRAME, at any float values: from any memory with zero counters every weakly fair execution of the program
    terminates, nothing faulting, and every final memory holds each argument array as launched. The three layers'
    regions are the records above; the host stretches between them and the bookkeeping of the launch are the
    generated conditional frame's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_cond (F := F) (m := m) (Ix := Unit) (U := UR sig nD τ) (Lvl := ℕ) (EP := emb₁) (ι := ()) (𝒱₀ := 𝒱₀) (L := L) (lv := lv)
    (hL := fun _ _ => rfl) (ρ := ρ) (outs := outs m) (pdats := pdats m)
    (O₀ := (0 : Dev nD → CellTallies nD τ sig Unit)) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => R c) : sProp 𝕄) := bigSep_mono fun c _ => launch_rest ρ c
      iintro ⟨H, Hl⟩
      ihave H' := hmono $$ H
      imodintro
      iexact H')
    (hE3 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

end Cert.Kernel.Hand

end
-- ==== Proof.KIShared.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Whole-buffer stores and loads

Every load and store of these kernels goes through the whole-shape rectangle at zero offsets. -/

theorem hz2 : (![0, 0] : Fin 2 → Nat) = fun _ => 0 := by
  funext a; fin_cases a <;> rfl

/-- A buffer overwritten whole under a condition reads the payload where the condition holds, what it held otherwise. -/
theorem read_reset {sig : RefSig} {κ : Kind} {sp : Space} {S : Shape} {e : EltTy} {Val : EltTy → Type} [∀ e, Nonempty (Val e)]
    (v : View sig κ sp S e) (f : v.ty.Contents Val) (p : Prop) [Decidable p] {off : Fin S.rank → Nat}
    (hz : off = fun _ => 0) (inb : ∀ a, off a + S.size a ≤ S.size a) (z : S.Idx → Val e) :
    v.read Val (if hc : p then v.writes Val f [⟨Rect.unit off S.size inb, z⟩] else f) = if p then z else v.read Val f := by
  by_cases h : p
  · rw [dif_pos h, if_pos h, View.read_writes_eq_canon _ _ _ (fun y => ⟨_, List.mem_singleton_self _, View.mem_set_unit_zero hz inb y⟩),
      View.canon_unit_zero hz]
  · rw [dif_neg h, if_neg h]

/-- ONE store through the whole-shape rectangle, over anything, reads its payload. -/
theorem read_whole_store {sig : RefSig} {κ : Kind} {sp : Space} {S : Shape} {e : EltTy} {Val : EltTy → Type} [∀ e, Nonempty (Val e)]
    (v : View sig κ sp S e) (f : v.ty.Contents Val) {off : Fin S.rank → Nat}
    (hz : off = fun _ => 0) (inb : ∀ a, off a + S.size a ≤ S.size a) (z : S.Idx → Val e) :
    v.read Val (v.writes Val f [⟨Rect.unit off S.size inb, z⟩]) = z := by
  rw [View.read_writes_eq_canon _ _ _ (fun y => ⟨_, List.mem_singleton_self _, View.mem_set_unit_zero hz inb y⟩), View.canon_unit_zero hz]

/-- Equal contents, the same ownership. -/
theorem owns_congr {c : Thread nD τ} {sp : Space} {sh : Shape} {e : EltTy} {m : Memref sig c.2.kind sp sh e} {q : PosShare TreeShare}
    {X X' : sh.Idx → Elt F e} (h : X = X') : (owns c m q X : sProp 𝕄) ⊢ owns c m q X' := by
  subst h; exact .rfl

end Cert.KernelIdeal.Hand

end
-- ==== Proof.KIData0.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.KIShared
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One layer's kernel, one grid point: what the body leaves

The grid is (row block, column block, contraction block). At a point the body
* refills the accumulator with zeros when the contraction index is 0,
* adds to it the product of the point's activation block and weight block,
* and, when the contraction index is the last, writes the output block from the finished accumulator: plus the bias,
  minus the running mean, times gain over root variance, plus the offset (for a hidden layer, the sign of that). -/

/-- Whether the point is the first along the contracted axis (the kernel's own test, spelt as it computes it). -/
def first0 (i : grid0.Coords) : BitVec 1 :=
  Scalar.cmpi .ne (Scalar.extui (Scalar.cmpi .eq (BitVec.ofNat 32 (i 2).val) (0#32 : BitVec 32)) : BitVec 32) (0#32 : BitVec 32)

/-- What the accumulation starts from at a point: zeros at the first contraction block, else what the point before left. -/
def seed0 (i : grid0.Coords) (s : Vec F S1024x2048 .f32) : Vec F S1024x2048 .f32 :=
  if first0 i = 1#1 then k0_pay1 else s

/-- The accumulator after the point: the seed plus the product of the two blocks. -/
def acc0 (i : grid0.Coords) (x : Vec F S1024x256 .f32) (w : Vec F S2048x256 .bf16) (s : Vec F S1024x2048 .f32) :
    Vec F S1024x2048 .f32 :=
  k0_pay2 x w (seed0 i s)

/-- The output block after the point: written from the finished accumulator at the last contraction block, else untouched. -/
def out0 (i : grid0.Coords) (x : Vec F S1024x256 .f32) (w : Vec F S2048x256 .bf16) (s : Vec F S1024x2048 .f32)
    (b g be mu var : Vec F S1x2048 .f32) (y : Vec F S1024x2048 .bf16) : Vec F S1024x2048 .bf16 :=
  if k0_cond2 i = 1#1 then k0_pay3 (acc0 i x w s) b g var mu be else y

set_option maxHeartbeats 4000000 in
/-- The body at any point, on whole staging memrefs whose contents read `x w b g be mu var y` and a scratch reading `s`:
    it runs to its continuation with the inputs as they were, the output block at `out0` and the scratch at `acc0`. -/
theorem sound_kernel0 (c : Dev nD) (E : Set ℕ) (i : grid0.Coords)
    (arg3 : Memref sig .tc .vmem S1024x256 .f32) (harg3 : arg3.IsWhole) (arg4 : Memref sig .tc .vmem S2048x256 .bf16) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1024x2048 .bf16) (harg10 : arg10.IsWhole)
    (arg11 : Memref sig .tc .vmem S1024x2048 .f32) (harg11 : arg11.IsWhole)
    (x : Vec F S1024x256 .f32) (w : Vec F S2048x256 .bf16) (b g be mu var : Vec F S1x2048 .f32)
    (y : Vec F S1024x2048 .bf16) (s : Vec F S1024x2048 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare g
        ∗ owns (c : Thread nD τ) arg7 fullShare be ∗ owns (c : Thread nD τ) arg8 fullShare mu
        ∗ owns (c : Thread nD τ) arg9 fullShare var ∗ owns (c : Thread nD τ) arg10 fullShare y
        ∗ owns (c : Thread nD τ) arg11 fullShare s
        ∗ (iprop(owns (c : Thread nD τ) arg3 fullShare x ∗ owns (c : Thread nD τ) arg4 fullShare w
            ∗ owns (c : Thread nD τ) arg5 fullShare b ∗ owns (c : Thread nD τ) arg6 fullShare g
            ∗ owns (c : Thread nD τ) arg7 fullShare be ∗ owns (c : Thread nD τ) arg8 fullShare mu
            ∗ owns (c : Thread nD τ) arg9 fullShare var
            ∗ owns (c : Thread nD τ) arg10 fullShare (out0 i x w s b g be mu var y)
            ∗ owns (c : Thread nD τ) arg11 fullShare (acc0 i x w s)) -∗ K ⟨⟩))
      ⊢ wp frame (wpE (defs₀ (F := F)) Variants.none c none) E
          (cc0__mlp_layer_kernel i arg3 harg3 arg4 harg4 arg5 harg5 arg6 harg6 arg7 harg7 arg8 harg8 arg9 harg9 arg10 harg10 arg11 harg11) K := by
  simp only [cc0__mlp_layer_kernel_eq_skeleton]; unfold cc0__mlp_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7)
    ipureintro
    sl_unfold_words
    rw [read_reset _ _ _ hz2]
    simp only [View.readCov_unit_zero (S := S1024x2048) _ hz2, View.readAt_eq_ld, View.ld_unit_zero (S := S1024x256) hz2,
      View.ld_unit_zero (S := S2048x256) hz2, View.ld_unit_zero (S := S1x2048) hz2, View.ld_unit_zero (S := S1024x2048) hz2,
      read_reset (S := S1024x2048) _ _ _ hz2]
    rfl
  · iexists _; isplitr; swap; (· iexact H8)
    ipureintro
    sl_unfold_words
    rw [read_whole_store _ _ hz2]
    simp only [View.readAt_eq_ld, View.ld_unit_zero (S := S1024x256) hz2, View.ld_unit_zero (S := S2048x256) hz2,
      View.ld_unit_zero (S := S1024x2048) hz2, read_reset (S := S1024x2048) _ _ _ hz2]
    rfl

/-! # The region's proof data: what every buffer holds, point by point -/

/-- The first contraction block, in closed form over the grid's points. -/
theorem hfirst0 : ∀ t : Fin cfg0.N, first0 (grid0.coords t) = 1#1 ↔ t.val % 16 = 0 :=
  (by decide +kernel : ∀ t : Fin grid0.N, first0 (grid0.coords t) = 1#1 ↔ t.val % 16 = 0)
/-- The last contraction block, in closed form over the grid's points. -/
theorem hlast0 : ∀ t : Fin cfg0.N, k0_cond2 (grid0.coords t) = 1#1 ↔ t.val % 16 = 15 :=
  (by decide +kernel : ∀ t : Fin grid0.N, k0_cond2 (grid0.coords t) = 1#1 ↔ t.val % 16 = 15)

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The accumulator after point `n`: the running sum of block products since the last first contraction block. -/
def accAt0 (c : Dev nD) : (n : ℕ) → n < cfg0.N → Vec F S1024x2048 .f32
  | 0, h => acc0 (grid0.coords ⟨0, h⟩) (iblk0 V c 0 ⟨0, h⟩) (iblk0 V c 1 ⟨0, h⟩) k0_pay1
  | n + 1, h => acc0 (grid0.coords ⟨n + 1, h⟩) (iblk0 V c 0 ⟨n + 1, h⟩) (iblk0 V c 1 ⟨n + 1, h⟩) (accAt0 c n (Nat.lt_of_succ_lt h))

/-- At every point the body leaves the accumulator at `accAt0`, given that it found what the point before left
    (at the grid's first point, whatever it found: the contraction index is 0 there and the accumulator is refilled). -/
theorem acc_step0 (c : Dev nD) (t : Fin cfg0.N) (s : Vec F S1024x2048 .f32)
    (hs : ∀ h : t.val ≠ 0, s = accAt0 V c (t.val - 1) (Nat.lt_of_le_of_lt (Nat.sub_le _ _) t.isLt)) :
    acc0 (grid0.coords t) (iblk0 V c 0 t) (iblk0 V c 1 t) s = accAt0 V c t.val t.isLt := by
  obtain ⟨n, hn⟩ := t
  cases n with
  | zero =>
    have h0 : first0 (grid0.coords ⟨0, hn⟩) = 1#1 := (hfirst0 ⟨0, hn⟩).mpr (Nat.zero_mod _)
    show acc0 _ _ _ s = acc0 _ _ _ k0_pay1
    unfold acc0 seed0; rw [if_pos h0, if_pos h0]
  | succ n => rw [hs (Nat.succ_ne_zero n)]; rfl

/-- The output block the last contraction block's point writes: the epilogue of the finished accumulator. -/
def outAt0 (c : Dev nD) (t : Fin cfg0.N) : Vec F S1024x2048 .bf16 :=
  k0_pay3 (accAt0 V c t.val t.isLt) (iblk0 V c 2 t) (iblk0 V c 3 t) (iblk0 V c 6 t) (iblk0 V c 5 t) (iblk0 V c 4 t)

/-- The rest of the core's scoped buffers, unopened. -/
abbrev rest0 (c : Dev nD) : sProp 𝕄 :=
  Pipeline.scopedRestBut (Ix := Unit) (Name := ℕ) (U := UR sig nD τ) (Lvl := ℕ) (Val := Elt F) spec0 c [cc0_scratch0]

/-- The region's invariant before position `n`: the accumulator scratch at what the point before left (at anything
    before the first point), beside the other scoped buffers. -/
def PhiS0 (c : Dev nD) : (n : ℕ) → n ≤ cfg0.N → sProp 𝕄
  | 0, _ => iprop((∃ s, owns (c : Thread nD τ) (Memref.whole cc0_scratch0) fullShare s) ∗ rest0 c)
  | n + 1, hn => iprop(owns (c : Thread nD τ) (Memref.whole cc0_scratch0) fullShare (accAt0 V c n hn) ∗ rest0 c)

/-- Either way the scratch holds something, and after the first point what the point before left. -/
theorem PhiS0_elim (c : Dev nD) (t : Fin cfg0.N) :
    PhiS0 V c t.val (Nat.le_of_lt t.isLt) ⊢ (iprop(∃ s : Vec F S1024x2048 .f32,
      ⌜∀ h : t.val ≠ 0, s = accAt0 V c (t.val - 1) (Nat.lt_of_le_of_lt (Nat.sub_le _ _) t.isLt)⌝
        ∗ owns (c : Thread nD τ) (Memref.whole cc0_scratch0) fullShare s ∗ rest0 c) : sProp 𝕄) := by
  obtain ⟨n, hn⟩ := t
  cases n with
  | zero =>
    show iprop((∃ s, owns (c : Thread nD τ) (Memref.whole cc0_scratch0) fullShare s) ∗ rest0 c) ⊢ _
    iintro ⟨⟨%s, HS⟩, Hr⟩
    iexists s; isplitr; · ipureintro; intro h; exact absurd rfl h
    isplitl [HS]; · iexact HS
    iexact Hr
  | succ n =>
    show iprop(owns (c : Thread nD τ) (Memref.whole cc0_scratch0) fullShare (accAt0 V c n _) ∗ rest0 c) ⊢ _
    iintro ⟨HS, Hr⟩
    iexists _; isplitr; · ipureintro; intro _; rfl
    isplitl [HS]; · iexact HS
    iexact Hr

/-- The proof data of the region on core `c`: the arrays as the region finds them; after the body at point `t` each
    input's buffer at its block and the output's at the epilogue of the accumulator; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Region

end Cert.KernelIdeal.Hand

end
-- ==== Proof.KIBody0.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.KIData0
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # The body obligation, at a generic point -/

/-- What the body is called with at point `t`: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

theorem live0_0 (c : Dev nD) (t : Fin cfg0.N) :
    (dat0 V c).leavesExact 0 t = owns (c : Thread nD τ) (st0_0 t) fullShare (iblk0 V c 0 t) := by
  rw [← after0_0 V c t]
theorem live0_1 (c : Dev nD) (t : Fin cfg0.N) :
    (dat0 V c).leavesExact 1 t = owns (c : Thread nD τ) (st0_1 t) fullShare (iblk0 V c 1 t) := by
  rw [← after0_1 V c t]
theorem live0_2 (c : Dev nD) (t : Fin cfg0.N) :
    (dat0 V c).leavesExact 2 t = owns (c : Thread nD τ) (st0_2 t) fullShare (iblk0 V c 2 t) := by
  rw [← after0_2 V c t]
theorem live0_3 (c : Dev nD) (t : Fin cfg0.N) :
    (dat0 V c).leavesExact 3 t = owns (c : Thread nD τ) (st0_3 t) fullShare (iblk0 V c 3 t) := by
  rw [← after0_3 V c t]
theorem live0_4 (c : Dev nD) (t : Fin cfg0.N) :
    (dat0 V c).leavesExact 4 t = owns (c : Thread nD τ) (st0_4 t) fullShare (iblk0 V c 4 t) := by
  rw [← after0_4 V c t]
theorem live0_5 (c : Dev nD) (t : Fin cfg0.N) :
    (dat0 V c).leavesExact 5 t = owns (c : Thread nD τ) (st0_5 t) fullShare (iblk0 V c 5 t) := by
  rw [← after0_5 V c t]
theorem live0_6 (c : Dev nD) (t : Fin cfg0.N) :
    (dat0 V c).leavesExact 6 t = owns (c : Thread nD τ) (st0_6 t) fullShare (iblk0 V c 6 t) := by
  rw [← after0_6 V c t]

set_option maxHeartbeats 4000000 in
/-- The body at any point. Every input's buffer holds its block; the scratch holds what the point before left (anything
    at the grid's first point, where it is refilled); the kernel's triple applies; the scratch is taken back at this
    point's running sum; the output's buffer is handed back written where the contraction ends and untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.succ = iprop(owns (c : Thread nD τ) (Memref.whole cc0_scratch0) fullShare (accAt0 V c t.val t.isLt) ∗ rest0 c) from rfl,
    show (dat0 V c).Φ t.castSucc = PhiS0 V c t.val (Nat.le_of_lt t.isLt) from rfl,
    live0_0, live0_1, live0_2, live0_3, live0_4, live0_5, live0_6]
  refine (sep_mono (PhiS0_elim V c t) .rfl).trans ?_
  by_cases hl : t.val % 16 = 15
  · have hc : k0_cond2 (grid0.coords t) = 1#1 := (hlast0 t).mpr hl
    have hi : cfg0.idle 7 (cfg0.grid.coords t) = false := by
      show (!(k0_cond2 (grid0.coords t) == 1#1)) = false
      rw [hc]; rfl
    rw [show (dat0 V c).leavesExact 7 t = owns (c : Thread nD τ) (st0_7 t) fullShare (outAt0 V c t) from by
      unfold Dat.leavesExact; rw [hi, after0_7]]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step0 V c t s hs
    have e2 : out0 (grid0.coords t) (iblk0 V c 0 t) (iblk0 V c 1 t) s (iblk0 V c 2 t) (iblk0 V c 3 t) (iblk0 V c 4 t)
        (iblk0 V c 5 t) (iblk0 V c 6 t) ((dat0 V c).before 7 t d7) = outAt0 V c t := by
      unfold out0 outAt0; rw [if_pos hc, e1]
    iapply (sound_kernel0 c Set.univ (grid0.coords t) _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      ((dat0 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owns_congr e2); iexact H7
  · have hc : ¬ k0_cond2 (grid0.coords t) = 1#1 := fun h => hl ((hlast0 t).mp h)
    have hi : cfg0.idle 7 (cfg0.grid.coords t) = true := by
      show (!(k0_cond2 (grid0.coords t) == 1#1)) = true
      rw [Bool.not_eq_true', beq_eq_false_iff_ne]; exact hc
    have hf : (cfg0.win 7).flush t = false := Bool.eq_false_iff.mpr (fun h => hl ((flush0_7 t).mp h))
    rw [Dat.leavesExact_idle (dat0 V c) 7 t hi hf]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step0 V c t s hs
    have e2 : out0 (grid0.coords t) (iblk0 V c 0 t) (iblk0 V c 1 t) s (iblk0 V c 2 t) (iblk0 V c 3 t) (iblk0 V c 4 t)
        (iblk0 V c 5 t) (iblk0 V c 6 t) ((dat0 V c).before 7 t d7) = (dat0 V c).before 7 t d7 := by
      unfold out0; rw [if_neg hc]
    iapply (sound_kernel0 c Set.univ (grid0.coords t) _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      ((dat0 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iapply (owns_congr e2); iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIData1.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.KIShared
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One layer's kernel, one grid point: what the body leaves

The grid is (row block, column block, contraction block). At a point the body
* refills the accumulator with zeros when the contraction index is 0,
* adds to it the product of the point's activation block and weight block,
* and, when the contraction index is the last, writes the output block from the finished accumulator: plus the bias,
  minus the running mean, times gain over root variance, plus the offset (for a hidden layer, the sign of that). -/

/-- Whether the point is the first along the contracted axis (the kernel's own test, spelt as it computes it). -/
def first1 (i : grid1.Coords) : BitVec 1 :=
  Scalar.cmpi .ne (Scalar.extui (Scalar.cmpi .eq (BitVec.ofNat 32 (i 2).val) (0#32 : BitVec 32)) : BitVec 32) (0#32 : BitVec 32)

/-- What the accumulation starts from at a point: zeros at the first contraction block, else what the point before left. -/
def seed1 (i : grid1.Coords) (s : Vec F S1024x2048 .f32) : Vec F S1024x2048 .f32 :=
  if first1 i = 1#1 then k1_pay1 else s

/-- The accumulator after the point: the seed plus the product of the two blocks. -/
def acc1 (i : grid1.Coords) (x : Vec F S1024x256 .bf16) (w : Vec F S2048x256 .bf16) (s : Vec F S1024x2048 .f32) :
    Vec F S1024x2048 .f32 :=
  k1_pay2 x w (seed1 i s)

/-- The output block after the point: written from the finished accumulator at the last contraction block, else untouched. -/
def out1 (i : grid1.Coords) (x : Vec F S1024x256 .bf16) (w : Vec F S2048x256 .bf16) (s : Vec F S1024x2048 .f32)
    (b g be mu var : Vec F S1x2048 .f32) (y : Vec F S1024x2048 .bf16) : Vec F S1024x2048 .bf16 :=
  if k1_cond2 i = 1#1 then k1_pay3 (acc1 i x w s) b g var mu be else y

set_option maxHeartbeats 4000000 in
/-- The body at any point, on whole staging memrefs whose contents read `x w b g be mu var y` and a scratch reading `s`:
    it runs to its continuation with the inputs as they were, the output block at `out1` and the scratch at `acc1`. -/
theorem sound_kernel1 (c : Dev nD) (E : Set ℕ) (i : grid1.Coords)
    (arg3 : Memref sig .tc .vmem S1024x256 .bf16) (harg3 : arg3.IsWhole) (arg4 : Memref sig .tc .vmem S2048x256 .bf16) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole) (arg10 : Memref sig .tc .vmem S1024x2048 .bf16) (harg10 : arg10.IsWhole)
    (arg11 : Memref sig .tc .vmem S1024x2048 .f32) (harg11 : arg11.IsWhole)
    (x : Vec F S1024x256 .bf16) (w : Vec F S2048x256 .bf16) (b g be mu var : Vec F S1x2048 .f32)
    (y : Vec F S1024x2048 .bf16) (s : Vec F S1024x2048 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare g
        ∗ owns (c : Thread nD τ) arg7 fullShare be ∗ owns (c : Thread nD τ) arg8 fullShare mu
        ∗ owns (c : Thread nD τ) arg9 fullShare var ∗ owns (c : Thread nD τ) arg10 fullShare y
        ∗ owns (c : Thread nD τ) arg11 fullShare s
        ∗ (iprop(owns (c : Thread nD τ) arg3 fullShare x ∗ owns (c : Thread nD τ) arg4 fullShare w
            ∗ owns (c : Thread nD τ) arg5 fullShare b ∗ owns (c : Thread nD τ) arg6 fullShare g
            ∗ owns (c : Thread nD τ) arg7 fullShare be ∗ owns (c : Thread nD τ) arg8 fullShare mu
            ∗ owns (c : Thread nD τ) arg9 fullShare var
            ∗ owns (c : Thread nD τ) arg10 fullShare (out1 i x w s b g be mu var y)
            ∗ owns (c : Thread nD τ) arg11 fullShare (acc1 i x w s)) -∗ K ⟨⟩))
      ⊢ wp frame (wpE (defs₀ (F := F)) Variants.none c none) E
          (cc1__mlp_layer_kernel i arg3 harg3 arg4 harg4 arg5 harg5 arg6 harg6 arg7 harg7 arg8 harg8 arg9 harg9 arg10 harg10 arg11 harg11) K := by
  simp only [cc1__mlp_layer_kernel_eq_skeleton]; unfold cc1__mlp_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7)
    ipureintro
    sl_unfold_words
    rw [read_reset _ _ _ hz2]
    simp only [View.readCov_unit_zero (S := S1024x2048) _ hz2, View.readAt_eq_ld, View.ld_unit_zero (S := S1024x256) hz2,
      View.ld_unit_zero (S := S2048x256) hz2, View.ld_unit_zero (S := S1x2048) hz2, View.ld_unit_zero (S := S1024x2048) hz2,
      read_reset (S := S1024x2048) _ _ _ hz2]
    rfl
  · iexists _; isplitr; swap; (· iexact H8)
    ipureintro
    sl_unfold_words
    rw [read_whole_store _ _ hz2]
    simp only [View.readAt_eq_ld, View.ld_unit_zero (S := S1024x256) hz2, View.ld_unit_zero (S := S2048x256) hz2,
      View.ld_unit_zero (S := S1024x2048) hz2, read_reset (S := S1024x2048) _ _ _ hz2]
    rfl

/-! # The region's proof data: what every buffer holds, point by point -/

/-- The first contraction block, in closed form over the grid's points. -/
theorem hfirst1 : ∀ t : Fin cfg1.N, first1 (grid1.coords t) = 1#1 ↔ t.val % 16 = 0 :=
  (by decide +kernel : ∀ t : Fin grid1.N, first1 (grid1.coords t) = 1#1 ↔ t.val % 16 = 0)
/-- The last contraction block, in closed form over the grid's points. -/
theorem hlast1 : ∀ t : Fin cfg1.N, k1_cond2 (grid1.coords t) = 1#1 ↔ t.val % 16 = 15 :=
  (by decide +kernel : ∀ t : Fin grid1.N, k1_cond2 (grid1.coords t) = 1#1 ↔ t.val % 16 = 15)

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The accumulator after point `n`: the running sum of block products since the last first contraction block. -/
def accAt1 (c : Dev nD) : (n : ℕ) → n < cfg1.N → Vec F S1024x2048 .f32
  | 0, h => acc1 (grid1.coords ⟨0, h⟩) (iblk1 V c 0 ⟨0, h⟩) (iblk1 V c 1 ⟨0, h⟩) k1_pay1
  | n + 1, h => acc1 (grid1.coords ⟨n + 1, h⟩) (iblk1 V c 0 ⟨n + 1, h⟩) (iblk1 V c 1 ⟨n + 1, h⟩) (accAt1 c n (Nat.lt_of_succ_lt h))

/-- At every point the body leaves the accumulator at `accAt1`, given that it found what the point before left
    (at the grid's first point, whatever it found: the contraction index is 0 there and the accumulator is refilled). -/
theorem acc_step1 (c : Dev nD) (t : Fin cfg1.N) (s : Vec F S1024x2048 .f32)
    (hs : ∀ h : t.val ≠ 0, s = accAt1 V c (t.val - 1) (Nat.lt_of_le_of_lt (Nat.sub_le _ _) t.isLt)) :
    acc1 (grid1.coords t) (iblk1 V c 0 t) (iblk1 V c 1 t) s = accAt1 V c t.val t.isLt := by
  obtain ⟨n, hn⟩ := t
  cases n with
  | zero =>
    have h0 : first1 (grid1.coords ⟨0, hn⟩) = 1#1 := (hfirst1 ⟨0, hn⟩).mpr (Nat.zero_mod _)
    show acc1 _ _ _ s = acc1 _ _ _ k1_pay1
    unfold acc1 seed1; rw [if_pos h0, if_pos h0]
  | succ n => rw [hs (Nat.succ_ne_zero n)]; rfl

/-- The output block the last contraction block's point writes: the epilogue of the finished accumulator. -/
def outAt1 (c : Dev nD) (t : Fin cfg1.N) : Vec F S1024x2048 .bf16 :=
  k1_pay3 (accAt1 V c t.val t.isLt) (iblk1 V c 2 t) (iblk1 V c 3 t) (iblk1 V c 6 t) (iblk1 V c 5 t) (iblk1 V c 4 t)

/-- The rest of the core's scoped buffers, unopened. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: the accumulator scratch at what the point before left (at anything
    before the first point), beside the other scoped buffers. -/
def PhiS1 (c : Dev nD) : (n : ℕ) → n ≤ cfg1.N → sProp 𝕄
  | 0, _ => iprop((∃ s, owns (c : Thread nD τ) (Memref.whole cc1_scratch0) fullShare s) ∗ rest1 c)
  | n + 1, hn => iprop(owns (c : Thread nD τ) (Memref.whole cc1_scratch0) fullShare (accAt1 V c n hn) ∗ rest1 c)

/-- Either way the scratch holds something, and after the first point what the point before left. -/
theorem PhiS1_elim (c : Dev nD) (t : Fin cfg1.N) :
    PhiS1 V c t.val (Nat.le_of_lt t.isLt) ⊢ (iprop(∃ s : Vec F S1024x2048 .f32,
      ⌜∀ h : t.val ≠ 0, s = accAt1 V c (t.val - 1) (Nat.lt_of_le_of_lt (Nat.sub_le _ _) t.isLt)⌝
        ∗ owns (c : Thread nD τ) (Memref.whole cc1_scratch0) fullShare s ∗ rest1 c) : sProp 𝕄) := by
  obtain ⟨n, hn⟩ := t
  cases n with
  | zero =>
    show iprop((∃ s, owns (c : Thread nD τ) (Memref.whole cc1_scratch0) fullShare s) ∗ rest1 c) ⊢ _
    iintro ⟨⟨%s, HS⟩, Hr⟩
    iexists s; isplitr; · ipureintro; intro h; exact absurd rfl h
    isplitl [HS]; · iexact HS
    iexact Hr
  | succ n =>
    show iprop(owns (c : Thread nD τ) (Memref.whole cc1_scratch0) fullShare (accAt1 V c n _) ∗ rest1 c) ⊢ _
    iintro ⟨HS, Hr⟩
    iexists _; isplitr; · ipureintro; intro _; rfl
    isplitl [HS]; · iexact HS
    iexact Hr

/-- The proof data of the region on core `c`: the arrays as the region finds them; after the body at point `t` each
    input's buffer at its block and the output's at the epilogue of the accumulator; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region

end Cert.KernelIdeal.Hand

end
-- ==== Proof.KIBody1.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.KIData1
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # The body obligation, at a generic point -/

/-- What the body is called with at point `t`: the invariant, the core's dues, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem live1_0 (c : Dev nD) (t : Fin cfg1.N) :
    (dat1 V c).leavesExact 0 t = owns (c : Thread nD τ) (st1_0 t) fullShare (iblk1 V c 0 t) := by
  rw [← after1_0 V c t]
theorem live1_1 (c : Dev nD) (t : Fin cfg1.N) :
    (dat1 V c).leavesExact 1 t = owns (c : Thread nD τ) (st1_1 t) fullShare (iblk1 V c 1 t) := by
  rw [← after1_1 V c t]
theorem live1_2 (c : Dev nD) (t : Fin cfg1.N) :
    (dat1 V c).leavesExact 2 t = owns (c : Thread nD τ) (st1_2 t) fullShare (iblk1 V c 2 t) := by
  rw [← after1_2 V c t]
theorem live1_3 (c : Dev nD) (t : Fin cfg1.N) :
    (dat1 V c).leavesExact 3 t = owns (c : Thread nD τ) (st1_3 t) fullShare (iblk1 V c 3 t) := by
  rw [← after1_3 V c t]
theorem live1_4 (c : Dev nD) (t : Fin cfg1.N) :
    (dat1 V c).leavesExact 4 t = owns (c : Thread nD τ) (st1_4 t) fullShare (iblk1 V c 4 t) := by
  rw [← after1_4 V c t]
theorem live1_5 (c : Dev nD) (t : Fin cfg1.N) :
    (dat1 V c).leavesExact 5 t = owns (c : Thread nD τ) (st1_5 t) fullShare (iblk1 V c 5 t) := by
  rw [← after1_5 V c t]
theorem live1_6 (c : Dev nD) (t : Fin cfg1.N) :
    (dat1 V c).leavesExact 6 t = owns (c : Thread nD τ) (st1_6 t) fullShare (iblk1 V c 6 t) := by
  rw [← after1_6 V c t]

set_option maxHeartbeats 4000000 in
/-- The body at any point. Every input's buffer holds its block; the scratch holds what the point before left (anything
    at the grid's first point, where it is refilled); the kernel's triple applies; the scratch is taken back at this
    point's running sum; the output's buffer is handed back written where the contraction ends and untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = iprop(owns (c : Thread nD τ) (Memref.whole cc1_scratch0) fullShare (accAt1 V c t.val t.isLt) ∗ rest1 c) from rfl,
    show (dat1 V c).Φ t.castSucc = PhiS1 V c t.val (Nat.le_of_lt t.isLt) from rfl,
    live1_0, live1_1, live1_2, live1_3, live1_4, live1_5, live1_6]
  refine (sep_mono (PhiS1_elim V c t) .rfl).trans ?_
  by_cases hl : t.val % 16 = 15
  · have hc : k1_cond2 (grid1.coords t) = 1#1 := (hlast1 t).mpr hl
    have hi : cfg1.idle 7 (cfg1.grid.coords t) = false := by
      show (!(k1_cond2 (grid1.coords t) == 1#1)) = false
      rw [hc]; rfl
    rw [show (dat1 V c).leavesExact 7 t = owns (c : Thread nD τ) (st1_7 t) fullShare (outAt1 V c t) from by
      unfold Dat.leavesExact; rw [hi, after1_7]]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step1 V c t s hs
    have e2 : out1 (grid1.coords t) (iblk1 V c 0 t) (iblk1 V c 1 t) s (iblk1 V c 2 t) (iblk1 V c 3 t) (iblk1 V c 4 t)
        (iblk1 V c 5 t) (iblk1 V c 6 t) ((dat1 V c).before 7 t d7) = outAt1 V c t := by
      unfold out1 outAt1; rw [if_pos hc, e1]
    iapply (sound_kernel1 c Set.univ (grid1.coords t) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owns_congr e2); iexact H7
  · have hc : ¬ k1_cond2 (grid1.coords t) = 1#1 := fun h => hl ((hlast1 t).mp h)
    have hi : cfg1.idle 7 (cfg1.grid.coords t) = true := by
      show (!(k1_cond2 (grid1.coords t) == 1#1)) = true
      rw [Bool.not_eq_true', beq_eq_false_iff_ne]; exact hc
    have hf : (cfg1.win 7).flush t = false := Bool.eq_false_iff.mpr (fun h => hl ((flush1_7 t).mp h))
    rw [Dat.leavesExact_idle (dat1 V c) 7 t hi hf]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step1 V c t s hs
    have e2 : out1 (grid1.coords t) (iblk1 V c 0 t) (iblk1 V c 1 t) s (iblk1 V c 2 t) (iblk1 V c 3 t) (iblk1 V c 4 t)
        (iblk1 V c 5 t) (iblk1 V c 6 t) ((dat1 V c).before 7 t d7) = (dat1 V c).before 7 t d7 := by
      unfold out1; rw [if_neg hc]
    iapply (sound_kernel1 c Set.univ (grid1.coords t) _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t)
      ((dat1 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iapply (owns_congr e2); iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIData2.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.KIShared
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One layer's kernel, one grid point: what the body leaves

The grid is (row block, column block, contraction block). At a point the body
* refills the accumulator with zeros when the contraction index is 0,
* adds to it the product of the point's activation block and weight block,
* and, when the contraction index is the last, writes the output block from the finished accumulator: plus the bias,
  minus the running mean, times gain over root variance, plus the offset (for a hidden layer, the sign of that). -/

/-- Whether the point is the first along the contracted axis (the kernel's own test, spelt as it computes it). -/
def first2 (i : grid2.Coords) : BitVec 1 :=
  Scalar.cmpi .ne (Scalar.extui (Scalar.cmpi .eq (BitVec.ofNat 32 (i 2).val) (0#32 : BitVec 32)) : BitVec 32) (0#32 : BitVec 32)

/-- What the accumulation starts from at a point: zeros at the first contraction block, else what the point before left. -/
def seed2 (i : grid2.Coords) (s : Vec F S1024x1024 .f32) : Vec F S1024x1024 .f32 :=
  if first2 i = 1#1 then k2_pay1 else s

/-- The accumulator after the point: the seed plus the product of the two blocks. -/
def acc2 (i : grid2.Coords) (x : Vec F S1024x512 .bf16) (w : Vec F S1024x512 .bf16) (s : Vec F S1024x1024 .f32) :
    Vec F S1024x1024 .f32 :=
  k2_pay2 x w (seed2 i s)

/-- The output block after the point: written from the finished accumulator at the last contraction block, else untouched. -/
def out2 (i : grid2.Coords) (x : Vec F S1024x512 .bf16) (w : Vec F S1024x512 .bf16) (s : Vec F S1024x1024 .f32)
    (b g be mu var : Vec F S1x1024 .f32) (y : Vec F S1024x1024 .f32) : Vec F S1024x1024 .f32 :=
  if k2_cond2 i = 1#1 then k2_pay3 (acc2 i x w s) b g var mu be else y

set_option maxHeartbeats 4000000 in
/-- The body at any point, on whole staging memrefs whose contents read `x w b g be mu var y` and a scratch reading `s`:
    it runs to its continuation with the inputs as they were, the output block at `out2` and the scratch at `acc2`. -/
theorem sound_kernel2 (c : Dev nD) (E : Set ℕ) (i : grid2.Coords)
    (arg3 : Memref sig .tc .vmem S1024x512 .bf16) (harg3 : arg3.IsWhole) (arg4 : Memref sig .tc .vmem S1024x512 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .f32) (harg10 : arg10.IsWhole)
    (arg11 : Memref sig .tc .vmem S1024x1024 .f32) (harg11 : arg11.IsWhole)
    (x : Vec F S1024x512 .bf16) (w : Vec F S1024x512 .bf16) (b g be mu var : Vec F S1x1024 .f32)
    (y : Vec F S1024x1024 .f32) (s : Vec F S1024x1024 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare g
        ∗ owns (c : Thread nD τ) arg7 fullShare be ∗ owns (c : Thread nD τ) arg8 fullShare mu
        ∗ owns (c : Thread nD τ) arg9 fullShare var ∗ owns (c : Thread nD τ) arg10 fullShare y
        ∗ owns (c : Thread nD τ) arg11 fullShare s
        ∗ (iprop(owns (c : Thread nD τ) arg3 fullShare x ∗ owns (c : Thread nD τ) arg4 fullShare w
            ∗ owns (c : Thread nD τ) arg5 fullShare b ∗ owns (c : Thread nD τ) arg6 fullShare g
            ∗ owns (c : Thread nD τ) arg7 fullShare be ∗ owns (c : Thread nD τ) arg8 fullShare mu
            ∗ owns (c : Thread nD τ) arg9 fullShare var
            ∗ owns (c : Thread nD τ) arg10 fullShare (out2 i x w s b g be mu var y)
            ∗ owns (c : Thread nD τ) arg11 fullShare (acc2 i x w s)) -∗ K ⟨⟩))
      ⊢ wp frame (wpE (defs₀ (F := F)) Variants.none c none) E
          (cc2__mlp_layer_kernel i arg3 harg3 arg4 harg4 arg5 harg5 arg6 harg6 arg7 harg7 arg8 harg8 arg9 harg9 arg10 harg10 arg11 harg11) K := by
  simp only [cc2__mlp_layer_kernel_eq_skeleton]; unfold cc2__mlp_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr; swap; (· iexact H7)
    ipureintro
    sl_unfold_words
    rw [read_reset _ _ _ hz2]
    simp only [View.readCov_unit_zero (S := S1024x1024) _ hz2, View.readAt_eq_ld, View.ld_unit_zero (S := S1024x512) hz2,
      View.ld_unit_zero (S := S1024x512) hz2, View.ld_unit_zero (S := S1x1024) hz2, View.ld_unit_zero (S := S1024x1024) hz2,
      read_reset (S := S1024x1024) _ _ _ hz2]
    rfl
  · iexists _; isplitr; swap; (· iexact H8)
    ipureintro
    sl_unfold_words
    rw [read_whole_store _ _ hz2]
    simp only [View.readAt_eq_ld, View.ld_unit_zero (S := S1024x512) hz2, View.ld_unit_zero (S := S1024x512) hz2,
      View.ld_unit_zero (S := S1024x1024) hz2, read_reset (S := S1024x1024) _ _ _ hz2]
    rfl

/-! # The region's proof data: what every buffer holds, point by point -/

/-- The first contraction block, in closed form over the grid's points. -/
theorem hfirst2 : ∀ t : Fin cfg2.N, first2 (grid2.coords t) = 1#1 ↔ t.val % 8 = 0 :=
  (by decide +kernel : ∀ t : Fin grid2.N, first2 (grid2.coords t) = 1#1 ↔ t.val % 8 = 0)
/-- The last contraction block, in closed form over the grid's points. -/
theorem hlast2 : ∀ t : Fin cfg2.N, k2_cond2 (grid2.coords t) = 1#1 ↔ t.val % 8 = 7 :=
  (by decide +kernel : ∀ t : Fin grid2.N, k2_cond2 (grid2.coords t) = 1#1 ↔ t.val % 8 = 7)

section Region
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The accumulator after point `n`: the running sum of block products since the last first contraction block. -/
def accAt2 (c : Dev nD) : (n : ℕ) → n < cfg2.N → Vec F S1024x1024 .f32
  | 0, h => acc2 (grid2.coords ⟨0, h⟩) (iblk2 V c 0 ⟨0, h⟩) (iblk2 V c 1 ⟨0, h⟩) k2_pay1
  | n + 1, h => acc2 (grid2.coords ⟨n + 1, h⟩) (iblk2 V c 0 ⟨n + 1, h⟩) (iblk2 V c 1 ⟨n + 1, h⟩) (accAt2 c n (Nat.lt_of_succ_lt h))

/-- At every point the body leaves the accumulator at `accAt2`, given that it found what the point before left
    (at the grid's first point, whatever it found: the contraction index is 0 there and the accumulator is refilled). -/
theorem acc_step2 (c : Dev nD) (t : Fin cfg2.N) (s : Vec F S1024x1024 .f32)
    (hs : ∀ h : t.val ≠ 0, s = accAt2 V c (t.val - 1) (Nat.lt_of_le_of_lt (Nat.sub_le _ _) t.isLt)) :
    acc2 (grid2.coords t) (iblk2 V c 0 t) (iblk2 V c 1 t) s = accAt2 V c t.val t.isLt := by
  obtain ⟨n, hn⟩ := t
  cases n with
  | zero =>
    have h0 : first2 (grid2.coords ⟨0, hn⟩) = 1#1 := (hfirst2 ⟨0, hn⟩).mpr (Nat.zero_mod _)
    show acc2 _ _ _ s = acc2 _ _ _ k2_pay1
    unfold acc2 seed2; rw [if_pos h0, if_pos h0]
  | succ n => rw [hs (Nat.succ_ne_zero n)]; rfl

/-- The output block the last contraction block's point writes: the epilogue of the finished accumulator. -/
def outAt2 (c : Dev nD) (t : Fin cfg2.N) : Vec F S1024x1024 .f32 :=
  k2_pay3 (accAt2 V c t.val t.isLt) (iblk2 V c 2 t) (iblk2 V c 3 t) (iblk2 V c 6 t) (iblk2 V c 5 t) (iblk2 V c 4 t)

/-- The rest of the core's scoped buffers, unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant before position `n`: the accumulator scratch at what the point before left (at anything
    before the first point), beside the other scoped buffers. -/
def PhiS2 (c : Dev nD) : (n : ℕ) → n ≤ cfg2.N → sProp 𝕄
  | 0, _ => iprop((∃ s, owns (c : Thread nD τ) (Memref.whole cc2_scratch0) fullShare s) ∗ rest2 c)
  | n + 1, hn => iprop(owns (c : Thread nD τ) (Memref.whole cc2_scratch0) fullShare (accAt2 V c n hn) ∗ rest2 c)

/-- Either way the scratch holds something, and after the first point what the point before left. -/
theorem PhiS2_elim (c : Dev nD) (t : Fin cfg2.N) :
    PhiS2 V c t.val (Nat.le_of_lt t.isLt) ⊢ (iprop(∃ s : Vec F S1024x1024 .f32,
      ⌜∀ h : t.val ≠ 0, s = accAt2 V c (t.val - 1) (Nat.lt_of_le_of_lt (Nat.sub_le _ _) t.isLt)⌝
        ∗ owns (c : Thread nD τ) (Memref.whole cc2_scratch0) fullShare s ∗ rest2 c) : sProp 𝕄) := by
  obtain ⟨n, hn⟩ := t
  cases n with
  | zero =>
    show iprop((∃ s, owns (c : Thread nD τ) (Memref.whole cc2_scratch0) fullShare s) ∗ rest2 c) ⊢ _
    iintro ⟨⟨%s, HS⟩, Hr⟩
    iexists s; isplitr; · ipureintro; intro h; exact absurd rfl h
    isplitl [HS]; · iexact HS
    iexact Hr
  | succ n =>
    show iprop(owns (c : Thread nD τ) (Memref.whole cc2_scratch0) fullShare (accAt2 V c n _) ∗ rest2 c) ⊢ _
    iintro ⟨HS, Hr⟩
    iexists _; isplitr; · ipureintro; intro _; rfl
    isplitl [HS]; · iexact HS
    iexact Hr

/-- The proof data of the region on core `c`: the arrays as the region finds them; after the body at point `t` each
    input's buffer at its block and the output's at the epilogue of the accumulator; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Region

end Cert.KernelIdeal.Hand

end
-- ==== Proof.KIBody2.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.KIData2
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # The body obligation, at a generic point -/

/-- What the body is called with at point `t`: the invariant, the core's dues, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem live2_0 (c : Dev nD) (t : Fin cfg2.N) :
    (dat2 V c).leavesExact 0 t = owns (c : Thread nD τ) (st2_0 t) fullShare (iblk2 V c 0 t) := by
  rw [← after2_0 V c t]
theorem live2_1 (c : Dev nD) (t : Fin cfg2.N) :
    (dat2 V c).leavesExact 1 t = owns (c : Thread nD τ) (st2_1 t) fullShare (iblk2 V c 1 t) := by
  rw [← after2_1 V c t]
theorem live2_2 (c : Dev nD) (t : Fin cfg2.N) :
    (dat2 V c).leavesExact 2 t = owns (c : Thread nD τ) (st2_2 t) fullShare (iblk2 V c 2 t) := by
  rw [← after2_2 V c t]
theorem live2_3 (c : Dev nD) (t : Fin cfg2.N) :
    (dat2 V c).leavesExact 3 t = owns (c : Thread nD τ) (st2_3 t) fullShare (iblk2 V c 3 t) := by
  rw [← after2_3 V c t]
theorem live2_4 (c : Dev nD) (t : Fin cfg2.N) :
    (dat2 V c).leavesExact 4 t = owns (c : Thread nD τ) (st2_4 t) fullShare (iblk2 V c 4 t) := by
  rw [← after2_4 V c t]
theorem live2_5 (c : Dev nD) (t : Fin cfg2.N) :
    (dat2 V c).leavesExact 5 t = owns (c : Thread nD τ) (st2_5 t) fullShare (iblk2 V c 5 t) := by
  rw [← after2_5 V c t]
theorem live2_6 (c : Dev nD) (t : Fin cfg2.N) :
    (dat2 V c).leavesExact 6 t = owns (c : Thread nD τ) (st2_6 t) fullShare (iblk2 V c 6 t) := by
  rw [← after2_6 V c t]

set_option maxHeartbeats 4000000 in
/-- The body at any point. Every input's buffer holds its block; the scratch holds what the point before left (anything
    at the grid's first point, where it is refilled); the kernel's triple applies; the scratch is taken back at this
    point's running sum; the output's buffer is handed back written where the contraction ends and untouched elsewhere. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = iprop(owns (c : Thread nD τ) (Memref.whole cc2_scratch0) fullShare (accAt2 V c t.val t.isLt) ∗ rest2 c) from rfl,
    show (dat2 V c).Φ t.castSucc = PhiS2 V c t.val (Nat.le_of_lt t.isLt) from rfl,
    live2_0, live2_1, live2_2, live2_3, live2_4, live2_5, live2_6]
  refine (sep_mono (PhiS2_elim V c t) .rfl).trans ?_
  by_cases hl : t.val % 8 = 7
  · have hc : k2_cond2 (grid2.coords t) = 1#1 := (hlast2 t).mpr hl
    have hi : cfg2.idle 7 (cfg2.grid.coords t) = false := by
      show (!(k2_cond2 (grid2.coords t) == 1#1)) = false
      rw [hc]; rfl
    rw [show (dat2 V c).leavesExact 7 t = owns (c : Thread nD τ) (st2_7 t) fullShare (outAt2 V c t) from by
      unfold Dat.leavesExact; rw [hi, after2_7]]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step2 V c t s hs
    have e2 : out2 (grid2.coords t) (iblk2 V c 0 t) (iblk2 V c 1 t) s (iblk2 V c 2 t) (iblk2 V c 3 t) (iblk2 V c 4 t)
        (iblk2 V c 5 t) (iblk2 V c 6 t) ((dat2 V c).before 7 t d7) = outAt2 V c t := by
      unfold out2 outAt2; rw [if_pos hc, e1]
    iapply (sound_kernel2 c Set.univ (grid2.coords t) _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t)
      ((dat2 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owns_congr e2); iexact H7
  · have hc : ¬ k2_cond2 (grid2.coords t) = 1#1 := fun h => hl ((hlast2 t).mp h)
    have hi : cfg2.idle 7 (cfg2.grid.coords t) = true := by
      show (!(k2_cond2 (grid2.coords t) == 1#1)) = true
      rw [Bool.not_eq_true', beq_eq_false_iff_ne]; exact hc
    have hf : (cfg2.win 7).flush t = false := Bool.eq_false_iff.mpr (fun h => hl ((flush2_7 t).mp h))
    rw [Dat.leavesExact_idle (dat2 V c) 7 t hi hf]
    iintro ⟨⟨%s, %hs, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e1 := acc_step2 V c t s hs
    have e2 : out2 (grid2.coords t) (iblk2 V c 0 t) (iblk2 V c 1 t) s (iblk2 V c 2 t) (iblk2 V c 3 t) (iblk2 V c 4 t)
        (iblk2 V c 5 t) (iblk2 V c 6 t) ((dat2 V c).before 7 t d7) = (dat2 V c).before 7 t d7 := by
      unfold out2; rw [if_neg hc]
    iapply (sound_kernel2 c Set.univ (grid2.coords t) _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t)
      ((dat2 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hrest]
    · isplitl [HS]
      · iapply (owns_congr e1); iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iapply (owns_congr e2); iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIFrame.lean ====
import proofs.«128298_j33311766347902_2_alg».proof.Proof.Gen.KernelIdeal.Launch
import proofs.«128298_j33311766347902_2_alg».proof.Proof.Gen.KernelIdeal.Skeleton
import proofs.«128298_j33311766347902_2_alg».proof.Proof.Gen.KernelIdeal.Points
import proofs.«128298_j33311766347902_2_alg».proof.Proof.Gen.KernelIdeal.Regions
import proofs.«128298_j33311766347902_2_alg».proof.Proof.KIBody0
import proofs.«128298_j33311766347902_2_alg».proof.Proof.KIBody1
import proofs.«128298_j33311766347902_2_alg».proof.Proof.KIBody2
import Idealize.ShloMosaic.Lib.Pipeline.RegionsLoop
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

/-! # The three layers as regions of one run

Between two items of the program every unscoped buffer of a core is held whole at a known valuation: the launch
contents, then each host stretch applied, then — after a layer's region — that layer's output array at what the
region's pipeline wrote back. -/

variable (m : (ℓ : Loc nD τ sig) → Buf (Elt F) ℓ)

/-- The contents layer 1's region is entered from. -/
abbrev U19 (c : Dev nD) (b : Ref sig .tc) : Buf (Elt F) ((c : Thread nD τ).loc b) := V19 m c b
/-- What layer 1's region leaves in its output array. -/
def o20 (c : Dev nD) : Buf (Elt F) ((c : Thread nD τ).loc main_v23) := (dat0 (U19 m) c).arrAt 7 cfg0.N
/-- After layer 1's region, then the host stretch before layer 2's. -/
abbrev W20 (c : Dev nD) : Valuation τ sig (Elt F) := Function.update (V19 m c) main_v23 (o20 m c)
abbrev W21 (c : Dev nD) : Valuation τ sig (Elt F) := StableHlo.after hostOps1 (W20 m c)
abbrev U21 (c : Dev nD) (b : Ref sig .tc) : Buf (Elt F) ((c : Thread nD τ).loc b) := W21 m c b
/-- What layer 2's region leaves in its output array. -/
def o22 (c : Dev nD) : Buf (Elt F) ((c : Thread nD τ).loc main_v29) := (dat1 (U21 m) c).arrAt 7 cfg1.N
abbrev W22 (c : Dev nD) : Valuation τ sig (Elt F) := Function.update (W21 m c) main_v29 (o22 m c)
abbrev W23 (c : Dev nD) : Valuation τ sig (Elt F) := StableHlo.after hostOps2 (W22 m c)
abbrev U23 (c : Dev nD) (b : Ref sig .tc) : Buf (Elt F) ((c : Thread nD τ).loc b) := W23 m c b
/-- What layer 3's region leaves in its output array. -/
def o24 (c : Dev nD) : Buf (Elt F) ((c : Thread nD τ).loc main_v35) := (dat2 (U23 m) c).arrAt 7 cfg2.N

/-- What the three regions leave, as the one family the valuations between items are written over. -/
def outs : Outs (F := F) := fun _ r c =>
  if h : r = main_v23 then h ▸ o20 m c
  else if h : r = main_v29 then h ▸ o22 m c
  else if h : r = main_v35 then h ▸ o24 m c
  else V0 m c r

theorem outs_20 (c : Dev nD) : outs m 20 main_v23 c = o20 m c := by unfold outs; rw [dif_pos rfl]
theorem outs_22 (c : Dev nD) : outs m 22 main_v29 c = o22 m c := by
  unfold outs; rw [dif_neg (by decide), dif_pos rfl]
theorem outs_24 (c : Dev nD) : outs m 24 main_v35 c = o24 m c := by
  unfold outs; rw [dif_neg (by decide), dif_neg (by decide), dif_pos rfl]

theorem V20_eq (c : Dev nD) : V20 m (outs m) c = W20 m c := by
  show Function.update (V19 m c) main_v23 (outs m 20 main_v23 c) = _; rw [outs_20]
theorem V21_eq (c : Dev nD) : V21 m (outs m) c = W21 m c := by
  show StableHlo.after hostOps1 (V20 m (outs m) c) = _; rw [V20_eq]
theorem V22_eq (c : Dev nD) : V22 m (outs m) c = W22 m c := by
  show Function.update (V21 m (outs m) c) main_v29 (outs m 22 main_v29 c) = _; rw [outs_22, V21_eq]
theorem V23_eq (c : Dev nD) : V23 m (outs m) c = W23 m c := by
  show StableHlo.after hostOps2 (V22 m (outs m) c) = _; rw [V22_eq]
theorem V24_eq (c : Dev nD) : V24 m (outs m) c = Function.update (W23 m c) main_v35 (o24 m c) := by
  show Function.update (V23 m (outs m) c) main_v35 (outs m 24 main_v35 c) = _; rw [outs_24, V23_eq]

/-- Every region's proof data, each at its region's entry contents. -/
def pdats : (p : Fin 3) → (c : Dev nD) → Dat τ (Elt F) Unit ℕ (UR sig nD τ) ℕ (cfgs p) c
  | ⟨0, _⟩ => fun c => dat0 (U19 m) c
  | ⟨1, _⟩ => fun c => dat1 (U21 m) c
  | ⟨2, _⟩ => fun c => dat2 (U23 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- A whole buffer owned at known contents is held at some contents, -/
theorem owns_whole_some (c : Dev nD) (b : Ref sig .tc) (s : b.ty.Contents (Elt F)) :
    (owns (c : Thread nD τ) (Memref.whole b) fullShare s : sProp 𝕄)
      ⊢ iprop(∃ f : Buf (Elt F) ((c : Thread nD τ).loc b), ((c : Thread nD τ).loc b) ↦{fullShare} f) := by
  rw [owns_whole_eq]; iintro ⟨%f, -, H⟩; iexists f; iexact H
/-- and held at some contents it is owned at them. -/
theorem some_owns_whole (c : Dev nD) (b : Ref sig .tc) (f : Buf (Elt F) ((c : Thread nD τ).loc b)) :
    ((((c : Thread nD τ).loc b) ↦{fullShare} f) : sProp 𝕄) ⊢ owns (c : Thread nD τ) (Memref.whole b) fullShare f := by
  rw [owns_whole_eq]; iintro H; iexists f; isplitr; · ipureintro; rfl
  iexact H

/-- After the last point the scratch holds something. -/
theorem PhiS0_weaken (V) (c : Dev nD) (n : ℕ) (h : n ≤ cfg0.N) :
    PhiS0 (F := F) V c n h ⊢ iprop((∃ s, owns (c : Thread nD τ) (Memref.whole cc0_scratch0) fullShare s) ∗ rest0 c) := by
  cases n with
  | zero => exact .rfl
  | succ n =>
    show iprop(owns (c : Thread nD τ) (Memref.whole cc0_scratch0) fullShare (accAt0 V c n _) ∗ rest0 c) ⊢ _
    iintro ⟨Hs, Hr⟩; isplitl [Hs]; · iexists _; iexact Hs
    iexact Hr
theorem PhiS1_weaken (V) (c : Dev nD) (n : ℕ) (h : n ≤ cfg1.N) :
    PhiS1 (F := F) V c n h ⊢ iprop((∃ s, owns (c : Thread nD τ) (Memref.whole cc1_scratch0) fullShare s) ∗ rest1 c) := by
  cases n with
  | zero => exact .rfl
  | succ n =>
    show iprop(owns (c : Thread nD τ) (Memref.whole cc1_scratch0) fullShare (accAt1 V c n _) ∗ rest1 c) ⊢ _
    iintro ⟨Hs, Hr⟩; isplitl [Hs]; · iexists _; iexact Hs
    iexact Hr
theorem PhiS2_weaken (V) (c : Dev nD) (n : ℕ) (h : n ≤ cfg2.N) :
    PhiS2 (F := F) V c n h ⊢ iprop((∃ s, owns (c : Thread nD τ) (Memref.whole cc2_scratch0) fullShare s) ∗ rest2 c) := by
  cases n with
  | zero => exact .rfl
  | succ n =>
    show iprop(owns (c : Thread nD τ) (Memref.whole cc2_scratch0) fullShare (accAt2 V c n _) ∗ rest2 c) ⊢ _
    iintro ⟨Hs, Hr⟩; isplitl [Hs]; · iexists _; iexact Hs
    iexact Hr

/-! ## At a region's exit: its arrays at what the pipeline leaves, every other buffer as entered -/

set_option maxHeartbeats 4000000 in
theorem hF0 (c : Dev nD) (w : Fin cfg0.W) : (pdats m 0 c).arrAt w cfg0.N = V20 m (outs m) c (Pipeline.arrRef spec0 w) := by
  rw [V20_eq]
  have hin : ∀ w' : Fin cfg0.W, (cfg0.win w').isOut = false → (Pipeline.arrRef spec0 w' : Ref sig .tc) ≠ main_v23 →
      (pdats m 0 c).arrAt w' cfg0.N = Function.update (V19 m c) main_v23 (o20 m c) (Pipeline.arrRef spec0 w') := by
    intro w' hw hne
    rw [Function.update_of_ne (fun h => hne (Proc.devRef_injective _ h))]
    exact ((pdats m 0 c).arrAt_in w' hw cfg0.N).trans (A_eq0 (U19 m) c w')
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (pdats m 0 c).arrAt 7 cfg0.N = Function.update (V19 m c) (main_v23 : DevRef τ sig) (o20 m c) (main_v23 : DevRef τ sig)
    rw [Function.update_self]
    unfold o20
    rfl
theorem hrest0 (c : Dev nD) : ∀ b, b ∉ Finset.univ.image (Pipeline.arrRef spec0) → V20 m (outs m) c b = U19 m c b := by
  intro b hb
  rw [V20_eq]
  exact Function.update_of_ne (fun h => hb (Finset.mem_image.mpr ⟨7, Finset.mem_univ _, (Proc.devRef_injective _ h).symm⟩)) _ _
set_option maxHeartbeats 4000000 in
theorem hF1 (c : Dev nD) (w : Fin cfg1.W) : (pdats m 1 c).arrAt w cfg1.N = V22 m (outs m) c (Pipeline.arrRef spec1 w) := by
  rw [V22_eq]
  have hin : ∀ w' : Fin cfg1.W, (cfg1.win w').isOut = false → (Pipeline.arrRef spec1 w' : Ref sig .tc) ≠ main_v29 →
      (pdats m 1 c).arrAt w' cfg1.N = Function.update (W21 m c) main_v29 (o22 m c) (Pipeline.arrRef spec1 w') := by
    intro w' hw hne
    rw [Function.update_of_ne (fun h => hne (Proc.devRef_injective _ h))]
    exact ((pdats m 1 c).arrAt_in w' hw cfg1.N).trans (A_eq1 (U21 m) c w')
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (pdats m 1 c).arrAt 7 cfg1.N = Function.update (W21 m c) (main_v29 : DevRef τ sig) (o22 m c) (main_v29 : DevRef τ sig)
    rw [Function.update_self]
    unfold o22
    rfl
theorem hrest1 (c : Dev nD) : ∀ b, b ∉ Finset.univ.image (Pipeline.arrRef spec1) → V22 m (outs m) c b = U21 m c b := by
  intro b hb
  rw [V22_eq]
  exact Function.update_of_ne (fun h => hb (Finset.mem_image.mpr ⟨7, Finset.mem_univ _, (Proc.devRef_injective _ h).symm⟩)) _ _
set_option maxHeartbeats 4000000 in
theorem hF2 (c : Dev nD) (w : Fin cfg2.W) : (pdats m 2 c).arrAt w cfg2.N = V24 m (outs m) c (Pipeline.arrRef spec2 w) := by
  rw [V24_eq]
  have hin : ∀ w' : Fin cfg2.W, (cfg2.win w').isOut = false → (Pipeline.arrRef spec2 w' : Ref sig .tc) ≠ main_v35 →
      (pdats m 2 c).arrAt w' cfg2.N = Function.update (W23 m c) main_v35 (o24 m c) (Pipeline.arrRef spec2 w') := by
    intro w' hw hne
    rw [Function.update_of_ne (fun h => hne (Proc.devRef_injective _ h))]
    exact ((pdats m 2 c).arrAt_in w' hw cfg2.N).trans (A_eq2 (U23 m) c w')
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show (pdats m 2 c).arrAt 7 cfg2.N = Function.update (W23 m c) (main_v35 : DevRef τ sig) (o24 m c) (main_v35 : DevRef τ sig)
    rw [Function.update_self]
    unfold o24
    rfl
theorem hrest2 (c : Dev nD) : ∀ b, b ∉ Finset.univ.image (Pipeline.arrRef spec2) → V24 m (outs m) c b = U23 m c b := by
  intro b hb
  rw [V24_eq]
  exact Function.update_of_ne (fun h => hb (Finset.mem_image.mpr ⟨7, Finset.mem_univ _, (Proc.devRef_injective _ h).symm⟩)) _ _

set_option backward.isDefEq.respectTransparency.types false in
/-- Layer 1's region over the thread state: entered from every unscoped buffer at the contents before it, left with the
    layer's output array at what the pipeline wrote back and every other buffer as entered. Its arrays are split out of
    the unscoped buffers and put back at the exit contents; the accumulator scratch comes out of the scoped rest into
    the invariant and goes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U19 m) c).loose
  hwaits := Pipeline.hwaits_of_owed_zero _ _ _ _ L lv 0 fun _ _ => rfl
  pre c := iprop(StableHlo.held (c : Thread nD τ) (Pipeline.ucRefs τ sig) (V19 m c) ∗ R c)
  post c := iprop(StableHlo.held (c : Thread nD τ) (Pipeline.ucRefs τ sig) (V20 m (outs m) c) ∗ R c)
  X c := iprop(emp)
  Y c := iprop(emp)
  Z c := iprop(Pipeline.unscopedRest (Ix := Unit) (Name := ℕ) (U := UR sig nD τ) (Lvl := ℕ) spec0 c (U19 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = iprop((∃ s, owns (c : Thread nD τ) (Memref.whole cc0_scratch0) fullShare s) ∗ rest0 c) from rfl,
      show (Pipeline.scopedRest (Pipeline.pin (pcfgs (F := F)) adm 0).spec c : sProp 𝕄) = _ from
        scopedRest0_split (Ix := Unit) (Val := Elt F) (Name := ℕ) (U := UR sig nD τ) (Lvl := ℕ) c]
    iintro ⟨-, -, ⟨%f, Hs⟩, Hr⟩
    isplitl [Hs]
    · iexists f; iapply (some_owns_whole c cc0_scratch0 f); iexact Hs
    iexact Hr
  hout c := by
    rw [Pipeline.ownSems0_none, show (Pipeline.scopedRest (Pipeline.pin (pcfgs (F := F)) adm 0).spec c : sProp 𝕄) = _ from
        scopedRest0_split (Ix := Unit) (Val := Elt F) (Name := ℕ) (U := UR sig nD τ) (Lvl := ℕ) c]
    refine (show (pdats m 0 c).Φ (Fin.last (Pipeline.pin (pcfgs (F := F)) adm 0).N) ⊢ _ from
      PhiS0_weaken (F := F) (U19 m) c (Fin.last cfg0.N).val (Nat.le_of_lt_succ (Fin.last cfg0.N).isLt)).trans ?_
    iintro ⟨⟨%s, Hs⟩, Hr⟩
    isplitr; · iempintro
    isplitr; · iempintro
    isplitl [Hs]
    · iapply (owns_whole_some c cc0_scratch0 s); iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U19 m c) (fun b => V20 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Layer 2's region over the thread state: entered from every unscoped buffer at the contents before it, left with the
    layer's output array at what the pipeline wrote back and every other buffer as entered. Its arrays are split out of
    the unscoped buffers and put back at the exit contents; the accumulator scratch comes out of the scoped rest into
    the invariant and goes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U21 m) c).loose
  hwaits := Pipeline.hwaits_of_owed_zero _ _ _ _ L lv 1 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(emp)
  Y c := iprop(emp)
  Z c := iprop(Pipeline.unscopedRest (Ix := Unit) (Name := ℕ) (U := UR sig nD τ) (Lvl := ℕ) spec1 c (U21 m c) ∗ ∃ r, prngReg c r)
  hentry c := by
    rw [Pipeline.ownSems0_none, V21_eq]
    have hsplit := Pipeline.arrays_of_unscopedBufs (p := 1) (pcfgs (F := F)) adm (pdats m) launch1.win launch1.arr_whole c
      ((pdats m 1 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = iprop((∃ s, owns (c : Thread nD τ) (Memref.whole cc1_scratch0) fullShare s) ∗ rest1 c) from rfl,
      show (Pipeline.scopedRest (Pipeline.pin (pcfgs (F := F)) adm 1).spec c : sProp 𝕄) = _ from
        scopedRest1_split (Ix := Unit) (Val := Elt F) (Name := ℕ) (U := UR sig nD τ) (Lvl := ℕ) c]
    iintro ⟨-, -, ⟨%f, Hs⟩, Hr⟩
    isplitl [Hs]
    · iexists f; iapply (some_owns_whole c cc1_scratch0 f); iexact Hs
    iexact Hr
  hout c := by
    rw [Pipeline.ownSems0_none, show (Pipeline.scopedRest (Pipeline.pin (pcfgs (F := F)) adm 1).spec c : sProp 𝕄) = _ from
        scopedRest1_split (Ix := Unit) (Val := Elt F) (Name := ℕ) (U := UR sig nD τ) (Lvl := ℕ) c]
    refine (show (pdats m 1 c).Φ (Fin.last (Pipeline.pin (pcfgs (F := F)) adm 1).N) ⊢ _ from
      PhiS1_weaken (F := F) (U21 m) c (Fin.last cfg1.N).val (Nat.le_of_lt_succ (Fin.last cfg1.N).isLt)).trans ?_
    iintro ⟨⟨%s, Hs⟩, Hr⟩
    isplitr; · iempintro
    isplitr; · iempintro
    isplitl [Hs]
    · iapply (owns_whole_some c cc1_scratch0 s); iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U21 m c) (fun b => V22 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Layer 3's region over the thread state: entered from every unscoped buffer at the contents before it, left with the
    layer's output array at what the pipeline wrote back and every other buffer as entered. Its arrays are split out of
    the unscoped buffers and put back at the exit contents; the accumulator scratch comes out of the scoped rest into
    the invariant and goes back; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U23 m) c).loose
  hwaits := Pipeline.hwaits_of_owed_zero _ _ _ _ L lv 2 fun _ _ => rfl
  pre c := iprop(StableHlo.held (c : Thread nD τ) (Pipeline.ucRefs τ sig) (V23 m (outs m) c) ∗ R c)
  post c := iprop(StableHlo.held (c : Thread nD τ) (Pipeline.ucRefs τ sig) (V24 m (outs m) c) ∗ R c)
  X c := iprop(emp)
  Y c := iprop(emp)
  Z c := iprop(Pipeline.unscopedRest (Ix := Unit) (Name := ℕ) (U := UR sig nD τ) (Lvl := ℕ) spec2 c (U23 m c) ∗ ∃ r, prngReg c r)
  hentry c := by
    rw [Pipeline.ownSems0_none, V23_eq]
    have hsplit := Pipeline.arrays_of_unscopedBufs (p := 2) (pcfgs (F := F)) adm (pdats m) launch2.win launch2.arr_whole c
      ((pdats m 2 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = iprop((∃ s, owns (c : Thread nD τ) (Memref.whole cc2_scratch0) fullShare s) ∗ rest2 c) from rfl,
      show (Pipeline.scopedRest (Pipeline.pin (pcfgs (F := F)) adm 2).spec c : sProp 𝕄) = _ from
        scopedRest2_split (Ix := Unit) (Val := Elt F) (Name := ℕ) (U := UR sig nD τ) (Lvl := ℕ) c]
    iintro ⟨-, -, ⟨%f, Hs⟩, Hr⟩
    isplitl [Hs]
    · iexists f; iapply (some_owns_whole c cc2_scratch0 f); iexact Hs
    iexact Hr
  hout c := by
    rw [Pipeline.ownSems0_none, show (Pipeline.scopedRest (Pipeline.pin (pcfgs (F := F)) adm 2).spec c : sProp 𝕄) = _ from
        scopedRest2_split (Ix := Unit) (Val := Elt F) (Name := ℕ) (U := UR sig nD τ) (Lvl := ℕ) c]
    refine (show (pdats m 2 c).Φ (Fin.last (Pipeline.pin (pcfgs (F := F)) adm 2).N) ⊢ _ from
      PhiS2_weaken (F := F) (U23 m) c (Fin.last cfg2.N).val (Nat.le_of_lt_succ (Fin.last cfg2.N).isLt)).trans ?_
    iintro ⟨⟨%s, Hs⟩, Hr⟩
    isplitr; · iempintro
    isplitr; · iempintro
    isplitl [Hs]
    · iapply (owns_whole_some c cc2_scratch0 s); iexact Hs
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U23 m c) (fun b => V24 m (outs m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

variable (ρ : Dev nD → PrngReg)

/-- At the launch every core's generator register and its dues (nothing) ride beside the buffers. -/
theorem launch_rest (c : Dev nD) :
    (iprop(unscopedSems0 c ∗ owes (c : Thread nD τ) ((0 : Dev nD → CellTallies nD τ sig Unit) c) ∅ ∗ Pipeline.launchCred (0 : Dev nD → CellTallies nD τ sig Unit) c
        ∗ prngReg c (ρ c) ∗ emp) : sProp 𝕄) ⊢ R c := by
  iintro ⟨-, HO, -, Hp, -⟩
  isplitl [Hp]; · iexists _; iexact Hp
  iexists ∅; iexact HO

set_option backward.isDefEq.respectTransparency.types false in
set_option maxHeartbeats 4000000 in
/-- THE FRAME, at any float values: from any memory with zero counters every weakly fair execution of the program
    terminates, nothing faulting, and every final memory holds each argument array as launched. The three layers'
    regions are the records above; the host stretches between them and the bookkeeping of the launch are the
    generated conditional frame's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_cond (F := F) (m := m) (Ix := Unit) (U := UR sig nD τ) (Lvl := ℕ) (EP := emb₁) (ι := ()) (𝒱₀ := 𝒱₀) (L := L) (lv := lv)
    (hL := fun _ _ => rfl) (ρ := ρ) (outs := outs m) (pdats := pdats m)
    (O₀ := (0 : Dev nD → CellTallies nD τ sig Unit)) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => R c) : sProp 𝕄) := bigSep_mono fun c _ => launch_rest ρ c
      iintro ⟨H, Hl⟩
      ihave H' := hmono $$ H
      imodintro
      iexact H')
    (hE3 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

end Cert.KernelIdeal.Hand

end
-- ==== Proof.KIRun.lean ====
import proofs.«128298_j33311766347902_2_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's items as segments: the host stretches between the layers, and the three layers' regions. -/
abbrev allSegs (c : Dev nD) : List (Seg (pcfgs (F := F)) adm (pdats m) () defs₀ 𝒱₀ L lv) :=
  segs m (outs m) 𝒱₀ L lv (fun _ c => R c) () (pdats m) (reg0 m) (reg1 m) (reg2 m) c

set_option backward.isDefEq.respectTransparency.types false in
set_option maxHeartbeats 8000000 in
/-- THE RUN WITH ITS VALUES, at any float values: every weakly fair execution of the program terminates, and every
    final memory holds every unscoped buffer of every core at the last valuation — the launch contents with each host
    stretch applied and each layer's output array at what its region's pipeline wrote back. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V25 m (outs m) c b) :=
  Pipeline.θ_run_regions_kit_dev (pcfgs (F := F)) adm (pdats m) () cellOf_inj emb₁ defs₀ 𝒱₀ L lv m ρ main
    (allSegs m)
    (fun c Q => by
      rw [main_chain c, Seg.run_eq_chain]
      exact .rfl)
    (fun c => by simp only [allSegs, segs, Seg.pipes_host, Seg.pipes_region, Seg.pipes_nil]; decide)
    (O₀ := (0 : Dev nD → CellTallies nD τ sig Unit)) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V25 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl,
      .rfl, .rfl, .rfl, .rfl, .rfl, .rfl,
      (show (iprop(StableHlo.held (c : Thread nD τ) (Pipeline.ucRefs τ sig) (V25 m (outs m) c) ∗ R c) : sProp 𝕄)
          ⊢ iprop(iprop(StableHlo.held (c : Thread nD τ) (Pipeline.ucRefs τ sig) (V25 m (outs m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V25 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V25 m (outs m) c) s')
      isplitl [Hh] <;> iassumption)
    (hQ := fun s h c => h c)

end Cert.KernelIdeal.Hand

end
-- ==== Proof.LibBnScale.lean ====
/-
  The scale of an inference-mode batch normalisation, spelt two ways, over the extended reals.

  One program multiplies the gain by the inverse square root of the shifted variance, `g * rsqrt (v + e)`;
  the other divides the gain by the square root, `g / sqrt (v + e)`. On the extended reals the two spellings
  agree exactly when the shifted variance is positive (an infinite variance included: both scales are then
  zero), and they part below zero, where each operation answers its own conventional value. A variance is
  non-negative and the shift `e` is a positive real, so the shifted variance is positive: that is the only
  fact about the inputs the equality uses.
-/
import Idealize.ShloMosaic.PureOps.Ideal

namespace Cert.Lib.BnScale

open Idealize.ShloMosaic

/-- A non-negative extended real shifted by a positive real is positive. -/
theorem shifted_pos {v : EReal} {e : ℝ} (hv : 0 ≤ v) (he : 0 < e) : 0 < v + (e : EReal) :=
  calc (0 : EReal) < (e : EReal) := by exact_mod_cast he
    _ = 0 + (e : EReal) := (zero_add _).symm
    _ ≤ v + (e : EReal) := add_le_add hv le_rfl

/-- On a positive extended real `y`, multiplying by the inverse square root is dividing by the square root:
    for real `y` both are the product with `(sqrt y)⁻¹`, the square root being a nonzero real; at `y = ⊤` the
    inverse square root is `0` and the quotient by `⊤` is the product with `⊤⁻¹ = 0`. Any gain `g`, infinite or not. -/
theorem mul_rsqrt_eq_div_sqrt (g : EReal) {y : EReal} (hy : 0 < y) :
    g * Ideal.rsqrt y = Ideal.div g (Ideal.sqrt y) := by
  induction y using EReal.rec with
  | bot => exact absurd hy (not_lt.mpr bot_le)
  | top =>
    rw [Ideal.rsqrt_top, Ideal.sqrt_top, Ideal.div, if_neg EReal.top_ne_zero, EReal.inv_top]
  | coe r =>
    have hr : 0 < r := by exact_mod_cast hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- The two spellings of the scale agree on a non-negative variance shifted by a positive real. -/
theorem scale_eq (g : EReal) {v : EReal} {e : ℝ} (hv : 0 ≤ v) (he : 0 < e) :
    g * Ideal.rsqrt (v + (e : EReal)) = Ideal.div g (Ideal.sqrt (v + (e : EReal))) :=
  mul_rsqrt_eq_div_sqrt g (shifted_pos hv he)

/-- Dividing by the real `128` is multiplying by the real `1 / 128`, on every extended real. -/
theorem div_128 (x : EReal) : Ideal.div x ((128 : ℝ) : EReal) = x * (((1 / 128 : ℝ)) : EReal) :=
  Ideal.div_coe (by norm_num) x

end Cert.Lib.BnScale
-- ==== Proof.Spec.lean ====
/-
  The network both programs compute, as one function of the argument arrays over the extended reals.

  Three binarised dense layers. A layer contracts each activation row with each binarised weight row, adds the bias,
  subtracts the running mean, multiplies by gain over root of (variance + ε) and adds the offset; the first two layers
  then keep only the sign (+1 on non-negative entries, −1 on negative ones). The first layer's activations are the signs
  of the input quantised to multiples of 1/128.
-/
import Idealize.ShloMosaic.PureOps.Ideal
import Idealize.ShloMosaic.PureOps.Ideal.Laws
import proofs.«128298_j33311766347902_2_alg».proof.Proof.LibBnScale

noncomputable section

namespace Cert.Spec

open Idealize.ShloMosaic

/-- The float literals of the two programs, as the extended reals their patterns denote. -/
abbrev zero : EReal := Ideal.ofBits .f32 0x00000000#32
abbrev one : EReal := Ideal.ofBits .f32 0x3F800000#32
abbrev negOne : EReal := Ideal.ofBits .f32 0xBF800000#32
abbrev eps : EReal := Ideal.ofBits .f32 0x3727C5AC#32
abbrev c128 : EReal := Ideal.ofBits .f32 0x43000000#32
abbrev cInv128 : EReal := Ideal.ofBits .f32 0x3C000000#32

/-- +1 where the entry is at least zero, −1 elsewhere. -/
def sgn (t : EReal) : EReal := if zero ≤ t then one else negOne

/-- The input quantised to multiples of 1/128: scaled by 128, rounded to the nearest integer (ties to even), scaled back. -/
def quant (t : EReal) : EReal := Ideal.liftRound Ideal.roundHalfEven (t * c128) * cInv128

/-- The inference-mode batch normalisation of a pre-activation `a` plus bias `b`. -/
def bnorm (a b g be mu var : EReal) : EReal := ((a + b) - mu) * (g * Ideal.rsqrt (var + eps)) + be

/-- One layer before its sign: entry (i, j) from activation row i and weight row j. -/
def layer {B K N : ℕ} (h : Fin B → Fin K → EReal) (W : Fin N → Fin K → EReal) (b g be mu var : Fin N → EReal)
    (i : Fin B) (j : Fin N) : EReal :=
  bnorm (∑ k, h i k * sgn (W j k)) (b j) (g j) (be j) (mu j) (var j)

/-- The whole network's entry (i, j). -/
def net (x : Fin 8192 → Fin 4096 → EReal)
    (W1 : Fin 4096 → Fin 4096 → EReal) (b1 g1 be1 m1 v1 : Fin 4096 → EReal)
    (W2 : Fin 4096 → Fin 4096 → EReal) (b2 g2 be2 m2 v2 : Fin 4096 → EReal)
    (W3 : Fin 1000 → Fin 4096 → EReal) (b3 g3 be3 m3 v3 : Fin 1000 → EReal)
    (i : Fin 8192) (j : Fin 1000) : EReal :=
  layer (fun i k => sgn (layer (fun i k => sgn (layer (fun i k => sgn (quant (x i k))) W1 b1 g1 be1 m1 v1 i k))
      W2 b2 g2 be2 m2 v2 i k)) W3 b3 g3 be3 m3 v3 i j

/-! ## The literals -/

theorem zero_eq : zero = 0 := Ideal.ofBits_zero_f32

/-- A binary32 pattern with a clear sign bit and an exponent field that is neither zero nor all ones denotes a positive real. -/
theorem f32_normal_pos (b : BitVec 32) (ex fr : ℕ)
    (h1 : (b.extractLsb' (8 + 23) 1 == 1#1) = false) (h2 : (b.extractLsb' 23 8).toNat = ex)
    (h3 : (b.extractLsb' 0 23).toNat = fr) (hx : ex ≠ 2 ^ 8 - 1) (h0 : ex ≠ 0) :
    ∃ e : ℝ, 0 < e ∧ Ideal.ofBits .f32 b = (e : EReal) := by
  refine ⟨(1 : ℝ) * ((2 ^ 23 + fr : ℕ) : ℝ) * (2 : ℝ) ^ ((ex : ℤ) - (2 ^ (8 - 1) - 1) - (23 : ℕ)), by positivity, ?_⟩
  show Ideal.ieee 8 23 b = _
  unfold Ideal.ieee
  simp only [h1, h2, h3, if_neg hx, if_neg h0, Bool.false_eq_true, if_false]

/-- With the sign bit set it denotes a negative real. -/
theorem f32_normal_neg (b : BitVec 32) (ex fr : ℕ)
    (h1 : (b.extractLsb' (8 + 23) 1 == 1#1) = true) (h2 : (b.extractLsb' 23 8).toNat = ex)
    (h3 : (b.extractLsb' 0 23).toNat = fr) (hx : ex ≠ 2 ^ 8 - 1) (h0 : ex ≠ 0) :
    ∃ e : ℝ, e < 0 ∧ Ideal.ofBits .f32 b = (e : EReal) := by
  refine ⟨(-1 : ℝ) * ((2 ^ 23 + fr : ℕ) : ℝ) * (2 : ℝ) ^ ((ex : ℤ) - (2 ^ (8 - 1) - 1) - (23 : ℕ)), ?_, ?_⟩
  · have : (0 : ℝ) < ((2 ^ 23 + fr : ℕ) : ℝ) * (2 : ℝ) ^ ((ex : ℤ) - (2 ^ (8 - 1) - 1) - (23 : ℕ)) := by positivity
    linarith
  show Ideal.ieee 8 23 b = _
  unfold Ideal.ieee
  simp only [h1, h2, h3, if_neg hx, if_neg h0, if_true]

/-- ε is a positive real. -/
theorem eps_pos : ∃ e : ℝ, 0 < e ∧ eps = (e : EReal) :=
  f32_normal_pos _ 110 2606508 (by decide) (by decide) (by decide) (by decide) (by decide)

theorem one_nonneg : zero ≤ one := by
  obtain ⟨e, he, h⟩ := f32_normal_pos (0x3F800000#32) 127 0 (by decide) (by decide) (by decide) (by decide) (by decide)
  show zero ≤ Ideal.ofBits .f32 0x3F800000#32
  rw [zero_eq, h]; exact_mod_cast he.le
theorem negOne_neg : ¬ zero ≤ negOne := by
  obtain ⟨e, he, h⟩ := f32_normal_neg (0xBF800000#32) 127 0 (by decide) (by decide) (by decide) (by decide) (by decide)
  show ¬ zero ≤ Ideal.ofBits .f32 0xBF800000#32
  rw [zero_eq, h, not_le]; exact_mod_cast he

/-- The sign of a sign is that sign. -/
theorem sgn_sgn (t : EReal) : sgn (sgn t) = sgn t := by
  unfold sgn
  by_cases h : zero ≤ t
  · rw [if_pos h, if_pos one_nonneg]
  · rw [if_neg h, if_neg negOne_neg]

/-- The gain over the root of the shifted variance, as a quotient: the same scale, for a non-negative variance. -/
theorem scale_div (g : EReal) {v : EReal} (hv : 0 ≤ v) :
    Ideal.div g (Ideal.sqrt (v + eps)) = g * Ideal.rsqrt (v + eps) := by
  obtain ⟨e, he, hε⟩ := eps_pos
  rw [hε]
  exact (Cert.Lib.BnScale.scale_eq g hv he).symm

end Cert.Spec

end
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.KIPay.lean ====
import proofs.«128298_j33311766347902_2_alg».proof.Proof.Gen.KernelIdeal.Skeleton
import proofs.«128298_j33311766347902_2_alg».proof.Proof.Spec
import proofs.«128298_j33311766347902_2_alg».proof.Proof.LibMatmulT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Cert.KernelIdeal Cert.KernelIdeal.Gen

/-! # The kernels' three payloads read at an entry, over the extended reals -/

/-- The kernels' compare-and-select against zero is the sign. -/
theorem select_oge (x z a b : EReal) : Scalar.select (Ideal.cmp .oge x z) a b = if z ≤ x then a else b := by
  unfold Scalar.select Ideal.cmp
  by_cases h : z ≤ x <;> simp [h]

/-! ## Layer 1 -/

/-- The refill is zero everywhere. -/
theorem pay1_apply0 (i : S1024x2048.Idx) : k0_pay1 (F := Ideal) i = Cert.Spec.zero := by
  unfold k0_pay1
  simp only [shapeCast_self, broadcast_apply]
  rfl

/-- One accumulation step at entry (r, cc): what the accumulator held plus the contraction of activation row r with
    weight row cc over the block's 256 columns (the activations quantised and binarised first). -/
theorem pay2_apply0 (x : Vec Ideal S1024x256 .f32) (w : Vec Ideal S2048x256 .bf16) (s : Vec Ideal S1024x2048 .f32) (r : Fin 1024) (cc : Fin 2048) :
    k0_pay2 (F := Ideal) x w s (ix2 r cc)
      = s (ix2 r cc) + ∑ q : Fin 256, Cert.Spec.sgn (Cert.Spec.quant (x (ix2 r q))) * w (ix2 cc q) := by
  unfold k0_pay2
  simp only [shapeCast_self, addf_apply]
  rw [show dot_S1024x256_S2048x256_S1024x2048_1_1_0_0_n_n = DotDims.transposedRhs 1024 256 2048 from rfl]
  erw [Cert.Lib.MatmulT.matmul_trhs_zero_apply]
  refine congrArg _ (Finset.sum_congr rfl fun q _ => ?_)
  congr 1
  simp only [truncf_apply, select_apply, cmpf_apply, mulf_apply, broadcast_apply]
  show Scalar.select (Ideal.cmp .oge _ _) _ _ = _
  rw [select_oge]
  rfl

/-- The epilogue at entry (r, cc): the sign of the batch normalisation of the accumulated contraction, the five per-column rows
    read at the entry's column. -/
theorem pay3_apply0 (acc : Vec Ideal S1024x2048 .f32) (b g var mu be : Vec Ideal S1x2048 .f32) (r : Fin 1024) (cc : Fin 2048) :
    k0_pay3 (F := Ideal) acc b g var mu be (ix2 r cc)
      = Cert.Spec.sgn (Cert.Spec.bnorm (acc (ix2 r cc)) (b (ix2 0 cc)) (g (ix2 0 cc)) (be (ix2 0 cc)) (mu (ix2 0 cc)) (var (ix2 0 cc))) := by
  unfold k0_pay3
  simp only [shapeCast_self, truncf_apply, select_apply, cmpf_apply, addf_apply, mulf_apply, subf_apply, broadcast_apply,
    broadcastTo_1b_ab_apply]
  show Scalar.select (Ideal.cmp .oge _ _) _ _ = _
  rw [select_oge]
  rfl

/-! ## Layer 2 -/

/-- The refill is zero everywhere. -/
theorem pay1_apply1 (i : S1024x2048.Idx) : k1_pay1 (F := Ideal) i = Cert.Spec.zero := by
  unfold k1_pay1
  simp only [shapeCast_self, broadcast_apply]
  rfl

/-- One accumulation step at entry (r, cc): what the accumulator held plus the contraction of activation row r with
    weight row cc over the block's 256 columns. -/
theorem pay2_apply1 (x : Vec Ideal S1024x256 .bf16) (w : Vec Ideal S2048x256 .bf16) (s : Vec Ideal S1024x2048 .f32) (r : Fin 1024) (cc : Fin 2048) :
    k1_pay2 (F := Ideal) x w s (ix2 r cc)
      = s (ix2 r cc) + ∑ q : Fin 256, x (ix2 r q) * w (ix2 cc q) := by
  unfold k1_pay2
  simp only [shapeCast_self, addf_apply]
  rw [show dot_S1024x256_S2048x256_S1024x2048_1_1_0_0_n_n = DotDims.transposedRhs 1024 256 2048 from rfl]
  erw [Cert.Lib.MatmulT.matmul_trhs_zero_apply]

/-- The epilogue at entry (r, cc): the sign of the batch normalisation of the accumulated contraction, the five per-column rows
    read at the entry's column. -/
theorem pay3_apply1 (acc : Vec Ideal S1024x2048 .f32) (b g var mu be : Vec Ideal S1x2048 .f32) (r : Fin 1024) (cc : Fin 2048) :
    k1_pay3 (F := Ideal) acc b g var mu be (ix2 r cc)
      = Cert.Spec.sgn (Cert.Spec.bnorm (acc (ix2 r cc)) (b (ix2 0 cc)) (g (ix2 0 cc)) (be (ix2 0 cc)) (mu (ix2 0 cc)) (var (ix2 0 cc))) := by
  unfold k1_pay3
  simp only [shapeCast_self, truncf_apply, select_apply, cmpf_apply, addf_apply, mulf_apply, subf_apply, broadcast_apply,
    broadcastTo_1b_ab_apply]
  show Scalar.select (Ideal.cmp .oge _ _) _ _ = _
  rw [select_oge]
  rfl

/-! ## Layer 3 -/

/-- The refill is zero everywhere. -/
theorem pay1_apply2 (i : S1024x1024.Idx) : k2_pay1 (F := Ideal) i = Cert.Spec.zero := by
  unfold k2_pay1
  simp only [shapeCast_self, broadcast_apply]
  rfl

/-- One accumulation step at entry (r, cc): what the accumulator held plus the contraction of activation row r with
    weight row cc over the block's 512 columns. -/
theorem pay2_apply2 (x : Vec Ideal S1024x512 .bf16) (w : Vec Ideal S1024x512 .bf16) (s : Vec Ideal S1024x1024 .f32) (r : Fin 1024) (cc : Fin 1024) :
    k2_pay2 (F := Ideal) x w s (ix2 r cc)
      = s (ix2 r cc) + ∑ q : Fin 512, x (ix2 r q) * w (ix2 cc q) := by
  unfold k2_pay2
  simp only [shapeCast_self, addf_apply]
  rw [show dot_S1024x512_S1024x512_S1024x1024_1_1_0_0_n_n = DotDims.transposedRhs 1024 512 1024 from rfl]
  erw [Cert.Lib.MatmulT.matmul_trhs_zero_apply]

/-- The epilogue at entry (r, cc): the batch normalisation of the accumulated contraction, the five per-column rows
    read at the entry's column. -/
theorem pay3_apply2 (acc : Vec Ideal S1024x1024 .f32) (b g var mu be : Vec Ideal S1x1024 .f32) (r : Fin 1024) (cc : Fin 1024) :
    k2_pay3 (F := Ideal) acc b g var mu be (ix2 r cc)
      = Cert.Spec.bnorm (acc (ix2 r cc)) (b (ix2 0 cc)) (g (ix2 0 cc)) (be (ix2 0 cc)) (mu (ix2 0 cc)) (var (ix2 0 cc)) := by
  unfold k2_pay3
  simp only [shapeCast_self, truncf_apply, select_apply, cmpf_apply, addf_apply, mulf_apply, subf_apply, broadcast_apply,
    broadcastTo_1b_ab_apply]
  rfl

end Cert.KernelIdeal.Val

end
-- ==== Proof.LibBlockAcc.lean ====
/-
  The closed form of a blockwise accumulation, in any additive commutative monoid.

  A sequence of terms g 0, g 1, … is cut into blocks of U consecutive terms. An accumulator starts at zero plus the sum
  of the first block and, at each later block, adds that block's sum to what it held:
      acc 0 = 0 + Σ_{u < U} g u,        acc (k + 1) = acc k + Σ_{u < U} g ((k + 1) · U + u).
  Then after block k it holds the sum of the first (k + 1) · U terms, and after the last of J blocks the sum of all
  J · U terms. Only associativity and commutativity of addition and the neutrality of zero are used, so the statements
  hold over the extended reals with no finiteness side condition.
-/
import Mathlib.Algebra.BigOperators.Fin
import Mathlib.Algebra.BigOperators.Intervals

open scoped BigOperators

namespace Cert.Lib.BlockAcc

variable {M : Type*} [AddCommMonoid M]

/-- The first (k + 2) · U terms are the first (k + 1) · U terms and then the block of U terms that starts at (k + 1) · U. -/
theorem sum_range_succ_block (U : ℕ) (g : ℕ → M) (k : ℕ) :
    ∑ i ∈ Finset.range ((k + 1 + 1) * U), g i
      = ∑ i ∈ Finset.range ((k + 1) * U), g i + ∑ u ∈ Finset.range U, g ((k + 1) * U + u) := by
  rw [Nat.succ_mul (k + 1) U, Finset.sum_range_add]

/-- The closed form over an initial segment of the naturals, for a recursion that holds for the blocks before `J`. -/
theorem acc_closed_range_lt (U J : ℕ) (g : ℕ → M) (acc : ℕ → M)
    (h0 : acc 0 = 0 + ∑ u : Fin U, g u.val)
    (hs : ∀ k, k + 1 < J → acc (k + 1) = acc k + ∑ u : Fin U, g ((k + 1) * U + u.val)) :
    ∀ k, k < J → acc k = ∑ i ∈ Finset.range ((k + 1) * U), g i := by
  intro k
  induction k with
  | zero =>
    intro _
    rw [h0, zero_add, Nat.zero_add, Nat.one_mul, Fin.sum_univ_eq_sum_range (fun u => g u) U]
  | succ k ih =>
    intro hk
    rw [hs k hk, ih (Nat.lt_of_succ_lt hk), sum_range_succ_block,
      Fin.sum_univ_eq_sum_range (fun u => g ((k + 1) * U + u)) U]

/-- After block `k` (of the blocks before `J`) the accumulator holds the sum of the first (k + 1) · U terms. -/
theorem acc_closed_lt (U J : ℕ) (g : ℕ → M) (acc : ℕ → M)
    (h0 : acc 0 = 0 + ∑ u : Fin U, g u.val)
    (hs : ∀ k, k + 1 < J → acc (k + 1) = acc k + ∑ u : Fin U, g ((k + 1) * U + u.val)) :
    ∀ k, k < J → acc k = ∑ i : Fin ((k + 1) * U), g i.val := by
  intro k hk
  rw [acc_closed_range_lt U J g acc h0 hs k hk, Fin.sum_univ_eq_sum_range (fun i => g i) ((k + 1) * U)]

/-- The same when the recursion holds at every block. -/
theorem acc_closed (U : ℕ) (g : ℕ → M) (acc : ℕ → M)
    (h0 : acc 0 = 0 + ∑ u : Fin U, g u.val)
    (hs : ∀ k, acc (k + 1) = acc k + ∑ u : Fin U, g ((k + 1) * U + u.val)) :
    ∀ k, acc k = ∑ i : Fin ((k + 1) * U), g i.val :=
  fun k => acc_closed_lt U (k + 1) g acc h0 (fun j _ => hs j) k (Nat.lt_succ_self k)

/-- After the last of `J` blocks the accumulator holds the sum of all J · U terms. -/
theorem acc_last (U J : ℕ) (hJ : 0 < J) (g : ℕ → M) (acc : ℕ → M)
    (h0 : acc 0 = 0 + ∑ u : Fin U, g u.val)
    (hs : ∀ k, k + 1 < J → acc (k + 1) = acc k + ∑ u : Fin U, g ((k + 1) * U + u.val)) :
    acc (J - 1) = ∑ f : Fin (J * U), g f.val := by
  rw [acc_closed_range_lt U J g acc h0 hs (J - 1) (Nat.sub_lt hJ Nat.one_pos), Nat.sub_add_cancel hJ,
    Fin.sum_univ_eq_sum_range (fun i => g i) (J * U)]

/-- The last block's closed form for terms indexed by `Fin N` with N = J · U: the accumulator ends at the sum over all of `Fin N`. -/
theorem acc_last_fin (U J N : ℕ) (hN : N = J * U) (hJ : 0 < J) (t : Fin N → M) (z : M) (acc : ℕ → M)
    (h0 : acc 0 = 0 + ∑ u : Fin U, (if h : u.val < N then t ⟨u.val, h⟩ else z))
    (hs : ∀ k, k + 1 < J → acc (k + 1) = acc k + ∑ u : Fin U, (if h : (k + 1) * U + u.val < N then t ⟨(k + 1) * U + u.val, h⟩ else z)) :
    acc (J - 1) = ∑ f : Fin N, t f := by
  subst hN
  rw [acc_last U J hJ (fun i => if h : i < J * U then t ⟨i, h⟩ else z) acc h0 hs]
  exact Finset.sum_congr rfl fun f _ => by rw [dif_pos f.isLt]

end Cert.Lib.BlockAcc
-- ==== Proof.LibKBlocks.lean ====
/-
  A running sum that is refilled every J steps.

  Steps are numbered 0, 1, 2, …; at a step whose number is a multiple of J the sum restarts from zero, at every step it
  grows by a block of U terms. At the last step of a group of J steps it therefore holds the sum of the group's J · U
  terms, term number f of the group being term (f mod U) of step (f div U) of the group. Any additive commutative monoid.
-/
import Mathlib.Algebra.BigOperators.Fin
import Mathlib.Algebra.BigOperators.Intervals
import proofs.«128298_j33311766347902_2_alg».proof.Proof.LibBlockAcc

namespace Cert.Lib.KBlocks

variable {M : Type*} [AddCommMonoid M]

/-- At the last step of the group that starts at step `base` (a multiple of J) the running sum is the group's whole sum. -/
theorem group_sum (J U : ℕ) (hJ : 0 < J) (hU : 0 < U) (acc : ℕ → M) (term : ℕ → ℕ → M)
    (hreset : ∀ n, n % J = 0 → acc n = 0 + ∑ u : Fin U, term n u.val)
    (hstep : ∀ n, n % J ≠ 0 → acc n = acc (n - 1) + ∑ u : Fin U, term n u.val)
    (base : ℕ) (hb : base % J = 0) :
    acc (base + (J - 1)) = ∑ f : Fin (J * U), term (base + f.val / U) (f.val % U) := by
  refine Cert.Lib.BlockAcc.acc_last U J hJ (fun i => term (base + i / U) (i % U)) (fun k => acc (base + k)) ?_ ?_
  · show acc (base + 0) = _
    rw [Nat.add_zero, hreset base hb]
    refine congrArg _ (Finset.sum_congr rfl fun u _ => ?_)
    show term base u.val = term (base + u.val / U) (u.val % U)
    rw [Nat.div_eq_of_lt u.isLt, Nat.mod_eq_of_lt u.isLt, Nat.add_zero]
  · intro k hk
    have hne : (base + (k + 1)) % J ≠ 0 := by
      rw [Nat.add_mod, hb, Nat.zero_add, Nat.mod_mod, Nat.mod_eq_of_lt hk]; exact Nat.succ_ne_zero k
    show acc (base + (k + 1)) = acc (base + k) + _
    rw [hstep _ hne, show base + (k + 1) - 1 = base + k from by omega]
    refine congrArg _ (Finset.sum_congr rfl fun u _ => ?_)
    have h1 : ((k + 1) * U + u.val) / U = k + 1 := by
      rw [Nat.add_comm, Nat.add_mul_div_right _ _ hU, Nat.div_eq_of_lt u.isLt, Nat.zero_add]
    have h2 : ((k + 1) * U + u.val) % U = u.val := by
      rw [Nat.add_comm, Nat.add_mul_mod_self_right, Nat.mod_eq_of_lt u.isLt]
    show term (base + (k + 1)) u.val = term (base + ((k + 1) * U + u.val) / U) (((k + 1) * U + u.val) % U)
    rw [h1, h2]

/-- The same when the two recursion facts are only known for the steps below a bound N that the group stays under. -/
theorem group_sum_lt (J U N : ℕ) (hJ : 0 < J) (hU : 0 < U) (acc : ℕ → M) (term : ℕ → ℕ → M)
    (hreset : ∀ n, n < N → n % J = 0 → acc n = 0 + ∑ u : Fin U, term n u.val)
    (hstep : ∀ n, n < N → n % J ≠ 0 → acc n = acc (n - 1) + ∑ u : Fin U, term n u.val)
    (base : ℕ) (hb : base % J = 0) (hN : base + J ≤ N) :
    acc (base + (J - 1)) = ∑ f : Fin (J * U), term (base + f.val / U) (f.val % U) := by
  refine Cert.Lib.BlockAcc.acc_last U J hJ (fun i => term (base + i / U) (i % U)) (fun k => acc (base + k)) ?_ ?_
  · show acc (base + 0) = _
    rw [Nat.add_zero, hreset base (by omega) hb]
    refine congrArg _ (Finset.sum_congr rfl fun u _ => ?_)
    show term base u.val = term (base + u.val / U) (u.val % U)
    rw [Nat.div_eq_of_lt u.isLt, Nat.mod_eq_of_lt u.isLt, Nat.add_zero]
  · intro k hk
    have hne : (base + (k + 1)) % J ≠ 0 := by
      rw [Nat.add_mod, hb, Nat.zero_add, Nat.mod_mod, Nat.mod_eq_of_lt hk]; exact Nat.succ_ne_zero k
    show acc (base + (k + 1)) = acc (base + k) + _
    rw [hstep _ (by omega) hne, show base + (k + 1) - 1 = base + k from by omega]
    refine congrArg _ (Finset.sum_congr rfl fun u _ => ?_)
    have h1 : ((k + 1) * U + u.val) / U = k + 1 := by
      rw [Nat.add_comm, Nat.add_mul_div_right _ _ hU, Nat.div_eq_of_lt u.isLt, Nat.zero_add]
    have h2 : ((k + 1) * U + u.val) % U = u.val := by
      rw [Nat.add_comm, Nat.add_mul_mod_self_right, Nat.mod_eq_of_lt u.isLt]
    show term (base + (k + 1)) u.val = term (base + ((k + 1) * U + u.val) / U) (((k + 1) * U + u.val) % U)
    rw [h1, h2]

end Cert.Lib.KBlocks
-- ==== Proof.KIVal0.lean ====
import proofs.«128298_j33311766347902_2_alg».proof.Proof.KIData0
import proofs.«128298_j33311766347902_2_alg».proof.Proof.KIPay
import proofs.«128298_j33311766347902_2_alg».proof.Proof.LibKBlocks

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.KernelIdeal.Val

/-! # Layer 1's region: what its pipeline writes back, entry by entry -/

section Val0
variable (V : (c : Dev nD) → (b : Ref sig .tc) → Buf (Elt Ideal) ((c : Thread nD τ).loc b))

/-- The block indices of the region's windows at the grid's points, in closed form. -/
theorem widx0 : ∀ t : Fin cfg0.N,
    win0_0.index t 0 = t.val / 32 ∧ win0_0.index t 1 = t.val % 16
    ∧ win0_1.index t 0 = t.val / 16 % 2 ∧ win0_1.index t 1 = t.val % 16
    ∧ win0_2.index t 0 = 0 ∧ win0_2.index t 1 = t.val / 16 % 2
    ∧ win0_3.index t 0 = 0 ∧ win0_3.index t 1 = t.val / 16 % 2
    ∧ win0_4.index t 0 = 0 ∧ win0_4.index t 1 = t.val / 16 % 2
    ∧ win0_5.index t 0 = 0 ∧ win0_5.index t 1 = t.val / 16 % 2
    ∧ win0_6.index t 0 = 0 ∧ win0_6.index t 1 = t.val / 16 % 2
    ∧ win0_7.index t 0 = t.val / 32 ∧ win0_7.index t 1 = t.val / 16 % 2 :=
  (by decide +kernel : ∀ t : Fin grid0.N,
    win0_0.index t 0 = t.val / 32 ∧ win0_0.index t 1 = t.val % 16
    ∧ win0_1.index t 0 = t.val / 16 % 2 ∧ win0_1.index t 1 = t.val % 16
    ∧ win0_2.index t 0 = 0 ∧ win0_2.index t 1 = t.val / 16 % 2
    ∧ win0_3.index t 0 = 0 ∧ win0_3.index t 1 = t.val / 16 % 2
    ∧ win0_4.index t 0 = 0 ∧ win0_4.index t 1 = t.val / 16 % 2
    ∧ win0_5.index t 0 = 0 ∧ win0_5.index t 1 = t.val / 16 % 2
    ∧ win0_6.index t 0 = 0 ∧ win0_6.index t 1 = t.val / 16 % 2
    ∧ win0_7.index t 0 = t.val / 32 ∧ win0_7.index t 1 = t.val / 16 % 2)

/-- An entry of the activation block at point t is the activation array's entry in the point's row block and contraction block. -/
theorem iblk0_0_apply (c : Dev nD) (t : Fin cfg0.N) (x : S1024x256.Idx) (k : S8192x4096.Idx)
    (hk0 : (k 0).val = (t.val / 32) * 1024 + (x 0).val) (hk1 : (k 1).val = (t.val % 16) * 256 + (x 1).val) :
    (iblk0 V c 0 t : Vec Ideal S1024x256 .f32) x = (V c main_arg0 : S8192x4096.Idx → Elt Ideal .f32) k := by
  have h := widx0 t
  unfold iblk0
  rw [View.read_apply]
  show (V c main_arg0 : S8192x4096.Idx → Elt Ideal .f32) _ = (V c main_arg0 : S8192x4096.Idx → Elt Ideal .f32) k
  congr 1
  funext a
  apply Fin.ext
  match a with
  | ⟨0, _⟩ => show win0_0.index t 0 * 1024 + 1 * (x 0).val = (k 0).val; rw [h.1, hk0]; omega
  | ⟨1, _⟩ => show win0_0.index t 1 * 256 + 1 * (x 1).val = (k 1).val; rw [h.2.1, hk1]; omega

/-- An entry of the weight block at point t is the binarised weight array's entry in the point's column block and contraction block. -/
theorem iblk0_1_apply (c : Dev nD) (t : Fin cfg0.N) (x : S2048x256.Idx) (k : S4096x4096.Idx)
    (hk0 : (k 0).val = (t.val / 16 % 2) * 2048 + (x 0).val) (hk1 : (k 1).val = (t.val % 16) * 256 + (x 1).val) :
    (iblk0 V c 1 t : Vec Ideal S2048x256 .bf16) x = (V c main_v3 : S4096x4096.Idx → Elt Ideal .bf16) k := by
  have h := widx0 t
  unfold iblk0
  rw [View.read_apply]
  show (V c main_v3 : S4096x4096.Idx → Elt Ideal .bf16) _ = (V c main_v3 : S4096x4096.Idx → Elt Ideal .bf16) k
  congr 1
  funext a
  apply Fin.ext
  match a with
  | ⟨0, _⟩ => show win0_1.index t 0 * 2048 + 1 * (x 0).val = (k 0).val; rw [h.2.2.1, hk0]; omega
  | ⟨1, _⟩ => show win0_1.index t 1 * 256 + 1 * (x 1).val = (k 1).val; rw [h.2.2.2.1, hk1]; omega

theorem iblk0_2_apply (c : Dev nD) (t : Fin cfg0.N) (x : S1x2048.Idx) (k : S1x4096.Idx)
    (hk0 : (k 0).val = (x 0).val) (hk1 : (k 1).val = (t.val / 16 % 2) * 2048 + (x 1).val) :
    (iblk0 V c 2 t : Vec Ideal S1x2048 .f32) x = (V c main_v18 : S1x4096.Idx → Elt Ideal .f32) k := by
  have h := widx0 t
  unfold iblk0
  rw [View.read_apply]
  show (V c main_v18 : S1x4096.Idx → Elt Ideal .f32) _ = (V c main_v18 : S1x4096.Idx → Elt Ideal .f32) k
  congr 1
  funext a
  apply Fin.ext
  match a with
  | ⟨0, _⟩ => show win0_2.index t 0 * 1 + 1 * (x 0).val = (k 0).val; rw [h.2.2.2.2.1, hk0]; omega
  | ⟨1, _⟩ => show win0_2.index t 1 * 2048 + 1 * (x 1).val = (k 1).val; rw [h.2.2.2.2.2.1, hk1]; omega

theorem iblk0_3_apply (c : Dev nD) (t : Fin cfg0.N) (x : S1x2048.Idx) (k : S1x4096.Idx)
    (hk0 : (k 0).val = (x 0).val) (hk1 : (k 1).val = (t.val / 16 % 2) * 2048 + (x 1).val) :
    (iblk0 V c 3 t : Vec Ideal S1x2048 .f32) x = (V c main_v19 : S1x4096.Idx → Elt Ideal .f32) k := by
  have h := widx0 t
  unfold iblk0
  rw [View.read_apply]
  show (V c main_v19 : S1x4096.Idx → Elt Ideal .f32) _ = (V c main_v19 : S1x4096.Idx → Elt Ideal .f32) k
  congr 1
  funext a
  apply Fin.ext
  match a with
  | ⟨0, _⟩ => show win0_3.index t 0 * 1 + 1 * (x 0).val = (k 0).val; rw [h.2.2.2.2.2.2.1, hk0]; omega
  | ⟨1, _⟩ => show win0_3.index t 1 * 2048 + 1 * (x 1).val = (k 1).val; rw [h.2.2.2.2.2.2.2.1, hk1]; omega

theorem iblk0_4_apply (c : Dev nD) (t : Fin cfg0.N) (x : S1x2048.Idx) (k : S1x4096.Idx)
    (hk0 : (k 0).val = (x 0).val) (hk1 : (k 1).val = (t.val / 16 % 2) * 2048 + (x 1).val) :
    (iblk0 V c 4 t : Vec Ideal S1x2048 .f32) x = (V c main_v20 : S1x4096.Idx → Elt Ideal .f32) k := by
  have h := widx0 t
  unfold iblk0
  rw [View.read_apply]
  show (V c main_v20 : S1x4096.Idx → Elt Ideal .f32) _ = (V c main_v20 : S1x4096.Idx → Elt Ideal .f32) k
  congr 1
  funext a
  apply Fin.ext
  match a with
  | ⟨0, _⟩ => show win0_4.index t 0 * 1 + 1 * (x 0).val = (k 0).val; rw [h.2.2.2.2.2.2.2.2.1, hk0]; omega
  | ⟨1, _⟩ => show win0_4.index t 1 * 2048 + 1 * (x 1).val = (k 1).val; rw [h.2.2.2.2.2.2.2.2.2.1, hk1]; omega

theorem iblk0_5_apply (c : Dev nD) (t : Fin cfg0.N) (x : S1x2048.Idx) (k : S1x4096.Idx)
    (hk0 : (k 0).val = (x 0).val) (hk1 : (k 1).val = (t.val / 16 % 2) * 2048 + (x 1).val) :
    (iblk0 V c 5 t : Vec Ideal S1x2048 .f32) x = (V c main_v21 : S1x4096.Idx → Elt Ideal .f32) k := by
  have h := widx0 t
  unfold iblk0
  rw [View.read_apply]
  show (V c main_v21 : S1x4096.Idx → Elt Ideal .f32) _ = (V c main_v21 : S1x4096.Idx → Elt Ideal .f32) k
  congr 1
  funext a
  apply Fin.ext
  match a with
  | ⟨0, _⟩ => show win0_5.index t 0 * 1 + 1 * (x 0).val = (k 0).val; rw [h.2.2.2.2.2.2.2.2.2.2.1, hk0]; omega
  | ⟨1, _⟩ => show win0_5.index t 1 * 2048 + 1 * (x 1).val = (k 1).val; rw [h.2.2.2.2.2.2.2.2.2.2.2.1, hk1]; omega

theorem iblk0_6_apply (c : Dev nD) (t : Fin cfg0.N) (x : S1x2048.Idx) (k : S1x4096.Idx)
    (hk0 : (k 0).val = (x 0).val) (hk1 : (k 1).val = (t.val / 16 % 2) * 2048 + (x 1).val) :
    (iblk0 V c 6 t : Vec Ideal S1x2048 .f32) x = (V c main_v22 : S1x4096.Idx → Elt Ideal .f32) k := by
  have h := widx0 t
  unfold iblk0
  rw [View.read_apply]
  show (V c main_v22 : S1x4096.Idx → Elt Ideal .f32) _ = (V c main_v22 : S1x4096.Idx → Elt Ideal .f32) k
  congr 1
  funext a
  apply Fin.ext
  match a with
  | ⟨0, _⟩ => show win0_6.index t 0 * 1 + 1 * (x 0).val = (k 0).val; rw [h.2.2.2.2.2.2.2.2.2.2.2.2.1, hk0]; omega
  | ⟨1, _⟩ => show win0_6.index t 1 * 2048 + 1 * (x 1).val = (k 1).val; rw [h.2.2.2.2.2.2.2.2.2.2.2.2.2.1, hk1]; omega

/-- What the accumulator holds after point n, unfolded one step: the seed (zeros at a first contraction block, else
    what point n − 1 left) plus the point's block product. -/
theorem accAt0_eq (c : Dev nD) (n : ℕ) (h : n < cfg0.N) :
    accAt0 V c n h = k0_pay2 (iblk0 V c 0 ⟨n, h⟩) (iblk0 V c 1 ⟨n, h⟩)
      (if first0 (grid0.coords ⟨n, h⟩) = 1#1 then (k0_pay1 (F := Ideal))
        else if h0 : n = 0 then (k0_pay1 (F := Ideal)) else accAt0 V c (n - 1) (Nat.lt_of_le_of_lt (Nat.sub_le _ _) h)) := by
  cases n with
  | zero =>
    show acc0 _ _ _ k0_pay1 = _
    unfold acc0 seed0
    rw [dif_pos rfl]
  | succ n' =>
    show acc0 _ _ _ (accAt0 V c n' _) = _
    unfold acc0 seed0
    rw [dif_neg (Nat.succ_ne_zero n')]
    rfl

/-- Entry (r, cc) of the accumulator after point n (zero past the grid). -/
def accN0 (c : Dev nD) (r : Fin 1024) (cc : Fin 2048) (n : ℕ) : EReal :=
  if h : n < cfg0.N then accAt0 V c n h (ix2 r cc) else 0

/-- Term u of the block product at point n for entry (r, cc) (zero outside the grid and the block). -/
def termN0 (c : Dev nD) (r : Fin 1024) (cc : Fin 2048) (n u : ℕ) : EReal :=
  if h : n < cfg0.N ∧ u < 256 then
    Cert.Spec.sgn (Cert.Spec.quant ((iblk0 V c 0 ⟨n, h.1⟩ : Vec Ideal S1024x256 .f32) (ix2 r ⟨u, h.2⟩))) * (iblk0 V c 1 ⟨n, h.1⟩ : Vec Ideal S2048x256 .bf16) (ix2 cc ⟨u, h.2⟩)
  else 0

theorem accN0_reset (c : Dev nD) (r : Fin 1024) (cc : Fin 2048) (n : ℕ) (hn : n < 256) (hm : n % 16 = 0) :
    accN0 V c r cc n = 0 + ∑ u : Fin 256, termN0 V c r cc n u.val := by
  have hn' : n < cfg0.N := lt_of_lt_of_eq hn N_0.symm
  unfold accN0
  rw [dif_pos hn', accAt0_eq, if_pos ((hfirst0 ⟨n, hn'⟩).mpr hm), pay2_apply0, pay1_apply0, Cert.Spec.zero_eq]
  refine congrArg _ (Finset.sum_congr rfl fun u _ => ?_)
  unfold termN0
  rw [dif_pos ⟨hn', u.isLt⟩]

theorem accN0_step (c : Dev nD) (r : Fin 1024) (cc : Fin 2048) (n : ℕ) (hn : n < 256) (hm : n % 16 ≠ 0) :
    accN0 V c r cc n = accN0 V c r cc (n - 1) + ∑ u : Fin 256, termN0 V c r cc n u.val := by
  have hn' : n < cfg0.N := lt_of_lt_of_eq hn N_0.symm
  have h0 : n ≠ 0 := fun e => hm (by rw [e])
  unfold accN0
  rw [dif_pos hn', dif_pos (Nat.lt_of_le_of_lt (Nat.sub_le _ _) hn'), accAt0_eq,
    if_neg (fun hf => hm ((hfirst0 ⟨n, hn'⟩).mp hf)), dif_neg h0, pay2_apply0]
  refine congrArg _ (Finset.sum_congr rfl fun u _ => ?_)
  unfold termN0
  rw [dif_pos ⟨hn', u.isLt⟩]

/-- At the last contraction block the accumulator's entry (r, cc) is the whole contraction of activation row I with
    binarised weight row J over all 4096 columns, I and J the entry's row and column in the arrays. -/
theorem acc_last0 (c : Dev nD) (t : Fin cfg0.N) (hl : t.val % 16 = 15) (r : Fin 1024) (cc : Fin 2048)
    (I : Fin 8192) (J : Fin 4096) (hI : I.val = (t.val / 32) * 1024 + r.val) (hJ : J.val = (t.val / 16 % 2) * 2048 + cc.val) :
    accAt0 V c t.val t.isLt (ix2 r cc)
      = ∑ f : Fin 4096, Cert.Spec.sgn (Cert.Spec.quant ((V c main_arg0 : S8192x4096.Idx → Elt Ideal .f32) (ix2 I f))) * (V c main_v3 : S4096x4096.Idx → Elt Ideal .bf16) (ix2 J f) := by
  have hN : t.val < 256 := lt_of_lt_of_eq t.isLt N_0
  have hfold := Cert.Lib.KBlocks.group_sum_lt 16 256 256 (by decide) (by decide) (accN0 V c r cc) (termN0 V c r cc)
    (accN0_reset V c r cc) (accN0_step V c r cc) (t.val - 15) (by omega) (by omega)
  rw [show t.val - 15 + (16 - 1) = t.val from by omega] at hfold
  have hacc : accN0 V c r cc t.val = accAt0 V c t.val t.isLt (ix2 r cc) := by unfold accN0; rw [dif_pos t.isLt]
  rw [← hacc, hfold]
  show ∑ f : Fin 4096, termN0 V c r cc (t.val - 15 + f.val / 256) (f.val % 256) = _
  refine Finset.sum_congr rfl fun f _ => ?_
  have hf := f.isLt
  have hn1 : t.val - 15 + f.val / 256 < cfg0.N := lt_of_lt_of_eq (by omega) N_0.symm
  have hu1 : f.val % 256 < 256 := Nat.mod_lt _ (by decide)
  unfold termN0
  rw [dif_pos ⟨hn1, hu1⟩]
  rw [iblk0_0_apply V c ⟨t.val - 15 + f.val / 256, hn1⟩ (ix2 r ⟨f.val % 256, hu1⟩) (ix2 I f)
      (by show I.val = ((t.val - 15 + f.val / 256) / 32) * 1024 + r.val; rw [hI]; omega)
      (by show f.val = ((t.val - 15 + f.val / 256) % 16) * 256 + f.val % 256; omega),
    iblk0_1_apply V c ⟨t.val - 15 + f.val / 256, hn1⟩ (ix2 cc ⟨f.val % 256, hu1⟩) (ix2 J f)
      (by show J.val = ((t.val - 15 + f.val / 256) / 16 % 2) * 2048 + cc.val; rw [hJ]; omega)
      (by show f.val = ((t.val - 15 + f.val / 256) % 16) * 256 + f.val % 256; omega)]

/-- Entry (i, j) of what the layer's region leaves in its output array: the sign of the batch normalisation of the
    contraction of activation row i with binarised weight row j. -/
def g0 (c : Dev nD) (i : Fin 8192) (j : Fin 4096) : EReal :=
  Cert.Spec.sgn (Cert.Spec.bnorm (∑ f : Fin 4096, Cert.Spec.sgn (Cert.Spec.quant ((V c main_arg0 : S8192x4096.Idx → Elt Ideal .f32) (ix2 i f))) * (V c main_v3 : S4096x4096.Idx → Elt Ideal .bf16) (ix2 j f))
    ((V c main_v18 : S1x4096.Idx → Elt Ideal .f32) (ix2 0 j)) ((V c main_v19 : S1x4096.Idx → Elt Ideal .f32) (ix2 0 j))
    ((V c main_v20 : S1x4096.Idx → Elt Ideal .f32) (ix2 0 j)) ((V c main_v21 : S1x4096.Idx → Elt Ideal .f32) (ix2 0 j))
    ((V c main_v22 : S1x4096.Idx → Elt Ideal .f32) (ix2 0 j)))

/-- The same as contents of the output array. -/
def G0 (c : Dev nD) : Buf (Elt Ideal) ((cfg0.win 7).arr.view.loc (c.tc : Thread nD τ)) :=
  fun idx => g0 V c ⟨(idx 0).val, (idx 0).isLt⟩ ⟨(idx 1).val, (idx 1).isLt⟩

/-- `G0` read at an index whose coordinates are i and j. -/
theorem G0_at (c : Dev nD) (idx : S8192x4096.Idx) (i : Fin 8192) (j : Fin 4096)
    (hi : (idx 0).val = i.val) (hj : (idx 1).val = j.val) : G0 V c idx = g0 V c i j := by
  show g0 V c ⟨(idx 0).val, (idx 0).isLt⟩ ⟨(idx 1).val, (idx 1).isLt⟩ = g0 V c i j
  have ei : (⟨(idx 0).val, (idx 0).isLt⟩ : Fin 8192) = i := Fin.ext hi
  have ej : (⟨(idx 1).val, (idx 1).isLt⟩ : Fin 4096) = j := Fin.ext hj
  rw [ei, ej]

set_option maxHeartbeats 4000000 in
/-- The block a last-contraction-block point writes back is that block of `G0`. -/
theorem flushed_eq0 (c : Dev nD) (t : Fin cfg0.N) (hf : (cfg0.win 7).flush t = true) :
    (dat0 V c).flushed 7 t = ((cfg0.win 7).blk t).view.read (Elt Ideal) (G0 V c) := by
  have hl : t.val % 16 = 15 := (flush0_7 t).mp hf
  have hN : t.val < 256 := lt_of_lt_of_eq t.isLt N_0
  have h := widx0 t
  show (cfg0.win 7).cut (grid0.coords t) ((dat0 V c).after 7 t) = _
  rw [after0_7]
  funext y
  rw [View.read_apply]
  obtain ⟨r, cc, rfl⟩ : ∃ (r : Fin 1024) (cc : Fin 2048), y = ix2 r cc := ⟨y 0, y 1, eq_ix2 y⟩
  have hI : (t.val / 32) * 1024 + r.val < 8192 := by omega
  have hJ : (t.val / 16 % 2) * 2048 + cc.val < 4096 := by omega
  have eG : G0 V c (((cfg0.win 7).blk t).view.emb (ix2 r cc)) = g0 V c ⟨_, hI⟩ ⟨_, hJ⟩ :=
    G0_at V c _ ⟨_, hI⟩ ⟨_, hJ⟩
      (by show win0_7.index t 0 * 1024 + 1 * r.val = (t.val / 32) * 1024 + r.val; rw [h.2.2.2.2.2.2.2.2.2.2.2.2.2.2.1]; omega)
      (by show win0_7.index t 1 * 2048 + 1 * cc.val = (t.val / 16 % 2) * 2048 + cc.val; rw [h.2.2.2.2.2.2.2.2.2.2.2.2.2.2.2]; omega)
  refine Eq.trans ?_ eG.symm
  show outAt0 V c t (ix2 r cc) = _
  unfold outAt0 g0
  rw [pay3_apply0, acc_last0 V c t hl r cc ⟨_, hI⟩ ⟨_, hJ⟩ rfl rfl,
    iblk0_2_apply V c t (ix2 0 cc) (ix2 0 ⟨_, hJ⟩) rfl rfl, iblk0_3_apply V c t (ix2 0 cc) (ix2 0 ⟨_, hJ⟩) rfl rfl,
    iblk0_4_apply V c t (ix2 0 cc) (ix2 0 ⟨_, hJ⟩) rfl rfl, iblk0_5_apply V c t (ix2 0 cc) (ix2 0 ⟨_, hJ⟩) rfl rfl,
    iblk0_6_apply V c t (ix2 0 cc) (ix2 0 ⟨_, hJ⟩) rfl rfl]

/-- Every entry of the output array lies in the block of some point that writes back. -/
theorem cover0 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : ℕ) < 8192 := (i 0).isLt
  have h1 : (i 1 : ℕ) < 4096 := (i 1).isLt
  have htv : (i 0).val / 1024 * 32 + (i 1).val / 2048 * 16 + 15 < cfg0.N := lt_of_lt_of_eq (by omega) N_0.symm
  refine ⟨⟨(i 0).val / 1024 * 32 + (i 1).val / 2048 * 16 + 15, htv⟩, (flush0_7 _).mpr (by show ((i 0).val / 1024 * 32 + (i 1).val / 2048 * 16 + 15) % 16 = 15; omega), ?_⟩
  have h := widx0 ⟨(i 0).val / 1024 * 32 + (i 1).val / 2048 * 16 + 15, htv⟩
  show i ∈ ((View.whole main_v23).slice (win0_7.rect ⟨(i 0).val / 1024 * 32 + (i 1).val / 2048 * 16 + 15, htv⟩)).set
  rw [View.set_slice_whole, Rect.mem_set_unit]
  intro a
  match a with
  | ⟨0, _⟩ =>
    show win0_7.index ⟨(i 0).val / 1024 * 32 + (i 1).val / 2048 * 16 + 15, htv⟩ 0 * 1024 ≤ (i 0 : ℕ) ∧ (i 0 : ℕ) < win0_7.index ⟨(i 0).val / 1024 * 32 + (i 1).val / 2048 * 16 + 15, htv⟩ 0 * 1024 + 1024
    rw [h.2.2.2.2.2.2.2.2.2.2.2.2.2.2.1]
    show (((i 0).val / 1024 * 32 + (i 1).val / 2048 * 16 + 15) / 32) * 1024 ≤ (i 0 : ℕ) ∧ (i 0 : ℕ) < (((i 0).val / 1024 * 32 + (i 1).val / 2048 * 16 + 15) / 32) * 1024 + 1024
    omega
  | ⟨1, _⟩ =>
    show win0_7.index ⟨(i 0).val / 1024 * 32 + (i 1).val / 2048 * 16 + 15, htv⟩ 1 * 2048 ≤ (i 1 : ℕ) ∧ (i 1 : ℕ) < win0_7.index ⟨(i 0).val / 1024 * 32 + (i 1).val / 2048 * 16 + 15, htv⟩ 1 * 2048 + 2048
    rw [h.2.2.2.2.2.2.2.2.2.2.2.2.2.2.2]
    show (((i 0).val / 1024 * 32 + (i 1).val / 2048 * 16 + 15) / 16 % 2) * 2048 ≤ (i 1 : ℕ) ∧ (i 1 : ℕ) < (((i 0).val / 1024 * 32 + (i 1).val / 2048 * 16 + 15) / 16 % 2) * 2048 + 2048
    omega

/-- So the output array ends holding `G0`. -/
theorem final0 (c : Dev nD) : (dat0 V c).arrAt 7 cfg0.N = G0 V c :=
  (dat0 V c).arrAt_eq_of_cover 7 (G0 V c) (flushed_eq0 V c) (cover0 c)

end Val0

end Cert.KernelIdeal.Hand

end
-- ==== Proof.KIVal1.lean ====
import proofs.«128298_j33311766347902_2_alg».proof.Proof.KIData1
import proofs.«128298_j33311766347902_2_alg».proof.Proof.KIPay
import proofs.«128298_j33311766347902_2_alg».proof.Proof.LibKBlocks

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.KernelIdeal.Val

/-! # Layer 2's region: what its pipeline writes back, entry by entry -/

section Val1
variable (V : (c : Dev nD) → (b : Ref sig .tc) → Buf (Elt Ideal) ((c : Thread nD τ).loc b))

/-- The product of two entries, as extended reals. -/
abbrev prod1 (a b : EReal) : EReal := a * b

/-- The block indices of the region's windows at the grid's points, in closed form. -/
theorem widx1 : ∀ t : Fin cfg1.N,
    win1_0.index t 0 = t.val / 32 ∧ win1_0.index t 1 = t.val % 16
    ∧ win1_1.index t 0 = t.val / 16 % 2 ∧ win1_1.index t 1 = t.val % 16
    ∧ win1_2.index t 0 = 0 ∧ win1_2.index t 1 = t.val / 16 % 2
    ∧ win1_3.index t 0 = 0 ∧ win1_3.index t 1 = t.val / 16 % 2
    ∧ win1_4.index t 0 = 0 ∧ win1_4.index t 1 = t.val / 16 % 2
    ∧ win1_5.index t 0 = 0 ∧ win1_5.index t 1 = t.val / 16 % 2
    ∧ win1_6.index t 0 = 0 ∧ win1_6.index t 1 = t.val / 16 % 2
    ∧ win1_7.index t 0 = t.val / 32 ∧ win1_7.index t 1 = t.val / 16 % 2 :=
  (by decide +kernel : ∀ t : Fin grid1.N,
    win1_0.index t 0 = t.val / 32 ∧ win1_0.index t 1 = t.val % 16
    ∧ win1_1.index t 0 = t.val / 16 % 2 ∧ win1_1.index t 1 = t.val % 16
    ∧ win1_2.index t 0 = 0 ∧ win1_2.index t 1 = t.val / 16 % 2
    ∧ win1_3.index t 0 = 0 ∧ win1_3.index t 1 = t.val / 16 % 2
    ∧ win1_4.index t 0 = 0 ∧ win1_4.index t 1 = t.val / 16 % 2
    ∧ win1_5.index t 0 = 0 ∧ win1_5.index t 1 = t.val / 16 % 2
    ∧ win1_6.index t 0 = 0 ∧ win1_6.index t 1 = t.val / 16 % 2
    ∧ win1_7.index t 0 = t.val / 32 ∧ win1_7.index t 1 = t.val / 16 % 2)

/-- An entry of the activation block at point t is the activation array's entry in the point's row block and contraction block. -/
theorem iblk1_0_apply (c : Dev nD) (t : Fin cfg1.N) (x : S1024x256.Idx) (k : S8192x4096.Idx)
    (hk0 : (k 0).val = (t.val / 32) * 1024 + (x 0).val) (hk1 : (k 1).val = (t.val % 16) * 256 + (x 1).val) :
    (iblk1 V c 0 t : Vec Ideal S1024x256 .bf16) x = (V c main_v23 : S8192x4096.Idx → Elt Ideal .bf16) k := by
  have h := widx1 t
  unfold iblk1
  rw [View.read_apply]
  show (V c main_v23 : S8192x4096.Idx → Elt Ideal .bf16) _ = (V c main_v23 : S8192x4096.Idx → Elt Ideal .bf16) k
  congr 1
  funext a
  apply Fin.ext
  match a with
  | ⟨0, _⟩ => show win1_0.index t 0 * 1024 + 1 * (x 0).val = (k 0).val; rw [h.1, hk0]; omega
  | ⟨1, _⟩ => show win1_0.index t 1 * 256 + 1 * (x 1).val = (k 1).val; rw [h.2.1, hk1]; omega

/-- An entry of the weight block at point t is the binarised weight array's entry in the point's column block and contraction block. -/
theorem iblk1_1_apply (c : Dev nD) (t : Fin cfg1.N) (x : S2048x256.Idx) (k : S4096x4096.Idx)
    (hk0 : (k 0).val = (t.val / 16 % 2) * 2048 + (x 0).val) (hk1 : (k 1).val = (t.val % 16) * 256 + (x 1).val) :
    (iblk1 V c 1 t : Vec Ideal S2048x256 .bf16) x = (V c main_v7 : S4096x4096.Idx → Elt Ideal .bf16) k := by
  have h := widx1 t
  unfold iblk1
  rw [View.read_apply]
  show (V c main_v7 : S4096x4096.Idx → Elt Ideal .bf16) _ = (V c main_v7 : S4096x4096.Idx → Elt Ideal .bf16) k
  congr 1
  funext a
  apply Fin.ext
  match a with
  | ⟨0, _⟩ => show win1_1.index t 0 * 2048 + 1 * (x 0).val = (k 0).val; rw [h.2.2.1, hk0]; omega
  | ⟨1, _⟩ => show win1_1.index t 1 * 256 + 1 * (x 1).val = (k 1).val; rw [h.2.2.2.1, hk1]; omega

theorem iblk1_2_apply (c : Dev nD) (t : Fin cfg1.N) (x : S1x2048.Idx) (k : S1x4096.Idx)
    (hk0 : (k 0).val = (x 0).val) (hk1 : (k 1).val = (t.val / 16 % 2) * 2048 + (x 1).val) :
    (iblk1 V c 2 t : Vec Ideal S1x2048 .f32) x = (V c main_v24 : S1x4096.Idx → Elt Ideal .f32) k := by
  have h := widx1 t
  unfold iblk1
  rw [View.read_apply]
  show (V c main_v24 : S1x4096.Idx → Elt Ideal .f32) _ = (V c main_v24 : S1x4096.Idx → Elt Ideal .f32) k
  congr 1
  funext a
  apply Fin.ext
  match a with
  | ⟨0, _⟩ => show win1_2.index t 0 * 1 + 1 * (x 0).val = (k 0).val; rw [h.2.2.2.2.1, hk0]; omega
  | ⟨1, _⟩ => show win1_2.index t 1 * 2048 + 1 * (x 1).val = (k 1).val; rw [h.2.2.2.2.2.1, hk1]; omega

theorem iblk1_3_apply (c : Dev nD) (t : Fin cfg1.N) (x : S1x2048.Idx) (k : S1x4096.Idx)
    (hk0 : (k 0).val = (x 0).val) (hk1 : (k 1).val = (t.val / 16 % 2) * 2048 + (x 1).val) :
    (iblk1 V c 3 t : Vec Ideal S1x2048 .f32) x = (V c main_v25 : S1x4096.Idx → Elt Ideal .f32) k := by
  have h := widx1 t
  unfold iblk1
  rw [View.read_apply]
  show (V c main_v25 : S1x4096.Idx → Elt Ideal .f32) _ = (V c main_v25 : S1x4096.Idx → Elt Ideal .f32) k
  congr 1
  funext a
  apply Fin.ext
  match a with
  | ⟨0, _⟩ => show win1_3.index t 0 * 1 + 1 * (x 0).val = (k 0).val; rw [h.2.2.2.2.2.2.1, hk0]; omega
  | ⟨1, _⟩ => show win1_3.index t 1 * 2048 + 1 * (x 1).val = (k 1).val; rw [h.2.2.2.2.2.2.2.1, hk1]; omega

theorem iblk1_4_apply (c : Dev nD) (t : Fin cfg1.N) (x : S1x2048.Idx) (k : S1x4096.Idx)
    (hk0 : (k 0).val = (x 0).val) (hk1 : (k 1).val = (t.val / 16 % 2) * 2048 + (x 1).val) :
    (iblk1 V c 4 t : Vec Ideal S1x2048 .f32) x = (V c main_v26 : S1x4096.Idx → Elt Ideal .f32) k := by
  have h := widx1 t
  unfold iblk1
  rw [View.read_apply]
  show (V c main_v26 : S1x4096.Idx → Elt Ideal .f32) _ = (V c main_v26 : S1x4096.Idx → Elt Ideal .f32) k
  congr 1
  funext a
  apply Fin.ext
  match a with
  | ⟨0, _⟩ => show win1_4.index t 0 * 1 + 1 * (x 0).val = (k 0).val; rw [h.2.2.2.2.2.2.2.2.1, hk0]; omega
  | ⟨1, _⟩ => show win1_4.index t 1 * 2048 + 1 * (x 1).val = (k 1).val; rw [h.2.2.2.2.2.2.2.2.2.1, hk1]; omega

theorem iblk1_5_apply (c : Dev nD) (t : Fin cfg1.N) (x : S1x2048.Idx) (k : S1x4096.Idx)
    (hk0 : (k 0).val = (x 0).val) (hk1 : (k 1).val = (t.val / 16 % 2) * 2048 + (x 1).val) :
    (iblk1 V c 5 t : Vec Ideal S1x2048 .f32) x = (V c main_v27 : S1x4096.Idx → Elt Ideal .f32) k := by
  have h := widx1 t
  unfold iblk1
  rw [View.read_apply]
  show (V c main_v27 : S1x4096.Idx → Elt Ideal .f32) _ = (V c main_v27 : S1x4096.Idx → Elt Ideal .f32) k
  congr 1
  funext a
  apply Fin.ext
  match a with
  | ⟨0, _⟩ => show win1_5.index t 0 * 1 + 1 * (x 0).val = (k 0).val; rw [h.2.2.2.2.2.2.2.2.2.2.1, hk0]; omega
  | ⟨1, _⟩ => show win1_5.index t 1 * 2048 + 1 * (x 1).val = (k 1).val; rw [h.2.2.2.2.2.2.2.2.2.2.2.1, hk1]; omega

theorem iblk1_6_apply (c : Dev nD) (t : Fin cfg1.N) (x : S1x2048.Idx) (k : S1x4096.Idx)
    (hk0 : (k 0).val = (x 0).val) (hk1 : (k 1).val = (t.val / 16 % 2) * 2048 + (x 1).val) :
    (iblk1 V c 6 t : Vec Ideal S1x2048 .f32) x = (V c main_v28 : S1x4096.Idx → Elt Ideal .f32) k := by
  have h := widx1 t
  unfold iblk1
  rw [View.read_apply]
  show (V c main_v28 : S1x4096.Idx → Elt Ideal .f32) _ = (V c main_v28 : S1x4096.Idx → Elt Ideal .f32) k
  congr 1
  funext a
  apply Fin.ext
  match a with
  | ⟨0, _⟩ => show win1_6.index t 0 * 1 + 1 * (x 0).val = (k 0).val; rw [h.2.2.2.2.2.2.2.2.2.2.2.2.1, hk0]; omega
  | ⟨1, _⟩ => show win1_6.index t 1 * 2048 + 1 * (x 1).val = (k 1).val; rw [h.2.2.2.2.2.2.2.2.2.2.2.2.2.1, hk1]; omega

/-- What the accumulator holds after point n, unfolded one step: the seed (zeros at a first contraction block, else
    what point n − 1 left) plus the point's block product. -/
theorem accAt1_eq (c : Dev nD) (n : ℕ) (h : n < cfg1.N) :
    accAt1 V c n h = k1_pay2 (iblk1 V c 0 ⟨n, h⟩) (iblk1 V c 1 ⟨n, h⟩)
      (if first1 (grid1.coords ⟨n, h⟩) = 1#1 then (k1_pay1 (F := Ideal))
        else if h0 : n = 0 then (k1_pay1 (F := Ideal)) else accAt1 V c (n - 1) (Nat.lt_of_le_of_lt (Nat.sub_le _ _) h)) := by
  cases n with
  | zero =>
    show acc1 _ _ _ k1_pay1 = _
    unfold acc1 seed1
    rw [dif_pos rfl]
  | succ n' =>
    show acc1 _ _ _ (accAt1 V c n' _) = _
    unfold acc1 seed1
    rw [dif_neg (Nat.succ_ne_zero n')]
    rfl

/-- Entry (r, cc) of the accumulator after point n (zero past the grid). -/
def accN1 (c : Dev nD) (r : Fin 1024) (cc : Fin 2048) (n : ℕ) : EReal :=
  if h : n < cfg1.N then accAt1 V c n h (ix2 r cc) else 0

/-- Term u of the block product at point n for entry (r, cc) (zero outside the grid and the block). -/
def termN1 (c : Dev nD) (r : Fin 1024) (cc : Fin 2048) (n u : ℕ) : EReal :=
  if h : n < cfg1.N ∧ u < 256 then
    prod1 ((iblk1 V c 0 ⟨n, h.1⟩ : Vec Ideal S1024x256 .bf16) (ix2 r ⟨u, h.2⟩)) ((iblk1 V c 1 ⟨n, h.1⟩ : Vec Ideal S2048x256 .bf16) (ix2 cc ⟨u, h.2⟩))
  else 0

theorem accN1_reset (c : Dev nD) (r : Fin 1024) (cc : Fin 2048) (n : ℕ) (hn : n < 256) (hm : n % 16 = 0) :
    accN1 V c r cc n = 0 + ∑ u : Fin 256, termN1 V c r cc n u.val := by
  have hn' : n < cfg1.N := lt_of_lt_of_eq hn N_1.symm
  unfold accN1
  rw [dif_pos hn', accAt1_eq, if_pos ((hfirst1 ⟨n, hn'⟩).mpr hm), pay2_apply1, pay1_apply1, Cert.Spec.zero_eq]
  refine congrArg _ (Finset.sum_congr rfl fun u _ => ?_)
  unfold termN1
  rw [dif_pos ⟨hn', u.isLt⟩]

theorem accN1_step (c : Dev nD) (r : Fin 1024) (cc : Fin 2048) (n : ℕ) (hn : n < 256) (hm : n % 16 ≠ 0) :
    accN1 V c r cc n = accN1 V c r cc (n - 1) + ∑ u : Fin 256, termN1 V c r cc n u.val := by
  have hn' : n < cfg1.N := lt_of_lt_of_eq hn N_1.symm
  have h0 : n ≠ 0 := fun e => hm (by rw [e])
  unfold accN1
  rw [dif_pos hn', dif_pos (Nat.lt_of_le_of_lt (Nat.sub_le _ _) hn'), accAt1_eq,
    if_neg (fun hf => hm ((hfirst1 ⟨n, hn'⟩).mp hf)), dif_neg h0, pay2_apply1]
  refine congrArg _ (Finset.sum_congr rfl fun u _ => ?_)
  unfold termN1
  rw [dif_pos ⟨hn', u.isLt⟩]

/-- At the last contraction block the accumulator's entry (r, cc) is the whole contraction of activation row I with
    binarised weight row J over all 4096 columns, I and J the entry's row and column in the arrays. -/
theorem acc_last1 (c : Dev nD) (t : Fin cfg1.N) (hl : t.val % 16 = 15) (r : Fin 1024) (cc : Fin 2048)
    (I : Fin 8192) (J : Fin 4096) (hI : I.val = (t.val / 32) * 1024 + r.val) (hJ : J.val = (t.val / 16 % 2) * 2048 + cc.val) :
    accAt1 V c t.val t.isLt (ix2 r cc)
      = ∑ f : Fin 4096, prod1 ((V c main_v23 : S8192x4096.Idx → Elt Ideal .bf16) (ix2 I f)) ((V c main_v7 : S4096x4096.Idx → Elt Ideal .bf16) (ix2 J f)) := by
  have hN : t.val < 256 := lt_of_lt_of_eq t.isLt N_1
  have hfold := Cert.Lib.KBlocks.group_sum_lt 16 256 256 (by decide) (by decide) (accN1 V c r cc) (termN1 V c r cc)
    (accN1_reset V c r cc) (accN1_step V c r cc) (t.val - 15) (by omega) (by omega)
  rw [show t.val - 15 + (16 - 1) = t.val from by omega] at hfold
  have hacc : accN1 V c r cc t.val = accAt1 V c t.val t.isLt (ix2 r cc) := by unfold accN1; rw [dif_pos t.isLt]
  rw [← hacc, hfold]
  show ∑ f : Fin 4096, termN1 V c r cc (t.val - 15 + f.val / 256) (f.val % 256) = _
  refine Finset.sum_congr rfl fun f _ => ?_
  have hf := f.isLt
  have hn1 : t.val - 15 + f.val / 256 < cfg1.N := lt_of_lt_of_eq (by omega) N_1.symm
  have hu1 : f.val % 256 < 256 := Nat.mod_lt _ (by decide)
  unfold termN1
  rw [dif_pos ⟨hn1, hu1⟩]
  rw [iblk1_0_apply V c ⟨t.val - 15 + f.val / 256, hn1⟩ (ix2 r ⟨f.val % 256, hu1⟩) (ix2 I f)
      (by show I.val = ((t.val - 15 + f.val / 256) / 32) * 1024 + r.val; rw [hI]; omega)
      (by show f.val = ((t.val - 15 + f.val / 256) % 16) * 256 + f.val % 256; omega),
    iblk1_1_apply V c ⟨t.val - 15 + f.val / 256, hn1⟩ (ix2 cc ⟨f.val % 256, hu1⟩) (ix2 J f)
      (by show J.val = ((t.val - 15 + f.val / 256) / 16 % 2) * 2048 + cc.val; rw [hJ]; omega)
      (by show f.val = ((t.val - 15 + f.val / 256) % 16) * 256 + f.val % 256; omega)]

/-- Entry (i, j) of what the layer's region leaves in its output array: the sign of the batch normalisation of the
    contraction of activation row i with binarised weight row j. -/
def g1 (c : Dev nD) (i : Fin 8192) (j : Fin 4096) : EReal :=
  Cert.Spec.sgn (Cert.Spec.bnorm (∑ f : Fin 4096, prod1 ((V c main_v23 : S8192x4096.Idx → Elt Ideal .bf16) (ix2 i f)) ((V c main_v7 : S4096x4096.Idx → Elt Ideal .bf16) (ix2 j f)))
    ((V c main_v24 : S1x4096.Idx → Elt Ideal .f32) (ix2 0 j)) ((V c main_v25 : S1x4096.Idx → Elt Ideal .f32) (ix2 0 j))
    ((V c main_v26 : S1x4096.Idx → Elt Ideal .f32) (ix2 0 j)) ((V c main_v27 : S1x4096.Idx → Elt Ideal .f32) (ix2 0 j))
    ((V c main_v28 : S1x4096.Idx → Elt Ideal .f32) (ix2 0 j)))

/-- The same as contents of the output array. -/
def G1 (c : Dev nD) : Buf (Elt Ideal) ((cfg1.win 7).arr.view.loc (c.tc : Thread nD τ)) :=
  fun idx => g1 V c ⟨(idx 0).val, (idx 0).isLt⟩ ⟨(idx 1).val, (idx 1).isLt⟩

/-- `G1` read at an index whose coordinates are i and j. -/
theorem G1_at (c : Dev nD) (idx : S8192x4096.Idx) (i : Fin 8192) (j : Fin 4096)
    (hi : (idx 0).val = i.val) (hj : (idx 1).val = j.val) : G1 V c idx = g1 V c i j := by
  show g1 V c ⟨(idx 0).val, (idx 0).isLt⟩ ⟨(idx 1).val, (idx 1).isLt⟩ = g1 V c i j
  have ei : (⟨(idx 0).val, (idx 0).isLt⟩ : Fin 8192) = i := Fin.ext hi
  have ej : (⟨(idx 1).val, (idx 1).isLt⟩ : Fin 4096) = j := Fin.ext hj
  rw [ei, ej]

set_option maxHeartbeats 4000000 in
/-- The block a last-contraction-block point writes back is that block of `G1`. -/
theorem flushed_eq1 (c : Dev nD) (t : Fin cfg1.N) (hf : (cfg1.win 7).flush t = true) :
    (dat1 V c).flushed 7 t = ((cfg1.win 7).blk t).view.read (Elt Ideal) (G1 V c) := by
  have hl : t.val % 16 = 15 := (flush1_7 t).mp hf
  have hN : t.val < 256 := lt_of_lt_of_eq t.isLt N_1
  have h := widx1 t
  show (cfg1.win 7).cut (grid1.coords t) ((dat1 V c).after 7 t) = _
  rw [after1_7]
  funext y
  rw [View.read_apply]
  obtain ⟨r, cc, rfl⟩ : ∃ (r : Fin 1024) (cc : Fin 2048), y = ix2 r cc := ⟨y 0, y 1, eq_ix2 y⟩
  have hI : (t.val / 32) * 1024 + r.val < 8192 := by omega
  have hJ : (t.val / 16 % 2) * 2048 + cc.val < 4096 := by omega
  have eG : G1 V c (((cfg1.win 7).blk t).view.emb (ix2 r cc)) = g1 V c ⟨_, hI⟩ ⟨_, hJ⟩ :=
    G1_at V c _ ⟨_, hI⟩ ⟨_, hJ⟩
      (by show win1_7.index t 0 * 1024 + 1 * r.val = (t.val / 32) * 1024 + r.val; rw [h.2.2.2.2.2.2.2.2.2.2.2.2.2.2.1]; omega)
      (by show win1_7.index t 1 * 2048 + 1 * cc.val = (t.val / 16 % 2) * 2048 + cc.val; rw [h.2.2.2.2.2.2.2.2.2.2.2.2.2.2.2]; omega)
  refine Eq.trans ?_ eG.symm
  show outAt1 V c t (ix2 r cc) = _
  unfold outAt1 g1
  rw [pay3_apply1, acc_last1 V c t hl r cc ⟨_, hI⟩ ⟨_, hJ⟩ rfl rfl,
    iblk1_2_apply V c t (ix2 0 cc) (ix2 0 ⟨_, hJ⟩) rfl rfl, iblk1_3_apply V c t (ix2 0 cc) (ix2 0 ⟨_, hJ⟩) rfl rfl,
    iblk1_4_apply V c t (ix2 0 cc) (ix2 0 ⟨_, hJ⟩) rfl rfl, iblk1_5_apply V c t (ix2 0 cc) (ix2 0 ⟨_, hJ⟩) rfl rfl,
    iblk1_6_apply V c t (ix2 0 cc) (ix2 0 ⟨_, hJ⟩) rfl rfl]

/-- Every entry of the output array lies in the block of some point that writes back. -/
theorem cover1 (c : Dev nD) (i : ((cfg1.win 7).arr.view.loc (c.tc : Thread nD τ)).2.ty.Idx) :
    ∃ t : Fin cfg1.N, (cfg1.win 7).flush t = true ∧ i ∈ ((cfg1.win 7).blk t).view.set := by
  have h0 : (i 0 : ℕ) < 8192 := (i 0).isLt
  have h1 : (i 1 : ℕ) < 4096 := (i 1).isLt
  have htv : (i 0).val / 1024 * 32 + (i 1).val / 2048 * 16 + 15 < cfg1.N := lt_of_lt_of_eq (by omega) N_1.symm
  refine ⟨⟨(i 0).val / 1024 * 32 + (i 1).val / 2048 * 16 + 15, htv⟩, (flush1_7 _).mpr (by show ((i 0).val / 1024 * 32 + (i 1).val / 2048 * 16 + 15) % 16 = 15; omega), ?_⟩
  have h := widx1 ⟨(i 0).val / 1024 * 32 + (i 1).val / 2048 * 16 + 15, htv⟩
  show i ∈ ((View.whole main_v29).slice (win1_7.rect ⟨(i 0).val / 1024 * 32 + (i 1).val / 2048 * 16 + 15, htv⟩)).set
  rw [View.set_slice_whole, Rect.mem_set_unit]
  intro a
  match a with
  | ⟨0, _⟩ =>
    show win1_7.index ⟨(i 0).val / 1024 * 32 + (i 1).val / 2048 * 16 + 15, htv⟩ 0 * 1024 ≤ (i 0 : ℕ) ∧ (i 0 : ℕ) < win1_7.index ⟨(i 0).val / 1024 * 32 + (i 1).val / 2048 * 16 + 15, htv⟩ 0 * 1024 + 1024
    rw [h.2.2.2.2.2.2.2.2.2.2.2.2.2.2.1]
    show (((i 0).val / 1024 * 32 + (i 1).val / 2048 * 16 + 15) / 32) * 1024 ≤ (i 0 : ℕ) ∧ (i 0 : ℕ) < (((i 0).val / 1024 * 32 + (i 1).val / 2048 * 16 + 15) / 32) * 1024 + 1024
    omega
  | ⟨1, _⟩ =>
    show win1_7.index ⟨(i 0).val / 1024 * 32 + (i 1).val / 2048 * 16 + 15, htv⟩ 1 * 2048 ≤ (i 1 : ℕ) ∧ (i 1 : ℕ) < win1_7.index ⟨(i 0).val / 1024 * 32 + (i 1).val / 2048 * 16 + 15, htv⟩ 1 * 2048 + 2048
    rw [h.2.2.2.2.2.2.2.2.2.2.2.2.2.2.2]
    show (((i 0).val / 1024 * 32 + (i 1).val / 2048 * 16 + 15) / 16 % 2) * 2048 ≤ (i 1 : ℕ) ∧ (i 1 : ℕ) < (((i 0).val / 1024 * 32 + (i 1).val / 2048 * 16 + 15) / 16 % 2) * 2048 + 2048
    omega

/-- So the output array ends holding `G1`. -/
theorem final1 (c : Dev nD) : (dat1 V c).arrAt 7 cfg1.N = G1 V c :=
  (dat1 V c).arrAt_eq_of_cover 7 (G1 V c) (flushed_eq1 V c) (cover1 c)

end Val1

end Cert.KernelIdeal.Hand

end
-- ==== Proof.KIVal2.lean ====
import proofs.«128298_j33311766347902_2_alg».proof.Proof.KIData2
import proofs.«128298_j33311766347902_2_alg».proof.Proof.KIPay
import proofs.«128298_j33311766347902_2_alg».proof.Proof.LibKBlocks

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.KernelIdeal.Val

/-! # Layer 3's region: what its pipeline writes back, entry by entry -/

section Val2
variable (V : (c : Dev nD) → (b : Ref sig .tc) → Buf (Elt Ideal) ((c : Thread nD τ).loc b))

/-- The product of two entries, as extended reals. -/
abbrev prod2 (a b : EReal) : EReal := a * b

/-- The block indices of the region's windows at the grid's points, in closed form. -/
theorem widx2 : ∀ t : Fin cfg2.N,
    win2_0.index t 0 = t.val / 8 ∧ win2_0.index t 1 = t.val % 8
    ∧ win2_1.index t 0 = 0 ∧ win2_1.index t 1 = t.val % 8
    ∧ win2_2.index t 0 = 0 ∧ win2_2.index t 1 = 0
    ∧ win2_3.index t 0 = 0 ∧ win2_3.index t 1 = 0
    ∧ win2_4.index t 0 = 0 ∧ win2_4.index t 1 = 0
    ∧ win2_5.index t 0 = 0 ∧ win2_5.index t 1 = 0
    ∧ win2_6.index t 0 = 0 ∧ win2_6.index t 1 = 0
    ∧ win2_7.index t 0 = t.val / 8 ∧ win2_7.index t 1 = 0 :=
  (by decide +kernel : ∀ t : Fin grid2.N,
    win2_0.index t 0 = t.val / 8 ∧ win2_0.index t 1 = t.val % 8
    ∧ win2_1.index t 0 = 0 ∧ win2_1.index t 1 = t.val % 8
    ∧ win2_2.index t 0 = 0 ∧ win2_2.index t 1 = 0
    ∧ win2_3.index t 0 = 0 ∧ win2_3.index t 1 = 0
    ∧ win2_4.index t 0 = 0 ∧ win2_4.index t 1 = 0
    ∧ win2_5.index t 0 = 0 ∧ win2_5.index t 1 = 0
    ∧ win2_6.index t 0 = 0 ∧ win2_6.index t 1 = 0
    ∧ win2_7.index t 0 = t.val / 8 ∧ win2_7.index t 1 = 0)

/-- An entry of the activation block at point t is the activation array's entry in the point's row block and contraction block. -/
theorem iblk2_0_apply (c : Dev nD) (t : Fin cfg2.N) (x : S1024x512.Idx) (k : S8192x4096.Idx)
    (hk0 : (k 0).val = (t.val / 8) * 1024 + (x 0).val) (hk1 : (k 1).val = (t.val % 8) * 512 + (x 1).val) :
    (iblk2 V c 0 t : Vec Ideal S1024x512 .bf16) x = (V c main_v29 : S8192x4096.Idx → Elt Ideal .bf16) k := by
  have h := widx2 t
  unfold iblk2
  rw [View.read_apply]
  show (V c main_v29 : S8192x4096.Idx → Elt Ideal .bf16) _ = (V c main_v29 : S8192x4096.Idx → Elt Ideal .bf16) k
  congr 1
  funext a
  apply Fin.ext
  match a with
  | ⟨0, _⟩ => show win2_0.index t 0 * 1024 + 1 * (x 0).val = (k 0).val; rw [h.1, hk0]; omega
  | ⟨1, _⟩ => show win2_0.index t 1 * 512 + 1 * (x 1).val = (k 1).val; rw [h.2.1, hk1]; omega

/-- An entry of the weight block at point t is the binarised weight array's entry in the point's column block and contraction block. -/
theorem iblk2_1_apply (c : Dev nD) (t : Fin cfg2.N) (x : S1024x512.Idx) (k : S1024x4096.Idx)
    (hk0 : (k 0).val = (0) * 1024 + (x 0).val) (hk1 : (k 1).val = (t.val % 8) * 512 + (x 1).val) :
    (iblk2 V c 1 t : Vec Ideal S1024x512 .bf16) x = (V c main_v17 : S1024x4096.Idx → Elt Ideal .bf16) k := by
  have h := widx2 t
  unfold iblk2
  rw [View.read_apply]
  show (V c main_v17 : S1024x4096.Idx → Elt Ideal .bf16) _ = (V c main_v17 : S1024x4096.Idx → Elt Ideal .bf16) k
  congr 1
  funext a
  apply Fin.ext
  match a with
  | ⟨0, _⟩ => show win2_1.index t 0 * 1024 + 1 * (x 0).val = (k 0).val; rw [h.2.2.1, hk0]; omega
  | ⟨1, _⟩ => show win2_1.index t 1 * 512 + 1 * (x 1).val = (k 1).val; rw [h.2.2.2.1, hk1]; omega

theorem iblk2_2_apply (c : Dev nD) (t : Fin cfg2.N) (x : S1x1024.Idx) (k : S1x1024.Idx)
    (hk0 : (k 0).val = (x 0).val) (hk1 : (k 1).val = (0) * 1024 + (x 1).val) :
    (iblk2 V c 2 t : Vec Ideal S1x1024 .f32) x = (V c main_v30 : S1x1024.Idx → Elt Ideal .f32) k := by
  have h := widx2 t
  unfold iblk2
  rw [View.read_apply]
  show (V c main_v30 : S1x1024.Idx → Elt Ideal .f32) _ = (V c main_v30 : S1x1024.Idx → Elt Ideal .f32) k
  congr 1
  funext a
  apply Fin.ext
  match a with
  | ⟨0, _⟩ => show win2_2.index t 0 * 1 + 1 * (x 0).val = (k 0).val; rw [h.2.2.2.2.1, hk0]; omega
  | ⟨1, _⟩ => show win2_2.index t 1 * 1024 + 1 * (x 1).val = (k 1).val; rw [h.2.2.2.2.2.1, hk1]; omega

theorem iblk2_3_apply (c : Dev nD) (t : Fin cfg2.N) (x : S1x1024.Idx) (k : S1x1024.Idx)
    (hk0 : (k 0).val = (x 0).val) (hk1 : (k 1).val = (0) * 1024 + (x 1).val) :
    (iblk2 V c 3 t : Vec Ideal S1x1024 .f32) x = (V c main_v31 : S1x1024.Idx → Elt Ideal .f32) k := by
  have h := widx2 t
  unfold iblk2
  rw [View.read_apply]
  show (V c main_v31 : S1x1024.Idx → Elt Ideal .f32) _ = (V c main_v31 : S1x1024.Idx → Elt Ideal .f32) k
  congr 1
  funext a
  apply Fin.ext
  match a with
  | ⟨0, _⟩ => show win2_3.index t 0 * 1 + 1 * (x 0).val = (k 0).val; rw [h.2.2.2.2.2.2.1, hk0]; omega
  | ⟨1, _⟩ => show win2_3.index t 1 * 1024 + 1 * (x 1).val = (k 1).val; rw [h.2.2.2.2.2.2.2.1, hk1]; omega

theorem iblk2_4_apply (c : Dev nD) (t : Fin cfg2.N) (x : S1x1024.Idx) (k : S1x1024.Idx)
    (hk0 : (k 0).val = (x 0).val) (hk1 : (k 1).val = (0) * 1024 + (x 1).val) :
    (iblk2 V c 4 t : Vec Ideal S1x1024 .f32) x = (V c main_v32 : S1x1024.Idx → Elt Ideal .f32) k := by
  have h := widx2 t
  unfold iblk2
  rw [View.read_apply]
  show (V c main_v32 : S1x1024.Idx → Elt Ideal .f32) _ = (V c main_v32 : S1x1024.Idx → Elt Ideal .f32) k
  congr 1
  funext a
  apply Fin.ext
  match a with
  | ⟨0, _⟩ => show win2_4.index t 0 * 1 + 1 * (x 0).val = (k 0).val; rw [h.2.2.2.2.2.2.2.2.1, hk0]; omega
  | ⟨1, _⟩ => show win2_4.index t 1 * 1024 + 1 * (x 1).val = (k 1).val; rw [h.2.2.2.2.2.2.2.2.2.1, hk1]; omega

theorem iblk2_5_apply (c : Dev nD) (t : Fin cfg2.N) (x : S1x1024.Idx) (k : S1x1024.Idx)
    (hk0 : (k 0).val = (x 0).val) (hk1 : (k 1).val = (0) * 1024 + (x 1).val) :
    (iblk2 V c 5 t : Vec Ideal S1x1024 .f32) x = (V c main_v33 : S1x1024.Idx → Elt Ideal .f32) k := by
  have h := widx2 t
  unfold iblk2
  rw [View.read_apply]
  show (V c main_v33 : S1x1024.Idx → Elt Ideal .f32) _ = (V c main_v33 : S1x1024.Idx → Elt Ideal .f32) k
  congr 1
  funext a
  apply Fin.ext
  match a with
  | ⟨0, _⟩ => show win2_5.index t 0 * 1 + 1 * (x 0).val = (k 0).val; rw [h.2.2.2.2.2.2.2.2.2.2.1, hk0]; omega
  | ⟨1, _⟩ => show win2_5.index t 1 * 1024 + 1 * (x 1).val = (k 1).val; rw [h.2.2.2.2.2.2.2.2.2.2.2.1, hk1]; omega

theorem iblk2_6_apply (c : Dev nD) (t : Fin cfg2.N) (x : S1x1024.Idx) (k : S1x1024.Idx)
    (hk0 : (k 0).val = (x 0).val) (hk1 : (k 1).val = (0) * 1024 + (x 1).val) :
    (iblk2 V c 6 t : Vec Ideal S1x1024 .f32) x = (V c main_v34 : S1x1024.Idx → Elt Ideal .f32) k := by
  have h := widx2 t
  unfold iblk2
  rw [View.read_apply]
  show (V c main_v34 : S1x1024.Idx → Elt Ideal .f32) _ = (V c main_v34 : S1x1024.Idx → Elt Ideal .f32) k
  congr 1
  funext a
  apply Fin.ext
  match a with
  | ⟨0, _⟩ => show win2_6.index t 0 * 1 + 1 * (x 0).val = (k 0).val; rw [h.2.2.2.2.2.2.2.2.2.2.2.2.1, hk0]; omega
  | ⟨1, _⟩ => show win2_6.index t 1 * 1024 + 1 * (x 1).val = (k 1).val; rw [h.2.2.2.2.2.2.2.2.2.2.2.2.2.1, hk1]; omega

/-- What the accumulator holds after point n, unfolded one step: the seed (zeros at a first contraction block, else
    what point n − 1 left) plus the point's block product. -/
theorem accAt2_eq (c : Dev nD) (n : ℕ) (h : n < cfg2.N) :
    accAt2 V c n h = k2_pay2 (iblk2 V c 0 ⟨n, h⟩) (iblk2 V c 1 ⟨n, h⟩)
      (if first2 (grid2.coords ⟨n, h⟩) = 1#1 then (k2_pay1 (F := Ideal))
        else if h0 : n = 0 then (k2_pay1 (F := Ideal)) else accAt2 V c (n - 1) (Nat.lt_of_le_of_lt (Nat.sub_le _ _) h)) := by
  cases n with
  | zero =>
    show acc2 _ _ _ k2_pay1 = _
    unfold acc2 seed2
    rw [dif_pos rfl]
  | succ n' =>
    show acc2 _ _ _ (accAt2 V c n' _) = _
    unfold acc2 seed2
    rw [dif_neg (Nat.succ_ne_zero n')]
    rfl

/-- Entry (r, cc) of the accumulator after point n (zero past the grid). -/
def accN2 (c : Dev nD) (r : Fin 1024) (cc : Fin 1024) (n : ℕ) : EReal :=
  if h : n < cfg2.N then accAt2 V c n h (ix2 r cc) else 0

/-- Term u of the block product at point n for entry (r, cc) (zero outside the grid and the block). -/
def termN2 (c : Dev nD) (r : Fin 1024) (cc : Fin 1024) (n u : ℕ) : EReal :=
  if h : n < cfg2.N ∧ u < 512 then
    prod2 ((iblk2 V c 0 ⟨n, h.1⟩ : Vec Ideal S1024x512 .bf16) (ix2 r ⟨u, h.2⟩)) ((iblk2 V c 1 ⟨n, h.1⟩ : Vec Ideal S1024x512 .bf16) (ix2 cc ⟨u, h.2⟩))
  else 0

theorem accN2_reset (c : Dev nD) (r : Fin 1024) (cc : Fin 1024) (n : ℕ) (hn : n < 64) (hm : n % 8 = 0) :
    accN2 V c r cc n = 0 + ∑ u : Fin 512, termN2 V c r cc n u.val := by
  have hn' : n < cfg2.N := lt_of_lt_of_eq hn N_2.symm
  unfold accN2
  rw [dif_pos hn', accAt2_eq, if_pos ((hfirst2 ⟨n, hn'⟩).mpr hm), pay2_apply2, pay1_apply2, Cert.Spec.zero_eq]
  refine congrArg _ (Finset.sum_congr rfl fun u _ => ?_)
  unfold termN2
  rw [dif_pos ⟨hn', u.isLt⟩]

theorem accN2_step (c : Dev nD) (r : Fin 1024) (cc : Fin 1024) (n : ℕ) (hn : n < 64) (hm : n % 8 ≠ 0) :
    accN2 V c r cc n = accN2 V c r cc (n - 1) + ∑ u : Fin 512, termN2 V c r cc n u.val := by
  have hn' : n < cfg2.N := lt_of_lt_of_eq hn N_2.symm
  have h0 : n ≠ 0 := fun e => hm (by rw [e])
  unfold accN2
  rw [dif_pos hn', dif_pos (Nat.lt_of_le_of_lt (Nat.sub_le _ _) hn'), accAt2_eq,
    if_neg (fun hf => hm ((hfirst2 ⟨n, hn'⟩).mp hf)), dif_neg h0, pay2_apply2]
  refine congrArg _ (Finset.sum_congr rfl fun u _ => ?_)
  unfold termN2
  rw [dif_pos ⟨hn', u.isLt⟩]

/-- At the last contraction block the accumulator's entry (r, cc) is the whole contraction of activation row I with
    binarised weight row J over all 4096 columns, I and J the entry's row and column in the arrays. -/
theorem acc_last2 (c : Dev nD) (t : Fin cfg2.N) (hl : t.val % 8 = 7) (r : Fin 1024) (cc : Fin 1024)
    (I : Fin 8192) (J : Fin 1024) (hI : I.val = (t.val / 8) * 1024 + r.val) (hJ : J.val = (0) * 1024 + cc.val) :
    accAt2 V c t.val t.isLt (ix2 r cc)
      = ∑ f : Fin 4096, prod2 ((V c main_v29 : S8192x4096.Idx → Elt Ideal .bf16) (ix2 I f)) ((V c main_v17 : S1024x4096.Idx → Elt Ideal .bf16) (ix2 J f)) := by
  have hN : t.val < 64 := lt_of_lt_of_eq t.isLt N_2
  have hfold := Cert.Lib.KBlocks.group_sum_lt 8 512 64 (by decide) (by decide) (accN2 V c r cc) (termN2 V c r cc)
    (accN2_reset V c r cc) (accN2_step V c r cc) (t.val - 7) (by omega) (by omega)
  rw [show t.val - 7 + (8 - 1) = t.val from by omega] at hfold
  have hacc : accN2 V c r cc t.val = accAt2 V c t.val t.isLt (ix2 r cc) := by unfold accN2; rw [dif_pos t.isLt]
  rw [← hacc, hfold]
  show ∑ f : Fin 4096, termN2 V c r cc (t.val - 7 + f.val / 512) (f.val % 512) = _
  refine Finset.sum_congr rfl fun f _ => ?_
  have hf := f.isLt
  have hn1 : t.val - 7 + f.val / 512 < cfg2.N := lt_of_lt_of_eq (by omega) N_2.symm
  have hu1 : f.val % 512 < 512 := Nat.mod_lt _ (by decide)
  unfold termN2
  rw [dif_pos ⟨hn1, hu1⟩]
  rw [iblk2_0_apply V c ⟨t.val - 7 + f.val / 512, hn1⟩ (ix2 r ⟨f.val % 512, hu1⟩) (ix2 I f)
      (by show I.val = ((t.val - 7 + f.val / 512) / 8) * 1024 + r.val; rw [hI]; omega)
      (by show f.val = ((t.val - 7 + f.val / 512) % 8) * 512 + f.val % 512; omega),
    iblk2_1_apply V c ⟨t.val - 7 + f.val / 512, hn1⟩ (ix2 cc ⟨f.val % 512, hu1⟩) (ix2 J f)
      (by show J.val = (0) * 1024 + cc.val; exact hJ)
      (by show f.val = ((t.val - 7 + f.val / 512) % 8) * 512 + f.val % 512; omega)]

/-- Entry (i, j) of what the layer's region leaves in its output array: the batch normalisation of the
    contraction of activation row i with binarised weight row j. -/
def g2 (c : Dev nD) (i : Fin 8192) (j : Fin 1024) : EReal :=
  (Cert.Spec.bnorm (∑ f : Fin 4096, prod2 ((V c main_v29 : S8192x4096.Idx → Elt Ideal .bf16) (ix2 i f)) ((V c main_v17 : S1024x4096.Idx → Elt Ideal .bf16) (ix2 j f)))
    ((V c main_v30 : S1x1024.Idx → Elt Ideal .f32) (ix2 0 j)) ((V c main_v31 : S1x1024.Idx → Elt Ideal .f32) (ix2 0 j))
    ((V c main_v32 : S1x1024.Idx → Elt Ideal .f32) (ix2 0 j)) ((V c main_v33 : S1x1024.Idx → Elt Ideal .f32) (ix2 0 j))
    ((V c main_v34 : S1x1024.Idx → Elt Ideal .f32) (ix2 0 j)))

/-- The same as contents of the output array. -/
def G2 (c : Dev nD) : Buf (Elt Ideal) ((cfg2.win 7).arr.view.loc (c.tc : Thread nD τ)) :=
  fun idx => g2 V c ⟨(idx 0).val, (idx 0).isLt⟩ ⟨(idx 1).val, (idx 1).isLt⟩

/-- `G2` read at an index whose coordinates are i and j. -/
theorem G2_at (c : Dev nD) (idx : S8192x1024.Idx) (i : Fin 8192) (j : Fin 1024)
    (hi : (idx 0).val = i.val) (hj : (idx 1).val = j.val) : G2 V c idx = g2 V c i j := by
  show g2 V c ⟨(idx 0).val, (idx 0).isLt⟩ ⟨(idx 1).val, (idx 1).isLt⟩ = g2 V c i j
  have ei : (⟨(idx 0).val, (idx 0).isLt⟩ : Fin 8192) = i := Fin.ext hi
  have ej : (⟨(idx 1).val, (idx 1).isLt⟩ : Fin 1024) = j := Fin.ext hj
  rw [ei, ej]

set_option maxHeartbeats 4000000 in
/-- The block a last-contraction-block point writes back is that block of `G2`. -/
theorem flushed_eq2 (c : Dev nD) (t : Fin cfg2.N) (hf : (cfg2.win 7).flush t = true) :
    (dat2 V c).flushed 7 t = ((cfg2.win 7).blk t).view.read (Elt Ideal) (G2 V c) := by
  have hl : t.val % 8 = 7 := (flush2_7 t).mp hf
  have hN : t.val < 64 := lt_of_lt_of_eq t.isLt N_2
  have h := widx2 t
  show (cfg2.win 7).cut (grid2.coords t) ((dat2 V c).after 7 t) = _
  rw [after2_7]
  funext y
  rw [View.read_apply]
  obtain ⟨r, cc, rfl⟩ : ∃ (r : Fin 1024) (cc : Fin 1024), y = ix2 r cc := ⟨y 0, y 1, eq_ix2 y⟩
  have hI : (t.val / 8) * 1024 + r.val < 8192 := by omega
  have hJ : (0) * 1024 + cc.val < 1024 := by rw [Nat.zero_mul, Nat.zero_add]; exact cc.isLt
  have eG : G2 V c (((cfg2.win 7).blk t).view.emb (ix2 r cc)) = g2 V c ⟨_, hI⟩ ⟨_, hJ⟩ :=
    G2_at V c _ ⟨_, hI⟩ ⟨_, hJ⟩
      (by show win2_7.index t 0 * 1024 + 1 * r.val = (t.val / 8) * 1024 + r.val; rw [h.2.2.2.2.2.2.2.2.2.2.2.2.2.2.1]; omega)
      (by show win2_7.index t 1 * 1024 + 1 * cc.val = (0) * 1024 + cc.val; rw [h.2.2.2.2.2.2.2.2.2.2.2.2.2.2.2]; omega)
  refine Eq.trans ?_ eG.symm
  show outAt2 V c t (ix2 r cc) = _
  unfold outAt2 g2
  rw [pay3_apply2, acc_last2 V c t hl r cc ⟨_, hI⟩ ⟨_, hJ⟩ rfl rfl,
    iblk2_2_apply V c t (ix2 0 cc) (ix2 0 ⟨_, hJ⟩) rfl rfl, iblk2_3_apply V c t (ix2 0 cc) (ix2 0 ⟨_, hJ⟩) rfl rfl,
    iblk2_4_apply V c t (ix2 0 cc) (ix2 0 ⟨_, hJ⟩) rfl rfl, iblk2_5_apply V c t (ix2 0 cc) (ix2 0 ⟨_, hJ⟩) rfl rfl,
    iblk2_6_apply V c t (ix2 0 cc) (ix2 0 ⟨_, hJ⟩) rfl rfl]

/-- Every entry of the output array lies in the block of some point that writes back. -/
theorem cover2 (c : Dev nD) (i : ((cfg2.win 7).arr.view.loc (c.tc : Thread nD τ)).2.ty.Idx) :
    ∃ t : Fin cfg2.N, (cfg2.win 7).flush t = true ∧ i ∈ ((cfg2.win 7).blk t).view.set := by
  have h0 : (i 0 : ℕ) < 8192 := (i 0).isLt
  have h1 : (i 1 : ℕ) < 1024 := (i 1).isLt
  have htv : (i 0).val / 1024 * 8 + 7 < cfg2.N := lt_of_lt_of_eq (by omega) N_2.symm
  refine ⟨⟨(i 0).val / 1024 * 8 + 7, htv⟩, (flush2_7 _).mpr (by show ((i 0).val / 1024 * 8 + 7) % 8 = 7; omega), ?_⟩
  have h := widx2 ⟨(i 0).val / 1024 * 8 + 7, htv⟩
  show i ∈ ((View.whole main_v35).slice (win2_7.rect ⟨(i 0).val / 1024 * 8 + 7, htv⟩)).set
  rw [View.set_slice_whole, Rect.mem_set_unit]
  intro a
  match a with
  | ⟨0, _⟩ =>
    show win2_7.index ⟨(i 0).val / 1024 * 8 + 7, htv⟩ 0 * 1024 ≤ (i 0 : ℕ) ∧ (i 0 : ℕ) < win2_7.index ⟨(i 0).val / 1024 * 8 + 7, htv⟩ 0 * 1024 + 1024
    rw [h.2.2.2.2.2.2.2.2.2.2.2.2.2.2.1]
    show (((i 0).val / 1024 * 8 + 7) / 8) * 1024 ≤ (i 0 : ℕ) ∧ (i 0 : ℕ) < (((i 0).val / 1024 * 8 + 7) / 8) * 1024 + 1024
    omega
  | ⟨1, _⟩ =>
    show win2_7.index ⟨(i 0).val / 1024 * 8 + 7, htv⟩ 1 * 1024 ≤ (i 1 : ℕ) ∧ (i 1 : ℕ) < win2_7.index ⟨(i 0).val / 1024 * 8 + 7, htv⟩ 1 * 1024 + 1024
    rw [h.2.2.2.2.2.2.2.2.2.2.2.2.2.2.2]
    show (0) * 1024 ≤ (i 1 : ℕ) ∧ (i 1 : ℕ) < (0) * 1024 + 1024
    omega

/-- So the output array ends holding `G2`. -/
theorem final2 (c : Dev nD) : (dat2 V c).arrAt 7 cfg2.N = G2 V c :=
  (dat2 V c).arrAt_eq_of_cover 7 (G2 V c) (flushed_eq2 V c) (cover2 c)

end Val2

end Cert.KernelIdeal.Hand

end
-- ==== Proof.KIHost.lean ====
import proofs.«128298_j33311766347902_2_alg».proof.Proof.KIFrame
import proofs.«128298_j33311766347902_2_alg».proof.Proof.Spec
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.Hand

open Idealize.ShloMosaic Idealize.ShloMosaic.TcCoe Idealize.ShloMosaic.ValueIdx
open Cert.KernelIdeal Cert.KernelIdeal.Gen

/-! # The host stretches read at an index

Between the launch and each layer's region the program only re-lays its arguments: a weight matrix becomes the matrix of
its entries' signs (a comparison with zero, a choice between +1 and −1, then a change of float format, which is the
identity on the extended reals); a vector becomes a one-row matrix; the third layer's arrays are first padded from 1000
to 1024 rows or entries; and the result is the leading 1000 columns of the third layer's output. Each lemma below reads
one buffer a region is entered from, at an index, as that function of the launch contents. -/

/-! ## One stretch at a time, from any contents -/

section Stretch
variable {F : FTy → Type} [FloatOps F] (V : Valuation τ sig (Elt F))

/-- Layer 1's weights compared with zero, and the two values the choice is between. -/
theorem s0_v1 : StableHlo.after hostOps0 V (Proc.devRef .tc main_v1)
    = cmpf .oge (V (Proc.devRef .tc main_arg1) : FVec F S4096x4096 .f32)
        (broadcastInDim S4096x4096 ![] bcast_S_S4096x4096 (constant S_ .f32 0x00000000#32)) := by
  after_results <;> rfl
theorem s0_cst0 : StableHlo.after hostOps0 V (Proc.devRef .tc main_cst_0) = (constant S_ .f32 0x3F800000#32 : FVec F S_ .f32) := by
  after_results <;> rfl
theorem s0_cst1 : StableHlo.after hostOps0 V (Proc.devRef .tc main_cst_1) = (constant S_ .f32 0xBF800000#32 : FVec F S_ .f32) := by
  after_results <;> rfl
/-- The choice. -/
theorem s0_1_v2 : StableHlo.after hostOps0_1 V (Proc.devRef .tc main_v2)
    = select (V (Proc.devRef .tc main_v1) : IVec S4096x4096 1)
        (broadcastInDim S4096x4096 ![] bcast_S_S4096x4096 (V (Proc.devRef .tc main_cst_0) : FVec F S_ .f32))
        (broadcastInDim S4096x4096 ![] bcast_S_S4096x4096 (V (Proc.devRef .tc main_cst_1) : FVec F S_ .f32)) := by
  after_results <;> rfl
/-- The change of format; and layer 2's weights compared with zero, with the two values of its choice. -/
theorem s0_2_v3 : StableHlo.after hostOps0_2 V (Proc.devRef .tc main_v3)
    = truncf .bf16 (V (Proc.devRef .tc main_v2) : FVec F S4096x4096 .f32) bitsLt_bf16_f32 := by
  after_results <;> rfl
theorem s0_2_v5 : StableHlo.after hostOps0_2 V (Proc.devRef .tc main_v5)
    = cmpf .oge (V (Proc.devRef .tc main_arg7) : FVec F S4096x4096 .f32)
        (broadcastInDim S4096x4096 ![] bcast_S_S4096x4096 (constant S_ .f32 0x00000000#32)) := by
  after_results <;> rfl
theorem s0_2_cst3 : StableHlo.after hostOps0_2 V (Proc.devRef .tc main_cst_3) = (constant S_ .f32 0x3F800000#32 : FVec F S_ .f32) := by
  after_results <;> rfl
theorem s0_2_cst4 : StableHlo.after hostOps0_2 V (Proc.devRef .tc main_cst_4) = (constant S_ .f32 0xBF800000#32 : FVec F S_ .f32) := by
  after_results <;> rfl
theorem s0_3_v6 : StableHlo.after hostOps0_3 V (Proc.devRef .tc main_v6)
    = select (V (Proc.devRef .tc main_v5) : IVec S4096x4096 1)
        (broadcastInDim S4096x4096 ![] bcast_S_S4096x4096 (V (Proc.devRef .tc main_cst_3) : FVec F S_ .f32))
        (broadcastInDim S4096x4096 ![] bcast_S_S4096x4096 (V (Proc.devRef .tc main_cst_4) : FVec F S_ .f32)) := by
  after_results <;> rfl
theorem s0_4_v7 : StableHlo.after hostOps0_4 V (Proc.devRef .tc main_v7)
    = truncf .bf16 (V (Proc.devRef .tc main_v6) : FVec F S4096x4096 .f32) bitsLt_bf16_f32 := by
  after_results <;> rfl
theorem s0_4_c : StableHlo.after hostOps0_4 V (Proc.devRef .tc main_c) = (constantI S_ 32 0#32 : IVec S_ 32) := by
  after_results <;> rfl

/-- Layer 3's weights padded with 24 rows. -/
theorem s0_5_v8 : StableHlo.after hostOps0_5 V (Proc.devRef .tc main_v8)
    = pad S1024x4096 ![0, 0] ![24, 0] ![0, 0] (V (Proc.devRef .tc main_arg13) : FVec F S1000x4096 .f32)
        (sitofp .f32 (V (Proc.devRef .tc main_c) : IVec S_ 32) : FVec F S_ .f32) pads_S1000x4096_S1024x4096_0240_000 h_S_ := by
  after_results <;> rfl
/-- Layer 3's vectors padded with 24 entries (whatever the padding value). -/
theorem s0_7_v9 : StableHlo.after hostOps0_7 V (Proc.devRef .tc main_v9)
    = pad S1024 ![0] ![24] ![0] (V (Proc.devRef .tc main_arg14) : FVec F S1000 .f32)
        (sitofp .f32 (V (Proc.devRef .tc main_c_5) : IVec S_ 32) : FVec F S_ .f32) pads_S1000_S1024_0240 h_S_ := by
  after_results <;> rfl
theorem s0_9_v10 : StableHlo.after hostOps0_9 V (Proc.devRef .tc main_v10)
    = pad S1024 ![0] ![24] ![0] (V (Proc.devRef .tc main_arg15) : FVec F S1000 .f32)
        (sitofp .f32 (V (Proc.devRef .tc main_c_6) : IVec S_ 32) : FVec F S_ .f32) pads_S1000_S1024_0240 h_S_ := by
  after_results <;> rfl
theorem s0_11_v11 : StableHlo.after hostOps0_11 V (Proc.devRef .tc main_v11)
    = pad S1024 ![0] ![24] ![0] (V (Proc.devRef .tc main_arg16) : FVec F S1000 .f32)
        (sitofp .f32 (V (Proc.devRef .tc main_c_7) : IVec S_ 32) : FVec F S_ .f32) pads_S1000_S1024_0240 h_S_ := by
  after_results <;> rfl
theorem s0_13_v12 : StableHlo.after hostOps0_13 V (Proc.devRef .tc main_v12)
    = pad S1024 ![0] ![24] ![0] (V (Proc.devRef .tc main_arg17) : FVec F S1000 .f32)
        (sitofp .f32 (V (Proc.devRef .tc main_c_8) : IVec S_ 32) : FVec F S_ .f32) pads_S1000_S1024_0240 h_S_ := by
  after_results <;> rfl
theorem s0_15_v13 : StableHlo.after hostOps0_15 V (Proc.devRef .tc main_v13)
    = pad S1024 ![0] ![24] ![0] (V (Proc.devRef .tc main_arg18) : FVec F S1000 .f32)
        (V (Proc.devRef .tc main_cst_9) : FVec F S_ .f32) pads_S1000_S1024_0240 h_S_ := by
  after_results <;> rfl

/-- Layer 3's padded weights compared with zero, the choice, the change of format. -/
theorem s0_16_v15 : StableHlo.after hostOps0_16 V (Proc.devRef .tc main_v15)
    = cmpf .oge (V (Proc.devRef .tc main_v8) : FVec F S1024x4096 .f32)
        (broadcastInDim S1024x4096 ![] bcast_S_S1024x4096 (constant S_ .f32 0x00000000#32)) := by
  after_results <;> rfl
theorem s0_16_cst11 : StableHlo.after hostOps0_16 V (Proc.devRef .tc main_cst_11) = (constant S_ .f32 0x3F800000#32 : FVec F S_ .f32) := by
  after_results <;> rfl
theorem s0_16_cst12 : StableHlo.after hostOps0_16 V (Proc.devRef .tc main_cst_12) = (constant S_ .f32 0xBF800000#32 : FVec F S_ .f32) := by
  after_results <;> rfl
theorem s0_17_v16 : StableHlo.after hostOps0_17 V (Proc.devRef .tc main_v16)
    = select (V (Proc.devRef .tc main_v15) : IVec S1024x4096 1)
        (broadcastInDim S1024x4096 ![] bcast_S_S1024x4096 (V (Proc.devRef .tc main_cst_11) : FVec F S_ .f32))
        (broadcastInDim S1024x4096 ![] bcast_S_S1024x4096 (V (Proc.devRef .tc main_cst_12) : FVec F S_ .f32)) := by
  after_results <;> rfl
theorem s0_18_v17 : StableHlo.after hostOps0_18 V (Proc.devRef .tc main_v17)
    = truncf .bf16 (V (Proc.devRef .tc main_v16) : FVec F S1024x4096 .f32) bitsLt_bf16_f32 := by
  after_results <;> rfl

/-- A layer's five vectors, each laid as a one-row matrix. -/
theorem s0_18_v18 : StableHlo.after hostOps0_18 V (Proc.devRef .tc main_v18)
    = shapeCast S1x4096 (V (Proc.devRef .tc main_arg2) : FVec F S4096 .f32) shapeCasts_S4096_S1x4096 := by
  after_results <;> rfl
theorem s0_18_v19 : StableHlo.after hostOps0_18 V (Proc.devRef .tc main_v19)
    = shapeCast S1x4096 (V (Proc.devRef .tc main_arg3) : FVec F S4096 .f32) shapeCasts_S4096_S1x4096 := by
  after_results <;> rfl
theorem s0_18_v20 : StableHlo.after hostOps0_18 V (Proc.devRef .tc main_v20)
    = shapeCast S1x4096 (V (Proc.devRef .tc main_arg4) : FVec F S4096 .f32) shapeCasts_S4096_S1x4096 := by
  after_results <;> rfl
theorem s0_18_v21 : StableHlo.after hostOps0_18 V (Proc.devRef .tc main_v21)
    = shapeCast S1x4096 (V (Proc.devRef .tc main_arg5) : FVec F S4096 .f32) shapeCasts_S4096_S1x4096 := by
  after_results <;> rfl
theorem s0_18_v22 : StableHlo.after hostOps0_18 V (Proc.devRef .tc main_v22)
    = shapeCast S1x4096 (V (Proc.devRef .tc main_arg6) : FVec F S4096 .f32) shapeCasts_S4096_S1x4096 := by
  after_results <;> rfl
theorem s1_v24 : StableHlo.after hostOps1 V (Proc.devRef .tc main_v24)
    = shapeCast S1x4096 (V (Proc.devRef .tc main_arg8) : FVec F S4096 .f32) shapeCasts_S4096_S1x4096 := by
  after_results <;> rfl
theorem s1_v25 : StableHlo.after hostOps1 V (Proc.devRef .tc main_v25)
    = shapeCast S1x4096 (V (Proc.devRef .tc main_arg9) : FVec F S4096 .f32) shapeCasts_S4096_S1x4096 := by
  after_results <;> rfl
theorem s1_v26 : StableHlo.after hostOps1 V (Proc.devRef .tc main_v26)
    = shapeCast S1x4096 (V (Proc.devRef .tc main_arg10) : FVec F S4096 .f32) shapeCasts_S4096_S1x4096 := by
  after_results <;> rfl
theorem s1_v27 : StableHlo.after hostOps1 V (Proc.devRef .tc main_v27)
    = shapeCast S1x4096 (V (Proc.devRef .tc main_arg11) : FVec F S4096 .f32) shapeCasts_S4096_S1x4096 := by
  after_results <;> rfl
theorem s1_v28 : StableHlo.after hostOps1 V (Proc.devRef .tc main_v28)
    = shapeCast S1x4096 (V (Proc.devRef .tc main_arg12) : FVec F S4096 .f32) shapeCasts_S4096_S1x4096 := by
  after_results <;> rfl
theorem s2_v30 : StableHlo.after hostOps2 V (Proc.devRef .tc main_v30)
    = shapeCast S1x1024 (V (Proc.devRef .tc main_v9) : FVec F S1024 .f32) shapeCasts_S1024_S1x1024 := by
  after_results <;> rfl
theorem s2_v31 : StableHlo.after hostOps2 V (Proc.devRef .tc main_v31)
    = shapeCast S1x1024 (V (Proc.devRef .tc main_v10) : FVec F S1024 .f32) shapeCasts_S1024_S1x1024 := by
  after_results <;> rfl
theorem s2_v32 : StableHlo.after hostOps2 V (Proc.devRef .tc main_v32)
    = shapeCast S1x1024 (V (Proc.devRef .tc main_v11) : FVec F S1024 .f32) shapeCasts_S1024_S1x1024 := by
  after_results <;> rfl
theorem s2_v33 : StableHlo.after hostOps2 V (Proc.devRef .tc main_v33)
    = shapeCast S1x1024 (V (Proc.devRef .tc main_v12) : FVec F S1024 .f32) shapeCasts_S1024_S1x1024 := by
  after_results <;> rfl
theorem s2_v34 : StableHlo.after hostOps2 V (Proc.devRef .tc main_v34)
    = shapeCast S1x1024 (V (Proc.devRef .tc main_v13) : FVec F S1024 .f32) shapeCasts_S1024_S1x1024 := by
  after_results <;> rfl

/-- The result: the leading 1000 columns of layer 3's output. -/
theorem s3_v36 : StableHlo.after hostOps3 V (Proc.devRef .tc main_v36)
    = extractStridedSlice S8192x1000 ![0, 0] (V (Proc.devRef .tc main_v35) : FVec F S8192x1024 .f32) slices_S8192x1024_S8192x1000_0_0 := by
  after_results <;> rfl

end Stretch

/-! ## What stands between a buffer and the stretch that wrote it

A region changes its own output array and nothing else; a later stretch leaves what it does not write. -/

section Walk
variable {F : FTy → Type} [FloatOps F] (m : (ℓ : Loc nD τ sig) → Buf (Elt F) ℓ)

theorem W20_of (c : Dev nD) (r : Ref sig .tc) (h : r ≠ main_v23) : W20 m c r = V19 m c r :=
  Function.update_of_ne (StableHlo.devRef_ne_of_ne h) _ _
theorem W21_of (c : Dev nD) (r : Ref sig .tc) (h : r ∉ hostOps1_W) : W21 m c r = W20 m c r :=
  StableHlo.after_of_writes_sub hostOps1 _ hostOps1_writes h
theorem W22_of (c : Dev nD) (r : Ref sig .tc) (h : r ≠ main_v29) : W22 m c r = W21 m c r :=
  Function.update_of_ne (StableHlo.devRef_ne_of_ne h) _ _
theorem W23_of (c : Dev nD) (r : Ref sig .tc) (h : r ∉ hostOps2_W) : W23 m c r = W22 m c r :=
  StableHlo.after_of_writes_sub hostOps2 _ hostOps2_writes h

/-- Layer 2's region is entered with layer 1's output where layer 1's region left it, -/
theorem W21_v23 (c : Dev nD) : W21 m c main_v23 = o20 m c :=
  (W21_of m c main_v23 (by decide)).trans (Function.update_self _ _ _)
/-- and layer 3's with layer 2's. -/
theorem W23_v29 (c : Dev nD) : W23 m c main_v29 = o22 m c :=
  (W23_of m c main_v29 (by decide)).trans (Function.update_self _ _ _)

end Walk

/-! ## Re-laid vectors and the result, for any float values -/

section Layouts
variable {F : FTy → Type} [FloatOps F] (m : (ℓ : Loc nD τ sig) → Buf (Elt F) ℓ)

/-- Layer 1's activations are the launch contents. -/
theorem U19_arg0 (c : Dev nD) : U19 m c main_arg0 = m ((c : Thread nD τ).loc main_arg0) :=
  (V19_of m c main_arg0 (by decide)).trans <| (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

/-! ### Layer 1: bias, gain, offset, mean and variance, each as one row -/

theorem U19_v18 (c : Dev nD) (u : Fin 1) (j : Fin 4096) :
    (U19 m c main_v18 : FVec F S1x4096 .f32) (ix2 u j) = (m ((c : Thread nD τ).loc main_arg2) : FVec F S4096 .f32) (ix1 j) := by
  have e : U19 m c main_v18 = shapeCast S1x4096 (m ((c : Thread nD τ).loc main_arg2) : FVec F S4096 .f32) shapeCasts_S4096_S1x4096 := by
    refine (s0_18_v18 (V18 m c)).trans ?_
    rw [show V18 m c (Proc.devRef .tc main_arg2) = m ((c : Thread nD τ).loc main_arg2) from (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))]
  rw [e]
  exact shapeCast_a_1a_apply _ _ u j

theorem U19_v19 (c : Dev nD) (u : Fin 1) (j : Fin 4096) :
    (U19 m c main_v19 : FVec F S1x4096 .f32) (ix2 u j) = (m ((c : Thread nD τ).loc main_arg3) : FVec F S4096 .f32) (ix1 j) := by
  have e : U19 m c main_v19 = shapeCast S1x4096 (m ((c : Thread nD τ).loc main_arg3) : FVec F S4096 .f32) shapeCasts_S4096_S1x4096 := by
    refine (s0_18_v19 (V18 m c)).trans ?_
    rw [show V18 m c (Proc.devRef .tc main_arg3) = m ((c : Thread nD τ).loc main_arg3) from (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))]
  rw [e]
  exact shapeCast_a_1a_apply _ _ u j

theorem U19_v20 (c : Dev nD) (u : Fin 1) (j : Fin 4096) :
    (U19 m c main_v20 : FVec F S1x4096 .f32) (ix2 u j) = (m ((c : Thread nD τ).loc main_arg4) : FVec F S4096 .f32) (ix1 j) := by
  have e : U19 m c main_v20 = shapeCast S1x4096 (m ((c : Thread nD τ).loc main_arg4) : FVec F S4096 .f32) shapeCasts_S4096_S1x4096 := by
    refine (s0_18_v20 (V18 m c)).trans ?_
    rw [show V18 m c (Proc.devRef .tc main_arg4) = m ((c : Thread nD τ).loc main_arg4) from (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))]
  rw [e]
  exact shapeCast_a_1a_apply _ _ u j

theorem U19_v21 (c : Dev nD) (u : Fin 1) (j : Fin 4096) :
    (U19 m c main_v21 : FVec F S1x4096 .f32) (ix2 u j) = (m ((c : Thread nD τ).loc main_arg5) : FVec F S4096 .f32) (ix1 j) := by
  have e : U19 m c main_v21 = shapeCast S1x4096 (m ((c : Thread nD τ).loc main_arg5) : FVec F S4096 .f32) shapeCasts_S4096_S1x4096 := by
    refine (s0_18_v21 (V18 m c)).trans ?_
    rw [show V18 m c (Proc.devRef .tc main_arg5) = m ((c : Thread nD τ).loc main_arg5) from (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))]
  rw [e]
  exact shapeCast_a_1a_apply _ _ u j

theorem U19_v22 (c : Dev nD) (u : Fin 1) (j : Fin 4096) :
    (U19 m c main_v22 : FVec F S1x4096 .f32) (ix2 u j) = (m ((c : Thread nD τ).loc main_arg6) : FVec F S4096 .f32) (ix1 j) := by
  have e : U19 m c main_v22 = shapeCast S1x4096 (m ((c : Thread nD τ).loc main_arg6) : FVec F S4096 .f32) shapeCasts_S4096_S1x4096 := by
    refine (s0_18_v22 (V18 m c)).trans ?_
    rw [show V18 m c (Proc.devRef .tc main_arg6) = m ((c : Thread nD τ).loc main_arg6) from (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))]
  rw [e]
  exact shapeCast_a_1a_apply _ _ u j

/-! ### Layer 2: the same five vectors of its own -/

theorem W21_v24 (c : Dev nD) (u : Fin 1) (j : Fin 4096) :
    (W21 m c main_v24 : FVec F S1x4096 .f32) (ix2 u j) = (m ((c : Thread nD τ).loc main_arg8) : FVec F S4096 .f32) (ix1 j) := by
  have e : W21 m c main_v24 = shapeCast S1x4096 (m ((c : Thread nD τ).loc main_arg8) : FVec F S4096 .f32) shapeCasts_S4096_S1x4096 := by
    refine (s1_v24 (W20 m c)).trans ?_
    rw [show W20 m c (Proc.devRef .tc main_arg8) = m ((c : Thread nD τ).loc main_arg8) from (W20_of m c main_arg8 (by decide)).trans <| (V19_of m c main_arg8 (by decide)).trans <| (V18_of m c main_arg8 (by decide)).trans <| (V17_of m c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))]
  rw [e]
  exact shapeCast_a_1a_apply _ _ u j

theorem W21_v25 (c : Dev nD) (u : Fin 1) (j : Fin 4096) :
    (W21 m c main_v25 : FVec F S1x4096 .f32) (ix2 u j) = (m ((c : Thread nD τ).loc main_arg9) : FVec F S4096 .f32) (ix1 j) := by
  have e : W21 m c main_v25 = shapeCast S1x4096 (m ((c : Thread nD τ).loc main_arg9) : FVec F S4096 .f32) shapeCasts_S4096_S1x4096 := by
    refine (s1_v25 (W20 m c)).trans ?_
    rw [show W20 m c (Proc.devRef .tc main_arg9) = m ((c : Thread nD τ).loc main_arg9) from (W20_of m c main_arg9 (by decide)).trans <| (V19_of m c main_arg9 (by decide)).trans <| (V18_of m c main_arg9 (by decide)).trans <| (V17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))]
  rw [e]
  exact shapeCast_a_1a_apply _ _ u j

theorem W21_v26 (c : Dev nD) (u : Fin 1) (j : Fin 4096) :
    (W21 m c main_v26 : FVec F S1x4096 .f32) (ix2 u j) = (m ((c : Thread nD τ).loc main_arg10) : FVec F S4096 .f32) (ix1 j) := by
  have e : W21 m c main_v26 = shapeCast S1x4096 (m ((c : Thread nD τ).loc main_arg10) : FVec F S4096 .f32) shapeCasts_S4096_S1x4096 := by
    refine (s1_v26 (W20 m c)).trans ?_
    rw [show W20 m c (Proc.devRef .tc main_arg10) = m ((c : Thread nD τ).loc main_arg10) from (W20_of m c main_arg10 (by decide)).trans <| (V19_of m c main_arg10 (by decide)).trans <| (V18_of m c main_arg10 (by decide)).trans <| (V17_of m c main_arg10 (by decide)).trans <| (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))]
  rw [e]
  exact shapeCast_a_1a_apply _ _ u j

theorem W21_v27 (c : Dev nD) (u : Fin 1) (j : Fin 4096) :
    (W21 m c main_v27 : FVec F S1x4096 .f32) (ix2 u j) = (m ((c : Thread nD τ).loc main_arg11) : FVec F S4096 .f32) (ix1 j) := by
  have e : W21 m c main_v27 = shapeCast S1x4096 (m ((c : Thread nD τ).loc main_arg11) : FVec F S4096 .f32) shapeCasts_S4096_S1x4096 := by
    refine (s1_v27 (W20 m c)).trans ?_
    rw [show W20 m c (Proc.devRef .tc main_arg11) = m ((c : Thread nD τ).loc main_arg11) from (W20_of m c main_arg11 (by decide)).trans <| (V19_of m c main_arg11 (by decide)).trans <| (V18_of m c main_arg11 (by decide)).trans <| (V17_of m c main_arg11 (by decide)).trans <| (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))]
  rw [e]
  exact shapeCast_a_1a_apply _ _ u j

theorem W21_v28 (c : Dev nD) (u : Fin 1) (j : Fin 4096) :
    (W21 m c main_v28 : FVec F S1x4096 .f32) (ix2 u j) = (m ((c : Thread nD τ).loc main_arg12) : FVec F S4096 .f32) (ix1 j) := by
  have e : W21 m c main_v28 = shapeCast S1x4096 (m ((c : Thread nD τ).loc main_arg12) : FVec F S4096 .f32) shapeCasts_S4096_S1x4096 := by
    refine (s1_v28 (W20 m c)).trans ?_
    rw [show W20 m c (Proc.devRef .tc main_arg12) = m ((c : Thread nD τ).loc main_arg12) from (W20_of m c main_arg12 (by decide)).trans <| (V19_of m c main_arg12 (by decide)).trans <| (V18_of m c main_arg12 (by decide)).trans <| (V17_of m c main_arg12 (by decide)).trans <| (V16_of m c main_arg12 (by decide)).trans <| (V15_of m c main_arg12 (by decide)).trans <| (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))]
  rw [e]
  exact shapeCast_a_1a_apply _ _ u j

/-! ### Layer 3: its five vectors, padded from 1000 to 1024 entries, then as one row; an entry below 1000 is the argument's -/

/-- A vector padded behind by 24 entries reads the vector below 1000. -/
theorem pad1000_apply {α : Type} (x : S1000.Idx → α) (v : S_.Idx → α) (j : Fin 1024) (hj : j.val < 1000) :
    pad S1024 ![0] ![24] ![0] x v pads_S1000_S1024_0240 h_S_ (ix1 j) = x (ix1 ⟨j.val, hj⟩) :=
  pad_apply_of_inside _ _ _ x v pads_S1000_S1024_0240 h_S_ (ix1 j) (ix1 ⟨j.val, hj⟩) fun a => by
    match a with
    | ⟨0, _⟩ => show j.val = 0 + j.val * (0 + 1); omega

theorem W23_v30 (c : Dev nD) (u : Fin 1) (j : Fin 1024) (hj : j.val < 1000) :
    (W23 m c main_v30 : FVec F S1x1024 .f32) (ix2 u j) = (m ((c : Thread nD τ).loc main_arg14) : FVec F S1000 .f32) (ix1 ⟨j.val, hj⟩) := by
  have e : W23 m c main_v30 = shapeCast S1x1024 (V8 m c main_v9 : FVec F S1024 .f32) shapeCasts_S1024_S1x1024 := by
    refine (s2_v30 (W22 m c)).trans ?_
    rw [show W22 m c (Proc.devRef .tc main_v9) = V8 m c main_v9 from (W22_of m c main_v9 (by decide)).trans <| (W21_of m c main_v9 (by decide)).trans <|
      (W20_of m c main_v9 (by decide)).trans <| (V19_of m c main_v9 (by decide)).trans <| (V18_of m c main_v9 (by decide)).trans <| (V17_of m c main_v9 (by decide)).trans <| (V16_of m c main_v9 (by decide)).trans <| (V15_of m c main_v9 (by decide)).trans <| (V14_of m c main_v9 (by decide)).trans <| (V13_of m c main_v9 (by decide)).trans <| (V12_of m c main_v9 (by decide)).trans <| (V11_of m c main_v9 (by decide)).trans <| (V10_of m c main_v9 (by decide)).trans <| (V9_of m c main_v9 (by decide))]
  rw [e]
  refine (shapeCast_a_1a_apply _ _ u j).trans ?_
  rw [show V8 m c (Proc.devRef .tc main_v9) = _ from s0_7_v9 (V7 m c),
    show V7 m c (Proc.devRef .tc main_arg14) = m ((c : Thread nD τ).loc main_arg14) from (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))]
  exact pad1000_apply _ _ j hj

theorem W23_v31 (c : Dev nD) (u : Fin 1) (j : Fin 1024) (hj : j.val < 1000) :
    (W23 m c main_v31 : FVec F S1x1024 .f32) (ix2 u j) = (m ((c : Thread nD τ).loc main_arg15) : FVec F S1000 .f32) (ix1 ⟨j.val, hj⟩) := by
  have e : W23 m c main_v31 = shapeCast S1x1024 (V10 m c main_v10 : FVec F S1024 .f32) shapeCasts_S1024_S1x1024 := by
    refine (s2_v31 (W22 m c)).trans ?_
    rw [show W22 m c (Proc.devRef .tc main_v10) = V10 m c main_v10 from (W22_of m c main_v10 (by decide)).trans <| (W21_of m c main_v10 (by decide)).trans <|
      (W20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide))]
  rw [e]
  refine (shapeCast_a_1a_apply _ _ u j).trans ?_
  rw [show V10 m c (Proc.devRef .tc main_v10) = _ from s0_9_v10 (V9 m c),
    show V9 m c (Proc.devRef .tc main_arg15) = m ((c : Thread nD τ).loc main_arg15) from (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide))]
  exact pad1000_apply _ _ j hj

theorem W23_v32 (c : Dev nD) (u : Fin 1) (j : Fin 1024) (hj : j.val < 1000) :
    (W23 m c main_v32 : FVec F S1x1024 .f32) (ix2 u j) = (m ((c : Thread nD τ).loc main_arg16) : FVec F S1000 .f32) (ix1 ⟨j.val, hj⟩) := by
  have e : W23 m c main_v32 = shapeCast S1x1024 (V12 m c main_v11 : FVec F S1024 .f32) shapeCasts_S1024_S1x1024 := by
    refine (s2_v32 (W22 m c)).trans ?_
    rw [show W22 m c (Proc.devRef .tc main_v11) = V12 m c main_v11 from (W22_of m c main_v11 (by decide)).trans <| (W21_of m c main_v11 (by decide)).trans <|
      (W20_of m c main_v11 (by decide)).trans <| (V19_of m c main_v11 (by decide)).trans <| (V18_of m c main_v11 (by decide)).trans <| (V17_of m c main_v11 (by decide)).trans <| (V16_of m c main_v11 (by decide)).trans <| (V15_of m c main_v11 (by decide)).trans <| (V14_of m c main_v11 (by decide)).trans <| (V13_of m c main_v11 (by decide))]
  rw [e]
  refine (shapeCast_a_1a_apply _ _ u j).trans ?_
  rw [show V12 m c (Proc.devRef .tc main_v11) = _ from s0_11_v11 (V11 m c),
    show V11 m c (Proc.devRef .tc main_arg16) = m ((c : Thread nD τ).loc main_arg16) from (V11_of m c main_arg16 (by decide)).trans <| (V10_of m c main_arg16 (by decide)).trans <| (V9_of m c main_arg16 (by decide)).trans <| (V8_of m c main_arg16 (by decide)).trans <| (V7_of m c main_arg16 (by decide)).trans <| (V6_of m c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide))]
  exact pad1000_apply _ _ j hj

theorem W23_v33 (c : Dev nD) (u : Fin 1) (j : Fin 1024) (hj : j.val < 1000) :
    (W23 m c main_v33 : FVec F S1x1024 .f32) (ix2 u j) = (m ((c : Thread nD τ).loc main_arg17) : FVec F S1000 .f32) (ix1 ⟨j.val, hj⟩) := by
  have e : W23 m c main_v33 = shapeCast S1x1024 (V14 m c main_v12 : FVec F S1024 .f32) shapeCasts_S1024_S1x1024 := by
    refine (s2_v33 (W22 m c)).trans ?_
    rw [show W22 m c (Proc.devRef .tc main_v12) = V14 m c main_v12 from (W22_of m c main_v12 (by decide)).trans <| (W21_of m c main_v12 (by decide)).trans <|
      (W20_of m c main_v12 (by decide)).trans <| (V19_of m c main_v12 (by decide)).trans <| (V18_of m c main_v12 (by decide)).trans <| (V17_of m c main_v12 (by decide)).trans <| (V16_of m c main_v12 (by decide)).trans <| (V15_of m c main_v12 (by decide))]
  rw [e]
  refine (shapeCast_a_1a_apply _ _ u j).trans ?_
  rw [show V14 m c (Proc.devRef .tc main_v12) = _ from s0_13_v12 (V13 m c),
    show V13 m c (Proc.devRef .tc main_arg17) = m ((c : Thread nD τ).loc main_arg17) from (V13_of m c main_arg17 (by decide)).trans <| (V12_of m c main_arg17 (by decide)).trans <| (V11_of m c main_arg17 (by decide)).trans <| (V10_of m c main_arg17 (by decide)).trans <| (V9_of m c main_arg17 (by decide)).trans <| (V8_of m c main_arg17 (by decide)).trans <| (V7_of m c main_arg17 (by decide)).trans <| (V6_of m c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide))]
  exact pad1000_apply _ _ j hj

theorem W23_v34 (c : Dev nD) (u : Fin 1) (j : Fin 1024) (hj : j.val < 1000) :
    (W23 m c main_v34 : FVec F S1x1024 .f32) (ix2 u j) = (m ((c : Thread nD τ).loc main_arg18) : FVec F S1000 .f32) (ix1 ⟨j.val, hj⟩) := by
  have e : W23 m c main_v34 = shapeCast S1x1024 (V16 m c main_v13 : FVec F S1024 .f32) shapeCasts_S1024_S1x1024 := by
    refine (s2_v34 (W22 m c)).trans ?_
    rw [show W22 m c (Proc.devRef .tc main_v13) = V16 m c main_v13 from (W22_of m c main_v13 (by decide)).trans <| (W21_of m c main_v13 (by decide)).trans <|
      (W20_of m c main_v13 (by decide)).trans <| (V19_of m c main_v13 (by decide)).trans <| (V18_of m c main_v13 (by decide)).trans <| (V17_of m c main_v13 (by decide))]
  rw [e]
  refine (shapeCast_a_1a_apply _ _ u j).trans ?_
  rw [show V16 m c (Proc.devRef .tc main_v13) = _ from s0_15_v13 (V15 m c),
    show V15 m c (Proc.devRef .tc main_arg18) = m ((c : Thread nD τ).loc main_arg18) from (V15_of m c main_arg18 (by decide)).trans <| (V14_of m c main_arg18 (by decide)).trans <| (V13_of m c main_arg18 (by decide)).trans <| (V12_of m c main_arg18 (by decide)).trans <| (V11_of m c main_arg18 (by decide)).trans <| (V10_of m c main_arg18 (by decide)).trans <| (V9_of m c main_arg18 (by decide)).trans <| (V8_of m c main_arg18 (by decide)).trans <| (V7_of m c main_arg18 (by decide)).trans <| (V6_of m c main_arg18 (by decide)).trans <| (V5_of m c main_arg18 (by decide)).trans <| (V4_of m c main_arg18 (by decide)).trans <| (V3_of m c main_arg18 (by decide)).trans <| (V2_of m c main_arg18 (by decide)).trans <| (V1_of m c main_arg18 (by decide))]
  exact pad1000_apply _ _ j hj

/-! ### The result -/

/-- The program's result reads layer 3's output array at the same row and column. -/
theorem V25_v36 (c : Dev nD) (i : Fin 8192) (j : Fin 1000) :
    (V25 m (outs m) c main_v36 : FVec F S8192x1000 .f32) (ix2 i j)
      = (o24 m c : FVec F S8192x1024 .f32) (ix2 i ⟨j.val, Nat.lt_trans j.isLt (by decide)⟩) := by
  have e : V25 m (outs m) c main_v36
      = extractStridedSlice S8192x1000 ![0, 0] (o24 m c : FVec F S8192x1024 .f32) slices_S8192x1024_S8192x1000_0_0 := by
    refine (s3_v36 (V24 m (outs m) c)).trans ?_
    rw [V24_eq]
    rw [show Function.update (W23 m c) (Proc.devRef .tc main_v35) (o24 m c) (Proc.devRef .tc main_v35) = o24 m c from Function.update_self _ _ _]
  rw [e]
  exact extractStridedSlice_apply _ _ _ _ _ fun a => by
    match a with
    | ⟨0, _⟩ => exact (Nat.zero_add _).symm
    | ⟨1, _⟩ => exact (Nat.zero_add _).symm

end Layouts

/-! ## The weight matrices' signs, over the extended reals -/

section Signs

/-- The matrix the program makes of a weight matrix: +1 where an entry compares at least zero, −1 elsewhere, in the
    narrower float format. -/
def signsOf {F : FTy → Type} [FloatOps F] {s : Shape} (hb : S_.BroadcastsInDim s (![] : Fin 0 → Fin s.rank))
    (hlt : FTy.bits .bf16 < FTy.bits .f32) (X : FVec F s .f32) : FVec F s .bf16 :=
  truncf .bf16 (select (cmpf .oge X (broadcastInDim s ![] hb (constant S_ .f32 0x00000000#32)))
    (broadcastInDim s ![] hb (constant S_ .f32 0x3F800000#32))
    (broadcastInDim s ![] hb (constant S_ .f32 0xBF800000#32))) hlt

/-- Choosing +1 where `t` is at least zero and −1 elsewhere is the sign of `t`. -/
theorem sel_sgn (t : EReal) :
    Scalar.select (Ideal.cmp .oge t Cert.Spec.zero) Cert.Spec.one Cert.Spec.negOne = Cert.Spec.sgn t := by
  unfold Cert.Spec.sgn
  show (if BitVec.ofBool (decide (Cert.Spec.zero ≤ t)) = 1#1 then Cert.Spec.one else Cert.Spec.negOne) = _
  by_cases h : Cert.Spec.zero ≤ t
  · rw [if_pos h, decide_eq_true h]; rfl
  · rw [if_neg h, decide_eq_false h]; rfl

/-- Over the extended reals an entry of that matrix is the sign of the weight: the comparison is the order's, the
    three constants are the numbers their patterns denote, and the change of format changes nothing. -/
theorem signsOf_apply {s : Shape} (hb : S_.BroadcastsInDim s (![] : Fin 0 → Fin s.rank))
    (hlt : FTy.bits .bf16 < FTy.bits .f32) (X : FVec Ideal s .f32) (i : s.Idx) :
    signsOf hb hlt X i = Cert.Spec.sgn (X i) := sel_sgn (X i)

variable (m : (ℓ : Loc nD τ sig) → Buf (Elt Ideal) ℓ)

/-- Layer 1 is entered with the signs of its weights. -/
theorem U19_v3 (c : Dev nD) (j k : Fin 4096) :
    (U19 m c main_v3 : FVec Ideal S4096x4096 .bf16) (ix2 j k)
      = Cert.Spec.sgn ((m ((c : Thread nD τ).loc main_arg1) : FVec Ideal S4096x4096 .f32) (ix2 j k)) := by
  have e : U19 m c main_v3 = (signsOf (F := Ideal) bcast_S_S4096x4096 bitsLt_bf16_f32 (m ((c : Thread nD τ).loc main_arg1) : FVec Ideal S4096x4096 .f32) : FVec Ideal S4096x4096 .bf16) := by
    refine ((V19_of m c main_v3 (by decide)).trans <| (V18_of m c main_v3 (by decide)).trans <| (V17_of m c main_v3 (by decide)).trans <| (V16_of m c main_v3 (by decide)).trans <| (V15_of m c main_v3 (by decide)).trans <| (V14_of m c main_v3 (by decide)).trans <| (V13_of m c main_v3 (by decide)).trans <| (V12_of m c main_v3 (by decide)).trans <| (V11_of m c main_v3 (by decide)).trans <| (V10_of m c main_v3 (by decide)).trans <| (V9_of m c main_v3 (by decide)).trans <| (V8_of m c main_v3 (by decide)).trans <| (V7_of m c main_v3 (by decide)).trans <| (V6_of m c main_v3 (by decide)).trans <| (V5_of m c main_v3 (by decide)).trans <| (V4_of m c main_v3 (by decide))).trans ?_
    refine (s0_2_v3 (V2 m c)).trans ?_
    rw [show V2 m c (Proc.devRef .tc main_v2) = _ from s0_1_v2 (V1 m c),
      show V1 m c (Proc.devRef .tc main_v1) = _ from s0_v1 (V0 m c),
      show V1 m c (Proc.devRef .tc main_cst_0) = _ from s0_cst0 (V0 m c),
      show V1 m c (Proc.devRef .tc main_cst_1) = _ from s0_cst1 (V0 m c)]
    rfl
  rw [e]
  exact signsOf_apply _ _ _ _

/-- Layer 2 is entered with the signs of its weights. -/
theorem W21_v7 (c : Dev nD) (j k : Fin 4096) :
    (W21 m c main_v7 : FVec Ideal S4096x4096 .bf16) (ix2 j k)
      = Cert.Spec.sgn ((m ((c : Thread nD τ).loc main_arg7) : FVec Ideal S4096x4096 .f32) (ix2 j k)) := by
  have e : W21 m c main_v7 = (signsOf (F := Ideal) bcast_S_S4096x4096 bitsLt_bf16_f32 (m ((c : Thread nD τ).loc main_arg7) : FVec Ideal S4096x4096 .f32) : FVec Ideal S4096x4096 .bf16) := by
    refine ((W21_of m c main_v7 (by decide)).trans <| (W20_of m c main_v7 (by decide)).trans <| (V19_of m c main_v7 (by decide)).trans <| (V18_of m c main_v7 (by decide)).trans <| (V17_of m c main_v7 (by decide)).trans <| (V16_of m c main_v7 (by decide)).trans <| (V15_of m c main_v7 (by decide)).trans <| (V14_of m c main_v7 (by decide)).trans <| (V13_of m c main_v7 (by decide)).trans <| (V12_of m c main_v7 (by decide)).trans <| (V11_of m c main_v7 (by decide)).trans <| (V10_of m c main_v7 (by decide)).trans <| (V9_of m c main_v7 (by decide)).trans <| (V8_of m c main_v7 (by decide)).trans <| (V7_of m c main_v7 (by decide)).trans <| (V6_of m c main_v7 (by decide))).trans ?_
    refine (s0_4_v7 (V4 m c)).trans ?_
    rw [show V4 m c (Proc.devRef .tc main_v6) = _ from s0_3_v6 (V3 m c),
      show V3 m c (Proc.devRef .tc main_v5) = _ from s0_2_v5 (V2 m c),
      show V3 m c (Proc.devRef .tc main_cst_3) = _ from s0_2_cst3 (V2 m c),
      show V3 m c (Proc.devRef .tc main_cst_4) = _ from s0_2_cst4 (V2 m c),
      show V2 m c (Proc.devRef .tc main_arg7) = m ((c : Thread nD τ).loc main_arg7) from (V2_of m c main_arg7 (by decide)).trans <| (V1_of m c main_arg7 (by decide))]
    rfl
  rw [e]
  exact signsOf_apply _ _ _ _

/-- Weights padded below by 24 rows read the weights above row 1000. -/
theorem pad1000x4096_apply {α : Type} (x : S1000x4096.Idx → α) (v : S_.Idx → α) (j : Fin 1024) (hj : j.val < 1000) (k : Fin 4096) :
    pad S1024x4096 ![0, 0] ![24, 0] ![0, 0] x v pads_S1000x4096_S1024x4096_0240_000 h_S_ (ix2 j k) = x (ix2 ⟨j.val, hj⟩ k) :=
  pad_apply_of_inside _ _ _ x v pads_S1000x4096_S1024x4096_0240_000 h_S_ (ix2 j k) (ix2 ⟨j.val, hj⟩ k) fun a => by
    match a with
    | ⟨0, _⟩ => show j.val = 0 + j.val * (0 + 1); omega
    | ⟨1, _⟩ => show k.val = 0 + k.val * (0 + 1); omega

/-- Layer 3 is entered with the signs of its weights in its first 1000 rows. -/
theorem W23_v17 (c : Dev nD) (j : Fin 1024) (hj : j.val < 1000) (k : Fin 4096) :
    (W23 m c main_v17 : FVec Ideal S1024x4096 .bf16) (ix2 j k)
      = Cert.Spec.sgn ((m ((c : Thread nD τ).loc main_arg13) : FVec Ideal S1000x4096 .f32) (ix2 ⟨j.val, hj⟩ k)) := by
  have e : W23 m c main_v17 = (signsOf (F := Ideal) bcast_S_S1024x4096 bitsLt_bf16_f32 (V6 m c main_v8 : FVec Ideal S1024x4096 .f32) : FVec Ideal S1024x4096 .bf16) := by
    refine ((W23_of m c main_v17 (by decide)).trans <| (W22_of m c main_v17 (by decide)).trans <| (W21_of m c main_v17 (by decide)).trans <|
      (W20_of m c main_v17 (by decide))).trans ?_
    refine (s0_18_v17 (V18 m c)).trans ?_
    rw [show V18 m c (Proc.devRef .tc main_v16) = _ from s0_17_v16 (V17 m c),
      show V17 m c (Proc.devRef .tc main_v15) = _ from s0_16_v15 (V16 m c),
      show V17 m c (Proc.devRef .tc main_cst_11) = _ from s0_16_cst11 (V16 m c),
      show V17 m c (Proc.devRef .tc main_cst_12) = _ from s0_16_cst12 (V16 m c),
      show V16 m c (Proc.devRef .tc main_v8) = V6 m c main_v8 from (V16_of m c main_v8 (by decide)).trans <| (V15_of m c main_v8 (by decide)).trans <| (V14_of m c main_v8 (by decide)).trans <| (V13_of m c main_v8 (by decide)).trans <| (V12_of m c main_v8 (by decide)).trans <| (V11_of m c main_v8 (by decide)).trans <| (V10_of m c main_v8 (by decide)).trans <| (V9_of m c main_v8 (by decide)).trans <| (V8_of m c main_v8 (by decide)).trans <| (V7_of m c main_v8 (by decide))]
    rfl
  rw [e]
  refine (signsOf_apply _ _ _ _).trans (congrArg Cert.Spec.sgn ?_)
  rw [show V6 m c (Proc.devRef .tc main_v8) = _ from s0_5_v8 (V5 m c),
    show V5 m c (Proc.devRef .tc main_arg13) = m ((c : Thread nD τ).loc main_arg13) from (V5_of m c main_arg13 (by decide)).trans <| (V4_of m c main_arg13 (by decide)).trans <| (V3_of m c main_arg13 (by decide)).trans <| (V2_of m c main_arg13 (by decide)).trans <| (V1_of m c main_arg13 (by decide))]
  exact pad1000x4096_apply _ _ j hj k

end Signs

end Cert.KernelIdeal.Hand

end
-- ==== Proof.KINet.lean ====
import proofs.«128298_j33311766347902_2_alg».proof.Proof.KIRun
import proofs.«128298_j33311766347902_2_alg».proof.Proof.KIVal0
import proofs.«128298_j33311766347902_2_alg».proof.Proof.KIVal1
import proofs.«128298_j33311766347902_2_alg».proof.Proof.KIVal2
import proofs.«128298_j33311766347902_2_alg».proof.Proof.KIHost

set_option maxRecDepth 16384

noncomputable section

namespace Cert.KernelIdeal.Hand

open Idealize.ShloMosaic Idealize.ShloMosaic.TcCoe Idealize.ShloMosaic.ValueIdx
open Cert.KernelIdeal Cert.KernelIdeal.Gen
open Cert.Spec (sgn quant bnorm layer net)

/-! # The three regions composed: the program's result is the network of its arguments

Each layer's region leaves in its output array, entry by entry, the batch normalisation (and for the first two layers
the sign) of a 4096-term contraction of the arrays it was entered from. Those arrays are the launched arguments re-laid
by the host stretches — a weight matrix as the matrix of its signs, a vector as a one-row matrix, the third layer's
arrays padded from 1000 to 1024 — or the previous layer's output. Substituting layer into layer gives the network. -/

/-- A batch normalisation whose six inputs are a layer's contraction and the layer's five vectors at column j is that
    layer's entry (i, j). -/
theorem layer_of {B K N : ℕ} (h : Fin B → Fin K → EReal) (W : Fin N → Fin K → EReal) (b g be mu var : Fin N → EReal)
    (i : Fin B) (j : Fin N) {s b' g' be' mu' var' : EReal} (hs : s = ∑ k, h i k * sgn (W j k))
    (hb : b' = b j) (hg : g' = g j) (hbe : be' = be j) (hmu : mu' = mu j) (hvar : var' = var j) :
    bnorm s b' g' be' mu' var' = layer h W b g be mu var i j := by
  subst hs hb hg hbe hmu hvar
  rfl

section Net
variable (m : (ℓ : Loc nD τ sig) → Buf (Elt Ideal) ℓ)

/-! The nineteen launched argument arrays, by coordinates. -/
abbrev a0 (c : Dev nD) : Fin 8192 → Fin 4096 → EReal := fun i k => (m ((c : Thread nD τ).loc main_arg0) : FVec Ideal S8192x4096 .f32) (ix2 i k)
abbrev a1 (c : Dev nD) : Fin 4096 → Fin 4096 → EReal := fun j k => (m ((c : Thread nD τ).loc main_arg1) : FVec Ideal S4096x4096 .f32) (ix2 j k)
abbrev a2 (c : Dev nD) : Fin 4096 → EReal := fun j => (m ((c : Thread nD τ).loc main_arg2) : FVec Ideal S4096 .f32) (ix1 j)
abbrev a3 (c : Dev nD) : Fin 4096 → EReal := fun j => (m ((c : Thread nD τ).loc main_arg3) : FVec Ideal S4096 .f32) (ix1 j)
abbrev a4 (c : Dev nD) : Fin 4096 → EReal := fun j => (m ((c : Thread nD τ).loc main_arg4) : FVec Ideal S4096 .f32) (ix1 j)
abbrev a5 (c : Dev nD) : Fin 4096 → EReal := fun j => (m ((c : Thread nD τ).loc main_arg5) : FVec Ideal S4096 .f32) (ix1 j)
abbrev a6 (c : Dev nD) : Fin 4096 → EReal := fun j => (m ((c : Thread nD τ).loc main_arg6) : FVec Ideal S4096 .f32) (ix1 j)
abbrev a7 (c : Dev nD) : Fin 4096 → Fin 4096 → EReal := fun j k => (m ((c : Thread nD τ).loc main_arg7) : FVec Ideal S4096x4096 .f32) (ix2 j k)
abbrev a8 (c : Dev nD) : Fin 4096 → EReal := fun j => (m ((c : Thread nD τ).loc main_arg8) : FVec Ideal S4096 .f32) (ix1 j)
abbrev a9 (c : Dev nD) : Fin 4096 → EReal := fun j => (m ((c : Thread nD τ).loc main_arg9) : FVec Ideal S4096 .f32) (ix1 j)
abbrev a10 (c : Dev nD) : Fin 4096 → EReal := fun j => (m ((c : Thread nD τ).loc main_arg10) : FVec Ideal S4096 .f32) (ix1 j)
abbrev a11 (c : Dev nD) : Fin 4096 → EReal := fun j => (m ((c : Thread nD τ).loc main_arg11) : FVec Ideal S4096 .f32) (ix1 j)
abbrev a12 (c : Dev nD) : Fin 4096 → EReal := fun j => (m ((c : Thread nD τ).loc main_arg12) : FVec Ideal S4096 .f32) (ix1 j)
abbrev a13 (c : Dev nD) : Fin 1000 → Fin 4096 → EReal := fun j k => (m ((c : Thread nD τ).loc main_arg13) : FVec Ideal S1000x4096 .f32) (ix2 j k)
abbrev a14 (c : Dev nD) : Fin 1000 → EReal := fun j => (m ((c : Thread nD τ).loc main_arg14) : FVec Ideal S1000 .f32) (ix1 j)
abbrev a15 (c : Dev nD) : Fin 1000 → EReal := fun j => (m ((c : Thread nD τ).loc main_arg15) : FVec Ideal S1000 .f32) (ix1 j)
abbrev a16 (c : Dev nD) : Fin 1000 → EReal := fun j => (m ((c : Thread nD τ).loc main_arg16) : FVec Ideal S1000 .f32) (ix1 j)
abbrev a17 (c : Dev nD) : Fin 1000 → EReal := fun j => (m ((c : Thread nD τ).loc main_arg17) : FVec Ideal S1000 .f32) (ix1 j)
abbrev a18 (c : Dev nD) : Fin 1000 → EReal := fun j => (m ((c : Thread nD τ).loc main_arg18) : FVec Ideal S1000 .f32) (ix1 j)

/-- The first hidden layer's activations: the sign of layer 1 on the signs of the quantised input. -/
abbrev act1 (c : Dev nD) : Fin 8192 → Fin 4096 → EReal := fun i k =>
  sgn (layer (fun i k => sgn (quant (a0 m c i k))) (a1 m c) (a2 m c) (a3 m c) (a4 m c) (a5 m c) (a6 m c) i k)
/-- The second hidden layer's activations: the sign of layer 2 on the first layer's activations. -/
abbrev act2 (c : Dev nD) : Fin 8192 → Fin 4096 → EReal := fun i k =>
  sgn (layer (act1 m c) (a7 m c) (a8 m c) (a9 m c) (a10 m c) (a11 m c) (a12 m c) i k)

/-- Layer 1's region leaves the first hidden layer's activations. -/
theorem o20_apply (c : Dev nD) (i : Fin 8192) (j : Fin 4096) :
    (o20 m c : FVec Ideal S8192x4096 .bf16) (ix2 i j) = act1 m c i j := by
  have e : o20 m c = G0 (U19 m) c := final0 (U19 m) c
  rw [e]
  refine (G0_at (U19 m) c (ix2 i j) i j rfl rfl).trans ?_
  unfold g0
  refine congrArg sgn (layer_of _ _ _ _ _ _ _ i j (Finset.sum_congr rfl fun f _ => ?_)
    (U19_v18 m c 0 j) (U19_v19 m c 0 j) (U19_v20 m c 0 j) (U19_v21 m c 0 j) (U19_v22 m c 0 j))
  exact congrArg₂ (fun a b : EReal => a * b)
    (congrArg (fun t => sgn (quant t)) (congrFun (U19_arg0 m c) (ix2 i f))) (U19_v3 m c j f)

/-- Layer 2's region, entered with them, leaves the second hidden layer's activations. -/
theorem o22_apply (c : Dev nD) (i : Fin 8192) (j : Fin 4096) :
    (o22 m c : FVec Ideal S8192x4096 .bf16) (ix2 i j) = act2 m c i j := by
  have e : o22 m c = G1 (U21 m) c := final1 (U21 m) c
  rw [e]
  refine (G1_at (U21 m) c (ix2 i j) i j rfl rfl).trans ?_
  unfold g1
  refine congrArg sgn (layer_of _ _ _ _ _ _ _ i j (Finset.sum_congr rfl fun f _ => ?_)
    (W21_v24 m c 0 j) (W21_v25 m c 0 j) (W21_v26 m c 0 j) (W21_v27 m c 0 j) (W21_v28 m c 0 j))
  exact congrArg₂ (fun a b : EReal => a * b)
    ((congrFun (W21_v23 m c) (ix2 i f)).trans (o20_apply m c i f)) (W21_v7 m c j f)

/-- Layer 3's region, entered with those, leaves the network's entries in its first 1000 columns. -/
theorem o24_apply (c : Dev nD) (i : Fin 8192) (j : Fin 1000) :
    (o24 m c : FVec Ideal S8192x1024 .f32) (ix2 i ⟨j.val, Nat.lt_trans j.isLt (by decide)⟩)
      = net (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) i j := by
  have hj : j.val < 1024 := Nat.lt_trans j.isLt (by decide)
  have e : o24 m c = G2 (U23 m) c := final2 (U23 m) c
  rw [e]
  refine (G2_at (U23 m) c (ix2 i ⟨j.val, hj⟩) i ⟨j.val, hj⟩ rfl rfl).trans ?_
  show g2 (U23 m) c i ⟨j.val, hj⟩ = layer (act2 m c) (a13 m c) (a14 m c) (a15 m c) (a16 m c) (a17 m c) (a18 m c) i j
  unfold g2
  refine layer_of _ _ _ _ _ _ _ i j (Finset.sum_congr rfl fun f _ => ?_)
    (W23_v30 m c 0 ⟨j.val, hj⟩ j.isLt) (W23_v31 m c 0 ⟨j.val, hj⟩ j.isLt) (W23_v32 m c 0 ⟨j.val, hj⟩ j.isLt)
    (W23_v33 m c 0 ⟨j.val, hj⟩ j.isLt) (W23_v34 m c 0 ⟨j.val, hj⟩ j.isLt)
  exact congrArg₂ (fun a b : EReal => a * b)
    ((congrFun (W23_v29 m c) (ix2 i f)).trans (o22_apply m c i f)) (W23_v17 m c ⟨j.val, hj⟩ j.isLt f)

/-- The network of the launched arrays, as contents of the result buffer. -/
def result (c : Dev nD) : Buf (Elt Ideal) ((c : Thread nD τ).loc main_v36) :=
  fun idx => net (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) ⟨(idx 0).val, (idx 0).isLt⟩ ⟨(idx 1).val, (idx 1).isLt⟩

/-- The last valuation holds it in the result buffer. -/
theorem V25_result (c : Dev nD) : V25 m (outs m) c main_v36 = result m c := by
  funext idx
  obtain ⟨i, j, rfl⟩ : ∃ (i : Fin 8192) (j : Fin 1000), idx = ix2 i j := ⟨idx 0, idx 1, eq_ix2 idx⟩
  exact (V25_v36 m c i j).trans (o24_apply m c i j)

/-- An unscoped buffer of the TensorCore is one of the buffers the run's post speaks of. -/
theorem mem_uc (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by rw [h]; exact Bool.false_ne_true⟩

/-- THE RUN WITH ITS RESULT: every weakly fair execution of the program terminates with the network of the launched
    arrays in the result buffer and every argument array as launched. -/
theorem run_net (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun r h c => ⟨
      (h c _ (mem_uc main_v36 rfl)).trans (V25_result m c),
      (h c _ (mem_uc main_arg0 rfl)).trans (V25_main_arg0 m (outs m) c),
      (h c _ (mem_uc main_arg1 rfl)).trans (V25_main_arg1 m (outs m) c),
      (h c _ (mem_uc main_arg2 rfl)).trans (V25_main_arg2 m (outs m) c),
      (h c _ (mem_uc main_arg3 rfl)).trans (V25_main_arg3 m (outs m) c),
      (h c _ (mem_uc main_arg4 rfl)).trans (V25_main_arg4 m (outs m) c),
      (h c _ (mem_uc main_arg5 rfl)).trans (V25_main_arg5 m (outs m) c),
      (h c _ (mem_uc main_arg6 rfl)).trans (V25_main_arg6 m (outs m) c),
      (h c _ (mem_uc main_arg7 rfl)).trans (V25_main_arg7 m (outs m) c),
      (h c _ (mem_uc main_arg8 rfl)).trans (V25_main_arg8 m (outs m) c),
      (h c _ (mem_uc main_arg9 rfl)).trans (V25_main_arg9 m (outs m) c),
      (h c _ (mem_uc main_arg10 rfl)).trans (V25_main_arg10 m (outs m) c),
      (h c _ (mem_uc main_arg11 rfl)).trans (V25_main_arg11 m (outs m) c),
      (h c _ (mem_uc main_arg12 rfl)).trans (V25_main_arg12 m (outs m) c),
      (h c _ (mem_uc main_arg13 rfl)).trans (V25_main_arg13 m (outs m) c),
      (h c _ (mem_uc main_arg14 rfl)).trans (V25_main_arg14 m (outs m) c),
      (h c _ (mem_uc main_arg15 rfl)).trans (V25_main_arg15 m (outs m) c),
      (h c _ (mem_uc main_arg16 rfl)).trans (V25_main_arg16 m (outs m) c),
      (h c _ (mem_uc main_arg17 rfl)).trans (V25_main_arg17 m (outs m) c),
      (h c _ (mem_uc main_arg18 rfl)).trans (V25_main_arg18 m (outs m) c)⟩)
    (run_all m ρ)

end Net

end Cert.KernelIdeal.Hand

end
-- ==== Proof.RefRunHand.lean ====
/-
  The reference network as a run. Its program is a straight line of host operations — the quantisation of the input,
  then three times: binarise the activations and the weights, contract, add the bias, subtract the running mean,
  multiply by gain over root of shifted variance, add the offset (and, twice, take the sign) —, so every weakly fair
  execution ends with each buffer at the fold of the operations' results over the launch contents.
-/
import proofs.«128298_j33311766347902_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order; an outlined function's operations stand where it is called. -/
abbrev ops : List (HloOp τ sig (Elt F)) :=
  [ nullary main_cst (constant S_ .f32 0x43000000#32),
    unary main_cst main_v0 (broadcastInDim S8192x4096 ![] bcast_S_S8192x4096 : (⟨S_, .f32⟩ : BufTy).Contents (Elt F) → (⟨S8192x4096, .f32⟩ : BufTy).Contents (Elt F)),
    binary main_arg0 main_v0 main_v1 (mulf : (⟨S8192x4096, .f32⟩ : BufTy).Contents (Elt F) → (⟨S8192x4096, .f32⟩ : BufTy).Contents (Elt F) → (⟨S8192x4096, .f32⟩ : BufTy).Contents (Elt F)),
    TRef.unary (TRef.of (T := ⟨S8192x4096, .f32⟩) main_v1) (TRef.of (T := ⟨S8192x4096, .f32⟩) main_v2) Host.roundeven,
    nullary main_cst_0 (constant S_ .f32 0x43000000#32),
    unary main_cst_0 main_v3 (broadcastInDim S8192x4096 ![] bcast_S_S8192x4096 : (⟨S_, .f32⟩ : BufTy).Contents (Elt F) → (⟨S8192x4096, .f32⟩ : BufTy).Contents (Elt F)),
    binary main_v2 main_v3 main_v4 (Host.divf : (⟨S8192x4096, .f32⟩ : BufTy).Contents (Elt F) → (⟨S8192x4096, .f32⟩ : BufTy).Contents (Elt F) → (⟨S8192x4096, .f32⟩ : BufTy).Contents (Elt F)),
    nullary main_cst_1 (constant S_ .f32 0x00000000#32),
    unary main_cst_1 main_v5 (broadcastInDim S8192x4096 ![] bcast_S_S8192x4096 : (⟨S_, .f32⟩ : BufTy).Contents (Elt F) → (⟨S8192x4096, .f32⟩ : BufTy).Contents (Elt F)),
    binary main_v4 main_v5 main_v6 (cmpf .oge : (⟨S8192x4096, .f32⟩ : BufTy).Contents (Elt F) → (⟨S8192x4096, .f32⟩ : BufTy).Contents (Elt F) → (⟨S8192x4096, .i1⟩ : BufTy).Contents (Elt F)),
    nullary main_cst_2 (constant S_ .f32 0x3F800000#32),
    nullary main_cst_3 (constant S_ .f32 0xBF800000#32),
    TRef.unary (TRef.of (T := ⟨S_, .f32⟩) main_cst_2) (TRef.of (T := ⟨S8192x4096, .f32⟩) main_call1_v0) (broadcastInDim S8192x4096 ![] bcast_S_S8192x4096),
    TRef.unary (TRef.of (T := ⟨S_, .f32⟩) main_cst_3) (TRef.of (T := ⟨S8192x4096, .f32⟩) main_call1_v1) (broadcastInDim S8192x4096 ![] bcast_S_S8192x4096),
    TRef.ternary (TRef.of (T := ⟨S8192x4096, .i1⟩) main_v6) (TRef.of (T := ⟨S8192x4096, .f32⟩) main_call1_v0) (TRef.of (T := ⟨S8192x4096, .f32⟩) main_call1_v1) (TRef.of (T := ⟨S8192x4096, .f32⟩) main_v7) select,
    unary main_v7 main_v8 (id : (⟨S8192x4096, .f32⟩ : BufTy).Contents (Elt F) → (⟨S8192x4096, .f32⟩ : BufTy).Contents (Elt F)),
    nullary main_cst_4 (constant S_ .f32 0x00000000#32),
    unary main_cst_4 main_v9 (broadcastInDim S4096x4096 ![] bcast_S_S4096x4096 : (⟨S_, .f32⟩ : BufTy).Contents (Elt F) → (⟨S4096x4096, .f32⟩ : BufTy).Contents (Elt F)),
    binary main_arg1 main_v9 main_v10 (cmpf .oge : (⟨S4096x4096, .f32⟩ : BufTy).Contents (Elt F) → (⟨S4096x4096, .f32⟩ : BufTy).Contents (Elt F) → (⟨S4096x4096, .i1⟩ : BufTy).Contents (Elt F)),
    nullary main_cst_5 (constant S_ .f32 0x3F800000#32),
    nullary main_cst_6 (constant S_ .f32 0xBF800000#32),
    TRef.unary (TRef.of (T := ⟨S_, .f32⟩) main_cst_5) (TRef.of (T := ⟨S4096x4096, .f32⟩) main_call2_v0) (broadcastInDim S4096x4096 ![] bcast_S_S4096x4096),
    TRef.unary (TRef.of (T := ⟨S_, .f32⟩) main_cst_6) (TRef.of (T := ⟨S4096x4096, .f32⟩) main_call2_v1) (broadcastInDim S4096x4096 ![] bcast_S_S4096x4096),
    TRef.ternary (TRef.of (T := ⟨S4096x4096, .i1⟩) main_v10) (TRef.of (T := ⟨S4096x4096, .f32⟩) main_call2_v0) (TRef.of (T := ⟨S4096x4096, .f32⟩) main_call2_v1) (TRef.of (T := ⟨S4096x4096, .f32⟩) main_v11) select,
    unary main_v11 main_v12 (id : (⟨S4096x4096, .f32⟩ : BufTy).Contents (Elt F) → (⟨S4096x4096, .f32⟩ : BufTy).Contents (Elt F)),
    unary main_v12 main_v13 ((transpose S4096x4096 [1, 0] · transposes_S4096x4096_S4096x4096_1_0) : (⟨S4096x4096, .f32⟩ : BufTy).Contents (Elt F) → (⟨S4096x4096, .f32⟩ : BufTy).Contents (Elt F)),
    binary main_v8 main_v13 main_v14 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg2 main_v15 (broadcastInDim S1x4096 ![1] bcast_S4096_S1x4096_1 : (⟨S4096, .f32⟩ : BufTy).Contents (Elt F) → (⟨S1x4096, .f32⟩ : BufTy).Contents (Elt F)),
    unary main_v15 main_v16 (broadcastInDim S8192x4096 ![0, 1] bcast_S1x4096_S8192x4096_0_1 : (⟨S1x4096, .f32⟩ : BufTy).Contents (Elt F) → (⟨S8192x4096, .f32⟩ : BufTy).Contents (Elt F)),
    binary main_v14 main_v16 main_v17 (addf : (⟨S8192x4096, .f32⟩ : BufTy).Contents (Elt F) → (⟨S8192x4096, .f32⟩ : BufTy).Contents (Elt F) → (⟨S8192x4096, .f32⟩ : BufTy).Contents (Elt F)),
    unary main_arg5 main_v18 (broadcastInDim S1x4096 ![1] bcast_S4096_S1x4096_1 : (⟨S4096, .f32⟩ : BufTy).Contents (Elt F) → (⟨S1x4096, .f32⟩ : BufTy).Contents (Elt F)),
    unary main_v18 main_v19 (broadcastInDim S8192x4096 ![0, 1] bcast_S1x4096_S8192x4096_0_1 : (⟨S1x4096, .f32⟩ : BufTy).Contents (Elt F) → (⟨S8192x4096, .f32⟩ : BufTy).Contents (Elt F)),
    binary main_v17 main_v19 main_v20 (subf : (⟨S8192x4096, .f32⟩ : BufTy).Contents (Elt F) → (⟨S8192x4096, .f32⟩ : BufTy).Contents (Elt F) → (⟨S8192x4096, .f32⟩ : BufTy).Contents (Elt F)),
    nullary main_cst_7 (constant S_ .f32 0x3727C5AC#32),
    unary main_cst_7 main_v21 (broadcastInDim S4096 ![] bcast_S_S4096 : (⟨S_, .f32⟩ : BufTy).Contents (Elt F) → (⟨S4096, .f32⟩ : BufTy).Contents (Elt F)),
    binary main_arg6 main_v21 main_v22 (addf : (⟨S4096, .f32⟩ : BufTy).Contents (Elt F) → (⟨S4096, .f32⟩ : BufTy).Contents (Elt F) → (⟨S4096, .f32⟩ : BufTy).Contents (Elt F)),
    unary main_v22 main_v23 (Host.sqrt : (⟨S4096, .f32⟩ : BufTy).Contents (Elt F) → (⟨S4096, .f32⟩ : BufTy).Contents (Elt F)),
    binary main_arg3 main_v23 main_v24 (Host.divf : (⟨S4096, .f32⟩ : BufTy).Contents (Elt F) → (⟨S4096, .f32⟩ : BufTy).Contents (Elt F) → (⟨S4096, .f32⟩ : BufTy).Contents (Elt F)),
    unary main_v24 main_v25 (broadcastInDim S1x4096 ![1] bcast_S4096_S1x4096_1 : (⟨S4096, .f32⟩ : BufTy).Contents (Elt F) → (⟨S1x4096, .f32⟩ : BufTy).Contents (Elt F)),
    unary main_v25 main_v26 (broadcastInDim S8192x4096 ![0, 1] bcast_S1x4096_S8192x4096_0_1 : (⟨S1x4096, .f32⟩ : BufTy).Contents (Elt F) → (⟨S8192x4096, .f32⟩ : BufTy).Contents (Elt F)),
    binary main_v20 main_v26 main_v27 (mulf : (⟨S8192x4096, .f32⟩ : BufTy).Contents (Elt F) → (⟨S8192x4096, .f32⟩ : BufTy).Contents (Elt F) → (⟨S8192x4096, .f32⟩ : BufTy).Contents (Elt F)),
    unary main_arg4 main_v28 (broadcastInDim S1x4096 ![1] bcast_S4096_S1x4096_1 : (⟨S4096, .f32⟩ : BufTy).Contents (Elt F) → (⟨S1x4096, .f32⟩ : BufTy).Contents (Elt F)),
    unary main_v28 main_v29 (broadcastInDim S8192x4096 ![0, 1] bcast_S1x4096_S8192x4096_0_1 : (⟨S1x4096, .f32⟩ : BufTy).Contents (Elt F) → (⟨S8192x4096, .f32⟩ : BufTy).Contents (Elt F)),
    binary main_v27 main_v29 main_v30 (addf : (⟨S8192x4096, .f32⟩ : BufTy).Contents (Elt F) → (⟨S8192x4096, .f32⟩ : BufTy).Contents (Elt F) → (⟨S8192x4096, .f32⟩ : BufTy).Contents (Elt F)),
    nullary main_cst_8 (constant S_ .f32 0x00000000#32),
    unary main_cst_8 main_v31 (broadcastInDim S8192x4096 ![] bcast_S_S8192x4096 : (⟨S_, .f32⟩ : BufTy).Contents (Elt F) → (⟨S8192x4096, .f32⟩ : BufTy).Contents (Elt F)),
    binary main_v30 main_v31 main_v32 (cmpf .oge : (⟨S8192x4096, .f32⟩ : BufTy).Contents (Elt F) → (⟨S8192x4096, .f32⟩ : BufTy).Contents (Elt F) → (⟨S8192x4096, .i1⟩ : BufTy).Contents (Elt F)),
    nullary main_cst_9 (constant S_ .f32 0x3F800000#32),
    nullary main_cst_10 (constant S_ .f32 0xBF800000#32),
    TRef.unary (TRef.of (T := ⟨S_, .f32⟩) main_cst_9) (TRef.of (T := ⟨S8192x4096, .f32⟩) main_call3_v0) (broadcastInDim S8192x4096 ![] bcast_S_S8192x4096),
    TRef.unary (TRef.of (T := ⟨S_, .f32⟩) main_cst_10) (TRef.of (T := ⟨S8192x4096, .f32⟩) main_call3_v1) (broadcastInDim S8192x4096 ![] bcast_S_S8192x4096),
    TRef.ternary (TRef.of (T := ⟨S8192x4096, .i1⟩) main_v32) (TRef.of (T := ⟨S8192x4096, .f32⟩) main_call3_v0) (TRef.of (T := ⟨S8192x4096, .f32⟩) main_call3_v1) (TRef.of (T := ⟨S8192x4096, .f32⟩) main_v33) select,
    unary main_v33 main_v34 (id : (⟨S8192x4096, .f32⟩ : BufTy).Contents (Elt F) → (⟨S8192x4096, .f32⟩ : BufTy).Contents (Elt F)),
    nullary main_cst_11 (constant S_ .f32 0x00000000#32),
    unary main_cst_11 main_v35 (broadcastInDim S8192x4096 ![] bcast_S_S8192x4096 : (⟨S_, .f32⟩ : BufTy).Contents (Elt F) → (⟨S8192x4096, .f32⟩ : BufTy).Contents (Elt F)),
    binary main_v34 main_v35 main_v36 (cmpf .oge : (⟨S8192x4096, .f32⟩ : BufTy).Contents (Elt F) → (⟨S8192x4096, .f32⟩ : BufTy).Contents (Elt F) → (⟨S8192x4096, .i1⟩ : BufTy).Contents (Elt F)),
    nullary main_cst_12 (constant S_ .f32 0x3F800000#32),
    nullary main_cst_13 (constant S_ .f32 0xBF800000#32),
    TRef.unary (TRef.of (T := ⟨S_, .f32⟩) main_cst_12) (TRef.of (T := ⟨S8192x4096, .f32⟩) main_call4_v0) (broadcastInDim S8192x4096 ![] bcast_S_S8192x4096),
    TRef.unary (TRef.of (T := ⟨S_, .f32⟩) main_cst_13) (TRef.of (T := ⟨S8192x4096, .f32⟩) main_call4_v1) (broadcastInDim S8192x4096 ![] bcast_S_S8192x4096),
    TRef.ternary (TRef.of (T := ⟨S8192x4096, .i1⟩) main_v36) (TRef.of (T := ⟨S8192x4096, .f32⟩) main_call4_v0) (TRef.of (T := ⟨S8192x4096, .f32⟩) main_call4_v1) (TRef.of (T := ⟨S8192x4096, .f32⟩) main_v37) select,
    unary main_v37 main_v38 (id : (⟨S8192x4096, .f32⟩ : BufTy).Contents (Elt F) → (⟨S8192x4096, .f32⟩ : BufTy).Contents (Elt F)),
    nullary main_cst_14 (constant S_ .f32 0x00000000#32),
    unary main_cst_14 main_v39 (broadcastInDim S4096x4096 ![] bcast_S_S4096x4096 : (⟨S_, .f32⟩ : BufTy).Contents (Elt F) → (⟨S4096x4096, .f32⟩ : BufTy).Contents (Elt F)),
    binary main_arg7 main_v39 main_v40 (cmpf .oge : (⟨S4096x4096, .f32⟩ : BufTy).Contents (Elt F) → (⟨S4096x4096, .f32⟩ : BufTy).Contents (Elt F) → (⟨S4096x4096, .i1⟩ : BufTy).Contents (Elt F)),
    nullary main_cst_15 (constant S_ .f32 0x3F800000#32),
    nullary main_cst_16 (constant S_ .f32 0xBF800000#32),
    TRef.unary (TRef.of (T := ⟨S_, .f32⟩) main_cst_15) (TRef.of (T := ⟨S4096x4096, .f32⟩) main_call5_v0) (broadcastInDim S4096x4096 ![] bcast_S_S4096x4096),
    TRef.unary (TRef.of (T := ⟨S_, .f32⟩) main_cst_16) (TRef.of (T := ⟨S4096x4096, .f32⟩) main_call5_v1) (broadcastInDim S4096x4096 ![] bcast_S_S4096x4096),
    TRef.ternary (TRef.of (T := ⟨S4096x4096, .i1⟩) main_v40) (TRef.of (T := ⟨S4096x4096, .f32⟩) main_call5_v0) (TRef.of (T := ⟨S4096x4096, .f32⟩) main_call5_v1) (TRef.of (T := ⟨S4096x4096, .f32⟩) main_v41) select,
    unary main_v41 main_v42 (id : (⟨S4096x4096, .f32⟩ : BufTy).Contents (Elt F) → (⟨S4096x4096, .f32⟩ : BufTy).Contents (Elt F)),
    unary main_v42 main_v43 ((transpose S4096x4096 [1, 0] · transposes_S4096x4096_S4096x4096_1_0) : (⟨S4096x4096, .f32⟩ : BufTy).Contents (Elt F) → (⟨S4096x4096, .f32⟩ : BufTy).Contents (Elt F)),
    binary main_v38 main_v43 main_v44 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg8 main_v45 (broadcastInDim S1x4096 ![1] bcast_S4096_S1x4096_1 : (⟨S4096, .f32⟩ : BufTy).Contents (Elt F) → (⟨S1x4096, .f32⟩ : BufTy).Contents (Elt F)),
    unary main_v45 main_v46 (broadcastInDim S8192x4096 ![0, 1] bcast_S1x4096_S8192x4096_0_1 : (⟨S1x4096, .f32⟩ : BufTy).Contents (Elt F) → (⟨S8192x4096, .f32⟩ : BufTy).Contents (Elt F)),
    binary main_v44 main_v46 main_v47 (addf : (⟨S8192x4096, .f32⟩ : BufTy).Contents (Elt F) → (⟨S8192x4096, .f32⟩ : BufTy).Contents (Elt F) → (⟨S8192x4096, .f32⟩ : BufTy).Contents (Elt F)),
    unary main_arg11 main_v48 (broadcastInDim S1x4096 ![1] bcast_S4096_S1x4096_1 : (⟨S4096, .f32⟩ : BufTy).Contents (Elt F) → (⟨S1x4096, .f32⟩ : BufTy).Contents (Elt F)),
    unary main_v48 main_v49 (broadcastInDim S8192x4096 ![0, 1] bcast_S1x4096_S8192x4096_0_1 : (⟨S1x4096, .f32⟩ : BufTy).Contents (Elt F) → (⟨S8192x4096, .f32⟩ : BufTy).Contents (Elt F)),
    binary main_v47 main_v49 main_v50 (subf : (⟨S8192x4096, .f32⟩ : BufTy).Contents (Elt F) → (⟨S8192x4096, .f32⟩ : BufTy).Contents (Elt F) → (⟨S8192x4096, .f32⟩ : BufTy).Contents (Elt F)),
    nullary main_cst_17 (constant S_ .f32 0x3727C5AC#32),
    unary main_cst_17 main_v51 (broadcastInDim S4096 ![] bcast_S_S4096 : (⟨S_, .f32⟩ : BufTy).Contents (Elt F) → (⟨S4096, .f32⟩ : BufTy).Contents (Elt F)),
    binary main_arg12 main_v51 main_v52 (addf : (⟨S4096, .f32⟩ : BufTy).Contents (Elt F) → (⟨S4096, .f32⟩ : BufTy).Contents (Elt F) → (⟨S4096, .f32⟩ : BufTy).Contents (Elt F)),
    unary main_v52 main_v53 (Host.sqrt : (⟨S4096, .f32⟩ : BufTy).Contents (Elt F) → (⟨S4096, .f32⟩ : BufTy).Contents (Elt F)),
    binary main_arg9 main_v53 main_v54 (Host.divf : (⟨S4096, .f32⟩ : BufTy).Contents (Elt F) → (⟨S4096, .f32⟩ : BufTy).Contents (Elt F) → (⟨S4096, .f32⟩ : BufTy).Contents (Elt F)),
    unary main_v54 main_v55 (broadcastInDim S1x4096 ![1] bcast_S4096_S1x4096_1 : (⟨S4096, .f32⟩ : BufTy).Contents (Elt F) → (⟨S1x4096, .f32⟩ : BufTy).Contents (Elt F)),
    unary main_v55 main_v56 (broadcastInDim S8192x4096 ![0, 1] bcast_S1x4096_S8192x4096_0_1 : (⟨S1x4096, .f32⟩ : BufTy).Contents (Elt F) → (⟨S8192x4096, .f32⟩ : BufTy).Contents (Elt F)),
    binary main_v50 main_v56 main_v57 (mulf : (⟨S8192x4096, .f32⟩ : BufTy).Contents (Elt F) → (⟨S8192x4096, .f32⟩ : BufTy).Contents (Elt F) → (⟨S8192x4096, .f32⟩ : BufTy).Contents (Elt F)),
    unary main_arg10 main_v58 (broadcastInDim S1x4096 ![1] bcast_S4096_S1x4096_1 : (⟨S4096, .f32⟩ : BufTy).Contents (Elt F) → (⟨S1x4096, .f32⟩ : BufTy).Contents (Elt F)),
    unary main_v58 main_v59 (broadcastInDim S8192x4096 ![0, 1] bcast_S1x4096_S8192x4096_0_1 : (⟨S1x4096, .f32⟩ : BufTy).Contents (Elt F) → (⟨S8192x4096, .f32⟩ : BufTy).Contents (Elt F)),
    binary main_v57 main_v59 main_v60 (addf : (⟨S8192x4096, .f32⟩ : BufTy).Contents (Elt F) → (⟨S8192x4096, .f32⟩ : BufTy).Contents (Elt F) → (⟨S8192x4096, .f32⟩ : BufTy).Contents (Elt F)),
    nullary main_cst_18 (constant S_ .f32 0x00000000#32),
    unary main_cst_18 main_v61 (broadcastInDim S8192x4096 ![] bcast_S_S8192x4096 : (⟨S_, .f32⟩ : BufTy).Contents (Elt F) → (⟨S8192x4096, .f32⟩ : BufTy).Contents (Elt F)),
    binary main_v60 main_v61 main_v62 (cmpf .oge : (⟨S8192x4096, .f32⟩ : BufTy).Contents (Elt F) → (⟨S8192x4096, .f32⟩ : BufTy).Contents (Elt F) → (⟨S8192x4096, .i1⟩ : BufTy).Contents (Elt F)),
    nullary main_cst_19 (constant S_ .f32 0x3F800000#32),
    nullary main_cst_20 (constant S_ .f32 0xBF800000#32),
    TRef.unary (TRef.of (T := ⟨S_, .f32⟩) main_cst_19) (TRef.of (T := ⟨S8192x4096, .f32⟩) main_call6_v0) (broadcastInDim S8192x4096 ![] bcast_S_S8192x4096),
    TRef.unary (TRef.of (T := ⟨S_, .f32⟩) main_cst_20) (TRef.of (T := ⟨S8192x4096, .f32⟩) main_call6_v1) (broadcastInDim S8192x4096 ![] bcast_S_S8192x4096),
    TRef.ternary (TRef.of (T := ⟨S8192x4096, .i1⟩) main_v62) (TRef.of (T := ⟨S8192x4096, .f32⟩) main_call6_v0) (TRef.of (T := ⟨S8192x4096, .f32⟩) main_call6_v1) (TRef.of (T := ⟨S8192x4096, .f32⟩) main_v63) select,
    unary main_v63 main_v64 (id : (⟨S8192x4096, .f32⟩ : BufTy).Contents (Elt F) → (⟨S8192x4096, .f32⟩ : BufTy).Contents (Elt F)),
    nullary main_cst_21 (constant S_ .f32 0x00000000#32),
    unary main_cst_21 main_v65 (broadcastInDim S8192x4096 ![] bcast_S_S8192x4096 : (⟨S_, .f32⟩ : BufTy).Contents (Elt F) → (⟨S8192x4096, .f32⟩ : BufTy).Contents (Elt F)),
    binary main_v64 main_v65 main_v66 (cmpf .oge : (⟨S8192x4096, .f32⟩ : BufTy).Contents (Elt F) → (⟨S8192x4096, .f32⟩ : BufTy).Contents (Elt F) → (⟨S8192x4096, .i1⟩ : BufTy).Contents (Elt F)),
    nullary main_cst_22 (constant S_ .f32 0x3F800000#32),
    nullary main_cst_23 (constant S_ .f32 0xBF800000#32),
    TRef.unary (TRef.of (T := ⟨S_, .f32⟩) main_cst_22) (TRef.of (T := ⟨S8192x4096, .f32⟩) main_call7_v0) (broadcastInDim S8192x4096 ![] bcast_S_S8192x4096),
    TRef.unary (TRef.of (T := ⟨S_, .f32⟩) main_cst_23) (TRef.of (T := ⟨S8192x4096, .f32⟩) main_call7_v1) (broadcastInDim S8192x4096 ![] bcast_S_S8192x4096),
    TRef.ternary (TRef.of (T := ⟨S8192x4096, .i1⟩) main_v66) (TRef.of (T := ⟨S8192x4096, .f32⟩) main_call7_v0) (TRef.of (T := ⟨S8192x4096, .f32⟩) main_call7_v1) (TRef.of (T := ⟨S8192x4096, .f32⟩) main_v67) select,
    unary main_v67 main_v68 (id : (⟨S8192x4096, .f32⟩ : BufTy).Contents (Elt F) → (⟨S8192x4096, .f32⟩ : BufTy).Contents (Elt F)),
    nullary main_cst_24 (constant S_ .f32 0x00000000#32),
    unary main_cst_24 main_v69 (broadcastInDim S1000x4096 ![] bcast_S_S1000x4096 : (⟨S_, .f32⟩ : BufTy).Contents (Elt F) → (⟨S1000x4096, .f32⟩ : BufTy).Contents (Elt F)),
    binary main_arg13 main_v69 main_v70 (cmpf .oge : (⟨S1000x4096, .f32⟩ : BufTy).Contents (Elt F) → (⟨S1000x4096, .f32⟩ : BufTy).Contents (Elt F) → (⟨S1000x4096, .i1⟩ : BufTy).Contents (Elt F)),
    nullary main_cst_25 (constant S_ .f32 0x3F800000#32),
    nullary main_cst_26 (constant S_ .f32 0xBF800000#32),
    TRef.unary (TRef.of (T := ⟨S_, .f32⟩) main_cst_25) (TRef.of (T := ⟨S1000x4096, .f32⟩) main_call8_v0) (broadcastInDim S1000x4096 ![] bcast_S_S1000x4096),
    TRef.unary (TRef.of (T := ⟨S_, .f32⟩) main_cst_26) (TRef.of (T := ⟨S1000x4096, .f32⟩) main_call8_v1) (broadcastInDim S1000x4096 ![] bcast_S_S1000x4096),
    TRef.ternary (TRef.of (T := ⟨S1000x4096, .i1⟩) main_v70) (TRef.of (T := ⟨S1000x4096, .f32⟩) main_call8_v0) (TRef.of (T := ⟨S1000x4096, .f32⟩) main_call8_v1) (TRef.of (T := ⟨S1000x4096, .f32⟩) main_v71) select,
    unary main_v71 main_v72 (id : (⟨S1000x4096, .f32⟩ : BufTy).Contents (Elt F) → (⟨S1000x4096, .f32⟩ : BufTy).Contents (Elt F)),
    unary main_v72 main_v73 ((transpose S4096x1000 [1, 0] · transposes_S1000x4096_S4096x1000_1_0) : (⟨S1000x4096, .f32⟩ : BufTy).Contents (Elt F) → (⟨S4096x1000, .f32⟩ : BufTy).Contents (Elt F)),
    binary main_v68 main_v73 main_v74 ((fun l r => Host.dotGeneral dot_S8192x4096_S4096x1000_S8192x1000_1_0_0_1_n_n none l r) : (⟨S8192x4096, .f32⟩ : BufTy).Contents (Elt F) → (⟨S4096x1000, .f32⟩ : BufTy).Contents (Elt F) → (⟨S8192x1000, .f32⟩ : BufTy).Contents (Elt F)),
    unary main_arg14 main_v75 (broadcastInDim S1x1000 ![1] bcast_S1000_S1x1000_1 : (⟨S1000, .f32⟩ : BufTy).Contents (Elt F) → (⟨S1x1000, .f32⟩ : BufTy).Contents (Elt F)),
    unary main_v75 main_v76 (broadcastInDim S8192x1000 ![0, 1] bcast_S1x1000_S8192x1000_0_1 : (⟨S1x1000, .f32⟩ : BufTy).Contents (Elt F) → (⟨S8192x1000, .f32⟩ : BufTy).Contents (Elt F)),
    binary main_v74 main_v76 main_v77 (addf : (⟨S8192x1000, .f32⟩ : BufTy).Contents (Elt F) → (⟨S8192x1000, .f32⟩ : BufTy).Contents (Elt F) → (⟨S8192x1000, .f32⟩ : BufTy).Contents (Elt F)),
    unary main_arg17 main_v78 (broadcastInDim S1x1000 ![1] bcast_S1000_S1x1000_1 : (⟨S1000, .f32⟩ : BufTy).Contents (Elt F) → (⟨S1x1000, .f32⟩ : BufTy).Contents (Elt F)),
    unary main_v78 main_v79 (broadcastInDim S8192x1000 ![0, 1] bcast_S1x1000_S8192x1000_0_1 : (⟨S1x1000, .f32⟩ : BufTy).Contents (Elt F) → (⟨S8192x1000, .f32⟩ : BufTy).Contents (Elt F)),
    binary main_v77 main_v79 main_v80 (subf : (⟨S8192x1000, .f32⟩ : BufTy).Contents (Elt F) → (⟨S8192x1000, .f32⟩ : BufTy).Contents (Elt F) → (⟨S8192x1000, .f32⟩ : BufTy).Contents (Elt F)),
    nullary main_cst_27 (constant S_ .f32 0x3727C5AC#32),
    unary main_cst_27 main_v81 (broadcastInDim S1000 ![] bcast_S_S1000 : (⟨S_, .f32⟩ : BufTy).Contents (Elt F) → (⟨S1000, .f32⟩ : BufTy).Contents (Elt F)),
    binary main_arg18 main_v81 main_v82 (addf : (⟨S1000, .f32⟩ : BufTy).Contents (Elt F) → (⟨S1000, .f32⟩ : BufTy).Contents (Elt F) → (⟨S1000, .f32⟩ : BufTy).Contents (Elt F)),
    unary main_v82 main_v83 (Host.sqrt : (⟨S1000, .f32⟩ : BufTy).Contents (Elt F) → (⟨S1000, .f32⟩ : BufTy).Contents (Elt F)),
    binary main_arg15 main_v83 main_v84 (Host.divf : (⟨S1000, .f32⟩ : BufTy).Contents (Elt F) → (⟨S1000, .f32⟩ : BufTy).Contents (Elt F) → (⟨S1000, .f32⟩ : BufTy).Contents (Elt F)),
    unary main_v84 main_v85 (broadcastInDim S1x1000 ![1] bcast_S1000_S1x1000_1 : (⟨S1000, .f32⟩ : BufTy).Contents (Elt F) → (⟨S1x1000, .f32⟩ : BufTy).Contents (Elt F)),
    unary main_v85 main_v86 (broadcastInDim S8192x1000 ![0, 1] bcast_S1x1000_S8192x1000_0_1 : (⟨S1x1000, .f32⟩ : BufTy).Contents (Elt F) → (⟨S8192x1000, .f32⟩ : BufTy).Contents (Elt F)),
    binary main_v80 main_v86 main_v87 (mulf : (⟨S8192x1000, .f32⟩ : BufTy).Contents (Elt F) → (⟨S8192x1000, .f32⟩ : BufTy).Contents (Elt F) → (⟨S8192x1000, .f32⟩ : BufTy).Contents (Elt F)),
    unary main_arg16 main_v88 (broadcastInDim S1x1000 ![1] bcast_S1000_S1x1000_1 : (⟨S1000, .f32⟩ : BufTy).Contents (Elt F) → (⟨S1x1000, .f32⟩ : BufTy).Contents (Elt F)),
    unary main_v88 main_v89 (broadcastInDim S8192x1000 ![0, 1] bcast_S1x1000_S8192x1000_0_1 : (⟨S1x1000, .f32⟩ : BufTy).Contents (Elt F) → (⟨S8192x1000, .f32⟩ : BufTy).Contents (Elt F)),
    binary main_v87 main_v89 main_v90 (addf : (⟨S8192x1000, .f32⟩ : BufTy).Contents (Elt F) → (⟨S8192x1000, .f32⟩ : BufTy).Contents (Elt F) → (⟨S8192x1000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩

/-- On every core, from any memory with zero counters: every weakly fair execution of the reference terminates, and
    every final memory holds each buffer at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ

set_option maxRecDepth 8192 in
set_option maxHeartbeats 54400000 in
/-- No operation writes an argument: every argument array ends as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run m ρ)

end Cert.ReferenceIdeal.RefRun

end
-- ==== Proof.RefValue.lean ====
/-
  The reference program's result, entry by entry, is the network of the common specification.

  First the scalar facts that join the reference's spelling of a layer to the specification's: the two quantisation
  literals are the reals 128 and 1/128, so dividing the rounded multiple by 128 is the specification's product with
  1/128; choosing +1 where an entry is at least zero and −1 elsewhere is the sign; and a layer's tail,
  (a + b − μ) · (g / sqrt (v + ε)) + β, is the specification's batch normalisation as soon as the variance v is
  non-negative, because the quotient g / sqrt (v + ε) is then the product g · rsqrt (v + ε).

  Then the program's operations on whole arrays, each read at one entry, and the three layers composed: the value
  the run leaves in the result buffer, at entry (i, j), is the specification's network at (i, j).
-/
import Idealize.ShloMosaic.PureOps.Ideal
import Idealize.ShloMosaic.PureOps.Ideal.Laws
import Idealize.ShloMosaic.Lib.ValueIdx
import Idealize.ShloMosaic.Lib.Pipeline.Value
import proofs.«128298_j33311766347902_2_alg».proof.Proof.RefRunHand
import proofs.«128298_j33311766347902_2_alg».proof.Proof.Spec

noncomputable section

namespace Cert.ReferenceIdeal.RefValue

open Idealize.ShloMosaic
open Cert.Spec

/-! ## The quantisation literals -/

/-- A binary32 pattern with a clear sign bit and an exponent field `ex` that is neither zero nor all ones denotes
    (2^23 + fraction) · 2^(ex − 127 − 23). -/
theorem f32_normal_val (b : BitVec 32) (ex fr : ℕ)
    (h1 : (b.extractLsb' (8 + 23) 1 == 1#1) = false) (h2 : (b.extractLsb' 23 8).toNat = ex)
    (h3 : (b.extractLsb' 0 23).toNat = fr) (hx : ex ≠ 2 ^ 8 - 1) (h0 : ex ≠ 0) :
    Ideal.ofBits .f32 b
      = (((1 : ℝ) * ((2 ^ 23 + fr : ℕ) : ℝ) * (2 : ℝ) ^ ((ex : ℤ) - (2 ^ (8 - 1) - 1) - (23 : ℕ)) : ℝ) : EReal) := by
  show Ideal.ieee 8 23 b = _
  unfold Ideal.ieee
  simp only [h1, h2, h3, if_neg hx, if_neg h0, Bool.false_eq_true, if_false]

/-- The pattern 0x43000000 is 2^23 · 2^(134 − 150) = 128. -/
theorem c128_eq : c128 = ((128 : ℝ) : EReal) := by
  show Ideal.ofBits .f32 0x43000000#32 = _
  rw [f32_normal_val _ 134 0 (by decide) (by decide) (by decide) (by decide) (by decide)]
  norm_num

/-- The pattern 0x3C000000 is 2^23 · 2^(120 − 150) = 1/128. -/
theorem cInv128_eq : cInv128 = ((1 / 128 : ℝ) : EReal) := by
  show Ideal.ofBits .f32 0x3C000000#32 = _
  rw [f32_normal_val _ 120 0 (by decide) (by decide) (by decide) (by decide) (by decide)]
  norm_num

/-- Rounding the multiple by 128 and dividing by 128 is the specification's quantisation. -/
theorem quant_div (t : EReal) :
    Ideal.div (Ideal.liftRound Ideal.roundHalfEven (t * c128)) c128 = quant t := by
  unfold quant
  rw [c128_eq, cInv128_eq]
  exact Cert.Lib.BnScale.div_128 _

/-! ## The sign as a selection -/

/-- Choosing +1 where `t ≥ 0` holds and −1 elsewhere is the sign of `t`. -/
theorem select_ge_zero (t : EReal) :
    Scalar.select (Ideal.cmp .oge t zero) one negOne = sgn t := by
  show (if BitVec.ofBool (decide (zero ≤ t)) = 1 then one else negOne) = if zero ≤ t then one else negOne
  by_cases h : zero ≤ t
  · rw [if_pos h, decide_eq_true h]; rfl
  · rw [if_neg h, decide_eq_false h]; rfl

/-! ## A layer's tail -/

/-- The reference's tail of a layer is the specification's batch normalisation, for a non-negative variance. -/
theorem bn_eq (a b g be mu v : EReal) (hv : 0 ≤ v) :
    (a + b - mu) * Ideal.div g (Ideal.sqrt (v + eps)) + be = bnorm a b g be mu v := by
  unfold bnorm
  rw [scale_div g hv]

/-! ## The reference's operations on whole arrays, read at an entry

Each piece below is an array-level function written exactly as the reference program writes it, with the lemma that
reads it at one entry. A constant is a rank-0 array broadcast to the shape it is used at; a per-feature vector reaches
a matrix as a one-row matrix repeated down the rows; the weights are binarised, then transposed, then contracted. -/

section Arrays

open Cert.ReferenceIdeal.Facts₀ ValueIdx

/-- A rank-0 array broadcast over a shape holds its one entry everywhere. -/
theorem bcast0_apply {α : Type} {s : Shape} (hb : S_.BroadcastsInDim s (![] : Fin 0 → Fin s.rank)) (c : S_.Idx → α)
    (idx : s.Idx) : broadcastInDim s ![] hb c idx = c ix0 :=
  broadcastInDim_apply _ hb c idx ix0 (fun a => a.elim0)

/-- The sign of an array: compare with a broadcast zero, select a broadcast +1 or a broadcast −1. -/
def sgnArr {s : Shape} (hb : S_.BroadcastsInDim s (![] : Fin 0 → Fin s.rank)) (y : FVec Ideal s .f32) :
    FVec Ideal s .f32 :=
  id (select (cmpf .oge y (broadcastInDim s ![] hb (constant (F := Ideal) S_ .f32 0x00000000#32)))
    (broadcastInDim s ![] hb (constant (F := Ideal) S_ .f32 0x3F800000#32))
    (broadcastInDim s ![] hb (constant (F := Ideal) S_ .f32 0xBF800000#32)))

theorem sgnArr_apply {s : Shape} (hb : S_.BroadcastsInDim s (![] : Fin 0 → Fin s.rank)) (y : FVec Ideal s .f32)
    (idx : s.Idx) : sgnArr hb y idx = sgn (y idx) := by
  show Scalar.select (Ideal.cmp .oge (y idx) (broadcastInDim s ![] hb (constant (F := Ideal) S_ .f32 0x00000000#32) idx))
      (broadcastInDim s ![] hb (constant (F := Ideal) S_ .f32 0x3F800000#32) idx)
      (broadcastInDim s ![] hb (constant (F := Ideal) S_ .f32 0xBF800000#32) idx) = _
  rw [bcast0_apply, bcast0_apply, bcast0_apply]
  exact select_ge_zero (y idx)

/-- The quantisation of an array: times a broadcast 128, rounded, divided by a broadcast 128. -/
def quantArr {s : Shape} (hb : S_.BroadcastsInDim s (![] : Fin 0 → Fin s.rank)) (x : FVec Ideal s .f32) :
    FVec Ideal s .f32 :=
  Host.divf (Host.roundeven (mulf x (broadcastInDim s ![] hb (constant (F := Ideal) S_ .f32 0x43000000#32))))
    (broadcastInDim s ![] hb (constant (F := Ideal) S_ .f32 0x43000000#32))

theorem quantArr_apply {s : Shape} (hb : S_.BroadcastsInDim s (![] : Fin 0 → Fin s.rank)) (x : FVec Ideal s .f32)
    (idx : s.Idx) : quantArr hb x idx = quant (x idx) := by
  show Ideal.div (Ideal.liftRound Ideal.roundHalfEven
      (x idx * broadcastInDim s ![] hb (constant (F := Ideal) S_ .f32 0x43000000#32) idx))
      (broadcastInDim s ![] hb (constant (F := Ideal) S_ .f32 0x43000000#32) idx) = _
  rw [bcast0_apply]
  exact quant_div (x idx)

/-- A vector along the columns of a matrix: a one-row matrix, repeated down the rows. -/
def rowB {B N : ℕ} (h1 : (⟨1, ![N]⟩ : Shape).BroadcastsInDim ⟨2, ![1, N]⟩ ![1])
    (h2 : (⟨2, ![1, N]⟩ : Shape).BroadcastsInDim ⟨2, ![B, N]⟩ ![0, 1]) (y : FVec Ideal ⟨1, ![N]⟩ .f32) :
    FVec Ideal ⟨2, ![B, N]⟩ .f32 :=
  broadcastInDim ⟨2, ![B, N]⟩ ![0, 1] h2 (broadcastInDim ⟨2, ![1, N]⟩ ![1] h1 y)

/-- Entry (i, j) of the repeated row is entry j of the vector (the row has more than one column). -/
theorem rowB_apply {B N : ℕ} (h1 : (⟨1, ![N]⟩ : Shape).BroadcastsInDim ⟨2, ![1, N]⟩ ![1])
    (h2 : (⟨2, ![1, N]⟩ : Shape).BroadcastsInDim ⟨2, ![B, N]⟩ ![0, 1]) (y : FVec Ideal ⟨1, ![N]⟩ .f32) (hN : N ≠ 1)
    (i : Fin B) (j : Fin N) : rowB h1 h2 y (ix2 i j) = y (ix1 j) :=
  (broadcastInDim_apply _ h2 _ (ix2 i j) (ix2 (⟨0, Nat.one_pos⟩ : Fin 1) j) (fun a => match a with
    | ⟨0, _⟩ => by show 0 = if (1 : ℕ) = 1 then 0 else i.val; rw [if_pos rfl]
    | ⟨1, _⟩ => by show j.val = if N = 1 then 0 else j.val; rw [if_neg hN])).trans
  (broadcastInDim_apply _ h1 y _ (ix1 j) (fun a => match a with
    | ⟨0, _⟩ => by show j.val = if N = 1 then 0 else j.val; rw [if_neg hN]))

/-- The per-feature scale: the gain over the root of the variance plus a broadcast ε. -/
def scaleArr {N : ℕ} (hb : S_.BroadcastsInDim (⟨1, ![N]⟩ : Shape) (![] : Fin 0 → Fin 1)) (g v : FVec Ideal ⟨1, ![N]⟩ .f32) :
    FVec Ideal ⟨1, ![N]⟩ .f32 :=
  Host.divf g (Host.sqrt (addf v (broadcastInDim ⟨1, ![N]⟩ ![] hb (constant (F := Ideal) S_ .f32 0x3727C5AC#32))))

theorem scaleArr_apply {N : ℕ} (hb : S_.BroadcastsInDim (⟨1, ![N]⟩ : Shape) (![] : Fin 0 → Fin 1))
    (g v : FVec Ideal ⟨1, ![N]⟩ .f32) (j : Fin N) :
    scaleArr hb g v (ix1 j) = Ideal.div (g (ix1 j)) (Ideal.sqrt (v (ix1 j) + eps)) := by
  show Ideal.div (g (ix1 j)) (Ideal.sqrt (v (ix1 j)
      + broadcastInDim ⟨1, ![N]⟩ ![] hb (constant (F := Ideal) S_ .f32 0x3727C5AC#32) (ix1 j))) = _
  rw [bcast0_apply]
  rfl

/-- A transposed matrix at (k, j) is the matrix at (j, k). -/
theorem transpose10_apply {K N : ℕ} (hT : (⟨2, ![N, K]⟩ : Shape).Transposes [1, 0] ⟨2, ![K, N]⟩)
    (y : FVec Ideal ⟨2, ![N, K]⟩ .f32) (k : Fin K) (j : Fin N) :
    transpose ⟨2, ![K, N]⟩ [1, 0] y hT (ix2 k j) = y (ix2 j k) :=
  transpose_apply [1, 0] y hT (ix2 k j) (ix2 j k) (fun b => match b with
    | ⟨0, _⟩ => rfl
    | ⟨1, _⟩ => rfl)

theorem dotH_lhs0 (i : S8192x4096.Idx) (q : dot_S8192x4096_S4096x4096_S8192x4096_1_0_0_1_n_n.contr.Idx) : (dot_S8192x4096_S4096x4096_S8192x4096_1_0_0_1_n_n.lhsIdx i q 0).val = (i 0).val := by
  unfold DotDims.lhsIdx
  rw [dif_neg (show ¬(0 : Fin S8192x4096.rank) ∈ dot_S8192x4096_S4096x4096_S8192x4096_1_0_0_1_n_n.lhsBatch by decide),
    dif_pos (show (0 : Fin S8192x4096.rank) ∈ dot_S8192x4096_S4096x4096_S8192x4096_1_0_0_1_n_n.lhsNonContracting by decide)]
  rfl
theorem dotH_rhs1 (i : S8192x4096.Idx) (q : dot_S8192x4096_S4096x4096_S8192x4096_1_0_0_1_n_n.contr.Idx) : (dot_S8192x4096_S4096x4096_S8192x4096_1_0_0_1_n_n.rhsIdx i q 1).val = (i 1).val := by
  unfold DotDims.rhsIdx
  rw [dif_neg (show ¬(1 : Fin S4096x4096.rank) ∈ dot_S8192x4096_S4096x4096_S8192x4096_1_0_0_1_n_n.rhsBatch by decide),
    dif_pos (show (1 : Fin S4096x4096.rank) ∈ dot_S8192x4096_S4096x4096_S8192x4096_1_0_0_1_n_n.rhsNonContracting by decide)]
  rfl

/-- The contraction of the hidden layers at entry (i, j): the sum over k of left (i, k) times right (k, j). -/
theorem dotH_apply (l : FVec Ideal S8192x4096 .f32) (r : FVec Ideal S4096x4096 .f32) (i : Fin 8192) (j : Fin 4096) :
    Host.dotGeneral dot_S8192x4096_S4096x4096_S8192x4096_1_0_0_1_n_n none l r (ix2 i j) = ∑ k : Fin 4096, l (ix2 i k) * r (ix2 k j) := by
  simp only [Host.dotGeneral]
  rw [Ideal.dotGeneral_apply, ← Equiv.sum_comp (contrEquiv1 dot_S8192x4096_S4096x4096_S8192x4096_1_0_0_1_n_n 4096 rfl rfl).symm]
  refine Finset.sum_congr rfl fun k _ => ?_
  have hk := contrEquiv1_symm_val dot_S8192x4096_S4096x4096_S8192x4096_1_0_0_1_n_n 4096 rfl rfl k
  have el : dot_S8192x4096_S4096x4096_S8192x4096_1_0_0_1_n_n.lhsIdx (ix2 i j) ((contrEquiv1 dot_S8192x4096_S4096x4096_S8192x4096_1_0_0_1_n_n 4096 rfl rfl).symm k) = ix2 i k :=
    funext fun a => Fin.ext (by
      match a with
      | ⟨0, _⟩ => exact dotH_lhs0 _ _
      | ⟨1, _⟩ => exact (dot_S8192x4096_S4096x4096_S8192x4096_1_0_0_1_n_n.lhsIdx_val_of_single rfl _ _).trans hk)
  have er : dot_S8192x4096_S4096x4096_S8192x4096_1_0_0_1_n_n.rhsIdx (ix2 i j) ((contrEquiv1 dot_S8192x4096_S4096x4096_S8192x4096_1_0_0_1_n_n 4096 rfl rfl).symm k) = ix2 k j :=
    funext fun a => Fin.ext (by
      match a with
      | ⟨0, _⟩ => exact (dot_S8192x4096_S4096x4096_S8192x4096_1_0_0_1_n_n.rhsIdx_val_of_single rfl _ _).trans hk
      | ⟨1, _⟩ => exact dotH_rhs1 _ _)
  rw [el, er]

theorem dotO_lhs0 (i : S8192x1000.Idx) (q : dot_S8192x4096_S4096x1000_S8192x1000_1_0_0_1_n_n.contr.Idx) : (dot_S8192x4096_S4096x1000_S8192x1000_1_0_0_1_n_n.lhsIdx i q 0).val = (i 0).val := by
  unfold DotDims.lhsIdx
  rw [dif_neg (show ¬(0 : Fin S8192x4096.rank) ∈ dot_S8192x4096_S4096x1000_S8192x1000_1_0_0_1_n_n.lhsBatch by decide),
    dif_pos (show (0 : Fin S8192x4096.rank) ∈ dot_S8192x4096_S4096x1000_S8192x1000_1_0_0_1_n_n.lhsNonContracting by decide)]
  rfl
theorem dotO_rhs1 (i : S8192x1000.Idx) (q : dot_S8192x4096_S4096x1000_S8192x1000_1_0_0_1_n_n.contr.Idx) : (dot_S8192x4096_S4096x1000_S8192x1000_1_0_0_1_n_n.rhsIdx i q 1).val = (i 1).val := by
  unfold DotDims.rhsIdx
  rw [dif_neg (show ¬(1 : Fin S4096x1000.rank) ∈ dot_S8192x4096_S4096x1000_S8192x1000_1_0_0_1_n_n.rhsBatch by decide),
    dif_pos (show (1 : Fin S4096x1000.rank) ∈ dot_S8192x4096_S4096x1000_S8192x1000_1_0_0_1_n_n.rhsNonContracting by decide)]
  rfl

/-- The same for the output layer's contraction, onto 1000 columns. -/
theorem dotO_apply (l : FVec Ideal S8192x4096 .f32) (r : FVec Ideal S4096x1000 .f32) (i : Fin 8192) (j : Fin 1000) :
    Host.dotGeneral dot_S8192x4096_S4096x1000_S8192x1000_1_0_0_1_n_n none l r (ix2 i j) = ∑ k : Fin 4096, l (ix2 i k) * r (ix2 k j) := by
  simp only [Host.dotGeneral]
  rw [Ideal.dotGeneral_apply, ← Equiv.sum_comp (contrEquiv1 dot_S8192x4096_S4096x1000_S8192x1000_1_0_0_1_n_n 4096 rfl rfl).symm]
  refine Finset.sum_congr rfl fun k _ => ?_
  have hk := contrEquiv1_symm_val dot_S8192x4096_S4096x1000_S8192x1000_1_0_0_1_n_n 4096 rfl rfl k
  have el : dot_S8192x4096_S4096x1000_S8192x1000_1_0_0_1_n_n.lhsIdx (ix2 i j) ((contrEquiv1 dot_S8192x4096_S4096x1000_S8192x1000_1_0_0_1_n_n 4096 rfl rfl).symm k) = ix2 i k :=
    funext fun a => Fin.ext (by
      match a with
      | ⟨0, _⟩ => exact dotO_lhs0 _ _
      | ⟨1, _⟩ => exact (dot_S8192x4096_S4096x1000_S8192x1000_1_0_0_1_n_n.lhsIdx_val_of_single rfl _ _).trans hk)
  have er : dot_S8192x4096_S4096x1000_S8192x1000_1_0_0_1_n_n.rhsIdx (ix2 i j) ((contrEquiv1 dot_S8192x4096_S4096x1000_S8192x1000_1_0_0_1_n_n 4096 rfl rfl).symm k) = ix2 k j :=
    funext fun a => Fin.ext (by
      match a with
      | ⟨0, _⟩ => exact (dot_S8192x4096_S4096x1000_S8192x1000_1_0_0_1_n_n.rhsIdx_val_of_single rfl _ _).trans hk
      | ⟨1, _⟩ => exact dotO_rhs1 _ _)
  rw [el, er]

/-- The tail of a layer on arrays: add the bias row, subtract the mean row, multiply by the scale row, add the offset row. -/
def bnArr {B N : ℕ} (h1 : (⟨1, ![N]⟩ : Shape).BroadcastsInDim ⟨2, ![1, N]⟩ ![1])
    (h2 : (⟨2, ![1, N]⟩ : Shape).BroadcastsInDim ⟨2, ![B, N]⟩ ![0, 1])
    (hb : S_.BroadcastsInDim (⟨1, ![N]⟩ : Shape) (![] : Fin 0 → Fin 1))
    (a : FVec Ideal ⟨2, ![B, N]⟩ .f32) (b g be m v : FVec Ideal ⟨1, ![N]⟩ .f32) : FVec Ideal ⟨2, ![B, N]⟩ .f32 :=
  addf (mulf (subf (addf a (rowB h1 h2 b)) (rowB h1 h2 m)) (rowB h1 h2 (scaleArr hb g v))) (rowB h1 h2 be)

/-- At an entry it is the specification's batch normalisation, the feature's variance being non-negative. -/
theorem bnArr_apply {B N : ℕ} (h1 : (⟨1, ![N]⟩ : Shape).BroadcastsInDim ⟨2, ![1, N]⟩ ![1])
    (h2 : (⟨2, ![1, N]⟩ : Shape).BroadcastsInDim ⟨2, ![B, N]⟩ ![0, 1])
    (hb : S_.BroadcastsInDim (⟨1, ![N]⟩ : Shape) (![] : Fin 0 → Fin 1))
    (a : FVec Ideal ⟨2, ![B, N]⟩ .f32) (b g be m v : FVec Ideal ⟨1, ![N]⟩ .f32) (hN : N ≠ 1)
    (i : Fin B) (j : Fin N) (hv : 0 ≤ v (ix1 j)) :
    bnArr h1 h2 hb a b g be m v (ix2 i j)
      = bnorm (a (ix2 i j)) (b (ix1 j)) (g (ix1 j)) (be (ix1 j)) (m (ix1 j)) (v (ix1 j)) := by
  show (a (ix2 i j) + rowB h1 h2 b (ix2 i j) - rowB h1 h2 m (ix2 i j)) * rowB h1 h2 (scaleArr hb g v) (ix2 i j)
      + rowB h1 h2 be (ix2 i j) = _
  rw [rowB_apply h1 h2 b hN, rowB_apply h1 h2 m hN, rowB_apply h1 h2 _ hN, rowB_apply h1 h2 be hN, scaleArr_apply]
  exact bn_eq _ _ _ _ _ _ hv

end Arrays

/-! ## The three layers and the network on arrays -/

section Layers

open Cert.ReferenceIdeal.Facts₀ ValueIdx

/-- The first layer on arrays: the signs of the quantised input against the transposed signs of the weights,
    contracted and normalised. -/
def lay1 (x : FVec Ideal S8192x4096 .f32) (W : FVec Ideal S4096x4096 .f32) (b g be m v : FVec Ideal S4096 .f32) :
    FVec Ideal S8192x4096 .f32 :=
  bnArr (B := 8192) (N := 4096) bcast_S4096_S1x4096_1 bcast_S1x4096_S8192x4096_0_1 bcast_S_S4096
    (Host.dotGeneral dot_S8192x4096_S4096x4096_S8192x4096_1_0_0_1_n_n none (sgnArr bcast_S_S8192x4096 (quantArr bcast_S_S8192x4096 x)) (transpose S4096x4096 [1, 0] (sgnArr bcast_S_S4096x4096 W) transposes_S4096x4096_S4096x4096_1_0))
    b g be m v

theorem lay1_apply (x : FVec Ideal S8192x4096 .f32) (W : FVec Ideal S4096x4096 .f32) (b g be m v : FVec Ideal S4096 .f32)
    (hv : ∀ j : Fin 4096, 0 ≤ v (ix1 j)) (i : Fin 8192) (j : Fin 4096) :
    lay1 x W b g be m v (ix2 i j)
      = layer (fun i k => sgn (quant (x (ix2 i k)))) (fun j k => W (ix2 j k)) (fun j => b (ix1 j)) (fun j => g (ix1 j))
          (fun j => be (ix1 j)) (fun j => m (ix1 j)) (fun j => v (ix1 j)) i j := by
  unfold lay1 layer
  rw [bnArr_apply _ _ _ _ _ _ _ _ _ (by decide) i j (hv j), dotH_apply]
  congr 1
  refine Finset.sum_congr rfl fun k _ => ?_
  rw [sgnArr_apply, quantArr_apply, transpose10_apply, sgnArr_apply]

/-- A hidden layer on arrays: the activations arrive as a sign and are binarised once more before the contraction. -/
def lay2 (h : FVec Ideal S8192x4096 .f32) (W : FVec Ideal S4096x4096 .f32) (b g be m v : FVec Ideal S4096 .f32) :
    FVec Ideal S8192x4096 .f32 :=
  bnArr (B := 8192) (N := 4096) bcast_S4096_S1x4096_1 bcast_S1x4096_S8192x4096_0_1 bcast_S_S4096
    (Host.dotGeneral dot_S8192x4096_S4096x4096_S8192x4096_1_0_0_1_n_n none (sgnArr bcast_S_S8192x4096 (sgnArr bcast_S_S8192x4096 h)) (transpose S4096x4096 [1, 0] (sgnArr bcast_S_S4096x4096 W) transposes_S4096x4096_S4096x4096_1_0))
    b g be m v

/-- The sign of a sign being that sign, the layer sees the sign of the previous layer's entries. -/
theorem lay2_apply (h : FVec Ideal S8192x4096 .f32) (W : FVec Ideal S4096x4096 .f32) (b g be m v : FVec Ideal S4096 .f32)
    (hv : ∀ j : Fin 4096, 0 ≤ v (ix1 j)) (i : Fin 8192) (j : Fin 4096) :
    lay2 h W b g be m v (ix2 i j)
      = layer (fun i k => sgn (h (ix2 i k))) (fun j k => W (ix2 j k)) (fun j => b (ix1 j)) (fun j => g (ix1 j))
          (fun j => be (ix1 j)) (fun j => m (ix1 j)) (fun j => v (ix1 j)) i j := by
  unfold lay2 layer
  rw [bnArr_apply _ _ _ _ _ _ _ _ _ (by decide) i j (hv j), dotH_apply]
  congr 1
  refine Finset.sum_congr rfl fun k _ => ?_
  rw [sgnArr_apply, sgnArr_apply, sgn_sgn, transpose10_apply, sgnArr_apply]

/-- The output layer on arrays: the same, onto 1000 columns. -/
def lay3 (h : FVec Ideal S8192x4096 .f32) (W : FVec Ideal S1000x4096 .f32) (b g be m v : FVec Ideal S1000 .f32) :
    FVec Ideal S8192x1000 .f32 :=
  bnArr (B := 8192) (N := 1000) bcast_S1000_S1x1000_1 bcast_S1x1000_S8192x1000_0_1 bcast_S_S1000
    (Host.dotGeneral dot_S8192x4096_S4096x1000_S8192x1000_1_0_0_1_n_n none (sgnArr bcast_S_S8192x4096 (sgnArr bcast_S_S8192x4096 h)) (transpose S4096x1000 [1, 0] (sgnArr bcast_S_S1000x4096 W) transposes_S1000x4096_S4096x1000_1_0))
    b g be m v

theorem lay3_apply (h : FVec Ideal S8192x4096 .f32) (W : FVec Ideal S1000x4096 .f32) (b g be m v : FVec Ideal S1000 .f32)
    (hv : ∀ j : Fin 1000, 0 ≤ v (ix1 j)) (i : Fin 8192) (j : Fin 1000) :
    lay3 h W b g be m v (ix2 i j)
      = layer (fun i k => sgn (h (ix2 i k))) (fun j k => W (ix2 j k)) (fun j => b (ix1 j)) (fun j => g (ix1 j))
          (fun j => be (ix1 j)) (fun j => m (ix1 j)) (fun j => v (ix1 j)) i j := by
  unfold lay3 layer
  rw [bnArr_apply _ _ _ _ _ _ _ _ _ (by decide) i j (hv j), dotO_apply]
  congr 1
  refine Finset.sum_congr rfl fun k _ => ?_
  rw [sgnArr_apply, sgnArr_apply, sgn_sgn, transpose10_apply, sgnArr_apply]

/-- The reference's result as one function of its nineteen argument arrays. -/
def refNet (x : FVec Ideal S8192x4096 .f32)
    (W1 : FVec Ideal S4096x4096 .f32) (b1 g1 be1 m1 v1 : FVec Ideal S4096 .f32)
    (W2 : FVec Ideal S4096x4096 .f32) (b2 g2 be2 m2 v2 : FVec Ideal S4096 .f32)
    (W3 : FVec Ideal S1000x4096 .f32) (b3 g3 be3 m3 v3 : FVec Ideal S1000 .f32) : FVec Ideal S8192x1000 .f32 :=
  lay3 (lay2 (lay1 x W1 b1 g1 be1 m1 v1) W2 b2 g2 be2 m2 v2) W3 b3 g3 be3 m3 v3

/-- Entry (i, j) of the reference's result is the specification's network at (i, j), the three variance vectors
    being non-negative. -/
theorem refNet_apply (x : FVec Ideal S8192x4096 .f32)
    (W1 : FVec Ideal S4096x4096 .f32) (b1 g1 be1 m1 v1 : FVec Ideal S4096 .f32)
    (W2 : FVec Ideal S4096x4096 .f32) (b2 g2 be2 m2 v2 : FVec Ideal S4096 .f32)
    (W3 : FVec Ideal S1000x4096 .f32) (b3 g3 be3 m3 v3 : FVec Ideal S1000 .f32)
    (hv1 : ∀ j : Fin 4096, 0 ≤ v1 (ix1 j)) (hv2 : ∀ j : Fin 4096, 0 ≤ v2 (ix1 j)) (hv3 : ∀ j : Fin 1000, 0 ≤ v3 (ix1 j))
    (i : Fin 8192) (j : Fin 1000) :
    refNet x W1 b1 g1 be1 m1 v1 W2 b2 g2 be2 m2 v2 W3 b3 g3 be3 m3 v3 (ix2 i j)
      = net (fun i k => x (ix2 i k))
          (fun j k => W1 (ix2 j k)) (fun j => b1 (ix1 j)) (fun j => g1 (ix1 j))
          (fun j => be1 (ix1 j)) (fun j => m1 (ix1 j)) (fun j => v1 (ix1 j))
          (fun j k => W2 (ix2 j k)) (fun j => b2 (ix1 j)) (fun j => g2 (ix1 j))
          (fun j => be2 (ix1 j)) (fun j => m2 (ix1 j)) (fun j => v2 (ix1 j))
          (fun j k => W3 (ix2 j k)) (fun j => b3 (ix1 j)) (fun j => g3 (ix1 j))
          (fun j => be3 (ix1 j)) (fun j => m3 (ix1 j)) (fun j => v3 (ix1 j)) i j := by
  unfold refNet net
  rw [lay3_apply _ _ _ _ _ _ _ hv3]
  simp only [lay2_apply _ _ _ _ _ _ _ hv2, lay1_apply _ _ _ _ _ _ _ hv1]

end Layers

/-! ## The run's result buffer -/

section Run

open Idealize.ShloMosaic.TcCoe Idealize.SL.Sem Idealize.ShloMosaic.StableHlo ValueIdx

set_option maxRecDepth 8192 in
set_option maxHeartbeats 54400000 in
/-- The fold of the program's operations over the launch contents, at the result buffer, is the network on arrays
    of the nineteen launched argument arrays. -/
theorem after_eq (m : (ℓ : Loc nD τ sig) → Buf (Elt Ideal) ℓ) (c : Dev nD) :
    after (Cert.ReferenceIdeal.RefRun.ops (F := Ideal)) (launchContents m c) (Proc.devRef .tc main_v90)
      = refNet (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18)) := by
  after_results_simp <;> rfl

/-- Entry (i, j) of what the run leaves in the result buffer is the specification's network of the launched arrays. -/
theorem result_apply (m : (ℓ : Loc nD τ sig) → Buf (Elt Ideal) ℓ) (c : Dev nD)
    (hv1 : ∀ j : Fin 4096, (0 : EReal) ≤ m ((c.tc : Thread nD τ).loc main_arg6) (ix1 j))
    (hv2 : ∀ j : Fin 4096, (0 : EReal) ≤ m ((c.tc : Thread nD τ).loc main_arg12) (ix1 j))
    (hv3 : ∀ j : Fin 1000, (0 : EReal) ≤ m ((c.tc : Thread nD τ).loc main_arg18) (ix1 j))
    (i : Fin 8192) (j : Fin 1000) :
    after (Cert.ReferenceIdeal.RefRun.ops (F := Ideal)) (launchContents m c) (Proc.devRef .tc main_v90) (ix2 i j)
      = net (fun i k => m ((c.tc : Thread nD τ).loc main_arg0) (ix2 i k))
        (fun j k => m ((c.tc : Thread nD τ).loc main_arg1) (ix2 j k)) (fun j => m ((c.tc : Thread nD τ).loc main_arg2) (ix1 j)) (fun j => m ((c.tc : Thread nD τ).loc main_arg3) (ix1 j)) (fun j => m ((c.tc : Thread nD τ).loc main_arg4) (ix1 j)) (fun j => m ((c.tc : Thread nD τ).loc main_arg5) (ix1 j)) (fun j => m ((c.tc : Thread nD τ).loc main_arg6) (ix1 j))
        (fun j k => m ((c.tc : Thread nD τ).loc main_arg7) (ix2 j k)) (fun j => m ((c.tc : Thread nD τ).loc main_arg8) (ix1 j)) (fun j => m ((c.tc : Thread nD τ).loc main_arg9) (ix1 j)) (fun j => m ((c.tc : Thread nD τ).loc main_arg10) (ix1 j)) (fun j => m ((c.tc : Thread nD τ).loc main_arg11) (ix1 j)) (fun j => m ((c.tc : Thread nD τ).loc main_arg12) (ix1 j))
        (fun j k => m ((c.tc : Thread nD τ).loc main_arg13) (ix2 j k)) (fun j => m ((c.tc : Thread nD τ).loc main_arg14) (ix1 j)) (fun j => m ((c.tc : Thread nD τ).loc main_arg15) (ix1 j)) (fun j => m ((c.tc : Thread nD τ).loc main_arg16) (ix1 j)) (fun j => m ((c.tc : Thread nD τ).loc main_arg17) (ix1 j)) (fun j => m ((c.tc : Thread nD τ).loc main_arg18) (ix1 j)) i j := by
  rw [after_eq]
  exact refNet_apply _ _ _ _ _ _ _ _ _ _ _ _ _ _ _ _ _ _ _ hv1 hv2 hv3 i j

end Run

end Cert.ReferenceIdeal.RefValue

end
-- ==== Proof.RefArgs.lean ====
/-
  The reference's operations write only their own results: read after all of them, each of the nineteen argument
  buffers still holds what was launched. Stated as equations about the fold of the operations, so that a proof about
  the run's result can carry them under the same run.
-/
import proofs.«128298_j33311766347902_2_alg».proof.Proof.RefRunHand

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 54400000 in
/-- No operation writes an argument. -/
theorem args_kept (m : (ℓ : Loc nD τ sig) → Buf (Elt F) ℓ) (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2)
    ∧ after (ops (F := F)) (launchContents m c) (Proc.devRef .tc main_arg3) = m ((c.tc : Thread nD τ).loc main_arg3)
    ∧ after (ops (F := F)) (launchContents m c) (Proc.devRef .tc main_arg4) = m ((c.tc : Thread nD τ).loc main_arg4)
    ∧ after (ops (F := F)) (launchContents m c) (Proc.devRef .tc main_arg5) = m ((c.tc : Thread nD τ).loc main_arg5)
    ∧ after (ops (F := F)) (launchContents m c) (Proc.devRef .tc main_arg6) = m ((c.tc : Thread nD τ).loc main_arg6)
    ∧ after (ops (F := F)) (launchContents m c) (Proc.devRef .tc main_arg7) = m ((c.tc : Thread nD τ).loc main_arg7)
    ∧ after (ops (F := F)) (launchContents m c) (Proc.devRef .tc main_arg8) = m ((c.tc : Thread nD τ).loc main_arg8)
    ∧ after (ops (F := F)) (launchContents m c) (Proc.devRef .tc main_arg9) = m ((c.tc : Thread nD τ).loc main_arg9)
    ∧ after (ops (F := F)) (launchContents m c) (Proc.devRef .tc main_arg10) = m ((c.tc : Thread nD τ).loc main_arg10)
    ∧ after (ops (F := F)) (launchContents m c) (Proc.devRef .tc main_arg11) = m ((c.tc : Thread nD τ).loc main_arg11)
    ∧ after (ops (F := F)) (launchContents m c) (Proc.devRef .tc main_arg12) = m ((c.tc : Thread nD τ).loc main_arg12)
    ∧ after (ops (F := F)) (launchContents m c) (Proc.devRef .tc main_arg13) = m ((c.tc : Thread nD τ).loc main_arg13)
    ∧ after (ops (F := F)) (launchContents m c) (Proc.devRef .tc main_arg14) = m ((c.tc : Thread nD τ).loc main_arg14)
    ∧ after (ops (F := F)) (launchContents m c) (Proc.devRef .tc main_arg15) = m ((c.tc : Thread nD τ).loc main_arg15)
    ∧ after (ops (F := F)) (launchContents m c) (Proc.devRef .tc main_arg16) = m ((c.tc : Thread nD τ).loc main_arg16)
    ∧ after (ops (F := F)) (launchContents m c) (Proc.devRef .tc main_arg17) = m ((c.tc : Thread nD τ).loc main_arg17)
    ∧ after (ops (F := F)) (launchContents m c) (Proc.devRef .tc main_arg18) = m ((c.tc : Thread nD τ).loc main_arg18) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

end Cert.ReferenceIdeal.RefRun

end
-- ==== Proof.PreDecode.lean ====
/-
  The precondition read back, at the extended reals.

  The precondition is one conjunction of nineteen "every entry is finite" tests followed by three
  "every entry is at least zero" tests, of the three variance vectors v1 (4096 entries), v2 (4096 entries) and
  v3 (1000 entries). Each test is a conjunction over a whole array, started from "true", and the precondition
  says the grand conjunction is true. A conjunction of one-bit words is 1 exactly when both words are 1, so the
  last three tests are each 1; a conjunction over an array that came out 1 met a 1 at every entry; and at an entry
  the test "x ≥ 0" on extended reals is 1 exactly when 0 ≤ x, the printed zero word being the extended real 0.
  Hence no entry of v1, v2 or v3 is negative. The finiteness tests are not needed for this and are dropped as
  the conjunction is peeled from its last conjunct inward.

  The conjunction is printed as a chain of seven pieces, each handing its running value to the next; the lemmas
  below read the chain from its last piece back to its first.
-/
import proofs.«128298_j33311766347902_2_alg».proof.Pre_finite_inputs
import proofs.«128298_j33311766347902_2_alg».proof.Defs
import Idealize.ShloMosaic.Lib.ReduceAll
import Idealize.ShloMosaic.Lib.ValueIdx
import Idealize.ShloMosaic.Lib.IdealHost

noncomputable section

namespace Cert.PreDecode

open Idealize.ShloMosaic Idealize.ShloMosaic.ValueIdx
open Cert.Pre_finite_inputs

/-- An array with no axes has exactly one index. -/
instance subsingleton_scalar_idx : Subsingleton S_.Idx := ⟨fun a b => funext fun d => d.elim0⟩

/-- One test "every entry of x is at least zero" read back: if the conjunction over all entries of the bits
    "x i ≥ 0" (zero broadcast from a scalar) is 1, then 0 ≤ x i at every index i. -/
theorem nonneg_of_all {S : Shape} {axes : List (Fin S.rank)}
    (hb : S_.BroadcastsInDim S (![] : Fin 0 → Fin S.rank)) (hr : S.ReducesTo axes S_) (hu : 0 < S_.numel)
    (x : FVec Ideal S .f32)
    (e : Host.reduce IntOp.andi (cmpf .oge x (broadcastInDim S ![] hb (constant (F := Ideal) S_ .f32 0x00000000#32)))
          (constantI S_ 1 1#1) hr hu ix0 = 1#1) (i : S.Idx) : (0 : EReal) ≤ x i := by
  have h := Host.reduce_andi_all _ _ hr hu ix0 e i
  rw [cmpf_apply, broadcastInDim_scalar_apply, constant_apply, Ideal.ofBits_zero_f32, Ideal.cmpf_def] at h
  by_contra hn
  simp [Ideal.cmp, hn] at h

variable [Facts]
open Facts

/-- The last piece: its running value was 1, and v3 has no negative entry. -/
theorem part6 (a18 : FVec Ideal S1000 .f32) (v101 : IVec S_ 1) (h : fn_part6 (F := Ideal) a18 v101 ix0 = 1#1) :
    v101 ix0 = 1#1 ∧ ∀ i : S1000.Idx, (0 : EReal) ≤ a18 i := by
  unfold fn_part6 at h
  dsimp only at h
  obtain ⟨h1, h2⟩ := IntOp.andi_eq_one.1 h
  exact ⟨h1, nonneg_of_all _ _ _ a18 h2⟩

/-- The piece before it holds the tests of v1 and v2 as its last two conjuncts. -/
theorem part5 (a6 : FVec Ideal S4096 .f32) (a12 : FVec Ideal S4096 .f32) (a18 : FVec Ideal S1000 .f32) (v83 : IVec S_ 1) (v84 : FVec Ideal S1000 .f32) (c32 : FVec Ideal S_ .f32)
    (h : fn_part5 (F := Ideal) a6 a12 a18 v83 v84 c32 ix0 = 1#1) :
    (∀ i : S4096.Idx, (0 : EReal) ≤ a6 i) ∧ (∀ i : S4096.Idx, (0 : EReal) ≤ a12 i) ∧ ∀ i : S1000.Idx, (0 : EReal) ≤ a18 i := by
  unfold fn_part5 at h
  dsimp only at h
  obtain ⟨h101, h18⟩ := part6 _ _ h
  obtain ⟨h97, h100⟩ := IntOp.andi_eq_one.1 h101
  obtain ⟨-, h96⟩ := IntOp.andi_eq_one.1 h97
  exact ⟨nonneg_of_all _ _ _ a6 h96, nonneg_of_all _ _ _ a12 h100, h18⟩

/-- The earlier pieces only test finiteness and pass their running value on. -/
theorem part4 (a6 : FVec Ideal S4096 .f32) (a12 : FVec Ideal S4096 .f32) (a14 : FVec Ideal S1000 .f32) (a15 : FVec Ideal S1000 .f32) (a16 : FVec Ideal S1000 .f32) (a17 : FVec Ideal S1000 .f32) (a18 : FVec Ideal S1000 .f32) (v63 v67 : IVec S_ 1)
    (h : fn_part4 (F := Ideal) a6 a12 a14 a15 a16 a17 a18 v63 v67 ix0 = 1#1) :
    (∀ i : S4096.Idx, (0 : EReal) ≤ a6 i) ∧ (∀ i : S4096.Idx, (0 : EReal) ≤ a12 i) ∧ ∀ i : S1000.Idx, (0 : EReal) ≤ a18 i := by
  unfold fn_part4 at h
  dsimp only at h
  exact part5 _ _ _ _ _ _ h

theorem part3 (a6 : FVec Ideal S4096 .f32) (a11 : FVec Ideal S4096 .f32) (a12 : FVec Ideal S4096 .f32) (a13 : FVec Ideal S1000x4096 .f32) (a14 : FVec Ideal S1000 .f32) (a15 : FVec Ideal S1000 .f32) (a16 : FVec Ideal S1000 .f32) (a17 : FVec Ideal S1000 .f32) (a18 : FVec Ideal S1000 .f32) (v48 : IVec S_ 1) (v49 v50 : FVec Ideal S4096 .f32)
    (h : fn_part3 (F := Ideal) a6 a11 a12 a13 a14 a15 a16 a17 a18 v48 v49 v50 ix0 = 1#1) :
    (∀ i : S4096.Idx, (0 : EReal) ≤ a6 i) ∧ (∀ i : S4096.Idx, (0 : EReal) ≤ a12 i) ∧ ∀ i : S1000.Idx, (0 : EReal) ≤ a18 i := by
  unfold fn_part3 at h
  dsimp only at h
  exact part4 _ _ _ _ _ _ _ _ _ h

theorem part2 (a6 : FVec Ideal S4096 .f32) (a7 : FVec Ideal S4096x4096 .f32) (a8 : FVec Ideal S4096 .f32) (a9 : FVec Ideal S4096 .f32) (a10 : FVec Ideal S4096 .f32) (a11 : FVec Ideal S4096 .f32) (a12 : FVec Ideal S4096 .f32) (a13 : FVec Ideal S1000x4096 .f32) (a14 : FVec Ideal S1000 .f32) (a15 : FVec Ideal S1000 .f32) (a16 : FVec Ideal S1000 .f32) (a17 : FVec Ideal S1000 .f32) (a18 : FVec Ideal S1000 .f32) (v33 : IVec S_ 1)
    (h : fn_part2 (F := Ideal) a6 a7 a8 a9 a10 a11 a12 a13 a14 a15 a16 a17 a18 v33 ix0 = 1#1) :
    (∀ i : S4096.Idx, (0 : EReal) ≤ a6 i) ∧ (∀ i : S4096.Idx, (0 : EReal) ≤ a12 i) ∧ ∀ i : S1000.Idx, (0 : EReal) ≤ a18 i := by
  unfold fn_part2 at h
  dsimp only at h
  exact part3 _ _ _ _ _ _ _ _ _ _ _ _ h

theorem part1 (a4 : FVec Ideal S4096 .f32) (a5 : FVec Ideal S4096 .f32) (a6 : FVec Ideal S4096 .f32) (a7 : FVec Ideal S4096x4096 .f32) (a8 : FVec Ideal S4096 .f32) (a9 : FVec Ideal S4096 .f32) (a10 : FVec Ideal S4096 .f32) (a11 : FVec Ideal S4096 .f32) (a12 : FVec Ideal S4096 .f32) (a13 : FVec Ideal S1000x4096 .f32) (a14 : FVec Ideal S1000 .f32) (a15 : FVec Ideal S1000 .f32) (a16 : FVec Ideal S1000 .f32) (a17 : FVec Ideal S1000 .f32) (a18 : FVec Ideal S1000 .f32) (v13 : IVec S_ 1) (v16 : IVec S4096 1)
    (h : fn_part1 (F := Ideal) a4 a5 a6 a7 a8 a9 a10 a11 a12 a13 a14 a15 a16 a17 a18 v13 v16 ix0 = 1#1) :
    (∀ i : S4096.Idx, (0 : EReal) ≤ a6 i) ∧ (∀ i : S4096.Idx, (0 : EReal) ≤ a12 i) ∧ ∀ i : S1000.Idx, (0 : EReal) ≤ a18 i := by
  unfold fn_part1 at h
  dsimp only at h
  exact part2 _ _ _ _ _ _ _ _ _ _ _ _ _ _ h

/-- THE PRECONDITION READ BACK. If the precondition of the nineteen argument arrays is the true bit, then the three
    variance vectors — arguments 6, 12 and 18 — have no negative entry. -/
theorem nonneg_of_fn {a0 : FVec Ideal S8192x4096 .f32} {a1 : FVec Ideal S4096x4096 .f32} {a2 : FVec Ideal S4096 .f32} {a3 : FVec Ideal S4096 .f32} {a4 : FVec Ideal S4096 .f32} {a5 : FVec Ideal S4096 .f32} {a6 : FVec Ideal S4096 .f32} {a7 : FVec Ideal S4096x4096 .f32} {a8 : FVec Ideal S4096 .f32} {a9 : FVec Ideal S4096 .f32} {a10 : FVec Ideal S4096 .f32} {a11 : FVec Ideal S4096 .f32} {a12 : FVec Ideal S4096 .f32} {a13 : FVec Ideal S1000x4096 .f32} {a14 : FVec Ideal S1000 .f32} {a15 : FVec Ideal S1000 .f32} {a16 : FVec Ideal S1000 .f32} {a17 : FVec Ideal S1000 .f32} {a18 : FVec Ideal S1000 .f32}
    (h : fn (F := Ideal) a0 a1 a2 a3 a4 a5 a6 a7 a8 a9 a10 a11 a12 a13 a14 a15 a16 a17 a18 = (fun _ => 1#1)) :
    (∀ j : Fin 4096, (0 : EReal) ≤ a6 (ix1 j)) ∧ (∀ j : Fin 4096, (0 : EReal) ≤ a12 (ix1 j))
      ∧ ∀ j : Fin 1000, (0 : EReal) ≤ a18 (ix1 j) := by
  have e : fn (F := Ideal) a0 a1 a2 a3 a4 a5 a6 a7 a8 a9 a10 a11 a12 a13 a14 a15 a16 a17 a18 ix0 = 1#1 := congrFun h ix0
  unfold fn at e
  dsimp only at e
  obtain ⟨h6, h12, h18⟩ := part1 _ _ _ _ _ _ _ _ _ _ _ _ _ _ _ _ _ e
  exact ⟨fun j => h6 (ix1 j), fun j => h12 (ix1 j), fun j => h18 (ix1 j)⟩

open Idealize.SL.Sem

/-- The same, for the memory the idealized kernel is launched from: on every core the three variance vectors it holds have no negative entry. -/
theorem nonneg_of_pre_kernel (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Fin 4096, (0 : EReal) ≤ m ((c.tc : Thread Cert.KernelIdeal.nD Cert.KernelIdeal.τ).loc Cert.KernelIdeal.main_arg6) (ix1 j))
      ∧ (∀ j : Fin 4096, (0 : EReal) ≤ m ((c.tc : Thread Cert.KernelIdeal.nD Cert.KernelIdeal.τ).loc Cert.KernelIdeal.main_arg12) (ix1 j))
      ∧ ∀ j : Fin 1000, (0 : EReal) ≤ m ((c.tc : Thread Cert.KernelIdeal.nD Cert.KernelIdeal.τ).loc Cert.KernelIdeal.main_arg18) (ix1 j) :=
  nonneg_of_fn (h c)

/-- The same, for the memory the reference is run from. -/
theorem nonneg_of_pre_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ j : Fin 4096, (0 : EReal) ≤ m ((c.tc : Thread Cert.ReferenceIdeal.nD Cert.ReferenceIdeal.τ).loc Cert.ReferenceIdeal.main_arg6) (ix1 j))
      ∧ (∀ j : Fin 4096, (0 : EReal) ≤ m ((c.tc : Thread Cert.ReferenceIdeal.nD Cert.ReferenceIdeal.τ).loc Cert.ReferenceIdeal.main_arg12) (ix1 j))
      ∧ ∀ j : Fin 1000, (0 : EReal) ≤ m ((c.tc : Thread Cert.ReferenceIdeal.nD Cert.ReferenceIdeal.τ).loc Cert.ReferenceIdeal.main_arg18) (ix1 j) :=
  nonneg_of_fn (h c)

end Cert.PreDecode

end
-- ==== Proof.lean ====
/-
  The certificate's five claims assembled.

  The two kernel programs' frames are their three layers' regions run one after the other between the host stretches
  that re-lay the arguments; the reference's frame is its straight line of host operations. The idealization rewrote
  nothing, so there is nothing to preserve. For the value claim both programs are shown to leave, entry by entry, the same
  network of the nineteen argument arrays: three binarised dense layers, each a 4096-term contraction followed by an
  inference-mode batch normalisation, the first two followed by a sign. The kernel multiplies by gain times the
  reciprocal root of variance plus ε where the reference divides by the root; the two agree once the variances are
  non-negative, which the precondition states.
-/
import proofs.«128298_j33311766347902_2_alg».proof.Defs
import proofs.«128298_j33311766347902_2_alg».proof.Proof.Gen.Kernel
import proofs.«128298_j33311766347902_2_alg».proof.Proof.Gen.Kernel.Skeleton
import proofs.«128298_j33311766347902_2_alg».proof.Proof.Gen.Kernel.Launch
import proofs.«128298_j33311766347902_2_alg».proof.Proof.Gen.Kernel.Regions
import proofs.«128298_j33311766347902_2_alg».proof.Proof.Gen.Kernel.Points
import proofs.«128298_j33311766347902_2_alg».proof.Proof.Gen.KernelIdeal
import proofs.«128298_j33311766347902_2_alg».proof.Proof.Gen.KernelIdeal.Skeleton
import proofs.«128298_j33311766347902_2_alg».proof.Proof.Gen.KernelIdeal.Launch
import proofs.«128298_j33311766347902_2_alg».proof.Proof.Gen.KernelIdeal.Regions
import proofs.«128298_j33311766347902_2_alg».proof.Proof.Gen.KernelIdeal.Points
import proofs.«128298_j33311766347902_2_alg».proof.Proof.Gen.ReferenceIdeal
import proofs.«128298_j33311766347902_2_alg».proof.Proof.Gen.Pre_finite_inputs
import proofs.«128298_j33311766347902_2_alg».proof.Proof.KFrame
import proofs.«128298_j33311766347902_2_alg».proof.Proof.KINet
import proofs.«128298_j33311766347902_2_alg».proof.Proof.RefValue
import proofs.«128298_j33311766347902_2_alg».proof.Proof.RefArgs
import proofs.«128298_j33311766347902_2_alg».proof.Proof.PreDecode
import Idealize.ShloMosaic.Adequacy
import Idealize.ShloMosaic.Init

set_option maxRecDepth 16384

noncomputable section

namespace Cert.Proof

open Idealize.ShloMosaic Idealize.ShloMosaic.ValueIdx Idealize.SL.Sem

/-- The two idealized programs, run from memories agreeing on the arguments, both end with the network of the
    arguments in their result buffers. -/
theorem algebraic : Cert.algebraic_KernelIdeal_ReferenceIdeal := by
  intro m ρ m' ρ' hpre hagree
  refine ⟨fun c => Cert.KernelIdeal.Hand.result m c, Cert.KernelIdeal.Hand.run_net m ρ, ?_⟩
  refine (θ_run (Cert.ReferenceIdeal.defs (F := Ideal)) _ _).mono (fun r h c => ?_)
    (Cert.ReferenceIdeal.RefRun.run (F := Ideal) m' ρ')
  obtain ⟨e0, e1, e2, e3, e4, e5, e6, e7, e8, e9, e10, e11, e12, e13, e14, e15, e16, e17, e18⟩ := hagree c
  obtain ⟨k0, k1, k2, k3, k4, k5, k6, k7, k8, k9, k10, k11, k12, k13, k14, k15, k16, k17, k18⟩ := Cert.ReferenceIdeal.RefRun.args_kept (F := Ideal) m' c
  obtain ⟨hv1, hv2, hv3⟩ := Cert.PreDecode.nonneg_of_pre_kernel m hpre c
  refine ⟨(h c _).trans ?_, (h c _).trans k0, (h c _).trans k1, (h c _).trans k2, (h c _).trans k3, (h c _).trans k4, (h c _).trans k5, (h c _).trans k6, (h c _).trans k7, (h c _).trans k8, (h c _).trans k9, (h c _).trans k10, (h c _).trans k11, (h c _).trans k12, (h c _).trans k13, (h c _).trans k14, (h c _).trans k15, (h c _).trans k16, (h c _).trans k17, (h c _).trans k18⟩
  funext idx
  obtain ⟨i, j, rfl⟩ : ∃ (i : Fin 8192) (j : Fin 1000), idx = ix2 i j := ⟨idx 0, idx 1, eq_ix2 idx⟩
  rw [Cert.ReferenceIdeal.RefValue.result_apply m' c (by rw [e6]; exact hv1) (by rw [e12]; exact hv2) (by rw [e18]; exact hv3) i j]
  rw [e0, e1, e2, e3, e4, e5, e6, e7, e8, e9, e10, e11, e12, e13, e14, e15, e16, e17, e18]
  rfl

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.RefRun.frame m ρ,
  trivial,
  algebraic⟩

end Cert.Proof

end
